-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1x2048 : Shape := ⟨2, ![1, 2048]⟩
abbrev S100000x1 : Shape := ⟨2, ![100000, 1]⟩
abbrev S2048x1 : Shape := ⟨2, ![2048, 1]⟩
abbrev S100000 : Shape := ⟨1, ![100000]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S2048x1 : S_.BroadcastsInDim S2048x1 (![] : Fin 0 → Fin S2048x1.rank)
  reducesTo_S2048x1_S_d0_1 : S2048x1.ReducesTo [0, 1] S_
  bcast_S_S100000 : S_.BroadcastsInDim S100000 (![] : Fin 0 → Fin S100000.rank)
  reducesTo_S100000_S_d0 : S100000.ReducesTo [0] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg0 : IVec S1x2048 32) (main_v13 : IVec S_ 1) (main_v16 : IVec S100000 1) : IVec S_ 1 :=
  let main_c_5 : IVec S_ 1 := constantI S_ 1 1#1
  let main_v17 : IVec S_ 1 := (fun x v => Host.reduce IntOp.andi x v reducesTo_S100000_S_d0 h_S_) main_v16 main_c_5
  let main_v18 : IVec S_ 1 := andi main_v13 main_v17
  let main_c_6 : IVec S_ 32 := constantI S_ 32 0#32
  let main_v19 : IVec S1x2048 32 := broadcastInDim S1x2048 ![] bcast_S_S1x2048 main_c_6
  let main_v20 : IVec S1x2048 1 := cmpi .sge main_arg0 main_v19
  let main_c_7 : IVec S_ 32 := constantI S_ 32 99999#32
  let main_v21 : IVec S1x2048 32 := broadcastInDim S1x2048 ![] bcast_S_S1x2048 main_c_7
  let main_v22 : IVec S1x2048 1 := cmpi .sle main_arg0 main_v21
  let main_v23 : IVec S1x2048 1 := andi main_v20 main_v22
  let main_c_8 : IVec S_ 1 := constantI S_ 1 1#1
  let main_v24 : IVec S_ 1 := (fun x v => Host.reduce IntOp.andi x v reducesTo_S1x2048_S_d0_1 h_S_) main_v23 main_c_8
  let main_v25 : IVec S_ 1 := andi main_v18 main_v24
  main_v25

def fn {F : FTy → Type} [FloatOps F] (main_arg0 : IVec S1x2048 32) (main_arg1 : FVec F S100000x1 .f32) (main_arg2 : FVec F S2048x1 .f32) (main_arg3 : FVec F S100000x1 .f32) (main_arg4 : FVec F S100000 .f32) : IVec S_ 1 :=
  let main_v0 : FVec F S100000x1 .f32 := Host.absf main_arg1
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S2048x1 .f32 := Host.absf main_arg2
  let main_cst_0 : FVec F S_ .f32 := constant S_ .f32 0x7F800000#32
  let main_v5 : FVec F S2048x1 .f32 := broadcastInDim S2048x1 ![] bcast_S_S2048x1 main_cst_0
  let main_v6 : IVec S2048x1 1 := cmpf .olt main_v4 main_v5
  let main_c_1 : IVec S_ 1 := constantI S_ 1 1#1
  let main_v7 : IVec S_ 1 := (fun x v => Host.reduce IntOp.andi x v reducesTo_S2048x1_S_d0_1 h_S_) main_v6 main_c_1
  let main_v8 : IVec S_ 1 := andi main_v3 main_v7
  let main_v9 : FVec F S100000x1 .f32 := Host.absf main_arg3
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S100000 .f32 := Host.absf main_arg4
  let main_cst_4 : FVec F S_ .f32 := constant S_ .f32 0x7F800000#32
  let main_v15 : FVec F S100000 .f32 := broadcastInDim S100000 ![] bcast_S_S100000 main_cst_4
  let main_v16 : IVec S100000 1 := cmpf .olt main_v14 main_v15
  fn_part1 (F := F) main_arg0 main_v13 main_v16
-- ==== Kernel.lean ====
abbrev S1x2048 : Shape := ⟨2, ![1, 2048]⟩
abbrev S100000x1 : Shape := ⟨2, ![100000, 1]⟩
abbrev S2048x1 : Shape := ⟨2, ![2048, 1]⟩
abbrev S100000 : Shape := ⟨1, ![100000]⟩
abbrev S2048 : Shape := ⟨1, ![2048]⟩
abbrev S64 : Shape := ⟨1, ![64]⟩
abbrev S_ : Shape := ⟨0, ![]⟩
abbrev S1x100000 : Shape := ⟨2, ![1, 100000]⟩
abbrev S1x100000x2048 : Shape := ⟨3, ![1, 100000, 2048]⟩
abbrev S1024x2048 : Shape := ⟨2, ![1024, 2048]⟩
abbrev S1x1024x2048 : Shape := ⟨3, ![1, 1024, 2048]⟩
abbrev S1x1024 : Shape := ⟨2, ![1, 1024]⟩
abbrev S1024x1 : Shape := ⟨2, ![1024, 1]⟩
abbrev S1024 : Shape := ⟨1, ![1024]⟩
abbrev S1x672 : Shape := ⟨2, ![1, 672]⟩
abbrev S672x1 : Shape := ⟨2, ![672, 1]⟩
abbrev S672 : Shape := ⟨1, ![672]⟩
abbrev S672x2048 : Shape := ⟨2, ![672, 2048]⟩
abbrev S1x672x2048 : Shape := ⟨3, ![1, 672, 2048]⟩
abbrev S1x2048x100000 : Shape := ⟨3, ![1, 2048, 100000]⟩

abbrev nBuf : Table → Nat
  | .hbm => 13
  | .local .tc .vmem => 8
  | .local .scVector .vmem => 2
  | _ => 0

abbrev bufTy : (tb : Table) → Fin (nBuf tb) → BufTy
  | .hbm, ⟨0, _⟩ => ⟨S1x2048, .i32⟩
  | .hbm, ⟨1, _⟩ => ⟨S100000x1, .f32⟩
  | .hbm, ⟨2, _⟩ => ⟨S2048x1, .f32⟩
  | .hbm, ⟨3, _⟩ => ⟨S100000x1, .f32⟩
  | .hbm, ⟨4, _⟩ => ⟨S100000, .f32⟩
  | .hbm, ⟨5, _⟩ => ⟨S2048, .i32⟩
  | .hbm, ⟨6, _⟩ => ⟨S100000, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S1x100000, .f32⟩
  | .hbm, ⟨11, _⟩ => ⟨S1x100000x2048, .f32⟩
  | .hbm, ⟨12, _⟩ => ⟨S1x2048x100000, .f32⟩
  | .local .tc .vmem, ⟨0, _⟩ => ⟨S1x2048, .f32⟩
  | .local .tc .vmem, ⟨1, _⟩ => ⟨S1x2048, .f32⟩
  | .local .tc .vmem, ⟨2, _⟩ => ⟨S1x100000, .f32⟩
  | .local .tc .vmem, ⟨3, _⟩ => ⟨S100000, .f32⟩
  | .local .tc .vmem, ⟨4, _⟩ => ⟨S1024x2048, .f32⟩
  | .local .tc .vmem, ⟨5, _⟩ => ⟨S1024x2048, .f32⟩
  | .local .tc .vmem, ⟨6, _⟩ => ⟨S1024x2048, .f32⟩
  | .local .tc .vmem, ⟨7, _⟩ => ⟨S1024x2048, .f32⟩
  | .local .scVector .vmem, ⟨0, _⟩ => ⟨S64, .i32⟩
  | .local .scVector .vmem, ⟨1, _⟩ => ⟨S64, .f32⟩
  | _, _ => ⟨S1x2048, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v0_scv : Ref sig .scVector := ⟨.hbm, 5, rfl⟩
abbrev main_v1_scv : Ref sig .scVector := ⟨.hbm, 6, rfl⟩
abbrev main_v2_scv : Ref sig .scVector := ⟨.hbm, 7, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_scratch0 : Ref sig .tc := ⟨.vmem, 4, rfl⟩
abbrev cc1_scratch1 : Ref sig .tc := ⟨.vmem, 5, rfl⟩
abbrev cc1_scratch2 : Ref sig .tc := ⟨.vmem, 6, rfl⟩
abbrev cc1_scratch3 : Ref sig .tc := ⟨.vmem, 7, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem2_0 : DmaSem sig := 5
abbrev cc1_sem3_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
abbrev grid1 : Pipeline.Grid := .none

@[reducible] def k1_t1_loop : Scf.Loop 32 :=
  let c0_i32 : BitVec 32 := 0#32
  let c24_i32 : BitVec 32 := 24#32
  let v5 : BitVec 32 := Scalar.addi c0_i32 c24_i32
  let c1_i32 : BitVec 32 := 1#32
  ⟨c0_i32, v5, c1_i32⟩
def k1_mult1 (k1_t1 : Fin k1_t1_loop.trips) : BitVec 32 :=
  let c0_i32 : BitVec 32 := 0#32
  let c1_i32 : BitVec 32 := 1#32
  let arg13 : BitVec 32 := Scf.iv c0_i32 c1_i32 k1_t1
  let c4_i32 : BitVec 32 := 4#32
  let v51 : BitVec 32 := Scalar.muli arg13 c4_i32
  let c0_i32_40 : BitVec 32 := 0#32
  let v52 : BitVec 32 := Scalar.addi v51 c0_i32_40
  let c1024_i32 : BitVec 32 := 1024#32
  let v56 : BitVec 32 := Scalar.muli v52 c1024_i32
  v56
def k1_off1 (k1_t1 : Fin k1_t1_loop.trips) (c0_i32_40 : BitVec 32) : Fin 2 → Nat :=
  let c0_43 : Index := 0#32
  let c0_i32 : BitVec 32 := 0#32
  let c1_i32 : BitVec 32 := 1#32
  let arg13 : BitVec 32 := Scf.iv c0_i32 c1_i32 k1_t1
  let c4_i32 : BitVec 32 := 4#32
  let v51 : BitVec 32 := Scalar.muli arg13 c4_i32
  let v52 : BitVec 32 := Scalar.addi v51 c0_i32_40
  let c1024_i32 : BitVec 32 := 1024#32
  let v56 : BitVec 32 := Scalar.muli v52 c1024_i32
  let v57 : BitVec 32 := v56
  let v58 : Index := Scalar.indexCast v57
  ![0, v58.toNat]
def k1_off2 (k1_t1 : Fin k1_t1_loop.trips) (c0_i32_40 : BitVec 32) : Fin 1 → Nat :=
  let c0_i32 : BitVec 32 := 0#32
  let c1_i32 : BitVec 32 := 1#32
  let arg13 : BitVec 32 := Scf.iv c0_i32 c1_i32 k1_t1
  let c4_i32 : BitVec 32 := 4#32
  let v51 : BitVec 32 := Scalar.muli arg13 c4_i32
  let v52 : BitVec 32 := Scalar.addi v51 c0_i32_40
  let c1024_i32 : BitVec 32 := 1024#32
  let v56 : BitVec 32 := Scalar.muli v52 c1024_i32
  let v57 : BitVec 32 := v56
  let v62 : Index := Scalar.indexCast v57
  ![v62.toNat]
def k1_off3 (k1_t1 : Fin k1_t1_loop.trips) (c0_i32_40 : BitVec 32) : Fin 3 → Nat :=
  let c0_i32_46 : BitVec 32 := 0#32
  let c0_i32 : BitVec 32 := 0#32
  let c1_i32 : BitVec 32 := 1#32
  let arg13 : BitVec 32 := Scf.iv c0_i32 c1_i32 k1_t1
  let c4_i32 : BitVec 32 := 4#32
  let v51 : BitVec 32 := Scalar.muli arg13 c4_i32
  let v52 : BitVec 32 := Scalar.addi v51 c0_i32_40
  let c1024_i32 : BitVec 32 := 1024#32
  let v56 : BitVec 32 := Scalar.muli v52 c1024_i32
  let v57 : BitVec 32 := v56
  let c0_i32_47 : BitVec 32 := 0#32
  ![0, v57.toNat, 0]
def k1_mult2 (k1_t1 : Fin k1_t1_loop.trips) : BitVec 32 :=
  let c0_i32 : BitVec 32 := 0#32
  let c1_i32 : BitVec 32 := 1#32
  let arg13 : BitVec 32 := Scf.iv c0_i32 c1_i32 k1_t1
  let c4_i32_50 : BitVec 32 := 4#32
  let v76 : BitVec 32 := Scalar.muli arg13 c4_i32_50
  let c1_i32_51 : BitVec 32 := 1#32
  let v77 : BitVec 32 := Scalar.addi v76 c1_i32_51
  let c1024_i32_54 : BitVec 32 := 1024#32
  let v81 : BitVec 32 := Scalar.muli v77 c1024_i32_54
  v81
def k1_mult3 (k1_t1 : Fin k1_t1_loop.trips) : BitVec 32 :=
  let c0_i32 : BitVec 32 := 0#32
  let c1_i32 : BitVec 32 := 1#32
  let arg13 : BitVec 32 := Scf.iv c0_i32 c1_i32 k1_t1
  let c4_i32_62 : BitVec 32 := 4#32
  let v101 : BitVec 32 := Scalar.muli arg13 c4_i32_62
  let c2_i32 : BitVec 32 := 2#32
  let v102 : BitVec 32 := Scalar.addi v101 c2_i32
  let c1024_i32_65 : BitVec 32 := 1024#32
  let v106 : BitVec 32 := Scalar.muli v102 c1024_i32_65
  v106
def k1_mult4 (k1_t1 : Fin k1_t1_loop.trips) : BitVec 32 :=
  let c0_i32 : BitVec 32 := 0#32
  let c1_i32 : BitVec 32 := 1#32
  let arg13 : BitVec 32 := Scf.iv c0_i32 c1_i32 k1_t1
  let c4_i32_73 : BitVec 32 := 4#32
  let v126 : BitVec 32 := Scalar.muli arg13 c4_i32_73
  let c3_i32 : BitVec 32 := 3#32
  let v127 : BitVec 32 := Scalar.addi v126 c3_i32
  let c1024_i32_76 : BitVec 32 := 1024#32
  let v131 : BitVec 32 := Scalar.muli v127 c1024_i32_76
  v131
abbrev stage1_0 : Fin 1 → Memref sig .tc .vmem S1x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x100000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S100000 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1x2048_S2048 : S1x2048.ShapeCasts S2048
  shapeCasts_S100000x1_S100000 : S100000x1.ShapeCasts S100000
  inb_S100000_S100000_0 : ∀ a, (![0] : Fin 1 → Nat) a + S100000.size a ≤ S100000.size a
  gathers_S100000_S64 : S100000.Gathers 0 S64
  shapeCasts_S2048_S1x2048 : S2048.ShapeCasts S1x2048
  shapeCasts_S2048x1_S1x2048 : S2048x1.ShapeCasts S1x2048
  shapeCasts_S100000x1_S1x100000 : S100000x1.ShapeCasts S1x100000
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x100000x2048_S1x1024x2048_0_0_0 : ∀ a, (![0, 0, 0] : Fin 3 → Nat) a + S1x1024x2048.size a ≤ S1x100000x2048.size a
  squeezes_S1x1024x2048_S1024x2048 : S1x1024x2048.Squeezes S1024x2048
  h_S1x1024 : 0 < S1x1024.numel
  shapeCasts_S1x1024_S1x1024 : S1x1024.ShapeCasts S1x1024
  shapeCasts_S1x1024_S1024x1 : S1x1024.ShapeCasts S1024x1
  h_S1024 : 0 < S1024.numel
  shapeCasts_S1024_S1024x1 : S1024.ShapeCasts S1024x1
  broadcasts_S1024x1_S1024x2048 : S1024x1.Broadcasts S1024x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x100000_S1x1024_0_98304 : ∀ a, (![0, 98304] : Fin 2 → Nat) a + S1x1024.size a ≤ S1x100000.size a
  inb_S100000_S1024_98304 : ∀ a, (![98304] : Fin 1 → Nat) a + S1024.size a ≤ S100000.size a
  inb_S1x100000x2048_S1x1024x2048_0_98304_0 : ∀ a, (![0, 98304, 0] : Fin 3 → Nat) a + S1x1024x2048.size a ≤ S1x100000x2048.size a
  inb_S1x100000_S1x672_0_99328 : ∀ a, (![0, 99328] : Fin 2 → Nat) a + S1x672.size a ≤ S1x100000.size a
  h_S1x672 : 0 < S1x672.numel
  shapeCasts_S1x672_S1x672 : S1x672.ShapeCasts S1x672
  shapeCasts_S1x672_S672x1 : S1x672.ShapeCasts S672x1
  inb_S100000_S672_99328 : ∀ a, (![99328] : Fin 1 → Nat) a + S672.size a ≤ S100000.size a
  h_S672 : 0 < S672.numel
  shapeCasts_S672_S672x1 : S672.ShapeCasts S672x1
  broadcasts_S672x1_S672x2048 : S672x1.Broadcasts S672x2048
  broadcasts_S1x2048_S672x2048 : S1x2048.Broadcasts S672x2048
  inb_S1024x2048_S672x2048_0_0 : ∀ a, (![0, 0] : Fin 2 → Nat) a + S672x2048.size a ≤ S1024x2048.size a
  h_S672x2048 : 0 < S672x2048.numel
  shapeCasts_S672x2048_S672x2048 : S672x2048.ShapeCasts S672x2048
  inb_S1x100000x2048_S1x672x2048_0_99328_0 : ∀ a, (![0, 99328, 0] : Fin 3 → Nat) a + S1x672x2048.size a ≤ S1x100000x2048.size a
  squeezes_S1x672x2048_S672x2048 : S1x672x2048.Squeezes S672x2048
  inb_S1x100000x2048_S1x672x2048_0_0_0 : ∀ a, (![0, 0, 0] : Fin 3 → Nat) a + S1x672x2048.size a ≤ S1x100000x2048.size a
  transposes_S1x100000x2048_S1x2048x100000_0_2_1 : S1x100000x2048.Transposes [0, 2, 1] S1x2048x100000
  hcc0_scratch2 : 0 + S_.numel ≤ 11
  hcc0_scoped0 : 1 + S_.numel ≤ 11
  hcc0_scoped1 : 2 + S_.numel ≤ 11
  hcc1_scratch4 : 7 + S_.numel ≤ 11
  hcc1_scratch5 : 8 + S_.numel ≤ 11
  hcc1_scratch6 : 9 + S_.numel ≤ 11
  hcc1_scratch7 : 10 + S_.numel ≤ 11
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S64.size a ≤ S2048.size a
  k1_t1_ok : k1_t1_loop.OK
  k1_mult1_dvd : ∀ k1_t1 : Fin k1_t1_loop.trips, 1024 ∣ (k1_mult1 k1_t1).toNat
  k1_off1_inb : ∀ k1_t1 : Fin k1_t1_loop.trips, ∀ (r : Fin 4), ∀ a, (k1_off1 k1_t1 (BitVec.ofNat 32 r.val)) a + S1x1024.size a ≤ S1x100000.size a
  k1_off2_inb : ∀ k1_t1 : Fin k1_t1_loop.trips, ∀ (r : Fin 4), ∀ a, (k1_off2 k1_t1 (BitVec.ofNat 32 r.val)) a + S1024.size a ≤ S100000.size a
  k1_off3_inb : ∀ k1_t1 : Fin k1_t1_loop.trips, ∀ (r : Fin 4), ∀ a, (k1_off3 k1_t1 (BitVec.ofNat 32 r.val)) a + S1x1024x2048.size a ≤ S1x100000x2048.size a
  k1_mult2_dvd : ∀ k1_t1 : Fin k1_t1_loop.trips, 1024 ∣ (k1_mult2 k1_t1).toNat
  k1_mult3_dvd : ∀ k1_t1 : Fin k1_t1_loop.trips, 1024 ∣ (k1_mult3 k1_t1).toNat
  k1_mult4_dvd : ∀ k1_t1 : Fin k1_t1_loop.trips, 1024 ∣ (k1_mult4 k1_t1).toNat
  hstage1_0 : ∀ j, (stage1_0 j).IsWhole
  hstage1_1 : ∀ j, (stage1_1 j).IsWhole
  hstage1_2 : ∀ j, (stage1_2 j).IsWhole
  hstage1_3 : ∀ j, (stage1_3 j).IsWhole

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1
abbrev cc1_scratch4 : DmaSems sig S_ := SemArray.consecutive 7 S_ hcc1_scratch4
abbrev cc1_scratch5 : DmaSems sig S_ := SemArray.consecutive 8 S_ hcc1_scratch5
abbrev cc1_scratch6 : DmaSems sig S_ := SemArray.consecutive 9 S_ hcc1_scratch6
abbrev cc1_scratch7 : DmaSems sig S_ := SemArray.consecutive 10 S_ hcc1_scratch7

abbrev win1_0 : Pipeline.Window sig grid1 :=
  Pipeline.Window.whole (Memref.whole main_v3) false false (stage1_0 0) (sem1_0 0) (Memref.isWhole_whole _) (hstage1_0 0)

abbrev win1_1 : Pipeline.Window sig grid1 :=
  Pipeline.Window.whole (Memref.whole main_v4) false false (stage1_1 0) (sem1_1 0) (Memref.isWhole_whole _) (hstage1_1 0)

abbrev win1_2 : Pipeline.Window sig grid1 :=
  Pipeline.Window.whole (Memref.whole main_v5) false false (stage1_2 0) (sem1_2 0) (Memref.isWhole_whole _) (hstage1_2 0)

abbrev win1_3 : Pipeline.Window sig grid1 :=
  Pipeline.Window.whole (Memref.whole main_arg4) false false (stage1_3 0) (sem1_3 0) (Memref.isWhole_whole _) (hstage1_3 0)

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1x2048 : Shape := ⟨2, ![1, 2048]⟩
abbrev S100000x1 : Shape := ⟨2, ![100000, 1]⟩
abbrev S2048x1 : Shape := ⟨2, ![2048, 1]⟩
abbrev S100000 : Shape := ⟨1, ![100000]⟩
abbrev S_ : Shape := ⟨0, ![]⟩
abbrev S1x2048x1 : Shape := ⟨3, ![1, 2048, 1]⟩
abbrev S1 : Shape := ⟨1, ![1]⟩
abbrev S1x1x1 : Shape := ⟨3, ![1, 1, 1]⟩
abbrev S1x2048x100000 : Shape := ⟨3, ![1, 2048, 100000]⟩
abbrev S1x1x100000 : Shape := ⟨3, ![1, 1, 100000]⟩

abbrev nBuf : Space → Nat
  | .hbm => 34
  | .vmem => 0
  | .smem => 0
  | _ => 0

abbrev bufTy : (tb : Table) → Fin (tcTables nBuf tb) → BufTy
  | .hbm, ⟨0, _⟩ => ⟨S1x2048, .i32⟩
  | .hbm, ⟨1, _⟩ => ⟨S100000x1, .f32⟩
  | .hbm, ⟨2, _⟩ => ⟨S2048x1, .f32⟩
  | .hbm, ⟨3, _⟩ => ⟨S100000x1, .f32⟩
  | .hbm, ⟨4, _⟩ => ⟨S100000, .f32⟩
  | .hbm, ⟨5, _⟩ => ⟨S_, .i32⟩
  | .hbm, ⟨6, _⟩ => ⟨S1x2048, .i32⟩
  | .hbm, ⟨7, _⟩ => ⟨S1x2048, .i1⟩
  | .hbm, ⟨8, _⟩ => ⟨S_, .i32⟩
  | .hbm, ⟨9, _⟩ => ⟨S1x2048, .i32⟩
  | .hbm, ⟨10, _⟩ => ⟨S1x2048, .i32⟩
  | .hbm, ⟨11, _⟩ => ⟨S1x2048, .i32⟩
  | .hbm, ⟨12, _⟩ => ⟨S1x2048x1, .i32⟩
  | .hbm, ⟨13, _⟩ => ⟨S1, .i32⟩
  | .hbm, ⟨14, _⟩ => ⟨S_, .i32⟩
  | .hbm, ⟨15, _⟩ => ⟨S1x2048x1, .i32⟩
  | .hbm, ⟨16, _⟩ => ⟨S1x2048x1, .i1⟩
  | .hbm, ⟨17, _⟩ => ⟨S1x1x1, .i32⟩
  | .hbm, ⟨18, _⟩ => ⟨S1x2048x1, .i32⟩
  | .hbm, ⟨19, _⟩ => ⟨S1x2048x1, .i1⟩
  | .hbm, ⟨20, _⟩ => ⟨S1x2048x1, .i1⟩
  | .hbm, ⟨21, _⟩ => ⟨S_, .i1⟩
  | .hbm, ⟨22, _⟩ => ⟨S1x2048, .i1⟩
  | .hbm, ⟨23, _⟩ => ⟨S1x2048x1, .f32⟩
  | .hbm, ⟨24, _⟩ => ⟨S1x2048x1, .i1⟩
  | .hbm, ⟨25, _⟩ => ⟨S_, .f32⟩
  | .hbm, ⟨26, _⟩ => ⟨S1x2048x1, .f32⟩
  | .hbm, ⟨27, _⟩ => ⟨S1x2048x1, .f32⟩
  | .hbm, ⟨28, _⟩ => ⟨S1x2048x1, .f32⟩
  | .hbm, ⟨29, _⟩ => ⟨S1x2048x1, .f32⟩
  | .hbm, ⟨30, _⟩ => ⟨S1x2048x100000, .f32⟩
  | .hbm, ⟨31, _⟩ => ⟨S1x1x100000, .f32⟩
  | .hbm, ⟨32, _⟩ => ⟨S1x2048x100000, .f32⟩
  | .hbm, ⟨33, _⟩ => ⟨S1x2048x100000, .f32⟩
  | _, _ => ⟨S1x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩

abbrev nD : Nat := 1
abbrev τ : Topo := Topo.v7x

variable {F : FTy → Type} [FloatOps F]

class Facts₀ : Prop where
  bcast_S_S1x2048 : S_.BroadcastsInDim S1x2048 (![] : Fin 0 → Fin S1x2048.rank)
  bcast_S1x2048_S1x2048x1_0_1 : S1x2048.BroadcastsInDim S1x2048x1 (![0, 1] : Fin 2 → Fin S1x2048x1.rank)
  bcast_S_S1x2048x1 : S_.BroadcastsInDim S1x2048x1 (![] : Fin 0 → Fin S1x2048x1.rank)
  bcast_S1_S1x1x1_2 : S1.BroadcastsInDim S1x1x1 (![2] : Fin 1 → Fin S1x1x1.rank)
  bcast_S1x1x1_S1x2048x1_0_1_2 : S1x1x1.BroadcastsInDim S1x2048x1 (![0, 1, 2] : Fin 3 → Fin S1x2048x1.rank)
  reducesTo_S1x2048x1_S1x2048_d2 : S1x2048x1.ReducesTo [2] S1x2048
  h_S_ : 0 < S_.numel
  bcast_S2048x1_S1x2048x1_1_2 : S2048x1.BroadcastsInDim S1x2048x1 (![1, 2] : Fin 2 → Fin S1x2048x1.rank)
  bcast_S100000_S1x1x100000_2 : S100000.BroadcastsInDim S1x1x100000 (![2] : Fin 1 → Fin S1x1x100000.rank)
  bcast_S1x1x100000_S1x2048x100000_0_1_2 : S1x1x100000.BroadcastsInDim S1x2048x100000 (![0, 1, 2] : Fin 3 → Fin S1x2048x100000.rank)
  gather_S100000x1_S1x2048x1_S1x2048x1_2_0_n_n_0_2_11_wf : GatherDims.WF S100000x1 S1x2048x1 S1x2048x1 [2] [0] [] [0] [] 2 ![1, 1]
  dot_S1x2048x1_S100000x1_S1x2048x100000_2_1_01_0_n_n_wf : DotDims.WF S1x2048x1 S100000x1 S1x2048x100000 [2] [1] [0, 1] [0] [] []

variable [Facts₀]

def gather_S100000x1_S1x2048x1_S1x2048x1_2_0_n_n_0_2_11 : GatherDims S100000x1 S1x2048x1 S1x2048x1 where
  offsetDims := [2]
  collapsedSliceDims := [0]
  operandBatchingDims := []
  startIndicesBatchingDims := []
  startIndexMap := [0]
  indexVectorDim := 2
  sliceSizes := ![1, 1]
  wf := gather_S100000x1_S1x2048x1_S1x2048x1_2_0_n_n_0_2_11_wf
def dot_S1x2048x1_S100000x1_S1x2048x100000_2_1_01_0_n_n : DotDims S1x2048x1 S100000x1 S1x2048x100000 where
  lhsContracting := [2]
  rhsContracting := [1]
  lhsNonContracting := [0, 1]
  rhsNonContracting := [0]
  lhsBatch := []
  rhsBatch := []
  wf := dot_S1x2048x1_S100000x1_S1x2048x100000_2_1_01_0_n_n_wf

class Facts : Prop extends Facts₀ where

variable [Facts]
-- ==== Proof.Spec.lean ====
/-
  The function both programs compute, stated once over the argument arrays and read at one entry.
  For a position `t` and a vocabulary row `v`:
      logits[0, t, v] = (tok[idx[t]] + pos[t]) · W[v] + b[v]
  on the extended reals: the token's embedding (a table of width one, looked up at the token's
  index) plus the position's, times the output projection's weight for row `v` (an inner product
  over an axis of extent one, so a single product), plus that row's bias.
  The token index is a 32-bit word; `row` reads it as a natural number and reduces it below the
  table's height, which changes nothing where the index lies in `[0, 100000)` — the only case
  the two programs are compared in.
-/
import Idealize.ShloMosaic.PureOps.Ideal
import Idealize.ShloMosaic.Lib.ValueIdx

noncomputable section

namespace Cert.Spec

open Idealize.ShloMosaic Idealize.ShloMosaic.ValueIdx

/-- The table row the token at position `t` names. -/
def row (idx : IVec ⟨2, ![1, 2048]⟩ 32) (t : Fin 2048) : Fin 100000 :=
  ⟨(idx (ix2 0 t)).toNat % 100000, Nat.mod_lt _ (by norm_num)⟩

/-- Where the index is below the table's height, `row` is the index itself. -/
theorem row_val (idx : IVec ⟨2, ![1, 2048]⟩ 32) (t : Fin 2048) (h : (idx (ix2 0 t)).toNat < 100000) :
    (row idx t).val = (idx (ix2 0 t)).toNat := Nat.mod_eq_of_lt h

/-- The embedded token plus its position's embedding: the vector the projection is applied to. -/
def hidden (idx : IVec ⟨2, ![1, 2048]⟩ 32) (tok : FVec Ideal ⟨2, ![100000, 1]⟩ .f32)
    (pos : FVec Ideal ⟨2, ![2048, 1]⟩ .f32) (t : Fin 2048) : EReal :=
  tok (ix2 (row idx t) 0) + pos (ix2 t 0)

/-- One logit. -/
def entry (idx : IVec ⟨2, ![1, 2048]⟩ 32) (tok : FVec Ideal ⟨2, ![100000, 1]⟩ .f32)
    (pos : FVec Ideal ⟨2, ![2048, 1]⟩ .f32) (W : FVec Ideal ⟨2, ![100000, 1]⟩ .f32)
    (b : FVec Ideal ⟨1, ![100000]⟩ .f32) (t : Fin 2048) (v : Fin 100000) : EReal :=
  hidden idx tok pos t * W (ix2 v 0) + b (ix1 v)

/-- The whole result array. -/
def logits (idx : IVec ⟨2, ![1, 2048]⟩ 32) (tok : FVec Ideal ⟨2, ![100000, 1]⟩ .f32)
    (pos : FVec Ideal ⟨2, ![2048, 1]⟩ .f32) (W : FVec Ideal ⟨2, ![100000, 1]⟩ .f32)
    (b : FVec Ideal ⟨1, ![100000]⟩ .f32) : FVec Ideal ⟨3, ![1, 2048, 100000]⟩ .f32 :=
  fun i => entry idx tok pos W b (i 1) (i 2)

theorem logits_apply (idx : IVec ⟨2, ![1, 2048]⟩ 32) (tok : FVec Ideal ⟨2, ![100000, 1]⟩ .f32)
    (pos : FVec Ideal ⟨2, ![2048, 1]⟩ .f32) (W : FVec Ideal ⟨2, ![100000, 1]⟩ .f32)
    (b : FVec Ideal ⟨1, ![100000]⟩ .f32) (a : Fin 1) (t : Fin 2048) (v : Fin 100000) :
    logits idx tok pos W b (ix3 a t v) = entry idx tok pos W b t v := rfl

end Cert.Spec

end
-- ==== Proof.PreIdx.lean ====
/-
  The index range the precondition grants, read back at one position.
  The precondition is a one-bit scalar: the conjunction of "every float input is finite" with
  "every token index lies in [0, 99999]", the latter an AND over all positions of two signed
  comparisons. Where that scalar is 1, each conjunct is 1; an AND over all positions that is 1
  is 1 at every position; and a 32-bit word that is between 0 and 99999 read signed is below
  100000 read unsigned.
-/
import proofs.«217057_g30459908063406_cont_9to1_2067_16_alg».proof.Pre_input_domain
import Idealize.ShloMosaic.Lib.ReduceAll
import Idealize.ShloMosaic.Lib.ValueIdx

namespace Cert.PreIdx

open Idealize.ShloMosaic Idealize.ShloMosaic.ValueIdx Cert.Pre_input_domain

/-- The scalar shape has one index. -/
instance subsingleton_scalar_idx : Subsingleton S_.Idx := ⟨fun a b => funext fun d => d.elim0⟩

/-- A 32-bit word that lies in [0, 99999] read signed is below 100000 read unsigned. -/
theorem toNat_lt_of_signed_range (w : BitVec 32) (h0 : (0#32 : BitVec 32).toInt ≤ w.toInt)
    (h1 : w.toInt ≤ (99999#32 : BitVec 32).toInt) : w.toNat < 100000 := by
  have e0 : (0#32 : BitVec 32).toInt = 0 := by decide
  have e1 : (99999#32 : BitVec 32).toInt = 99999 := by decide
  rw [e0] at h0
  rw [e1] at h1
  have hlt := w.isLt
  rw [BitVec.toInt_eq_toNat_cond] at h0 h1
  split at h1 <;> omega

/-- Under the precondition every token index, read unsigned, is below the table's height. -/
theorem idx_lt {F : FTy → Type} [FloatOps F] [Cert.Pre_input_domain.Facts]
    (idx : IVec Cert.Pre_input_domain.S1x2048 32) (tok : FVec F Cert.Pre_input_domain.S100000x1 .f32) (pos : FVec F Cert.Pre_input_domain.S2048x1 .f32) (W : FVec F Cert.Pre_input_domain.S100000x1 .f32) (b : FVec F Cert.Pre_input_domain.S100000 .f32)
    (h : Cert.Pre_input_domain.fn (F := F) idx tok pos W b = fun _ => 1#1) (t : Fin 2048) :
    (idx (Idealize.ShloMosaic.ValueIdx.ix2 0 t)).toNat < 100000 := by
  have e := congrFun h ix0
  dsimp only [fn, fn_part1] at e
  -- the scalar is a conjunction; its last conjunct is the AND over all positions of the range test
  change IntOp.andi _ _ = 1#1 at e
  have eall := (IntOp.andi_eq_one.1 e).2
  -- an AND over all positions that is 1 is 1 at position t
  have et := Host.reduce_andi_all _ _ _ _ _ eall (ix2 0 t)
  -- there it is the conjunction of the two signed comparisons of the index with 0 and with 99999
  change IntOp.andi (IntOp.cmpi .sge (idx (ix2 0 t)) (0#32)) (IntOp.cmpi .sle (idx (ix2 0 t)) (99999#32)) = 1#1 at et
  obtain ⟨hge, hle⟩ := IntOp.andi_eq_one.1 et
  exact toNat_lt_of_signed_range _ (IntOp.cmpi_sge.1 hge) (IntOp.cmpi_sle.1 hle)

end Cert.PreIdx
-- ==== Proof.RefRun.lean ====
/-
  The reference program's run, read back by hand.
  Its @main calls the program's helper function for a table lookup with out-of-range indices
  filled (a negative index wraps once by the table's height; the lookup gathers the row the
  index names; positions whose index falls outside the table are filled with a fixed pattern),
  then adds the position embedding, contracts the axis of extent one against the projection
  weights, and adds the bias. Unfolded at its calls, @main is a straight line of twenty-nine
  operations, each writing a buffer of its own. Every weakly fair execution of such a line
  terminates, each result buffer holding the operations' composed term of the argument arrays
  and the arguments unchanged. The term is named here, piece by piece, so that it can be read
  at an index elsewhere.
-/
import proofs.«217057_g30459908063406_cont_9to1_2067_16_alg».proof.Proof.Gen.ReferenceIdeal
import Idealize.ShloMosaic.Lib.StableHlo.Run
import Idealize.ShloMosaic.PureOps.Ideal

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

/-! ## The composed term, piece by piece -/

/-- The index with a negative value wrapped once by the table's height. -/
def wrapped (idx : IVec S1x2048 32) : IVec S1x2048 32 :=
  select (cmpi .slt idx (broadcastInDim S1x2048 ![] bcast_S_S1x2048 (constantI S_ 32 0#32)))
    (addi idx (broadcastInDim S1x2048 ![] bcast_S_S1x2048 (constantI S_ 32 100000#32))) idx

/-- The wrapped index as the gather's array of start indices: a trailing axis of extent one. -/
def starts (idx : IVec S1x2048 32) : IVec S1x2048x1 32 :=
  broadcastInDim S1x2048x1 ![0, 1] bcast_S1x2048_S1x2048x1_0_1 (wrapped idx)

/-- Per position, whether the wrapped index lies inside the table: both signed comparisons,
    reduced by AND over the trailing axis. -/
def inRange (idx : IVec S1x2048 32) : IVec S1x2048 1 :=
  Host.reduce IntOp.andi
    (andi (cmpi .sge (starts idx) (broadcastInDim S1x2048x1 ![] bcast_S_S1x2048x1 (constantI S_ 32 0#32)))
      (cmpi .sle (starts idx) (broadcastInDim S1x2048x1 ![0, 1, 2] bcast_S1x1x1_S1x2048x1_0_1_2
        (broadcastInDim S1x1x1 ![2] bcast_S1_S1x1x1_2 (constantI S1 32 99999#32)))))
    (constantI S_ 1 1#1) reducesTo_S1x2048x1_S1x2048_d2 h_S_

/-- The looked-up embedding: the gathered row where the index is inside the table, the fill
    pattern elsewhere. -/
def taken {F : FTy → Type} [FloatOps F] (idx : IVec S1x2048 32) (tok : FVec F S100000x1 .f32) : FVec F S1x2048x1 .f32 :=
  select (broadcastInDim S1x2048x1 ![0, 1] bcast_S1x2048_S1x2048x1_0_1 (inRange idx))
    (Host.gather gather_S100000x1_S1x2048x1_S1x2048x1_2_0_n_n_0_2_11 tok (starts idx))
    (broadcastInDim S1x2048x1 ![] bcast_S_S1x2048x1 (constant S_ .f32 0x7FC00000#32))

/-- The vector the projection is applied to: token embedding plus position embedding. -/
def summed {F : FTy → Type} [FloatOps F] (idx : IVec S1x2048 32) (tok : FVec F S100000x1 .f32) (pos : FVec F S2048x1 .f32) :
    FVec F S1x2048x1 .f32 :=
  addf (taken idx tok) (broadcastInDim S1x2048x1 ![1, 2] bcast_S2048x1_S1x2048x1_1_2 pos)

/-- The result array as the operations compose it, for any float values. -/
def resOf {F : FTy → Type} [FloatOps F] (idx : IVec S1x2048 32) (tok : FVec F S100000x1 .f32) (pos : FVec F S2048x1 .f32)
    (W : FVec F S100000x1 .f32) (b : FVec F S100000 .f32) : FVec F S1x2048x100000 .f32 :=
  addf (Host.dotGeneral dot_S1x2048x1_S100000x1_S1x2048x100000_2_1_01_0_n_n none (summed idx tok pos) W)
    (broadcastInDim S1x2048x100000 ![0, 1, 2] bcast_S1x1x100000_S1x2048x100000_0_1_2
      (broadcastInDim S1x1x100000 ![2] bcast_S100000_S1x1x100000_2 b))

/-- The result array on the extended reals. -/
def res (idx : IVec S1x2048 32) (tok : FVec Ideal S100000x1 .f32) (pos : FVec Ideal S2048x1 .f32)
    (W : FVec Ideal S100000x1 .f32) (b : FVec Ideal S100000 .f32) : FVec Ideal S1x2048x100000 .f32 :=
  resOf idx tok pos W b

/-! ## @main as a straight line -/

variable {F : FTy → Type} [FloatOps F]

/-- @main's twenty-nine operations, in order, the two calls unfolded: the lookup helper's twenty-three (the
    select of its own helper the seventh) into the buffers of its call record, then @main's own six. -/
abbrev ops : List (HloOp τ sig (Elt F)) :=
  [ TRef.nullary main_call0.c (constantI S_ 32 0#32),
    TRef.unary main_call0.c main_call0.v0 (broadcastInDim S1x2048 ![] bcast_S_S1x2048),
    TRef.binary (.of main_arg0) main_call0.v0 main_call0.v1 (cmpi .slt),
    TRef.nullary main_call0.c_0 (constantI S_ 32 100000#32),
    TRef.unary main_call0.c_0 main_call0.v2 (broadcastInDim S1x2048 ![] bcast_S_S1x2048),
    TRef.binary (.of main_arg0) main_call0.v2 main_call0.v3 addi,
    TRef.ternary main_call0.v1 main_call0.v3 (.of main_arg0) main_call0.call0.v0 select,
    TRef.unary main_call0.call0.v0 main_call0.v5 (broadcastInDim S1x2048x1 ![0, 1] bcast_S1x2048_S1x2048x1_0_1),
    TRef.nullary main_call0.c_1 (constantI S1 32 99999#32),
    TRef.nullary main_call0.c_2 (constantI S_ 32 0#32),
    TRef.unary main_call0.c_2 main_call0.v6 (broadcastInDim S1x2048x1 ![] bcast_S_S1x2048x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1x2048x1 ![0, 1, 2] bcast_S1x1x1_S1x2048x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1x2048x1_S1x2048_d2 h_S_),
    TRef.binary (.of main_arg1) main_call0.v5 main_call0.v13 (fun x i => Host.gather gather_S100000x1_S1x2048x1_S1x2048x1_2_0_n_n_0_2_11 x i),
    TRef.unary main_call0.v12 main_call0.v14 (broadcastInDim S1x2048x1 ![0, 1] bcast_S1x2048_S1x2048x1_0_1),
    TRef.nullary main_call0.cst (constant S_ .f32 0x7FC00000#32),
    TRef.unary main_call0.cst main_call0.v15 (broadcastInDim S1x2048x1 ![] bcast_S_S1x2048x1),
    TRef.ternary main_call0.v14 main_call0.v13 main_call0.v15 main_call0.v16 select,
    unary main_arg2 main_v1 (broadcastInDim S1x2048x1 ![1, 2] bcast_S2048x1_S1x2048x1_1_2 : (⟨S2048x1, .f32⟩ : BufTy).Contents (Elt F) → (⟨S1x2048x1, .f32⟩ : BufTy).Contents (Elt F)),
    binary main_v0 main_v1 main_v2 (addf : (⟨S1x2048x1, .f32⟩ : BufTy).Contents (Elt F) → (⟨S1x2048x1, .f32⟩ : BufTy).Contents (Elt F) → (⟨S1x2048x1, .f32⟩ : BufTy).Contents (Elt F)),
    binary main_v2 main_arg3 main_v3 ((fun l r => Host.dotGeneral dot_S1x2048x1_S100000x1_S1x2048x100000_2_1_01_0_n_n none l r) : (⟨S1x2048x1, .f32⟩ : BufTy).Contents (Elt F) → (⟨S100000x1, .f32⟩ : BufTy).Contents (Elt F) → (⟨S1x2048x100000, .f32⟩ : BufTy).Contents (Elt F)),
    unary main_arg4 main_v4 (broadcastInDim S1x1x100000 ![2] bcast_S100000_S1x1x100000_2 : (⟨S100000, .f32⟩ : BufTy).Contents (Elt F) → (⟨S1x1x100000, .f32⟩ : BufTy).Contents (Elt F)),
    unary main_v4 main_v5 (broadcastInDim S1x2048x100000 ![0, 1, 2] bcast_S1x1x100000_S1x2048x100000_0_1_2 : (⟨S1x1x100000, .f32⟩ : BufTy).Contents (Elt F) → (⟨S1x2048x100000, .f32⟩ : BufTy).Contents (Elt F)),
    binary main_v3 main_v5 main_v6 (addf : (⟨S1x2048x100000, .f32⟩ : BufTy).Contents (Elt F) → (⟨S1x2048x100000, .f32⟩ : BufTy).Contents (Elt F) → (⟨S1x2048x100000, .f32⟩ : BufTy).Contents (Elt F)) ]

set_option maxRecDepth 1024 in
/-- @main is that straight line: the helpers' definitions unfolded at their calls, both sides are one chain of
    operation steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., binary_bufs_sub .., binary_bufs_sub .., unary_bufs_sub .., unary_bufs_sub .., binary_bufs_sub ..⟩

/-- The fold of the line over any contents: every buffer of the device after the operations. -/
theorem run_after (m : (ℓ : Loc nD τ sig) → Buf (Elt F) ℓ) (g : Dev nD → PrngReg) :
    θ_run (defs (F := F)) (onTc (τ := τ) (main (F := F))) ⟨m, fun _ => 0, g⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m g

/-! ## What the line leaves in the result and in the arguments -/

attribute [local irreducible] Host.reduce Host.gather in
set_option maxRecDepth 8192 in
/-- After the line, from any contents, the result buffer holds the composed term of the five argument arrays:
    each operation's result read at its own buffer is its function of its operands' contents. -/
theorem out_eq (V : Valuation τ sig (Elt F)) :
    after ops V (main_v6 : DevRef τ sig)
      = resOf (V (main_arg0 : DevRef τ sig)) (V (main_arg1 : DevRef τ sig)) (V (main_arg2 : DevRef τ sig))
          (V (main_arg3 : DevRef τ sig)) (V (main_arg4 : DevRef τ sig)) := by
  after_results_simp
  rfl

/-- No operation of the line writes an argument's buffer. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp

/-- On every device, on the extended reals, from any memory with zero counters: every weakly fair execution of
    @main terminates with the result buffer at the composed term of the arguments and the arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v6) = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v6).trans (out_eq _), (h c main_arg0).trans (arg0_eq _),
      (h c main_arg1).trans (arg1_eq _), (h c main_arg2).trans (arg2_eq _), (h c main_arg3).trans (arg3_eq _),
      (h c main_arg4).trans (arg4_eq _)⟩)
    (run_after m g)

end Cert.ReferenceIdeal.RefRun

end
-- ==== Proof.RefValue.lean ====
/-
  The reference's result, read at one entry, is the specified logit.
  Under the hypothesis that every token index, read unsigned, is below the table's height:
  the index is not negative read signed, so the wrap leaves it unchanged; it passes both range
  tests, so the AND over the trailing axis of extent one is 1 and the lookup returns the gathered
  entry, never the fill pattern; the gather reads the table at the start index read signed and
  clamped, and both the sign and the clamp are the identity below the height; the contraction is
  over an axis of extent one, so its sum is a single product; and the broadcasts re-index. What is
  left is (tok[idx[t]] + pos[t]) * W[v] + b[v].
-/
import proofs.«217057_g30459908063406_cont_9to1_2067_16_alg».proof.Proof.RefRun
import proofs.«217057_g30459908063406_cont_9to1_2067_16_alg».proof.Proof.Spec
import Idealize.ShloMosaic.Lib.ValueIdx
import Idealize.ShloMosaic.PureOps.Ideal.Laws

noncomputable section

open scoped BigOperators

namespace Cert.ReferenceIdeal.RefValue

open Cert.ReferenceIdeal Idealize.ShloMosaic Idealize.ShloMosaic.ValueIdx Idealize.ShloMosaic.TcCoe Idealize.SL.Sem
open Cert.ReferenceIdeal.Facts₀

/-! ## Words: an index below the table's height -/

/-- A 32-bit word below 100000 read unsigned reads the same signed. -/
theorem toInt_of_lt (w : BitVec 32) (h : w.toNat < 100000) : w.toInt = (w.toNat : Int) :=
  BitVec.toInt_eq_toNat_of_lt (by omega)

theorem toInt_zero : (0#32 : BitVec 32).toInt = 0 := by decide
theorem toInt_max : (99999#32 : BitVec 32).toInt = 99999 := by decide

/-- Such a word is not negative … -/
theorem slt_zero (w : BitVec 32) (h : w.toNat < 100000) : IntOp.cmpi .slt w (0#32) = 0#1 :=
  eq_zero_of_ne_one fun e => by
    rw [IntOp.cmpi_slt, toInt_of_lt w h, toInt_zero] at e
    omega
/-- … is at least 0 … -/
theorem sge_zero (w : BitVec 32) (h : w.toNat < 100000) : IntOp.cmpi .sge w (0#32) = 1#1 :=
  IntOp.cmpi_sge.2 (by rw [toInt_of_lt w h, toInt_zero]; omega)
/-- … and is at most 99999. -/
theorem sle_max (w : BitVec 32) (h : w.toNat < 100000) : IntOp.cmpi .sle w (99999#32) = 1#1 :=
  IntOp.cmpi_sle.2 (by rw [toInt_of_lt w h, toInt_max]; omega)

/-- Read signed and clamped into the table, such a word is itself. -/
theorem clamp_of_lt (w : BitVec 32) (h : w.toNat < 100000) : min w.toInt.toNat 99999 = w.toNat := by
  rw [toInt_of_lt w h, Int.toNat_natCast]
  omega

/-! ## Indices: arrays with a unit axis -/

/-- Two indices of a [1, 2048, 1] array with the same middle coordinate are equal. -/
theorem idx_col_ext (i k : S1x2048x1.Idx) (h : (i 1).val = (k 1).val) : i = k := by
  funext d
  match d with
  | ⟨0, _⟩ => exact Subsingleton.elim (α := Fin 1) _ _
  | ⟨1, _⟩ => exact Fin.ext h
  | ⟨2, _⟩ => exact Subsingleton.elim (α := Fin 1) _ _

/-- Two indices of a [1, 2048] array with the same second coordinate are equal. -/
theorem idx_row_ext (i k : S1x2048.Idx) (h : (i 1).val = (k 1).val) : i = k := by
  funext d
  match d with
  | ⟨0, _⟩ => exact Subsingleton.elim (α := Fin 1) _ _
  | ⟨1, _⟩ => exact Fin.ext h

/-- Two indices of a [100000, 1] array with the same first coordinate are equal. -/
theorem idx_tab_ext (i k : S100000x1.Idx) (h : (i 0).val = (k 0).val) : i = k := by
  funext d
  match d with
  | ⟨0, _⟩ => exact Fin.ext h
  | ⟨1, _⟩ => exact Subsingleton.elim (α := Fin 1) _ _

/-- Two indices of a [2048, 1] array with the same first coordinate are equal. -/
theorem idx_pos_ext (i k : S2048x1.Idx) (h : (i 0).val = (k 0).val) : i = k := by
  funext d
  match d with
  | ⟨0, _⟩ => exact Fin.ext h
  | ⟨1, _⟩ => exact Subsingleton.elim (α := Fin 1) _ _

/-! ## The index pieces at a position -/

/-- Where the index is below the height, the wrap leaves it unchanged. -/
theorem wrapped_apply (idx : IVec S1x2048 32) (a : Fin 1) (t : Fin 2048) (h : (idx (ix2 a t)).toNat < 100000) :
    RefRun.wrapped idx (ix2 a t) = idx (ix2 a t) := by
  show Scalar.select (IntOp.cmpi .slt (idx (ix2 a t)) (0#32)) _ (idx (ix2 a t)) = idx (ix2 a t)
  rw [slt_zero _ h, select_zero]

/-- The start indices re-index the wrapped index: the trailing unit axis is dropped. -/
theorem starts_apply (idx : IVec S1x2048 32) (a : Fin 1) (t : Fin 2048) (z : Fin 1) :
    RefRun.starts idx (ix3 a t z) = RefRun.wrapped idx (ix2 a t) := by
  unfold RefRun.starts broadcastInDim
  exact congrArg (RefRun.wrapped idx) (idx_row_ext _ _ rfl)

/-- Every index of the start-index array is one of a position. -/
theorem starts_lt (idx : IVec S1x2048 32) (hidx : ∀ t : Fin 2048, (idx (ix2 0 t)).toNat < 100000) (i : S1x2048x1.Idx) :
    RefRun.starts idx i = idx (ix2 0 (i 1)) ∧ (RefRun.starts idx i).toNat < 100000 := by
  obtain ⟨a, t, z, rfl⟩ : ∃ a t z, i = ix3 a t z := ⟨_, _, _, eq_ix3 i⟩
  obtain rfl : a = 0 := Subsingleton.elim _ _
  have e : RefRun.starts idx (ix3 0 t z) = idx (ix2 0 t) := by
    rw [starts_apply, wrapped_apply idx 0 t (hidx t)]
  exact ⟨e, by rw [e]; exact hidx t⟩

/-! ## The range test at a position -/

/-- A left fold by AND from 1 over one-bit words that are all 1 is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, hi, _ => hi
  | n :: l, init, hi, hf => by
    rw [List.foldl_cons]
    exact foldl_andi_one f l _ (IntOp.andi_eq_one.2 ⟨hi, hf n List.mem_cons_self⟩)
      (fun k hk => hf k (List.mem_cons_of_mem _ hk))

/-- A reduction by AND from 1 of an array of one-bit words that are all 1 is 1 everywhere. -/
theorem reduce_andi_one {s t u : Shape} {axes : List (Fin s.rank)} (x : s.Idx → BitVec 1) (init : u.Idx → BitVec 1)
    (h : s.ReducesTo axes t) (hu : 0 < u.numel) (hi : ∀ k, init k = 1#1) (hx : ∀ i, x i = 1#1) (j : t.Idx) :
    Host.reduce IntOp.andi x init h hu j = 1#1 := by
  rw [Host.reduce_eq_foldl]
  exact foldl_andi_one x _ _ (hi _) (fun i _ => hx i)

/-- Where every index is below the height, every position passes the range test. -/
theorem inRange_apply (idx : IVec S1x2048 32) (hidx : ∀ t : Fin 2048, (idx (ix2 0 t)).toNat < 100000) (j : S1x2048.Idx) :
    RefRun.inRange idx j = 1#1 := by
  unfold RefRun.inRange
  refine reduce_andi_one _ _ _ _ (fun _ => rfl) (fun i => ?_) j
  have hlt := (starts_lt idx hidx i).2
  show IntOp.andi (IntOp.cmpi .sge (RefRun.starts idx i) (0#32)) (IntOp.cmpi .sle (RefRun.starts idx i) (99999#32)) = 1#1
  rw [sge_zero _ hlt, sle_max _ hlt]
  rfl

/-! ## The gather at a position -/

/-- The gather of a [100000, 1] table at a [1, 2048, 1] array of start indices, read at a position: the table's
    entry at the start index read signed and clamped into the table. -/
theorem gather_apply {α : Type} {w : Nat} (x : S100000x1.Idx → α) (st : IVec S1x2048x1 w) (a : Fin 1) (t : Fin 2048) (z : Fin 1) :
    Host.gather gather_S100000x1_S1x2048x1_S1x2048x1_2_0_n_n_0_2_11 x st (ix3 a t z)
      = x (ix2 (⟨min (st (ix3 a t z)).toInt.toNat 99999, by omega⟩ : Fin 100000) (0 : Fin 1)) := by
  unfold Host.gather
  refine congrArg x (idx_tab_ext _ _ ?_)
  show gather_S100000x1_S1x2048x1_S1x2048x1_2_0_n_n_0_2_11.start (ix3 a t z) st 0
      + gather_S100000x1_S1x2048x1_S1x2048x1_2_0_n_n_0_2_11.batchCoord (ix3 a t z) 0
      + gather_S100000x1_S1x2048x1_S1x2048x1_2_0_n_n_0_2_11.offCoord (ix3 a t z) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gather_S100000x1_S1x2048x1_S1x2048x1_2_0_n_n_0_2_11.startIndexMap from List.mem_singleton.mpr rfl)]
  have hsi : gather_S100000x1_S1x2048x1_S1x2048x1_2_0_n_n_0_2_11.siIdx (ix3 a t z)
      ⟨List.idxOf (0 : Fin 2) gather_S100000x1_S1x2048x1_S1x2048x1_2_0_n_n_0_2_11.startIndexMap,
        List.idxOf_lt_length_iff.2 (List.mem_singleton.mpr rfl)⟩ = ix3 a t z := idx_col_ext _ _ rfl
  rw [hsi]
  rfl

/-! ## The looked-up embedding, the hidden vector and the result at an entry -/

/-- Where every index is below the height, the lookup at a position is the table's entry at that position's row. -/
theorem taken_apply (idx : IVec S1x2048 32) (tok : FVec Ideal S100000x1 .f32)
    (hidx : ∀ t : Fin 2048, (idx (ix2 0 t)).toNat < 100000) (a : Fin 1) (t : Fin 2048) (z : Fin 1) :
    RefRun.taken idx tok (ix3 a t z) = tok (ix2 (Cert.Spec.row idx t) 0) := by
  have hm : broadcastInDim S1x2048x1 ![0, 1] bcast_S1x2048_S1x2048x1_0_1 (RefRun.inRange idx) (ix3 a t z) = 1#1 := by
    unfold broadcastInDim
    exact inRange_apply idx hidx _
  have hs := starts_lt idx hidx (ix3 a t z)
  show Scalar.select (broadcastInDim S1x2048x1 ![0, 1] bcast_S1x2048_S1x2048x1_0_1 (RefRun.inRange idx) (ix3 a t z))
      (Host.gather gather_S100000x1_S1x2048x1_S1x2048x1_2_0_n_n_0_2_11 tok (RefRun.starts idx) (ix3 a t z)) _ = _
  rw [hm, select_one, gather_apply]
  refine congrArg tok (idx_tab_ext _ _ ?_)
  show min (RefRun.starts idx (ix3 a t z)).toInt.toNat 99999 = (Cert.Spec.row idx t).val
  rw [clamp_of_lt _ hs.2, hs.1, Cert.Spec.row_val idx t (hidx t)]

/-- The hidden vector at a position: the looked-up embedding plus the position's. -/
theorem summed_apply (idx : IVec S1x2048 32) (tok : FVec Ideal S100000x1 .f32) (pos : FVec Ideal S2048x1 .f32)
    (a : Fin 1) (t : Fin 2048) (z : Fin 1) :
    RefRun.summed idx tok pos (ix3 a t z) = RefRun.taken idx tok (ix3 a t z) + pos (ix2 t 0) := by
  unfold RefRun.summed
  rw [addf_apply]
  congr 1
  unfold broadcastInDim
  exact congrArg pos (idx_pos_ext _ _ rfl)

/-- The bias broadcast to the result's shape reads the bias of the entry's vocabulary row. -/
theorem bias_apply {α : Type} (b : S100000.Idx → α) (a : Fin 1) (t : Fin 2048) (v : Fin 100000) :
    broadcastInDim S1x2048x100000 ![0, 1, 2] bcast_S1x1x100000_S1x2048x100000_0_1_2
      (broadcastInDim S1x1x100000 ![2] bcast_S100000_S1x1x100000_2 b) (ix3 a t v) = b (ix1 v) := by
  unfold broadcastInDim
  refine congrArg b (funext fun d => ?_)
  match d with
  | ⟨0, _⟩ => exact Fin.ext rfl

/-- The contraction has one axis, of extent one. -/
theorem contr_rank : dot_S1x2048x1_S100000x1_S1x2048x100000_2_1_01_0_n_n.contr.rank = 1 := rfl
theorem contr_size : dot_S1x2048x1_S100000x1_S1x2048x100000_2_1_01_0_n_n.contr.size ⟨0, by rw [contr_rank]; exact Nat.one_pos⟩ = 1 := rfl

/-- The projection at an entry: a sum over the one contraction index, so a single product. -/
theorem dot_apply (x : FVec Ideal S1x2048x1 .f32) (W : FVec Ideal S100000x1 .f32) (a : Fin 1) (t : Fin 2048) (v : Fin 100000) :
    Host.dotGeneral dot_S1x2048x1_S100000x1_S1x2048x100000_2_1_01_0_n_n none x W (ix3 a t v)
      = x (ix3 a t 0) * W (ix2 v 0) := by
  simp only [Host.dotGeneral]
  rw [Ideal.dotGeneral_apply,
    ← Equiv.sum_comp (contrEquiv1 dot_S1x2048x1_S100000x1_S1x2048x100000_2_1_01_0_n_n 1 contr_rank contr_size).symm,
    Fin.sum_univ_one]
  congr 1
  · exact congrArg x (idx_col_ext _ _ rfl)
  · exact congrArg W (idx_tab_ext _ _ rfl)

/-- The composed result at an entry. -/
theorem resOf_apply (idx : IVec S1x2048 32) (tok : FVec Ideal S100000x1 .f32) (pos : FVec Ideal S2048x1 .f32)
    (W : FVec Ideal S100000x1 .f32) (b : FVec Ideal S100000 .f32) (a : Fin 1) (t : Fin 2048) (v : Fin 100000) :
    RefRun.res idx tok pos W b (ix3 a t v) = RefRun.summed idx tok pos (ix3 a t 0) * W (ix2 v 0) + b (ix1 v) := by
  unfold RefRun.res RefRun.resOf
  rw [addf_apply, dot_apply, bias_apply]

/-! ## The reference computes the specified logits -/

/-- Where every token index is below the table's height, the reference's composed term is the specified array. -/
theorem res_eq_logits (idx : IVec S1x2048 32) (tok : FVec Ideal S100000x1 .f32) (pos : FVec Ideal S2048x1 .f32)
    (W : FVec Ideal S100000x1 .f32) (b : FVec Ideal S100000 .f32)
    (hidx : ∀ t : Fin 2048, (idx (ix2 0 t)).toNat < 100000) :
    RefRun.res idx tok pos W b = Cert.Spec.logits idx tok pos W b := by
  funext i
  obtain ⟨a, t, v, rfl⟩ : ∃ a t v, i = ix3 a t v := ⟨_, _, _, eq_ix3 i⟩
  rw [Cert.Spec.logits_apply, resOf_apply, summed_apply, taken_apply idx tok hidx]
  rfl

/-- The reference's run, stated with the specified array: every weakly fair execution terminates with the result
    buffer holding the specified logits of the arguments' launch contents, the arguments unchanged. -/
theorem run_logits (m : (ℓ : Loc nD τ sig) → Buf (Elt Ideal) ℓ) (g : Dev nD → PrngReg)
    (hidx : ∀ (c : Dev nD) (t : Fin 2048), ((m ((c.tc : Thread nD τ).loc main_arg0)) (ix2 0 t)).toNat < 100000) :
    θ_run (defs (F := Ideal)) (onTc (τ := τ) (main (F := Ideal))) ⟨m, fun _ => 0, g⟩ (fun r => ∀ c : Dev nD,
      r.2.mem ((c.tc : Thread nD τ).loc main_v6) = Cert.Spec.logits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (res_eq_logits _ _ _ _ _ (hidx c)), (h c).2⟩) (RefRun.run m g)

end Cert.ReferenceIdeal.RefValue

end
-- ==== Proof.KI.Common.lean ====
/-
  The kernel program as the launch theorem of a program with SparseCore calls sees it, and the
  ghost state its proof is carried in. The program is @main on the TensorCore — two reshapes, one
  call of a gather kernel run by the 2 × 16 vector subcores, three more reshapes, one
  TensorCore kernel region, a transpose — beside the subcores' fixed programs.
  Three protocols run side by side and each has its own factor of the ghost state: the handshakes
  between the TensorCore, the sequencers and the vector subcores (a rounds library indexed by call),
  the TensorCore region's staging cells (a rounds library of its own), and the plain counters of the
  local copies each kernel issues and waits for itself.
-/
import proofs.«217057_g30459908063406_cont_9to1_2067_16_alg».proof.Defs
import Idealize.ShloMosaic.Lib.SparseCore.Launch
import Idealize.ShloMosaic.Lib.StableHlo.Run
import Idealize.ShloMosaic.Lib.Pipeline.Kit
import Idealize.ShloMosaic.Lib.Tactic
import proofs.«217057_g30459908063406_cont_9to1_2067_16_alg».proof.Proof.Gen.KernelIdeal
import proofs.«217057_g30459908063406_cont_9to1_2067_16_alg».proof.Proof.Gen.KernelIdeal.Skeleton
import proofs.«217057_g30459908063406_cont_9to1_2067_16_alg».proof.Proof.Gen.KernelIdeal.Launch
import proofs.«217057_g30459908063406_cont_9to1_2067_16_alg».proof.Proof.Gen.KernelIdeal.Points

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The kernels' label signature, lifted through the one TensorCore region. -/
abbrev ΛP : Labels := Pipeline.Sig Λ₀ (Fin 1) fun p => (pcfgs (F := F) p).Adm
/-- The one SparseCore call. -/
abbrev K : SparseCore.Cfg τ sig (ΛP (F := F)) 1 := sc (F := F)
theorem nCore_zero : (K (F := F)).nCore 0 = 2 := rfl
theorem nSub_zero : (K (F := F)).nSub 0 = 16 := rfl
/-- The kernels' body table with the region's. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

/-- The handshakes' rounds, -/
abbrev UH : Type := URounds (GSem nD τ sig) ℕ
/-- the TensorCore region's staging cells' rounds, -/
abbrev UP : Type := UR sig nD τ
/-- and both beside the local copies' counters. -/
abbrev UU : Type := UH × (UP × Counters)

/-- The handshakes' copy inside the machine's algebra, -/
abbrev EH : Emb UH (MT nD τ sig (HIx 1) (Elt F) ℕ UU ℕ) := embL
/-- and the region's. The counters are found by instance in the last factor. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP (MT nD τ sig (HIx 1) (Elt F) ℕ UU ℕ)).LandsIn (upEmb : UEmb _ (MT nD τ sig (HIx 1) (Elt F) ℕ UU ℕ)) := by
  unfold EP; infer_instance

end Cert.Proof.KI

end
-- ==== Proof.KI.Values.lean ====
/-
  What each stage of the kernel program leaves, as plain functions of the arrays it reads, for any
  float instance. The gather leaves, at position `j`, the flat table's entry at the `j`-th index
  (the index word read as a natural number and reduced below the table's height, which changes
  nothing where the index is in range). The TensorCore region leaves, at row `v` and column `t`,
  `w[v] · (x[t] + p[t]) + b[v]`: the weight of vocabulary row `v` times the hidden value of
  position `t`, plus that row's bias — the logits transposed.
-/
import proofs.«217057_g30459908063406_cont_9to1_2067_16_alg».proof.Proof.KI.Common
import Idealize.ShloMosaic.Lib.ValueIdx

noncomputable section

namespace Cert.Proof.KI

open Cert.KernelIdeal
open Idealize.ShloMosaic Idealize.ShloMosaic.ValueIdx

variable {F : FTy → Type} [FloatOps F]

/-- The table row the `j`-th index names. -/
def tabRow (idx : IVec S2048 32) (j : Fin 2048) : Fin 100000 :=
  ⟨(idx (ix1 j)).toNat % 100000, Nat.mod_lt _ (by norm_num)⟩

/-- What the gather kernel leaves in its result array. -/
def gathered (idx : IVec S2048 32) (tab : FVec F S100000 .f32) : FVec F S2048 .f32 :=
  fun j => tab (ix1 (tabRow idx (j 0)))

/-- One entry the TensorCore region writes: row `v`, column `t`. -/
def outEntry (x p : FVec F S1x2048 .f32) (w : FVec F S1x100000 .f32) (b : FVec F S100000 .f32)
    (v : Fin 100000) (t : Fin 2048) : F .f32 :=
  FloatOps.addf (FloatOps.mulf (w (ix2 0 v)) (FloatOps.addf (x (ix2 0 t)) (p (ix2 0 t)))) (b (ix1 v))

/-- What the TensorCore region leaves in its result array. -/
def outT (x p : FVec F S1x2048 .f32) (w : FVec F S1x100000 .f32) (b : FVec F S100000 .f32) :
    FVec F S1x100000x2048 .f32 :=
  fun i => outEntry x p w b (i 1) (i 2)

end Cert.Proof.KI

end
-- ==== Proof.KI.Pay.lean ====
/-
  What the gather call's handshakes carry. The call reads the flat index array (2048 words) and the
  flat table (100000 entries) and writes the flat result (2048 entries). The work is cut in 32 equal
  parts of 64 consecutive positions: vector subcore `i` of SparseCore `c` takes part `2 i + c`.
  A task is handed its part of the index array and of the result array (disjoint rectangles, so
  whole ownership of each) and a read share of the WHOLE table, which every task reads at arbitrary
  rows; it hands back the same, its part of the result now holding, at each position, the table's
  entry at that position's index.
-/
import proofs.«217057_g30459908063406_cont_9to1_2067_16_alg».proof.Proof.KI.Values

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-! ## The arrays -/

/-- The flat index array, the flat table, the gather's result, as locations of device `d`. -/
abbrev iLoc (d : Dev nD) : Loc nD τ sig := (SparseCore.T d).loc main_v0
abbrev tLoc (d : Dev nD) : Loc nD τ sig := (SparseCore.T d).loc main_v1
abbrev gLoc (d : Dev nD) : Loc nD τ sig := (SparseCore.T d).loc main_v2

/-- The 32 parts of 64 positions. -/
theorem hdiv : 32 ∣ S2048.size 0 := ⟨64, rfl⟩
abbrev part (j : Fin 32) : Rect S2048 := Rect.part (s := S2048) (a₀ := 0) hdiv j
abbrev partSet (j : Fin 32) : Finset S2048.Idx := (part j).set
/-- The part of vector subcore `i` of SparseCore `c`. -/
def partOf (c : Fin 2) (i : Fin 16) : Fin 32 := ⟨2 * i.val + c.val, by omega⟩
/-- A task's read share of the table: one of 32 tokens cut off the full share. -/
abbrev tq (j : Fin 32) : PosShare TreeShare := Transfers.shareTok fullShare 32 j

variable [FloatOps F]

/-- What the two reshapes before the call leave: the index array and the table, flat. -/
abbrev idx1 (d : Dev nD) : Buf (Elt F) (iLoc d) :=
  (shapeCast S2048 (m ((SparseCore.T d).loc main_arg0) : IVec S1x2048 32) Facts₀.shapeCasts_S1x2048_S2048 : IVec S2048 32)
abbrev tab1 (d : Dev nD) : Buf (Elt F) (tLoc d) :=
  (shapeCast S100000 (m ((SparseCore.T d).loc main_arg1) : FVec F S100000x1 .f32) Facts₀.shapeCasts_S100000x1_S100000 : FVec F S100000 .f32)
/-- What the call leaves in its result. -/
abbrev gath (d : Dev nD) : Buf (Elt F) (gLoc d) := (gathered (idx1 m d) (tab1 m d) : FVec F S2048 .f32)

abbrev iPartPts (d : Dev nD) (j : Fin 32) : sProp 𝕄 := iLoc d ↦[partSet j]{fullShare} idx1 m d
abbrev tShPts (d : Dev nD) (j : Fin 32) : sProp 𝕄 := tLoc d ↦{tq j} tab1 m d
abbrev gPartPts (d : Dev nD) (j : Fin 32) (f : Buf (Elt F) (gLoc d)) : sProp 𝕄 := gLoc d ↦[partSet j]{fullShare} f

/-- What a task takes and what it brings back. -/
abbrev goPay (d : Dev nD) (j : Fin 32) : sProp 𝕄 := iprop(iPartPts m d j ∗ tShPts m d j ∗ gPartPts d j (m (gLoc d)))
abbrev tdPay (d : Dev nD) (j : Fin 32) : sProp 𝕄 := iprop(iPartPts m d j ∗ tShPts m d j ∗ gPartPts d j (gath m d))

/-- The one call: a SparseCore is handed its sixteen tasks' operands and hands back their results. -/
def P : (K (F := F)).Pay (nD := nD) (Val := Elt F) (Name := ℕ) (U := UU) where
  st := fun q d c => match q with | 0 => bigSep Finset.univ fun i : Fin 16 => goPay m d (partOf (Fin.cast nCore_zero c) i)
  dn := fun q d c => match q with | 0 => bigSep Finset.univ fun i : Fin 16 => tdPay m d (partOf (Fin.cast nCore_zero c) i)
  go := fun q d c i => match q with | 0 => goPay m d (partOf (Fin.cast nCore_zero c) (Fin.cast nSub_zero i))
  td := fun q d c i => match q with | 0 => tdPay m d (partOf (Fin.cast nCore_zero c) (Fin.cast nSub_zero i))
  x := fun _ _ => iprop(emp)

instance P_storable : (P (F := F) m).IsStorable where
  st q d c := match q with | 0 => (inferInstance : BI.Storable (upEmb : UEmb _ 𝕄) (bigSep Finset.univ fun i : Fin 16 => goPay m d (partOf (Fin.cast nCore_zero c) i)))
  dn q d c := match q with | 0 => (inferInstance : BI.Storable (upEmb : UEmb _ 𝕄) (bigSep Finset.univ fun i : Fin 16 => tdPay m d (partOf (Fin.cast nCore_zero c) i)))
  go q d c i := match q with | 0 => (inferInstance : BI.Storable (upEmb : UEmb _ 𝕄) (goPay m d (partOf (Fin.cast nCore_zero c) (Fin.cast nSub_zero i))))
  td q d c i := match q with | 0 => (inferInstance : BI.Storable (upEmb : UEmb _ 𝕄) (tdPay m d (partOf (Fin.cast nCore_zero c) (Fin.cast nSub_zero i))))

/-- What the proof asks of the launch memory: every index names a row of the table. -/
def PreOK : Prop := ∀ (d : Dev nD) (j : S2048.Idx), ((idx1 m d : IVec S2048 32) j).toNat < 100000

end Cert.Proof.KI

end
-- ==== Proof.KI.PreOK.lean ====
/-
  The precondition grants what the kernel program's proof asks of the launch memory.
  The proof asks that every entry of the FLAT index array — the [1, 2048] argument reshaped to
  [2048] — read unsigned, names a row of the table. A reshape keeps the elements and re-indexes
  them: entry j of the flat array is an entry (0, t) of the argument, and the precondition says
  of each of those that it lies in [0, 99999] read signed, hence is below 100000 read unsigned.
-/
import proofs.«217057_g30459908063406_cont_9to1_2067_16_alg».proof.Proof.KI.Pay
import proofs.«217057_g30459908063406_cont_9to1_2067_16_alg».proof.Proof.PreIdx

noncomputable section

namespace Cert.Proof.KI

open Cert.KernelIdeal Cert.KernelIdeal.Gen
open Idealize.ShloMosaic Idealize.ShloMosaic.ValueIdx Idealize.ShloMosaic.TcCoe

variable {F : FTy → Type} [FloatOps F]

/-- Every index of a [1, 2048] array is (0, t) for a position t. -/
theorem idx_row (i : S1x2048.Idx) : i = ix2 (0 : Fin 1) (i 1) := by
  rw [eq_ix2 i]
  exact congrArg (fun a : Fin 1 => ix2 a (i 1)) (Subsingleton.elim _ _)

/-- From the precondition on every device: every entry of the flat index array is below the table's height. -/
theorem preOK_of_fn [Cert.Pre_input_domain.Facts] (m : (ℓ : Loc nD τ sig) → Buf (Elt F) ℓ)
    (h : ∀ c : Dev nD, Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = fun _ => 1#1) :
    PreOK m := by
  intro d j
  -- entry j of the flat array is the argument's entry at the index the reshape sends j to
  show ((m ((SparseCore.T d).loc main_arg0) : IVec S1x2048 32) (Shape.reshapeEquiv Facts₀.shapeCasts_S1x2048_S2048 j)).toNat < 100000
  rw [idx_row (Shape.reshapeEquiv Facts₀.shapeCasts_S1x2048_S2048 j)]
  exact Cert.PreIdx.idx_lt _ _ _ _ _ (h d) _

end Cert.Proof.KI

end
-- ==== Proof.KI.Tile.lean ====
/-
  The gather kernel's task on one vector subcore, and the obligation the launch theorem asks per
  task. A task copies its 64 indices from the index array into its index scratch and waits; issues
  the indirect gather — for each of the 64 fetched words, the table's entry at that word into the
  same place of the row scratch — and waits; copies the row scratch to its 64 positions of the
  result and waits. Each copy completes on a semaphore of its own and is waited before the next
  touches its buffers. So position `j` of the result ends holding the table's entry at the `j`-th
  index. The indices name rows of the table by the precondition; an index out of range would
  leave the gather unserved.
-/
import proofs.«217057_g30459908063406_cont_9to1_2067_16_alg».proof.Proof.KI.Pay
import Idealize.ShloMosaic.Lib.SparseCore.Ops

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

-- the kernel's memrefs, spelt as the body table passes them
local notation "iV" => (Memref.whole Cert.KernelIdeal.main_v0_scv : Memref Cert.KernelIdeal.sig Kind.scVector Space.hbm Cert.KernelIdeal.S2048 EltTy.i32)
local notation "tV" => (Memref.whole Cert.KernelIdeal.main_v1_scv : Memref Cert.KernelIdeal.sig Kind.scVector Space.hbm Cert.KernelIdeal.S100000 EltTy.f32)
local notation "gV" => (Memref.whole Cert.KernelIdeal.main_v2_scv : Memref Cert.KernelIdeal.sig Kind.scVector Space.hbm Cert.KernelIdeal.S2048 EltTy.f32)
local notation "sI" => (Memref.whole Cert.KernelIdeal.cc0_scratch0 : Memref Cert.KernelIdeal.sig Kind.scVector Space.vmem Cert.KernelIdeal.S64 EltTy.i32)
local notation "sR" => (Memref.whole Cert.KernelIdeal.cc0_scratch1 : Memref Cert.KernelIdeal.sig Kind.scVector Space.vmem Cert.KernelIdeal.S64 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
/-- The part the subcore at grid coordinates `L` works on. -/
def jL (L : grid0.Coords) : Fin 32 := partOf (Fin.cast bound_zero (L 0)) (Fin.cast bound_one (L 1))

/-- The part as the kernel slices it: 64 positions from the offset it computes. -/
abbrev partK (L : grid0.Coords) : Rect S2048 := Rect.unit (s := S2048) (k0_off1 L) S64.size (k0_off1_inb L)
abbrev iPartK (L : grid0.Coords) : Memref sig .scVector .hbm S64 .i32 := (iV).slice (partK L) (fun _ => rfl)
abbrev gPartK (L : grid0.Coords) : Memref sig .scVector .hbm S64 .f32 := (gV).slice (partK L) (fun _ => rfl)
abbrev tAllK : Memref sig .scVector .hbm S100000 .f32 := (tV).slice (Rect.unit (s := S100000) ![0] S100000.size inb_S100000_S100000_0) (fun _ => rfl)

omit [FloatOps F] in
theorem jL_val : (jL L).val = 2 * (L 1).val + (L 0).val := rfl

omit [FloatOps F] in
/-- The kernel's offset `64 · (2 · subcore + core)` is the start of part `2 · subcore + core`. -/
theorem partK_eq : partK L = part (jL L) := by
  unfold partK part Rect.part Rect.block
  congr 1 <;> funext a
  · rw [k0_off1_eq]
    match a with
    | 0 => simp [Shape.partIx, Shape.partSize, jL_val]; omega
  · match a with
    | 0 => simp [Shape.partSize]

omit [FloatOps F] in
theorem set_iPartK : (iPartK L).view.set = partSet (jL L) := by
  show ((iV).view.slice (partK L)).set = (part (jL L)).set
  rw [partK_eq]
  show ((View.whole (main_v0_scv : Ref sig .scVector)).slice (part (jL L))).set = _
  rw [View.set_slice]; exact Finset.map_refl
omit [FloatOps F] in
theorem set_gPartK : (gPartK L).view.set = partSet (jL L) := by
  show ((gV).view.slice (partK L)).set = (part (jL L)).set
  rw [partK_eq]
  show ((View.whole (main_v2_scv : Ref sig .scVector)).slice (part (jL L))).set = _
  rw [View.set_slice]; exact Finset.map_refl

omit [FloatOps F] in
theorem pts_iPartK (f : Buf (Elt F) (iLoc d)) :
    ((iPartK L).view.loc (V d (cV L) (jV L)) ↦[(iPartK L).view.set]{fullShare} f : sProp 𝕄) = iLoc d ↦[partSet (jL L)]{fullShare} f := by
  rw [set_iPartK]
omit [FloatOps F] in
theorem pts_gPartK (f : Buf (Elt F) (gLoc d)) :
    ((gPartK L).view.loc (V d (cV L) (jV L)) ↦[(gPartK L).view.set]{fullShare} f : sProp 𝕄) = gLoc d ↦[partSet (jL L)]{fullShare} f := by
  rw [set_gPartK]
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_sI (f : Buf (Elt F) ((V d (cV L) (jV L)).loc cc0_scratch0)) :
    ((sI).view.loc (V d (cV L) (jV L)) ↦{fullShare} f : sProp 𝕄) = (V d (cV L) (jV L)).loc cc0_scratch0 ↦{fullShare} f := rfl
omit [FloatOps F] in
theorem pts_sR (f : Buf (Elt F) ((V d (cV L) (jV L)).loc cc0_scratch1)) :
    ((sR).view.loc (V d (cV L) (jV L)) ↦{fullShare} f : sProp 𝕄) = (V d (cV L) (jV L)).loc cc0_scratch1 ↦{fullShare} f := rfl

/-- The subcore's three DMA semaphores: the gather's, the index fetch's, the write-out's. -/
abbrev cGcell (d : Dev nD) (c : Fin τ.nSC) (i : Fin τ.nSub) : GSem nD τ sig := (V d c i, .dma cc0_scratch2.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L))) fun g => semVal g 0) := by
  unfold SparseCore.Cfg.ownSems0
  rw [SparseCore.bigSep_erase' ((mem_ownCells (g := cGcell d (cV L) (jV L))).mpr ⟨rfl, by
      show (SemLoc.dma cc0_scratch2.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- What a task leaves in its part of the result is, at every position of the part, the table's entry
    at that position's index: the fetched indices are the part's own words of the index array (the fetch
    copies the part), the gather puts at place `y` the table's row the `y`-th fetched word names, and the
    write-out copies place `y` to the part's `y`-th position — the same position of the same part the index
    came from. The index is below the table's height, so reducing it changes nothing. -/
theorem part_value (hpre : PreOK m) (fs : Buf (Elt F) ((V d (cV L) (jV L)).loc cc0_scratch0)) (fr : Buf (Elt F) ((V d (cV L) (jV L)).loc cc0_scratch1))
    (g0 : Buf (Elt F) (gLoc d)) (hn : S64.numel = S64.size gathers_S100000_S64.axis')
    (hin : ∀ x, ((sI).view.read (Elt F) (View.write (Elt F) (sI).view fs ((iPartK L).view.read (Elt F) (idx1 m d)) Finset.univ) x).toNat < S100000.size gathers_S100000_S64.axis) :
    ∀ i ∈ (gPartK L).view.set,
      ((gPartK L).view.writes (Elt F) g0 [⟨Rect.whole S64, (sR).view.read (Elt F) (View.write (Elt F) (sR).view fr
          (SparseCore.gatherPayload gathers_S100000_S64 ((tAllK).view.read (Elt F) (tab1 m d))
            (SparseCore.rows ((sI).view.read (Elt F) (View.write (Elt F) (sI).view fs ((iPartK L).view.read (Elt F) (idx1 m d)) Finset.univ)) hn hin)) Finset.univ)⟩]) i
        = gath m d i := by
  intro i hi
  obtain ⟨y, -, rfl⟩ := Finset.mem_map.mp hi
  have h1 := View.read_writes_cons_emb (gPartK L).view g0 (Rect.whole S64) ((sR).view.read (Elt F) (View.write (Elt F) (sR).view fr
          (SparseCore.gatherPayload gathers_S100000_S64 ((tAllK).view.read (Elt F) (tab1 m d))
            (SparseCore.rows ((sI).view.read (Elt F) (View.write (Elt F) (sI).view fs ((iPartK L).view.read (Elt F) (idx1 m d)) Finset.univ)) hn hin)) Finset.univ)) [] y
  rw [Rect.emb_whole_apply] at h1
  have h2 := View.read_apply (v := (gPartK L).view) (Val := Elt F) ((gPartK L).view.writes (Elt F) g0 [⟨Rect.whole S64, (sR).view.read (Elt F) (View.write (Elt F) (sR).view fr
          (SparseCore.gatherPayload gathers_S100000_S64 ((tAllK).view.read (Elt F) (tab1 m d))
            (SparseCore.rows ((sI).view.read (Elt F) (View.write (Elt F) (sI).view fs ((iPartK L).view.read (Elt F) (idx1 m d)) Finset.univ)) hn hin)) Finset.univ)⟩]) y
  rw [h1] at h2
  rw [cast_eq] at h2
  rw [← h2]
  simp only [Memref.view_whole, View.write_whole_univ, View.read_whole]
  unfold SparseCore.gatherPayload
  rw [View.read_apply, cast_eq]
  show tab1 m d _ = tab1 m d (ValueIdx.ix1 (tabRow (idx1 m d) ((gPartK L).view.emb y 0)))
  congr 1
  funext a
  match a with
  | ⟨0, _⟩ =>
    apply Fin.ext
    show 0 + 1 * ((gathers_S100000_S64.idx _ y) (gathers_S100000_S64.axis)).val = (tabRow (idx1 m d) ((gPartK L).view.emb y 0)).val
    rw [Shape.Gathers.idx_axis]
    unfold SparseCore.rows tabRow
    have hy : S64.rowMajor.symm ((y gathers_S100000_S64.axis').cast hn.symm) = y := by
      rw [Equiv.symm_apply_eq]; apply Fin.ext; rw [Shape.rowMajor_val_one]; rfl
    show 0 + 1 * (View.write (Elt F) (View.whole cc0_scratch0) fs (View.read (Elt F) ((View.whole main_v0_scv).slice (partK L)) (idx1 m d)) Finset.univ
        (S64.rowMajor.symm ((y gathers_S100000_S64.axis').cast hn.symm))).toNat = (idx1 m d (ValueIdx.ix1 ((gPartK L).view.emb y 0))).toNat % 100000
    rw [hy, View.write_whole_univ, View.read_apply, cast_eq]
    have he : (ValueIdx.ix1 ((gPartK L).view.emb y 0) : S2048.Idx) = ((View.whole main_v0_scv).slice (partK L)).emb y :=
      (ValueIdx.eq_ix1 (((View.whole main_v0_scv).slice (partK L)).emb y)).symm
    rw [he]
    show 0 + 1 * (idx1 m d (((View.whole main_v0_scv).slice (partK L)).emb y)).toNat = (idx1 m d (((View.whole main_v0_scv).slice (partK L)).emb y)).toNat % 100000
    rw [Nat.mod_eq_of_lt (hpre d _)]
    omega

/-- The fetched indices name rows of the table: the index scratch holds the part's own words of the index array. -/
theorem inb_of_pre (hpre : PreOK m) (fs : Buf (Elt F) ((V d (cV L) (jV L)).loc cc0_scratch0)) (pay : S64.Idx → Elt F .i32)
    (hpay : pay = (iPartK L).view.read (Elt F) (idx1 m d)) :
    ∀ x, ((sI).view.read (Elt F) (View.write (Elt F) (sI).view fs pay Finset.univ) x).toNat < S100000.size gathers_S100000_S64.axis := by
  subst hpay; intro x
  rw [View.write_whole_univ]
  simp only [Memref.view_whole, View.read_whole]
  rw [show ∀ j, (iPartK L).view.read (Elt F) (idx1 m d) j = idx1 m d ((iPartK L).view.emb j) from fun j => (View.read_apply _ _).trans (cast_eq _ _)]
  exact hpre d _

set_option maxHeartbeats 4000000 in
/-- The task on the vector subcore at grid coordinates `L` of device `d`: fetch the part's indices and wait, gather the
    table's rows they name and wait, write the gathered entries out to the part of the result and wait. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ goPay m d (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather L iV (Memref.isWhole_whole _) tV (Memref.isWhole_whole _) gV (Memref.isWhole_whole _)
            sI (Memref.isWhole_whole _) sR (Memref.isWhole_whole _) cc0_scratch2 cc0_scoped0 cc0_scoped1)
          fun _ => iprop(tdPay m d (jL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_eq_skeleton]; unfold cc0__sc_gather_skel
  rw [(K (F := F)).scopedBufs_V hF d (cV L) (jV L), SparseCore.Cfg.scopedSems0_V (Val := Elt F) d (cV L) (jV L), ownSems0_V, ownBufs_V]
  iintro ⟨#Hlv, -, ⟨Hi, Ht, Hg⟩, ⟨⟨%fs, Hs⟩, ⟨%fr, Hr⟩, Hbufs⟩, ⟨HsemG, HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iPartK (F := F) d L _).symm) $$ Hi
  ihave Hg' := (Entails.of_eq (pts_gPartK (F := F) d L _).symm) $$ Hg
  ihave Ht' := (Entails.of_eq (pts_tV (F := F) d L _ _).symm) $$ Ht
  ihave Hs' := (Entails.of_eq (pts_sI (F := F) d L _).symm) $$ Hs
  ihave Hr' := (Entails.of_eq (pts_sR (F := F) d L _).symm) $$ Hr
  -- the index fetch and its wait
  sl_exec
  -- the gather: the task hands in its share of the table, the row scratch, the fetched list whole and the cell at zero
  ihave Hts := (pointsTo_split_subset (q := tq (jL L)) (f := tab1 m d) (S := Finset.univ) (Finset.subset_univ (tAllK).view.set)).1 $$ Ht'
  icases Hts with ⟨Hts, Htr⟩
  have hrs : (sR).view.set = Finset.univ := View.set_whole _
  have hss : (sI).view.set = Finset.univ := View.set_whole _
  ihave Hr'' := (Entails.of_eq (show ((sR).view.loc (V d (cV L) (jV L)) ↦{fullShare} fr : sProp 𝕄)
      = (sR).view.loc (V d (cV L) (jV L)) ↦[(sR).view.set]{fullShare} fr by rw [hrs])) $$ Hr'
  ihave Hs'' := (Entails.of_eq (show ((sI).view.loc (V d (cV L) (jV L)) ↦{fullShare} View.write (Elt F) (sI).view fs (tile_body.sl.dma0 m d L) Finset.univ : sProp 𝕄)
      = (sI).view.loc (V d (cV L) (jV L)) ↦[(sI).view.set]{fullShare} View.write (Elt F) (sI).view fs (tile_body.sl.dma0 m d L) Finset.univ
      by rw [hss])) $$ Hs'
  have hN : ∀ h : S100000.Gathers 0 S64, ∑ j, ((sR).slice (S64.rowRect h.axis' j) (S64.stride_rowRect h.axis' j)).view.dmaCredit
      = (sR).view.dmaCredit := by decide
  have hin := inb_of_pre m d L hpre fs (tile_body.sl.dma0 m d L) rfl
  iapply (SparseCore.wp_indirectGatherLocal countersEmb 𝒱₀ (V d (cV L) (jV L)) none (hg := gathers_S100000_S64) (default : HIx 1)
      (sR).view.dmaCredit (hN _) (by decide) hin) $$ [Hts Hr'' Hs'' HsemG]
  · isplitl [Hts]; · iexact Hts
    isplitl [Hr'']; · iexact Hr''
    isplitl [Hs'']; · iexact Hs''
    iexact HsemG
  iintro Hfl
  sl_exec
  -- its wait: the row scratch written with the gathered entries, the share of the table and the list back
  iapply (Transfers.wp_waitLocalO countersEmb 𝒱₀ (V d (cV L) (jV L)) none (default : HIx 1) (rfl : (sR).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hts, Hs'⟩, HsemG, HO⟩
  ihave Ht' := (pointsTo_split_subset (q := tq (jL L)) (f := tab1 m d) (S := Finset.univ) (Finset.subset_univ (tAllK).view.set)).2 $$ [Hts Htr]; · isplitl [Hts] <;> iassumption
  ihave Hr3 := (Entails.of_eq (show ((sR).view.loc (V d (cV L) (jV L)) ↦[(sR).view.set]{fullShare} _ : sProp 𝕄)
      = (sR).view.loc (V d (cV L) (jV L)) ↦{fullShare} _ by rw [hrs])) $$ Hr'
  ihave Hs3 := (Entails.of_eq (show ((sI).view.loc (V d (cV L) (jV L)) ↦[(sI).view.set]{fullShare} _ : sProp 𝕄)
      = (sI).view.loc (V d (cV L) (jV L)) ↦{fullShare} _ by rw [hss])) $$ Hs'
  -- the write-out and its wait
  sl_exec
  -- the part of the result holds the table's entries at the part's indices
  have hval : ∀ i ∈ (gPartK L).view.set,
      ((gPartK L).view.writes (Elt F) (m (gLoc d)) [⟨Rect.whole S64, tile_body.sl.dma0_1 m d L fs fr hin⟩]) i = gath m d i :=
    part_value m d L hpre fs fr (m (gLoc d)) _ hin
  ihave Hg2 := (Entails.of_eq (pointsTo_congr hval)) $$ Hg'
  sl_step
  isplitl [Hi' Ht' Hg2]
  · isplitl [Hi']; · iapply (Entails.of_eq (pts_iPartK (F := F) d L _)); iexact Hi'
    isplitl [Ht']; · iexact Ht'
    iapply (Entails.of_eq (pts_gPartK (F := F) d L _)); iexact Hg2
  isplitl [Hs3 Hr3 Hbufs]
  · isplitl [Hs3]; · iexists _; iexact Hs3
    isplitl [Hr3]; · iexists _; iexact Hr3
    iexact Hbufs
  isplitl [HsemG HsemA HsemB Hsems]
  · isplitl [HsemG]; · iexact HsemG
    isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather (coordsV c s)
          iV (Memref.isWhole_whole _) tV (Memref.isWhole_whole _) gV (Memref.isWhole_whole _)
          sI (Memref.isWhole_whole _) sR (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Tile

end Cert.Proof.KI

end
-- ==== Proof.KI.Split.lean ====
/-
  The index array and the result array as their 32 parts, and the 32 parts as 2 × 16: part
  `2 i + c` is vector subcore `i` of SparseCore `c`. The parts are pairwise disjoint and cover
  the 2048 positions, so owning an array whole is owning its parts separately.
-/
import proofs.«217057_g30459908063406_cont_9to1_2067_16_alg».proof.Proof.KI.Pay

noncomputable section

namespace Cert.Proof.KI

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

theorem partSets_disjoint : ∀ i ∈ (Finset.univ : Finset (Fin 32)), ∀ j ∈ (Finset.univ : Finset (Fin 32)), i ≠ j → Disjoint (partSet i) (partSet j) :=
  fun _ _ _ _ h => Rect.part_disjoint hdiv h
theorem partSets_cover : (Finset.univ : Finset (Fin 32)).biUnion partSet = Finset.univ := Rect.biUnion_part hdiv

theorem iPts_parts (d : Dev nD) (f : Buf (Elt F) (iLoc d)) :
    (iLoc d ↦{fullShare} f : sProp 𝕄) = bigSep Finset.univ fun j : Fin 32 => iLoc d ↦[partSet j]{fullShare} f := by
  rw [← pointsTo_biUnion Finset.univ (ℓ := iLoc d) partSet partSets_disjoint, partSets_cover]; try rfl
theorem gPts_parts (d : Dev nD) (f : Buf (Elt F) (gLoc d)) :
    (gLoc d ↦{fullShare} f : sProp 𝕄) = bigSep Finset.univ fun j : Fin 32 => gLoc d ↦[partSet j]{fullShare} f := by
  rw [← pointsTo_biUnion Finset.univ (ℓ := gLoc d) partSet partSets_disjoint, partSets_cover]; try rfl

/-- Part `2 i + c` from the pair (SparseCore `c`, vector subcore `i`), and back. -/
def partEquiv : Fin 2 × Fin 16 ≃ Fin 32 where
  toFun p := partOf p.1 p.2
  invFun j := (⟨j.val % 2, Nat.mod_lt _ (by norm_num)⟩, ⟨j.val / 2, by have := j.isLt; omega⟩)
  left_inv := by
    rintro ⟨c, i⟩
    refine Prod.ext (Fin.ext ?_) (Fin.ext ?_)
    · show (2 * i.val + c.val) % 2 = c.val
      have := c.isLt; omega
    · show (2 * i.val + c.val) / 2 = i.val
      have := c.isLt; omega
  right_inv := by
    intro j
    apply Fin.ext
    show 2 * (j.val / 2) + j.val % 2 = j.val
    omega

theorem bigSep_parts (Φ : Fin 32 → sProp 𝕄) :
    bigSep Finset.univ Φ = bigSep Finset.univ fun c : Fin 2 => bigSep Finset.univ fun i : Fin 16 => Φ (partOf c i) := by
  rw [bigSep_univ_equiv partEquiv Φ, bigSep_univ_prod]; rfl

end Cert.Proof.KI

end
-- ==== Proof.KI.Final.lean ====
/-
  What each array of the kernel program holds when the program ends, as functions of the launch
  memory: the gathered hidden row reshaped to [1, 2048], the position embedding and the weights
  reshaped likewise, the TensorCore region's [1, 100000, 2048] result, and its transpose — the
  program's result.
-/
import proofs.«217057_g30459908063406_cont_9to1_2067_16_alg».proof.Proof.KI.Pay

noncomputable section

namespace Cert.Proof.KI

open Cert.KernelIdeal Cert.KernelIdeal.Gen
open Idealize.ShloMosaic

variable {F : FTy → Type} [FloatOps F]
variable (m : (ℓ : Loc nD τ sig) → Buf (Elt F) ℓ)

/-- The gathered entries, as one row. -/
abbrev x3 (d : Dev nD) : FVec F S1x2048 .f32 := shapeCast S1x2048 (gath m d : FVec F S2048 .f32) Facts₀.shapeCasts_S2048_S1x2048
/-- The position embedding, as one row. -/
abbrev p4 (d : Dev nD) : FVec F S1x2048 .f32 :=
  shapeCast S1x2048 (m ((SparseCore.T d).loc main_arg2) : FVec F S2048x1 .f32) Facts₀.shapeCasts_S2048x1_S1x2048
/-- The projection's weights, as one row. -/
abbrev w5 (d : Dev nD) : FVec F S1x100000 .f32 :=
  shapeCast S1x100000 (m ((SparseCore.T d).loc main_arg3) : FVec F S100000x1 .f32) Facts₀.shapeCasts_S100000x1_S1x100000
/-- The region's result: the logits, vocabulary-major. -/
abbrev out6 (d : Dev nD) : FVec F S1x100000x2048 .f32 :=
  outT (x3 m d) (p4 m d) (w5 m d) (m ((SparseCore.T d).loc main_arg4) : FVec F S100000 .f32)
/-- The program's result: the logits, position-major. -/
abbrev out7 (d : Dev nD) : FVec F S1x2048x100000 .f32 :=
  transpose S1x2048x100000 [0, 2, 1] (out6 m d) Facts₀.transposes_S1x100000x2048_S1x2048x100000_0_2_1

end Cert.Proof.KI

end
-- ==== Proof.KI.HostStep.lean ====
/-
  One host operation stepped while holding just its two buffers.
  An operation of @main that reads one array and writes another runs, for a thread at its region
  boundary that owns both arrays whole, and gives both back: the array it read unchanged, the
  array it wrote holding the operation's function of what was read. The library's rule is stated
  over a set of whole buffers at a valuation of all of the device's buffers; here it is restated
  over the two arrays as two separate ownerships at given contents, which is the form a proof that
  carries each array's ownership on its own steps through @main with.
-/
import Idealize.ShloMosaic.Lib.StableHlo.Run

noncomputable section

namespace Cert.Proof.KI

open Idealize.ShloMosaic Idealize.ShloMosaic.StableHlo
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}
variable {Ix : Type} [DecidableEq Ix] {Name : Type} [DecidableEq Name] {U : Type} [URA U] {Lvl : Type} [Preorder Lvl]

local notation "𝕄" => MT nD τ sig Ix Val Name U Lvl

variable {defs : Defs nD τ sig Val Λ} (𝒱 : Variants) (c : Thread nD τ) (bd : Option 𝒱.V) (E : Set Name)
variable {α : Type}

/-- An operation that touches exactly two distinct buffers, writes the second and determines what it writes:
    from the boundary and the two buffers whole at contents fx and fy, it runs, and the continuation (at
    whatever the operation answers) starts from the boundary, the first buffer as it was and the second at
    the contents new, where new is what the operation leaves there from any contents of the device that have
    fx in the first buffer. V₀ is any contents of the device's buffers: only its type is used. -/
theorem wp_hlo_two {hp : c.2.kind.runsHlo = true} (op : HloOp τ sig Val) (x' y' : DevRef τ sig) (hxy : x' ≠ y')
    (hb : op.bufs = {x', y'}) (hw : op.writes = {y'}) (hf : op.fresh = ∅) (V₀ : Valuation τ sig Val)
    (fx : x'.ty.Contents Val) (fy new : y'.ty.Contents Val)
    (hnew : ∀ V : Valuation τ sig Val, V x' = fx → op.result V y' = new)
    {k : ((b : op.writes) → b.1.ty.Contents Val) → Prog (TpuEff nD τ sig Val Λ c.2) α} {Q : α → sProp 𝕄} :
    iprop(boundary c ∗ ((c.1, x') ↦{fullShare} fx) ∗ ((c.1, y') ↦{fullShare} fy))
      ⊢ iprop((∀ r, (boundary c ∗ ((c.1, x') ↦{fullShare} fx) ∗ ((c.1, y') ↦{fullShare} new))
                -∗ wp frame (wpE defs 𝒱 c bd) E (k r) Q)
        -∗ wp frame (wpE defs 𝒱 c bd) E (hlo hp op k) Q) := by
  classical
  have hVx : Function.update (Function.update V₀ y' fy) x' fx x' = fx := Function.update_self ..
  have hVy : Function.update (Function.update V₀ y' fy) x' fx y' = fy := by
    rw [Function.update_of_ne hxy.symm, Function.update_self]
  have hnx : x' ∉ ({y'} : Finset (DevRef τ sig)) := by rw [Finset.mem_singleton]; exact hxy
  have H := wp_hlo_within (defs := defs) 𝒱 c bd E (hp := hp) (op := op) (k := k) (S := op.bufs) subset_rfl
    (V := Function.update (Function.update V₀ y' fy) x' fx) (Q := Q) (hf := hf)
  have e1 : (held c op.bufs (Function.update (Function.update V₀ y' fy) x' fx) : sProp 𝕄)
      = iprop(((c.1, x') ↦{fullShare} fx) ∗ ((c.1, y') ↦{fullShare} fy)) := by
    unfold held
    rw [hb, bigSep_insert hnx, bigSep_singleton, hVx, hVy]
    rfl
  have e2 : (held c op.bufs (op.result (Function.update (Function.update V₀ y' fy) x' fx)) : sProp 𝕄)
      = iprop(((c.1, x') ↦{fullShare} fx) ∗ ((c.1, y') ↦{fullShare} new)) := by
    unfold held
    rw [hb, bigSep_insert hnx, bigSep_singleton, op.result_of_not_mem _ (by rw [hw]; exact hnx), hVx, hnew _ hVx]
    rfl
  rw [e1, e2] at H
  iintro H0 Hk
  iapply H $$ H0
  iintro H1
  ispecialize Hk $$ %(op.fn fun b => Function.update (Function.update V₀ y' fy) x' fx b.1)
  iapply Hk
  iexact H1

/-! ## A reshape and a one-operand operation, over their two arrays -/

/-- A reshape of array x into array y, holding the two whole: y ends with x's elements in row-major order at its
    own shape, x is unchanged. The continuation is proved for whatever the operation answers. -/
theorem wp_reshape_pts {hp : c.2.kind.runsHlo = true} (x y : Ref sig .tc) (hxy : x ≠ y) (he : x.ty.elt = y.ty.elt)
    (hn : x.ty.shape.ShapeCasts y.ty.shape)
    (hx : x.space ≠ .host ∧ (Proc.devRef .tc x : DevRef τ sig).isScoped = false)
    (hy : y.space ≠ .host ∧ (Proc.devRef .tc y : DevRef τ sig).isScoped = false)
    (V₀ : Valuation τ sig Val) (fx : x.ty.Contents Val) (fy : y.ty.Contents Val)
    {k : ((b : (StableHlo.reshape (τ := τ) (Val := Val) x y he hn hx hy).writes) → b.1.ty.Contents Val) → Prog (TpuEff nD τ sig Val Λ c.2) α}
    {Q : α → sProp 𝕄} :
    iprop(boundary c ∗ ((c.1, Proc.devRef .tc x) ↦{fullShare} fx) ∗ ((c.1, Proc.devRef .tc y) ↦{fullShare} fy))
      ⊢ iprop((∀ r, (boundary c ∗ ((c.1, Proc.devRef .tc x) ↦{fullShare} fx)
                  ∗ ((c.1, Proc.devRef .tc y) ↦{fullShare} (fun i => he ▸ shapeCast y.ty.shape fx hn i : y.ty.Contents Val)))
                -∗ wp frame (wpE defs 𝒱 c bd) E (k r) Q)
        -∗ wp frame (wpE defs 𝒱 c bd) E (hlo hp (StableHlo.reshape x y he hn hx hy) k) Q) :=
  wp_hlo_two 𝒱 c bd E (StableHlo.reshape x y he hn hx hy) (Proc.devRef .tc x) (Proc.devRef .tc y) (devRef_ne_of_ne hxy)
    rfl rfl rfl V₀ fx fy _ (fun V hV => by rw [reshape_result]; exact congrArg (fun (u : x.ty.Contents Val) => (fun i => he ▸ shapeCast y.ty.shape u hn i : y.ty.Contents Val)) hV)

/-- A one-operand operation from array x into array y, holding the two whole: y ends with the operation's function
    of x's contents, x is unchanged. The continuation is proved for whatever the operation answers. -/
theorem wp_unary_pts {hp : c.2.kind.runsHlo = true} (x y : Ref sig .tc) (hxy : x ≠ y) (f : x.ty.Contents Val → y.ty.Contents Val)
    (hx : x.space ≠ .host ∧ (Proc.devRef .tc x : DevRef τ sig).isScoped = false)
    (hy : y.space ≠ .host ∧ (Proc.devRef .tc y : DevRef τ sig).isScoped = false)
    (V₀ : Valuation τ sig Val) (fx : x.ty.Contents Val) (fy : y.ty.Contents Val)
    {k : ((b : (StableHlo.unary (τ := τ) (Val := Val) x y f hx hy).writes) → b.1.ty.Contents Val) → Prog (TpuEff nD τ sig Val Λ c.2) α}
    {Q : α → sProp 𝕄} :
    iprop(boundary c ∗ ((c.1, Proc.devRef .tc x) ↦{fullShare} fx) ∗ ((c.1, Proc.devRef .tc y) ↦{fullShare} fy))
      ⊢ iprop((∀ r, (boundary c ∗ ((c.1, Proc.devRef .tc x) ↦{fullShare} fx) ∗ ((c.1, Proc.devRef .tc y) ↦{fullShare} f fx))
                -∗ wp frame (wpE defs 𝒱 c bd) E (k r) Q)
        -∗ wp frame (wpE defs 𝒱 c bd) E (hlo hp (StableHlo.unary x y f hx hy) k) Q) :=
  wp_hlo_two 𝒱 c bd E (StableHlo.unary x y f hx hy) (Proc.devRef .tc x) (Proc.devRef .tc y) (devRef_ne_of_ne hxy)
    rfl rfl rfl V₀ fx fy _ (fun V hV => by rw [unary_result]; exact congrArg f hV)

/-! ## The same for a statement of @main: the operation continued by nothing -/

/-- A reshape written as a statement, its answer not bound: it runs, and the post holds of the unit value once it
    follows from the boundary, x as it was and y reshaped. -/
theorem wp_reshape_stmt {hp : c.2.kind.runsHlo = true} (x y : Ref sig .tc) (hxy : x ≠ y) (he : x.ty.elt = y.ty.elt)
    (hn : x.ty.shape.ShapeCasts y.ty.shape)
    (hx : x.space ≠ .host ∧ (Proc.devRef .tc x : DevRef τ sig).isScoped = false)
    (hy : y.space ≠ .host ∧ (Proc.devRef .tc y : DevRef τ sig).isScoped = false)
    (V₀ : Valuation τ sig Val) (fx : x.ty.Contents Val) (fy : y.ty.Contents Val) {Φ : PUnit → sProp 𝕄} :
    iprop(boundary c ∗ ((c.1, Proc.devRef .tc x) ↦{fullShare} fx) ∗ ((c.1, Proc.devRef .tc y) ↦{fullShare} fy))
      ⊢ iprop(((boundary c ∗ ((c.1, Proc.devRef .tc x) ↦{fullShare} fx)
                  ∗ ((c.1, Proc.devRef .tc y) ↦{fullShare} (fun i => he ▸ shapeCast y.ty.shape fx hn i : y.ty.Contents Val)))
                -∗ Φ ⟨⟩)
        -∗ wp frame (wpE defs 𝒱 c bd) E (hlo hp (StableHlo.reshape (Val := Val) x y he hn hx hy) (fun _ => .ret (⟨⟩ : PUnit))) Φ) := by
  iintro H0 Hk
  iapply (wp_reshape_pts (defs := defs) 𝒱 c bd E (hp := hp) x y hxy he hn hx hy V₀ fx fy (k := fun _ => .ret (⟨⟩ : PUnit)) (Q := Φ)) $$ H0
  iintro %r H1
  rw [wp_ret]; imodintro
  iapply Hk
  iexact H1

/-- A one-operand operation written as a statement: it runs, and the post holds of the unit value once it follows
    from the boundary, x as it was and y at the operation's function of x's contents. -/
theorem wp_unary_stmt {hp : c.2.kind.runsHlo = true} (x y : Ref sig .tc) (hxy : x ≠ y) (f : x.ty.Contents Val → y.ty.Contents Val)
    (hx : x.space ≠ .host ∧ (Proc.devRef .tc x : DevRef τ sig).isScoped = false)
    (hy : y.space ≠ .host ∧ (Proc.devRef .tc y : DevRef τ sig).isScoped = false)
    (V₀ : Valuation τ sig Val) (fx : x.ty.Contents Val) (fy : y.ty.Contents Val) {Φ : PUnit → sProp 𝕄} :
    iprop(boundary c ∗ ((c.1, Proc.devRef .tc x) ↦{fullShare} fx) ∗ ((c.1, Proc.devRef .tc y) ↦{fullShare} fy))
      ⊢ iprop(((boundary c ∗ ((c.1, Proc.devRef .tc x) ↦{fullShare} fx) ∗ ((c.1, Proc.devRef .tc y) ↦{fullShare} f fx)) -∗ Φ ⟨⟩)
        -∗ wp frame (wpE defs 𝒱 c bd) E (hlo hp (StableHlo.unary (Val := Val) x y f hx hy) (fun _ => .ret (⟨⟩ : PUnit))) Φ) := by
  iintro H0 Hk
  iapply (wp_unary_pts (defs := defs) 𝒱 c bd E (hp := hp) x y hxy f hx hy V₀ fx fy (k := fun _ => .ret (⟨⟩ : PUnit)) (Q := Φ)) $$ H0
  iintro %r H1
  rw [wp_ret]; imodintro
  iapply Hk
  iexact H1

end Cert.Proof.KI

end
-- ==== Proof.KI.Main.lean ====
/-
  @main on the TensorCore, the launch element, and the run of the whole kernel program.
  @main flattens the index array and the table, hands both and the result array to the gather
  call — the index and result arrays cut into their 32 parts, the table as 32 read shares — and
  takes them back, the result now holding the table's entries at the indices; reshapes the gathered
  entries, the position embedding and the weights into rows; runs the TensorCore region, which
  leaves `w[v] · (x[t] + p[t]) + b[v]` at row `v`, column `t` of its result; and transposes that.
  No array other than the one an operation writes changes, so the five arguments end as launched.
  The TensorCore region's own proof enters here through three facts — what ghost state it needs on
  each device, that the launch element funds it, and its run — taken as hypotheses and supplied by
  the region's module.
-/
import proofs.«217057_g30459908063406_cont_9to1_2067_16_alg».proof.Proof.KI.Tile
import proofs.«217057_g30459908063406_cont_9to1_2067_16_alg».proof.Proof.KI.Split
import proofs.«217057_g30459908063406_cont_9to1_2067_16_alg».proof.Proof.KI.Final
import proofs.«217057_g30459908063406_cont_9to1_2067_16_alg».proof.Proof.KI.HostStep

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-- A location of device `d`'s HBM, as its TensorCore names it. -/
abbrev tl (d : Dev nD) (b : Ref sig .tc) : Loc nD τ sig := (SparseCore.T d).loc b

omit m ρ in
/-- The TensorCore's thirteen unscoped arrays, one by one. -/
theorem unscopedBufs_eq (d : Dev nD) (W : (b : Ref sig .tc) → Buf (Elt F) ((d.tc : Thread nD τ).loc b)) :
    (unscopedBufs d W : sProp 𝕄) = iprop((tl d main_arg0 ↦{fullShare} W main_arg0) ∗ (tl d main_arg1 ↦{fullShare} W main_arg1)
      ∗ (tl d main_arg2 ↦{fullShare} W main_arg2) ∗ (tl d main_arg3 ↦{fullShare} W main_arg3) ∗ (tl d main_arg4 ↦{fullShare} W main_arg4)
      ∗ (tl d main_v0 ↦{fullShare} W main_v0) ∗ (tl d main_v1 ↦{fullShare} W main_v1) ∗ (tl d main_v2 ↦{fullShare} W main_v2)
      ∗ (tl d main_v3 ↦{fullShare} W main_v3) ∗ (tl d main_v4 ↦{fullShare} W main_v4) ∗ (tl d main_v5 ↦{fullShare} W main_v5)
      ∗ (tl d main_v6 ↦{fullShare} W main_v6) ∗ (tl d main_v7 ↦{fullShare} W main_v7)) := by
  unfold unscopedBufs
  rw [show (Finset.univ.filter fun b : Ref sig .tc => ¬ b.isScoped)
      = {main_arg0, main_arg1, main_arg2, main_arg3, main_arg4, main_v0, main_v1, main_v2, main_v3, main_v4, main_v5, main_v6, main_v7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

variable [FloatOps F]

omit ρ in
/-- A call's tasks over the SparseCore's sixteen vector subcores, re-indexed by the literal sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit ρ in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit ρ in
/-- A SparseCore's operands are its tasks' operands, its results its tasks' results: nothing to do. -/
theorem vecSplit : (K (F := F)).VecSplit' (P m) 0 := by
  intro d c
  show (bigSep Finset.univ fun i : Fin 16 => goPay m d (partOf (Fin.cast nCore_zero c) i)) ⊢ |={Set.univ}=> iprop(
      (bigSep Finset.univ fun i : Fin ((K (F := F)).nSub 0) => goPay m d (partOf (Fin.cast nCore_zero c) (Fin.cast nSub_zero i)))
      ∗ ((bigSep Finset.univ fun i : Fin ((K (F := F)).nSub 0) => tdPay m d (partOf (Fin.cast nCore_zero c) (Fin.cast nSub_zero i)))
          -∗ bigSep Finset.univ fun i : Fin 16 => tdPay m d (partOf (Fin.cast nCore_zero c) i)))
  rw [bigSep_tasks (F := F) (fun i => goPay m d (partOf (Fin.cast nCore_zero c) i)),
    bigSep_tasks (F := F) (fun i => tdPay m d (partOf (Fin.cast nCore_zero c) i))]
  iintro H; imodintro
  isplitl [H]; · iexact H
  iintro H; iexact H

omit ρ in
/-- What the call takes for the two SparseCores: the index array and the result array by parts, the table by shares. -/
theorem st0_eq (d : Dev nD) : (bigSep Finset.univ fun c : Fin ((K (F := F)).nCore 0) => (P m).st 0 d c)
    = iprop((bigSep Finset.univ fun j : Fin 32 => iPartPts m d j) ∗ (bigSep Finset.univ fun j : Fin 32 => tShPts m d j)
        ∗ (bigSep Finset.univ fun j : Fin 32 => gPartPts d j (m (gLoc d)))) := by
  show (bigSep Finset.univ fun c : Fin ((K (F := F)).nCore 0) => (fun c' : Fin 2 => bigSep Finset.univ fun i : Fin 16 => goPay m d (partOf c' i)) (Fin.cast nCore_zero c)) = _
  rw [bigSep_cores (F := F) (fun c' : Fin 2 => bigSep Finset.univ fun i : Fin 16 => goPay m d (partOf c' i)),
    ← bigSep_parts (fun j => goPay m d j), bigSep_sep', bigSep_sep']
omit ρ in
theorem dn0_eq (d : Dev nD) : (bigSep Finset.univ fun c : Fin ((K (F := F)).nCore 0) => (P m).dn 0 d c)
    = iprop((bigSep Finset.univ fun j : Fin 32 => iPartPts m d j) ∗ (bigSep Finset.univ fun j : Fin 32 => tShPts m d j)
        ∗ (bigSep Finset.univ fun j : Fin 32 => gPartPts d j (gath m d))) := by
  show (bigSep Finset.univ fun c : Fin ((K (F := F)).nCore 0) => (fun c' : Fin 2 => bigSep Finset.univ fun i : Fin 16 => tdPay m d (partOf c' i)) (Fin.cast nCore_zero c)) = _
  rw [bigSep_cores (F := F) (fun c' : Fin 2 => bigSep Finset.univ fun i : Fin 16 => tdPay m d (partOf c' i)),
    ← bigSep_parts (fun j => tdPay m d j), bigSep_sep', bigSep_sep']

omit m ρ in
/-- The TensorCore's handshake state before call `n` opens into what it owes and the rest. -/
theorem tcSt_open (d : Dev nD) (n : ℕ) : ∃ R : sProp 𝕄, ((K (F := F)).tcSt EH d n : sProp 𝕄)
    = iprop((∃ W, ⌜(K (F := F)).WBelow (SparseCore.T d) W (8 * n)⌝ ∗ owes (SparseCore.T d) ((K (F := F)).Otc d n) W) ∗ R) := ⟨_, rfl⟩

section Main

-- what the launch hands the TensorCore for its kernel region; the region's own module supplies it and the region's run
variable (RG : Dev nD → sProp (MT nD τ sig (HIx 1) (Elt F) ℕ UU ℕ))

/-- The region's run, as the module that proves it states it. -/
def RegionRun : Prop :=
  ∀ (d : Dev nD) (x p : FVec F S1x2048 .f32) (w : FVec F S1x100000 .f32) (b : FVec F S100000 .f32)
      (O : CellTallies nD τ sig (HIx 1)) (W : Waits sig (HIx 1)), (∀ g, O g none = 0) →
    (iprop(levAts (K (F := F)).L (K (F := F)).lev ∗ RG d ∗ boundary (SparseCore.T d)
        ∗ (tl d main_v3 ↦{fullShare} x) ∗ (tl d main_v4 ↦{fullShare} p) ∗ (tl d main_v5 ↦{fullShare} w)
        ∗ (tl d main_arg4 ↦{fullShare} b) ∗ (∃ f, tl d main_v6 ↦{fullShare} f) ∗ owes (SparseCore.T d) O W : sProp 𝕄)
      ⊢ wp frame (wpE ((K (F := F)).defs (D (F := F))) 𝒱 (SparseCore.T d) none) Set.univ
          (Prog.lift (.customCall (SparseCore.inner (Pipeline.entry 0)) ()))
          fun _ => iprop(boundary (SparseCore.T d)
            ∗ (tl d main_v3 ↦{fullShare} x) ∗ (tl d main_v4 ↦{fullShare} p) ∗ (tl d main_v5 ↦{fullShare} w)
            ∗ (tl d main_arg4 ↦{fullShare} b) ∗ (tl d main_v6 ↦{fullShare} outT x p w b)
            ∗ ∃ W', ⌜∀ q ∈ W', q ∈ W ∨ q.2 = none⌝ ∗ owes (SparseCore.T d) O W'))

/-- What @main leaves the claim: the result array at the logits, the five arguments as launched. -/
abbrev FIN (d : Dev nD) : sProp 𝕄 :=
  iprop((tl d main_v7 ↦{fullShare} (out7 m d : FVec F S1x2048x100000 .f32)) ∗ (tl d main_arg0 ↦{fullShare} m (tl d main_arg0))
    ∗ (tl d main_arg1 ↦{fullShare} m (tl d main_arg1)) ∗ (tl d main_arg2 ↦{fullShare} m (tl d main_arg2))
    ∗ (tl d main_arg3 ↦{fullShare} m (tl d main_arg3)) ∗ (tl d main_arg4 ↦{fullShare} m (tl d main_arg4)))

set_option maxHeartbeats 4000000 in
theorem hmain (hreg : RegionRun (F := F) RG) (κ : GSem nD τ sig → ℕ) (d : Dev nD) :
    iprop((K (F := F)).ctx EH (P m) κ ∗ (K (F := F)).tcSt EH d 0 ∗ (K (F := F)).tcRes m ρ d ∗ RG d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Ha2, Ha3, Ha4, Hv0, Hv1, Hv2, Hv3, Hv4, Hv5, Hv6, Hv7⟩, -, -⟩, HG⟩
  -- the index array, flat
  iapply (wp_reshape_stmt (defs := (K (F := F)).defs (D (F := F))) 𝒱 (SparseCore.T d : Thread nD τ) none Set.univ main_arg0 main_v0 (by decide) rfl
      Facts₀.shapeCasts_S1x2048_S2048 ⟨by decide, rfl⟩ ⟨by decide, rfl⟩ (fun b => m (d, b)) (m (tl d main_arg0)) (m (tl d main_v0))) $$ [Hb Ha0 Hv0]
  · isplitl [Hb]; · iexact Hb
    isplitl [Ha0]; · iexact Ha0
    iexact Hv0
  iintro ⟨Hb, Ha0, Hv0⟩
  -- the table, flat
  iapply (wp_reshape_stmt (defs := (K (F := F)).defs (D (F := F))) 𝒱 (SparseCore.T d : Thread nD τ) none Set.univ main_arg1 main_v1 (by decide) rfl
      Facts₀.shapeCasts_S100000x1_S100000 ⟨by decide, rfl⟩ ⟨by decide, rfl⟩ (fun b => m (d, b)) (m (tl d main_arg1)) (m (tl d main_v1))) $$ [Hb Ha1 Hv1]
  · isplitl [Hb]; · iexact Hb
    isplitl [Ha1]; · iexact Ha1
    iexact Hv1
  iintro ⟨Hb, Ha1, Hv1⟩
  -- the gather call: the index array and the result array go out by parts, the table by shares
  ihave Hv0p := (Entails.of_eq (iPts_parts (F := F) d (idx1 m d))) $$ Hv0
  ihave Hv2p := (Entails.of_eq (gPts_parts (F := F) d (m (gLoc d)))) $$ Hv2
  ihave Hv1s := (Transfers.pointsTo_toks_split (ℓ := tLoc d) (S := Finset.univ) (f := tab1 m d) fullShare 32) $$ Hv1
  icases Hv1s with ⟨Hv1r, Hv1t⟩
  iapply ((K (F := F)).wp_run (D (F := F)) 𝒱 (EH := EH) (P := P m) κ d 0) $$ [Hst Hv0p Hv1t Hv2p Hb Ha0 Ha1 Ha2 Ha3 Ha4 Hv3 Hv4 Hv5 Hv6 Hv7 Hv1r HG]
  isplitr; · iexact Hctx
  isplitl [Hst]; · iexact Hst
  isplitl [Hv0p Hv1t Hv2p]
  · rw [st0_eq]
    isplitl [Hv0p]; · iexact Hv0p
    isplitl [Hv1t]; · iexact Hv1t
    iexact Hv2p
  iintro ⟨Hst, Hdn⟩
  ihave Hdn' := (Entails.of_eq (dn0_eq m d)) $$ Hdn
  icases Hdn' with ⟨Hv0p, Hv1t, Hv2p⟩
  ihave Hv0 := (Entails.of_eq (iPts_parts (F := F) d (idx1 m d)).symm) $$ Hv0p
  ihave Hv2 := (Entails.of_eq (gPts_parts (F := F) d (gath m d)).symm) $$ Hv2p
  ihave Hv1 := (Transfers.pointsTo_toks_join (ℓ := tLoc d) (S := Finset.univ) (f := tab1 m d) fullShare 32) $$ [Hv1r Hv1t]
  · isplitl [Hv1r]; · iexact Hv1r
    iexact Hv1t
  -- the gathered entries, the position embedding and the weights, each as one row
  iapply (wp_reshape_stmt (defs := (K (F := F)).defs (D (F := F))) 𝒱 (SparseCore.T d : Thread nD τ) none Set.univ main_v2 main_v3 (by decide) rfl
      Facts₀.shapeCasts_S2048_S1x2048 ⟨by decide, rfl⟩ ⟨by decide, rfl⟩ (fun b => m (d, b)) (gath m d) (m (tl d main_v3))) $$ [Hb Hv2 Hv3]
  · isplitl [Hb]; · iexact Hb
    isplitl [Hv2]; · iexact Hv2
    iexact Hv3
  iintro ⟨Hb, Hv2, Hv3⟩
  iapply (wp_reshape_stmt (defs := (K (F := F)).defs (D (F := F))) 𝒱 (SparseCore.T d : Thread nD τ) none Set.univ main_arg2 main_v4 (by decide) rfl
      Facts₀.shapeCasts_S2048x1_S1x2048 ⟨by decide, rfl⟩ ⟨by decide, rfl⟩ (fun b => m (d, b)) (m (tl d main_arg2)) (m (tl d main_v4))) $$ [Hb Ha2 Hv4]
  · isplitl [Hb]; · iexact Hb
    isplitl [Ha2]; · iexact Ha2
    iexact Hv4
  iintro ⟨Hb, Ha2, Hv4⟩
  iapply (wp_reshape_stmt (defs := (K (F := F)).defs (D (F := F))) 𝒱 (SparseCore.T d : Thread nD τ) none Set.univ main_arg3 main_v5 (by decide) rfl
      Facts₀.shapeCasts_S100000x1_S1x100000 ⟨by decide, rfl⟩ ⟨by decide, rfl⟩ (fun b => m (d, b)) (m (tl d main_arg3)) (m (tl d main_v5))) $$ [Hb Ha3 Hv5]
  · isplitl [Hb]; · iexact Hb
    isplitl [Ha3]; · iexact Ha3
    iexact Hv5
  iintro ⟨Hb, Ha3, Hv5⟩
  -- the TensorCore region: what the TensorCore still owes the handshakes is nothing (the one call is over)
  obtain ⟨R1, hR1⟩ := tcSt_open (F := F) d ((0 : Fin 1).val + 1)
  ihave Hst := (Entails.of_eq hR1) $$ Hst
  icases Hst with ⟨⟨%W, %hW, HO⟩, HR⟩
  have hOtc : (K (F := F)).Otc d ((0 : Fin 1).val + 1) = 0 := (K (F := F)).Otc_end d (le_refl _)
  ihave HO := (Entails.of_eq (show (owes (SparseCore.T d) ((K (F := F)).Otc d ((0 : Fin 1).val + 1)) W : sProp 𝕄) = owes (SparseCore.T d) 0 W by rw [hOtc])) $$ HO
  ihave Hlev := ((K (F := F)).ctx_levAts (EH := EH) (P := P m) κ) $$ Hctx
  iapply (wp_wand_r frame _ _) $$ [Hlev HG Hb Hv3 Hv4 Hv5 Ha4 Hv6 HO Ha0 Ha1 Ha2 Ha3 Hv0 Hv1 Hv2 Hv7 HR]
  isplitl [Hlev HG Hb Hv3 Hv4 Hv5 Ha4 Hv6 HO]
  · iapply (hreg d (x3 m d) (p4 m d) (w5 m d) (m (tl d main_arg4)) 0 W (fun _ => rfl))
    isplitl [Hlev]; · iexact Hlev
    isplitl [HG]; · iexact HG
    isplitl [Hb]; · iexact Hb
    isplitl [Hv3]; · iexact Hv3
    isplitl [Hv4]; · iexact Hv4
    isplitl [Hv5]; · iexact Hv5
    isplitl [Ha4]; · iexact Ha4
    isplitl [Hv6]; · iexists _; iexact Hv6
    iexact HO
  iintro %_ ⟨Hb, Hv3, Hv4, Hv5, Ha4, Hv6, %W', %hW', HO⟩
  -- the transpose
  iapply (wp_unary_stmt (defs := (K (F := F)).defs (D (F := F))) 𝒱 (SparseCore.T d : Thread nD τ) none Set.univ main_v6 main_v7 (by decide) _
      ⟨by decide, rfl⟩ ⟨by decide, rfl⟩ (fun b => m (d, b)) (out6 m d) (m (tl d main_v7))) $$ [Hb Hv6 Hv7]
  · isplitl [Hb]; · iexact Hb
    isplitl [Hv6]; · iexact Hv6
    iexact Hv7
  iintro ⟨Hb, Hv6, Hv7⟩
  imodintro
  iapply (show iprop((K (F := F)).tcSt EH d ((0 : Fin 1).val + 1) ∗ FIN m d) ⊢ (iprop((K (F := F)).tcSt EH d 1 ∗ FIN m d) : sProp 𝕄) from BI.Entails.refl _)
  isplitl [HO HR]
  · iapply (Entails.of_eq hR1.symm)
    isplitl [HO]
    · iexists W'; isplitr
      · ipureintro
        intro q hq
        rcases hW' q hq with h | h
        · exact hW q h
        · rw [h, (K (F := F)).lev_none]; exact Nat.zero_le _
      · iapply (Entails.of_eq (show (owes (SparseCore.T d) 0 W' : sProp 𝕄) = owes (SparseCore.T d) ((K (F := F)).Otc d ((0 : Fin 1).val + 1)) W' by rw [hOtc])); iexact HO
    · iexact HR
  isplitl [Hv7]; · iexact Hv7
  isplitl [Ha0]; · iexact Ha0
  isplitl [Ha1]; · iexact Ha1
  isplitl [Ha2]; · iexact Ha2
  isplitl [Ha3]; · iexact Ha3
  iexact Ha4

/-! ## The launch element, the final memory, the run -/

variable [∀ e, Nonempty (Elt F e)]

-- the region's launch element and its funding, from the region's own module
variable (uP : UP)

/-- The certificate's launch element: the handshakes' rounds, the region's staging cells' rounds, no counter yet. -/
def u₀ : UU := (initOf (K (F := F)).hsCells (K (F := F)).hsToks, (uP, 1))

omit [FloatOps F] [∀ e, Nonempty (Elt F e)] in
theorem bigSep_emp' {I : Type} (s : Finset I) : (bigSep s fun _ => iprop(emp)) = (iprop(emp) : sProp 𝕄) := bigSep_emp_const s

omit ρ [∀ e, Nonempty (Elt F e)] in
/-- The launch element splits into the handshakes' share and the region's, which funds the region's ghost state on every
    device; the kernels' own proofs consume nothing of it. -/
theorem hu₀ (hfund : (BI.own (EP (F := F) uP) : sProp 𝕄) ⊢ iprop(|==> bigSep Finset.univ fun d : Dev nD => RG d)) :
    (ownU (u₀ (F := F) uP) : sProp 𝕄)
    ⊢ |={Set.univ}=> iprop(BI.own (EH (initOf (K (F := F)).hsCells (K (F := F)).hsToks)) ∗ (bigSep Finset.univ fun d : Dev nD => RG d)
        ∗ bigSep Finset.univ fun thr : Thread nD τ => bigSep Finset.univ fun q : Fin 1 => (P m).x q thr) := by
  unfold u₀
  iintro Hu
  ihave H := (ownU_pair (initOf (K (F := F)).hsCells (K (F := F)).hsToks) ((uP, 1) : UP × Counters)) $$ Hu
  icases H with ⟨HH, HR⟩
  ihave H2 := (own_pair_emb (embR : Emb (UP × Counters) 𝕄) uP (1 : Counters)) $$ HR
  icases H2 with ⟨HP, -⟩
  have hfund' : (BI.own (((Emb.inl : Emb UP (UP × Counters)).trans (embR : Emb (UP × Counters) 𝕄)) uP) : sProp 𝕄)
      ⊢ iprop(|==> bigSep Finset.univ fun d : Dev nD => RG d) := hfund
  imod (hfund') $$ HP with HG
  imodintro
  isplitl [HH]; · iexact HH
  isplitl [HG]; · iexact HG
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-- What the claim reads off the final memory of device `d`. -/
def fq (d : Dev nD) (s' : Phys nD τ sig (Elt F)) : Prop :=
  s'.mem.mem (tl d main_v7) = out7 m d ∧ s'.mem.mem (tl d main_arg0) = m (tl d main_arg0) ∧ s'.mem.mem (tl d main_arg1) = m (tl d main_arg1)
    ∧ s'.mem.mem (tl d main_arg2) = m (tl d main_arg2) ∧ s'.mem.mem (tl d main_arg3) = m (tl d main_arg3) ∧ s'.mem.mem (tl d main_arg4) = m (tl d main_arg4)

omit ρ [∀ e, Nonempty (Elt F e)] in
/-- An array owned whole at given contents holds them in the final memory. -/
theorem agree_one (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H' := (persistent_entails_right (SI_pointsTo_agree (st := s') (ℓ := ℓ) (I := Finset.univ) (q := fullShare) (f := f))) $$ [HSI H]
  · isplitl [HSI] <;> iassumption
  icases H' with ⟨%h1, HSI, -⟩
  isplitr
  · ipureintro; exact funext fun i => h1 i (Finset.mem_univ i)
  · iexact HSI

omit ρ [∀ e, Nonempty (Elt F e)] in
set_option maxRecDepth 16384 in
theorem hfin (d : Dev nD) (s' : Phys nD τ sig (Elt F)) : iprop(FIN m d ∗ SI s') ⊢ (⌜fq m d s'⌝ : sProp 𝕄) := by
  iintro ⟨⟨H7, H0, H1, H2, H3, H4⟩, HSI⟩
  ihave H := (agree_one s' _ _) $$ [H7 HSI]; · isplitl [H7] <;> iassumption
  icases H with ⟨%h7, HSI⟩
  ihave H := (agree_one s' _ _) $$ [H0 HSI]; · isplitl [H0] <;> iassumption
  icases H with ⟨%h0, HSI⟩
  ihave H := (agree_one s' _ _) $$ [H1 HSI]; · isplitl [H1] <;> iassumption
  icases H with ⟨%h1, HSI⟩
  ihave H := (agree_one s' _ _) $$ [H2 HSI]; · isplitl [H2] <;> iassumption
  icases H with ⟨%h2, HSI⟩
  ihave H := (agree_one s' _ _) $$ [H3 HSI]; · isplitl [H3] <;> iassumption
  icases H with ⟨%h3, HSI⟩
  ihave H := (agree_one s' _ _) $$ [H4 HSI]; · isplitl [H4] <;> iassumption
  icases H with ⟨%h4, -⟩
  ipureintro; exact ⟨h7, h0, h1, h2, h3, h4⟩

/-- What the program's run establishes: on every device the result array holds the logits (as the kernel program
    computes them from the launch memory) and the five arguments are as launched. -/
def QC : PUnit × MemSt nD τ sig (Elt F) → Prop := fun r => ∀ c : Dev nD,
  r.2.mem ((SparseCore.T c).loc main_v7) = out7 m c ∧ r.2.mem ((SparseCore.T c).loc main_arg0) = m ((SparseCore.T c).loc main_arg0)
    ∧ r.2.mem ((SparseCore.T c).loc main_arg1) = m ((SparseCore.T c).loc main_arg1) ∧ r.2.mem ((SparseCore.T c).loc main_arg2) = m ((SparseCore.T c).loc main_arg2)
    ∧ r.2.mem ((SparseCore.T c).loc main_arg3) = m ((SparseCore.T c).loc main_arg3) ∧ r.2.mem ((SparseCore.T c).loc main_arg4) = m ((SparseCore.T c).loc main_arg4)

/-- The whole program runs: every weakly fair execution of the TensorCore's @main beside the SparseCores' threads
    terminates, nothing faulting, in a memory of which `QC` holds — given the region's run and the funding of its ghost state. -/
theorem run_main_of (hpre : PreOK m) (hfund : (BI.own (EP (F := F) uP) : sProp 𝕄) ⊢ iprop(|==> bigSep Finset.univ fun d : Dev nD => RG d))
    (hreg : RegionRun (F := F) RG) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main RG (FIN m) (u₀ (F := F) uP) (sep_elim_left.trans (hu₀ m RG uP hfund)) (hmain m ρ RG hreg) (fq m) (hfin m) (QC m) (fun _ h => h)

end Main

end Cert.Proof.KI

end
-- ==== Proof.KI.TcCover.lean ====
/-
  The destination blocks of the TensorCore region's result array `[1, 100000, 2048]`. The region
  writes the array in 98 blocks of whole rows: block `g < 97` is rows `[1024 g, 1024 g + 1024)`
  and block 97 is the remaining rows `[99328, 100000)` (97 · 1024 = 99328, and 672 rows are left).
  A row `v < 100000` lies in block `v / 1024` and in no other, so the blocks are pairwise disjoint
  and cover the array; and each block is the set of the unit-stride rectangle the program slices
  the array at. Plain arithmetic on the row coordinate: no float instance, no memory.
-/
import proofs.«217057_g30459908063406_cont_9to1_2067_16_alg».proof.KernelIdeal

noncomputable section

namespace Cert.Proof.KI

open Cert.KernelIdeal
open Idealize.ShloMosaic

/-- A row coordinate of the result array is below 100000. -/
theorem out_row_lt (i : S1x100000x2048.Idx) : (i 1).val < 100000 := (i 1).isLt

/-- Block `g` of the result array: the indices whose row lies in the `g`-th run of 1024 rows (the
    last run, `g = 97`, is cut short by the array's height). -/
def blockSet (g : Fin 98) : Finset S1x100000x2048.Idx :=
  Finset.univ.filter fun i => (i 1).val / 1024 = g.val

/-- Membership by the quotient of the row. -/
theorem mem_blockSet_div {g : Fin 98} {i : S1x100000x2048.Idx} :
    i ∈ blockSet g ↔ (i 1).val / 1024 = g.val := by
  unfold blockSet
  rw [Finset.mem_filter]
  exact ⟨fun h => h.2, fun h => ⟨Finset.mem_univ _, h⟩⟩

/-- Membership by the row's bounds. -/
theorem mem_blockSet {g : Fin 98} {i : S1x100000x2048.Idx} :
    i ∈ blockSet g ↔ 1024 * g.val ≤ (i 1).val ∧ (i 1).val < 1024 * g.val + 1024 := by
  rw [mem_blockSet_div]
  omega

/-- Membership in the last block: the upper bound is the array's height. -/
theorem mem_blockSet_last {i : S1x100000x2048.Idx} :
    i ∈ blockSet ⟨97, by omega⟩ ↔ 99328 ≤ (i 1).val ∧ (i 1).val < 99328 + 672 := by
  rw [mem_blockSet]
  have := out_row_lt i
  show 1024 * 97 ≤ (i 1).val ∧ (i 1).val < 1024 * 97 + 1024 ↔ _
  omega

/-- The block a given index lies in. -/
def blockOf (i : S1x100000x2048.Idx) : Fin 98 := ⟨(i 1).val / 1024, by have := out_row_lt i; omega⟩

theorem mem_blockSet_blockOf (i : S1x100000x2048.Idx) : i ∈ blockSet (blockOf i) :=
  mem_blockSet_div.mpr rfl

theorem eq_blockOf_of_mem {g : Fin 98} {i : S1x100000x2048.Idx} (h : i ∈ blockSet g) : g = blockOf i :=
  Fin.ext (mem_blockSet_div.mp h).symm

/-- Different blocks share no index. -/
theorem blockSet_disjoint {g g' : Fin 98} (h : g ≠ g') : Disjoint (blockSet g) (blockSet g') := by
  rw [Finset.disjoint_left]
  intro i hi hi'
  exact h ((eq_blockOf_of_mem hi).trans (eq_blockOf_of_mem hi').symm)

/-- The blocks are pairwise disjoint. -/
theorem blockSet_pairwiseDisjoint :
    Set.PairwiseDisjoint (↑(Finset.univ : Finset (Fin 98)) : Set (Fin 98)) blockSet :=
  fun _ _ _ _ h => blockSet_disjoint h

/-- The blocks cover the array. -/
theorem blockSet_biUnion : (Finset.univ : Finset (Fin 98)).biUnion blockSet = Finset.univ := by
  ext i
  rw [Finset.mem_biUnion]
  exact ⟨fun _ => Finset.mem_univ _, fun _ => ⟨blockOf i, Finset.mem_univ _, mem_blockSet_blockOf i⟩⟩

/-! ## The blocks as the program's rectangles -/

/-- A full block is the set of the 1024-row rectangle at row `1024 n`. -/
theorem set_unit_block (n : ℕ) (hn : n < 97) (off : Fin S1x100000x2048.rank → ℕ) (hoff : off = ![0, 1024 * n, 0])
    (inb : ∀ a, off a + S1x1024x2048.size a ≤ S1x100000x2048.size a) :
    (Rect.unit (s := S1x100000x2048) off S1x1024x2048.size inb).set = blockSet ⟨n, by omega⟩ := by
  subst hoff
  ext i
  rw [Rect.mem_set_unit, mem_blockSet]
  constructor
  · intro h
    exact h 1
  · intro h a
    match a with
    | ⟨0, _⟩ => exact ⟨Nat.zero_le _, by have h0 : (i 0).val < 1 := (i 0).isLt; show (i 0).val < 0 + 1; omega⟩
    | ⟨1, _⟩ => exact h
    | ⟨2, _⟩ => exact ⟨Nat.zero_le _, by have h2 : (i 2).val < 2048 := (i 2).isLt; show (i 2).val < 0 + 2048; omega⟩

/-- The same with the block named by its index in `Fin 98`. -/
theorem set_unit_blockSet (g : Fin 98) (hg : g.val < 97) (off : Fin S1x100000x2048.rank → ℕ)
    (hoff : off = ![0, 1024 * g.val, 0]) (inb : ∀ a, off a + S1x1024x2048.size a ≤ S1x100000x2048.size a) :
    (Rect.unit (s := S1x100000x2048) off S1x1024x2048.size inb).set = blockSet g :=
  set_unit_block g.val hg off hoff inb

/-- The last block is the set of the 672-row rectangle at row 99328. -/
theorem set_unit_block_last (off : Fin S1x100000x2048.rank → ℕ) (hoff : off = ![0, 99328, 0])
    (inb : ∀ a, off a + S1x672x2048.size a ≤ S1x100000x2048.size a) :
    (Rect.unit (s := S1x100000x2048) off S1x672x2048.size inb).set = blockSet ⟨97, by omega⟩ := by
  subst hoff
  ext i
  rw [Rect.mem_set_unit, mem_blockSet_last]
  constructor
  · intro h
    exact h 1
  · intro h a
    match a with
    | ⟨0, _⟩ => exact ⟨Nat.zero_le _, by have h0 : (i 0).val < 1 := (i 0).isLt; show (i 0).val < 0 + 1; omega⟩
    | ⟨1, _⟩ => exact h
    | ⟨2, _⟩ => exact ⟨Nat.zero_le _, by have h2 : (i 2).val < 2048 := (i 2).isLt; show (i 2).val < 0 + 2048; omega⟩

/-! ## Runs of rows

The same facts for an arbitrary run of rows `[a, b)`: runs that follow each other are disjoint, a
run splits at any row inside it, the run `[0, 100000)` is the whole array, and the unit-stride
rectangle of `n` whole rows at row `a` is the run `[a, a + n)`. -/

/-- The indices whose row lies in `[a, b)`. -/
def rowsIn (a b : ℕ) : Finset S1x100000x2048.Idx :=
  Finset.univ.filter fun i => a ≤ (i 1).val ∧ (i 1).val < b

theorem mem_rowsIn {a b : ℕ} {i : S1x100000x2048.Idx} : i ∈ rowsIn a b ↔ a ≤ (i 1).val ∧ (i 1).val < b := by
  unfold rowsIn
  rw [Finset.mem_filter]
  exact ⟨fun h => h.2, fun h => ⟨Finset.mem_univ _, h⟩⟩

/-- A run ending where another begins, or before, shares no index with it. -/
theorem rowsIn_disjoint {a b c e : ℕ} (h : b ≤ c) : Disjoint (rowsIn a b) (rowsIn c e) := by
  rw [Finset.disjoint_left]
  intro i hi hi'
  rw [mem_rowsIn] at hi hi'
  omega

/-- A run splits at a row inside it. -/
theorem rowsIn_union {a b c : ℕ} (hab : a ≤ b) (hbc : b ≤ c) : rowsIn a c = rowsIn a b ∪ rowsIn b c := by
  ext i
  rw [Finset.mem_union, mem_rowsIn, mem_rowsIn, mem_rowsIn]
  omega

/-- All rows. -/
theorem rowsIn_univ : rowsIn 0 100000 = Finset.univ := by
  ext i
  rw [mem_rowsIn]
  have := out_row_lt i
  exact ⟨fun _ => Finset.mem_univ _, fun _ => ⟨Nat.zero_le _, this⟩⟩

/-- An empty run. -/
theorem rowsIn_self (a : ℕ) : rowsIn a a = ∅ := by
  refine Finset.eq_empty_of_forall_notMem fun i hi => ?_
  rw [mem_rowsIn] at hi
  omega

/-- A block is its run of rows. -/
theorem blockSet_eq_rowsIn (g : Fin 98) : blockSet g = rowsIn (1024 * g.val) (1024 * g.val + 1024) := by
  ext i
  rw [mem_blockSet, mem_rowsIn]

/-- The rectangle of `n` whole rows at row `a`, its offsets given up to an equation. -/
theorem unit_rows_set' (off : Fin 3 → ℕ) (a n : ℕ) (h : off = ![0, a, 0])
    (inb : ∀ x, off x + (![1, n, 2048] : Fin 3 → ℕ) x ≤ S1x100000x2048.size x) :
    (Rect.unit (s := S1x100000x2048) off ![1, n, 2048] inb).set = rowsIn a (a + n) := by
  subst h
  ext i
  rw [Rect.mem_set_unit, mem_rowsIn]
  constructor
  · intro h
    exact h 1
  · intro h x
    match x with
    | ⟨0, _⟩ => exact ⟨Nat.zero_le _, by have h0 : (i 0).val < 1 := (i 0).isLt; show (i 0).val < 0 + 1; omega⟩
    | ⟨1, _⟩ => exact h
    | ⟨2, _⟩ => exact ⟨Nat.zero_le _, by have h2 : (i 2).val < 2048 := (i 2).isLt; show (i 2).val < 0 + 2048; omega⟩

/-- The same at literal offsets. -/
theorem unit_rows_set (a n : ℕ)
    (inb : ∀ x, (![0, a, 0] : Fin 3 → ℕ) x + (![1, n, 2048] : Fin 3 → ℕ) x ≤ S1x100000x2048.size x) :
    (Rect.unit (s := S1x100000x2048) ![0, a, 0] ![1, n, 2048] inb).set = rowsIn a (a + n) :=
  unit_rows_set' _ a n rfl inb

/-- The 1024-row rectangle, its sizes spelt as the block shape's. -/
theorem unit_rows_set_1024 (off : Fin 3 → ℕ) (a : ℕ) (h : off = ![0, a, 0])
    (inb : ∀ x, off x + S1x1024x2048.size x ≤ S1x100000x2048.size x) :
    (Rect.unit (s := S1x100000x2048) off S1x1024x2048.size inb).set = rowsIn a (a + 1024) :=
  unit_rows_set' off a 1024 h inb

/-- The 672-row rectangle, its sizes spelt as the last block shape's. -/
theorem unit_rows_set_672 (off : Fin 3 → ℕ) (a : ℕ) (h : off = ![0, a, 0])
    (inb : ∀ x, off x + S1x672x2048.size x ≤ S1x100000x2048.size x) :
    (Rect.unit (s := S1x100000x2048) off S1x672x2048.size inb).set = rowsIn a (a + 672) :=
  unit_rows_set' off a 672 h inb

end Cert.Proof.KI

end
-- ==== Proof.KI.TcDefs.lean ====
/-
  The TensorCore kernel region's body: the names its proof is written over. The body computes, block
  by block of 1024 rows of the result, the tile `w[v] · (x[t] + p[t]) + b[v]` into one of four scratch
  buffers and copies the scratch out to the block's rows of the result, each slot's copy completing on
  the slot's own semaphore and awaited before the slot is written again. Here: the result's rows held
  by ranges, a slot whose copy is in flight, and the state of the four slots and of the result before
  each trip of the loop over groups of four blocks.
-/
import proofs.«217057_g30459908063406_cont_9to1_2067_16_alg».proof.Proof.KI.Values
import proofs.«217057_g30459908063406_cont_9to1_2067_16_alg».proof.Proof.KI.TcCover

noncomputable section

namespace Cert.Proof.KI

open Cert.KernelIdeal Cert.KernelIdeal.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The TensorCore thread of device `d`. -/
abbrev cT (d : Dev nD) : Thread nD τ := SparseCore.T d

/-- A TensorCore buffer held whole, as the kernel's memrefs address it. -/
abbrev pw (d : Dev nD) (r : Ref sig .tc) (v : Buf (Elt F) ((Memref.whole r).view.loc (cT d))) : sProp 𝕄 :=
  (Memref.whole r).view.loc (cT d) ↦{fullShare} v

/-- A DMA semaphore of the TensorCore at zero. -/
abbrev sv (d : Dev nD) (s : DmaSem sig) : sProp 𝕄 := semVal (cT d, SemLoc.dma s) 0

/-- The block of the result that trip `k` writes through slot `r`, as the kernel slices it. -/
abbrev dstB (k : Fin k1_t1_loop.trips) (r : Fin 4) : Memref sig .tc .hbm S1024x2048 .f32 :=
  ((Memref.whole main_v6).slice (Rect.unit (s := S1x100000x2048) (k1_off3 k (BitVec.ofNat 32 r.val)) S1x1024x2048.size (Facts₀.k1_off3_inb k r)) (fun _ => rfl)).squeeze
    S1024x2048 Facts₀.squeezes_S1x1024x2048_S1024x2048

/-- A memref's own elements held at a function of the whole buffer. -/
abbrev own (d : Dev nD) {sp : Space} {S : Shape} (M : Memref sig .tc sp S .f32) (g : Buf (Elt F) (M.view.loc (cT d))) : sProp 𝕄 :=
  M.view.loc (cT d) ↦[M.view.set]{fullShare} g

/-- The loop's guard on the waits: the trip is not the first. -/
abbrev condK (k : Fin k1_t1_loop.trips) : BitVec 1 :=
  Scalar.cmpi .ne (Scalar.extui (Scalar.cmpi .sgt (Scf.iv 0#32 1#32 k) 0#32) : BitVec 32) 0#32

/-- The result array's place in memory. -/
abbrev L6 (d : Dev nD) : Loc nD τ sig := (Memref.whole main_v6).view.loc (cT d)

/-- Rows `[a, b)` of the result held at `g`. -/
abbrev rowsAt (d : Dev nD) (a b : ℕ) (g : FVec F S1x100000x2048 .f32) : sProp 𝕄 :=
  L6 d ↦[(rowsIn a b : Finset (Idx (L6 d)))]{fullShare} g

/-- A scratch buffer's copy window: all of it, as the kernel slices it. -/
abbrev fullS (M : Memref sig .tc .vmem S1024x2048 .f32) : Memref sig .tc .vmem S1024x2048 .f32 :=
  M.slice (Rect.unit (s := S1024x2048) ![0, 0] S1024x2048.size Facts₀.inb_S1024x2048_S1024x2048_0_0) (fun _ => rfl)

/-- A slot whose copy out is in flight: the flight delivers the block's rows `[lo, lo + n)` at the result's value and
    the scratch's window `Wn`; the scratch's other elements stay in hand. -/
abbrev slotFly (d : Dev nD) (out : FVec F S1x100000x2048 .f32) (sem : DmaSem sig) (M : Memref sig .tc .vmem S1024x2048 .f32)
    (Sx : Finset (Idx (M.view.loc (cT d)))) (N lo n : ℕ) (X : Buf (Elt F) (M.view.loc (cT d))) : sProp 𝕄 :=
  iprop(Transfers.Flight countersEmb (cT d) (SemLoc.dma sem) default N
        iprop(rowsAt d lo (lo + n) out ∗ (M.view.loc (cT d) ↦[Sx]{fullShare} X))
      ∗ (M.view.loc (cT d) ↦[Finset.univ \ Sx]{fullShare} X))

/-- A slot copying out a whole block of 1024 rows. -/
abbrev slotFlying (d : Dev nD) (out : FVec F S1x100000x2048 .f32) (sem : DmaSem sig) (M : Memref sig .tc .vmem S1024x2048 .f32) (lo : ℕ)
    (X : Buf (Elt F) (M.view.loc (cT d))) : sProp 𝕄 :=
  slotFly d out sem M (fullS M).view.set 262144 lo 1024 X

/-- What the thread owes, its recorded waits grown by waits at the kernel's own index only. -/
abbrev owesK (d : Dev nD) (O : CellTallies nD τ sig (HIx 1)) (W : Waits sig (HIx 1)) : sProp 𝕄 :=
  iprop(∃ W', ⌜∀ q ∈ W', q ∈ W ∨ q.2 = none⌝ ∗ owes (cT d) O W')

/-- Before the first trip of the loop over groups of four blocks nothing is in flight: the scratch buffers are in hand,
    the semaphores at zero, the result as the region found it. -/
def inv0 (d : Dev nD) (w : FVec F S1x100000 .f32) (b : FVec F S100000 .f32) (f : FVec F S1x100000x2048 .f32)
    (X0 X1 X2 X3 : FVec F S1024x2048 .f32) (O : CellTallies nD τ sig (HIx 1)) (W : Waits sig (HIx 1)) : sProp 𝕄 :=
  iprop(Transfers.MayWaits (cT d) (none : HIx 1) O ∗ pw d cc1_stg2_0 w ∗ pw d cc1_stg3_0 b
      ∗ rowsAt d 0 100000 f
      ∗ pw d cc1_scratch0 X0 ∗ pw d cc1_scratch1 X1 ∗ pw d cc1_scratch2 X2 ∗ pw d cc1_scratch3 X3
      ∗ sv d cc1_scratch4.sem ∗ sv d cc1_scratch5.sem ∗ sv d cc1_scratch6.sem ∗ sv d cc1_scratch7.sem
      ∗ owesK d O W)

/-- Before trip `n + 1`: each slot's copy of trip `n` is in flight; the rows below trip `n`'s are at the result's
    value, the rows from trip `n + 1`'s on as found. -/
def invS (d : Dev nD) (w : FVec F S1x100000 .f32) (b : FVec F S100000 .f32) (f out : FVec F S1x100000x2048 .f32)
    (O : CellTallies nD τ sig (HIx 1)) (W : Waits sig (HIx 1)) (n : ℕ) : sProp 𝕄 :=
  iprop(Transfers.MayWaits (cT d) (none : HIx 1) O ∗ pw d cc1_stg2_0 w ∗ pw d cc1_stg3_0 b
      ∗ rowsAt d 0 (4096 * n) out ∗ rowsAt d (4096 * (n + 1)) 100000 f
      ∗ (∃ X, slotFlying d out cc1_scratch4.sem (Memref.whole cc1_scratch0) (4096 * n) X)
      ∗ (∃ X, slotFlying d out cc1_scratch5.sem (Memref.whole cc1_scratch1) (4096 * n + 1024) X)
      ∗ (∃ X, slotFlying d out cc1_scratch6.sem (Memref.whole cc1_scratch2) (4096 * n + 2048) X)
      ∗ (∃ X, slotFlying d out cc1_scratch7.sem (Memref.whole cc1_scratch3) (4096 * n + 3072) X)
      ∗ owesK d O W)

/-- The loop's invariant, by the trip. -/
def inv (d : Dev nD) (w : FVec F S1x100000 .f32) (b : FVec F S100000 .f32) (f out : FVec F S1x100000x2048 .f32)
    (X0 X1 X2 X3 : FVec F S1024x2048 .f32) (O : CellTallies nD τ sig (HIx 1)) (W : Waits sig (HIx 1)) : ℕ → Unit → sProp 𝕄
  | 0, _ => inv0 d w b f X0 X1 X2 X3 O W
  | n + 1, _ => invS d w b f out O W n

end Cert.Proof.KI

end
-- ==== Proof.KI.TcBlocks.lean ====
/-
  The TensorCore region's memory operands as sets of array elements and as index maps. The region
  writes its result array `[1, 100000, 2048]` through slices of whole rows with the leading unit
  axis dropped: such a memref covers exactly the slice's rectangle (dropping a unit axis keeps the
  elements), and its index `(r, t)` is the array's element `(0, a + r, t)`, `a` the slice's first
  row. A scratch tile sliced at offset zero over its whole shape is the whole tile, every index
  at itself. Geometry of views only: no contents, no machine state.
-/
import proofs.«217057_g30459908063406_cont_9to1_2067_16_alg».proof.Proof.KI.TcCover
import Idealize.ShloMosaic.Lib.Exec.Geometry
import Idealize.ShloMosaic.Lib.ValueLayout

noncomputable section

namespace Cert.Proof.KI

open Cert.KernelIdeal
open Idealize.ShloMosaic Idealize.ShloMosaic.ValueIdx

/-! ## Slices of the result array, the unit axis dropped: their elements -/

/-- The 1024-row slice with its unit axis dropped covers the slice's rectangle. -/
theorem set_squeeze_slice_1024 (off : Fin 3 → ℕ) (inb : ∀ a, off a + S1x1024x2048.size a ≤ S1x100000x2048.size a)
    (hr : ∀ a, (Rect.unit (s := S1x100000x2048) off S1x1024x2048.size inb).stride a = 1)
    (hq : S1x1024x2048.Squeezes S1024x2048) :
    (((Memref.whole main_v6).slice (Rect.unit (s := S1x100000x2048) off S1x1024x2048.size inb) hr).squeeze S1024x2048 hq).view.set
      = (Rect.unit (s := S1x100000x2048) off S1x1024x2048.size inb).set := by
  rw [Memref.set_view_squeeze]
  exact View.set_slice_whole main_v6 _

/-- The 672-row slice likewise. -/
theorem set_squeeze_slice_672 (off : Fin 3 → ℕ) (inb : ∀ a, off a + S1x672x2048.size a ≤ S1x100000x2048.size a)
    (hr : ∀ a, (Rect.unit (s := S1x100000x2048) off S1x672x2048.size inb).stride a = 1)
    (hq : S1x672x2048.Squeezes S672x2048) :
    (((Memref.whole main_v6).slice (Rect.unit (s := S1x100000x2048) off S1x672x2048.size inb) hr).squeeze S672x2048 hq).view.set
      = (Rect.unit (s := S1x100000x2048) off S1x672x2048.size inb).set := by
  rw [Memref.set_view_squeeze]
  exact View.set_slice_whole main_v6 _

/-- At first row `a` the 1024-row slice covers the rows `[a, a + 1024)`. -/
theorem set_squeeze_slice_1024_rows (off : Fin 3 → ℕ) (a : ℕ) (h : off = ![0, a, 0])
    (inb : ∀ x, off x + S1x1024x2048.size x ≤ S1x100000x2048.size x)
    (hr : ∀ x, (Rect.unit (s := S1x100000x2048) off S1x1024x2048.size inb).stride x = 1)
    (hq : S1x1024x2048.Squeezes S1024x2048) :
    (((Memref.whole main_v6).slice (Rect.unit (s := S1x100000x2048) off S1x1024x2048.size inb) hr).squeeze S1024x2048 hq).view.set
      = rowsIn a (a + 1024) :=
  (set_squeeze_slice_1024 off inb hr hq).trans (unit_rows_set_1024 off a h inb)

/-- At first row `a` the 672-row slice covers the rows `[a, a + 672)`. -/
theorem set_squeeze_slice_672_rows (off : Fin 3 → ℕ) (a : ℕ) (h : off = ![0, a, 0])
    (inb : ∀ x, off x + S1x672x2048.size x ≤ S1x100000x2048.size x)
    (hr : ∀ x, (Rect.unit (s := S1x100000x2048) off S1x672x2048.size inb).stride x = 1)
    (hq : S1x672x2048.Squeezes S672x2048) :
    (((Memref.whole main_v6).slice (Rect.unit (s := S1x100000x2048) off S1x672x2048.size inb) hr).squeeze S672x2048 hq).view.set
      = rowsIn a (a + 672) :=
  (set_squeeze_slice_672 off inb hr hq).trans (unit_rows_set_672 off a h inb)

/-! ## A buffer sliced over its whole shape at offset zero -/

/-- The offsets `(0, 0)` are zero on every axis. -/
theorem off_zero2 : (![0, 0] : Fin 2 → ℕ) = fun _ => 0 := by
  funext a
  match a with
  | ⟨0, _⟩ => rfl
  | ⟨1, _⟩ => rfl

/-- A whole buffer sliced at zero offsets over its own sizes covers the buffer, -/
theorem set_slice_whole_unit_zero {sig : RefSig} {κ : Kind} (b : Ref sig κ) {off : Fin b.ty.shape.rank → ℕ}
    (h : off = fun _ => 0) (inb : ∀ a, off a + b.ty.shape.size a ≤ b.ty.shape.size a)
    (hr : ∀ a, (Rect.unit off b.ty.shape.size inb).stride a = 1) :
    ((Memref.whole b).slice (Rect.unit off b.ty.shape.size inb) hr).view.set = Finset.univ := by
  subst h
  show ((View.whole b).slice (Rect.whole b.ty.shape)).set = Finset.univ
  rw [View.set_slice_whole, Rect.set_whole]

/-- and places every index at itself. -/
theorem emb_slice_whole_unit_zero {sig : RefSig} {κ : Kind} (b : Ref sig κ) {off : Fin b.ty.shape.rank → ℕ}
    (h : off = fun _ => 0) (inb : ∀ a, off a + b.ty.shape.size a ≤ b.ty.shape.size a)
    (hr : ∀ a, (Rect.unit off b.ty.shape.size inb).stride a = 1) (y : b.ty.shape.Idx) :
    ((Memref.whole b).slice (Rect.unit off b.ty.shape.size inb) hr).view.emb y = y := by
  subst h
  exact Rect.emb_whole_apply _ y

/-- The four scratch tiles sliced in full. -/
theorem set_scratch0_full (inb : ∀ a, (![0, 0] : Fin 2 → ℕ) a + S1024x2048.size a ≤ S1024x2048.size a)
    (hr : ∀ a, (Rect.unit (s := S1024x2048) ![0, 0] S1024x2048.size inb).stride a = 1) :
    ((Memref.whole cc1_scratch0).slice (Rect.unit (s := S1024x2048) ![0, 0] S1024x2048.size inb) hr).view.set = Finset.univ :=
  set_slice_whole_unit_zero cc1_scratch0 off_zero2 inb hr
theorem set_scratch1_full (inb : ∀ a, (![0, 0] : Fin 2 → ℕ) a + S1024x2048.size a ≤ S1024x2048.size a)
    (hr : ∀ a, (Rect.unit (s := S1024x2048) ![0, 0] S1024x2048.size inb).stride a = 1) :
    ((Memref.whole cc1_scratch1).slice (Rect.unit (s := S1024x2048) ![0, 0] S1024x2048.size inb) hr).view.set = Finset.univ :=
  set_slice_whole_unit_zero cc1_scratch1 off_zero2 inb hr
theorem set_scratch2_full (inb : ∀ a, (![0, 0] : Fin 2 → ℕ) a + S1024x2048.size a ≤ S1024x2048.size a)
    (hr : ∀ a, (Rect.unit (s := S1024x2048) ![0, 0] S1024x2048.size inb).stride a = 1) :
    ((Memref.whole cc1_scratch2).slice (Rect.unit (s := S1024x2048) ![0, 0] S1024x2048.size inb) hr).view.set = Finset.univ :=
  set_slice_whole_unit_zero cc1_scratch2 off_zero2 inb hr
theorem set_scratch3_full (inb : ∀ a, (![0, 0] : Fin 2 → ℕ) a + S1024x2048.size a ≤ S1024x2048.size a)
    (hr : ∀ a, (Rect.unit (s := S1024x2048) ![0, 0] S1024x2048.size inb).stride a = 1) :
    ((Memref.whole cc1_scratch3).slice (Rect.unit (s := S1024x2048) ![0, 0] S1024x2048.size inb) hr).view.set = Finset.univ :=
  set_slice_whole_unit_zero cc1_scratch3 off_zero2 inb hr

theorem emb_scratch0_full (inb : ∀ a, (![0, 0] : Fin 2 → ℕ) a + S1024x2048.size a ≤ S1024x2048.size a)
    (hr : ∀ a, (Rect.unit (s := S1024x2048) ![0, 0] S1024x2048.size inb).stride a = 1) (y : S1024x2048.Idx) :
    ((Memref.whole cc1_scratch0).slice (Rect.unit (s := S1024x2048) ![0, 0] S1024x2048.size inb) hr).view.emb y = y :=
  emb_slice_whole_unit_zero cc1_scratch0 off_zero2 inb hr y
theorem emb_scratch1_full (inb : ∀ a, (![0, 0] : Fin 2 → ℕ) a + S1024x2048.size a ≤ S1024x2048.size a)
    (hr : ∀ a, (Rect.unit (s := S1024x2048) ![0, 0] S1024x2048.size inb).stride a = 1) (y : S1024x2048.Idx) :
    ((Memref.whole cc1_scratch1).slice (Rect.unit (s := S1024x2048) ![0, 0] S1024x2048.size inb) hr).view.emb y = y :=
  emb_slice_whole_unit_zero cc1_scratch1 off_zero2 inb hr y
theorem emb_scratch2_full (inb : ∀ a, (![0, 0] : Fin 2 → ℕ) a + S1024x2048.size a ≤ S1024x2048.size a)
    (hr : ∀ a, (Rect.unit (s := S1024x2048) ![0, 0] S1024x2048.size inb).stride a = 1) (y : S1024x2048.Idx) :
    ((Memref.whole cc1_scratch2).slice (Rect.unit (s := S1024x2048) ![0, 0] S1024x2048.size inb) hr).view.emb y = y :=
  emb_slice_whole_unit_zero cc1_scratch2 off_zero2 inb hr y
theorem emb_scratch3_full (inb : ∀ a, (![0, 0] : Fin 2 → ℕ) a + S1024x2048.size a ≤ S1024x2048.size a)
    (hr : ∀ a, (Rect.unit (s := S1024x2048) ![0, 0] S1024x2048.size inb).stride a = 1) (y : S1024x2048.Idx) :
    ((Memref.whole cc1_scratch3).slice (Rect.unit (s := S1024x2048) ![0, 0] S1024x2048.size inb) hr).view.emb y = y :=
  emb_slice_whole_unit_zero cc1_scratch3 off_zero2 inb hr y

/-! ## Slices of the result array, the unit axis dropped: their index map -/

/-- Index `(r, t)` of the 1024-row slice at first row `a` is the array's element `(0, a + r, t)`. -/
theorem emb_squeeze_slice_1024 (off : Fin 3 → ℕ) (a : ℕ) (h : off = ![0, a, 0]) (ha : a + 1024 ≤ 100000)
    (inb : ∀ x, off x + S1x1024x2048.size x ≤ S1x100000x2048.size x)
    (hr : ∀ x, (Rect.unit (s := S1x100000x2048) off S1x1024x2048.size inb).stride x = 1)
    (hq : S1x1024x2048.Squeezes S1024x2048) (r : Fin 1024) (t : Fin 2048) :
    (((Memref.whole main_v6).slice (Rect.unit (s := S1x100000x2048) off S1x1024x2048.size inb) hr).squeeze S1024x2048 hq).view.emb (ix2 r t)
      = ix3 (0 : Fin 1) (⟨a + r.val, by omega⟩ : Fin 100000) t := by
  subst h
  have hre : Shape.reshapeEquiv hq.numel_eq (ix2 r t) = ix3 (⟨0, Nat.one_pos⟩ : Fin 1) r t :=
    reshapeEquiv_ix2_1ab hq.numel_eq r t
  show (Rect.unit (s := S1x100000x2048) ![0, a, 0] S1x1024x2048.size inb).emb (Shape.reshapeEquiv hq.numel_eq (ix2 r t)) = _
  rw [hre]
  funext x
  refine Fin.ext ?_
  match x with
  | ⟨0, _⟩ => show 0 + 1 * 0 = 0; rfl
  | ⟨1, _⟩ => show a + 1 * r.val = a + r.val; omega
  | ⟨2, _⟩ => show 0 + 1 * t.val = t.val; omega

/-- Index `(r, t)` of the 672-row slice at first row `a` is the array's element `(0, a + r, t)`. -/
theorem emb_squeeze_slice_672 (off : Fin 3 → ℕ) (a : ℕ) (h : off = ![0, a, 0]) (ha : a + 672 ≤ 100000)
    (inb : ∀ x, off x + S1x672x2048.size x ≤ S1x100000x2048.size x)
    (hr : ∀ x, (Rect.unit (s := S1x100000x2048) off S1x672x2048.size inb).stride x = 1)
    (hq : S1x672x2048.Squeezes S672x2048) (r : Fin 672) (t : Fin 2048) :
    (((Memref.whole main_v6).slice (Rect.unit (s := S1x100000x2048) off S1x672x2048.size inb) hr).squeeze S672x2048 hq).view.emb (ix2 r t)
      = ix3 (0 : Fin 1) (⟨a + r.val, by omega⟩ : Fin 100000) t := by
  subst h
  have hre : Shape.reshapeEquiv hq.numel_eq (ix2 r t) = ix3 (⟨0, Nat.one_pos⟩ : Fin 1) r t :=
    reshapeEquiv_ix2_1ab hq.numel_eq r t
  show (Rect.unit (s := S1x100000x2048) ![0, a, 0] S1x672x2048.size inb).emb (Shape.reshapeEquiv hq.numel_eq (ix2 r t)) = _
  rw [hre]
  funext x
  refine Fin.ext ?_
  match x with
  | ⟨0, _⟩ => show 0 + 1 * 0 = 0; rfl
  | ⟨1, _⟩ => show a + 1 * r.val = a + r.val; omega
  | ⟨2, _⟩ => show 0 + 1 * t.val = t.val; omega

end Cert.Proof.KI

end
-- ==== Proof.KI.TcRows.lean ====
/-
  The result's rows by ranges: a range splits at any row between its ends; the block a trip writes
  through a slot is the range of its 1024 rows; a block a copy has landed in, holding the copied tile
  over whatever it held, is that range at any function of the whole array that the tile agrees with.
-/
import proofs.«217057_g30459908063406_cont_9to1_2067_16_alg».proof.Proof.KI.TcDefs
import proofs.«217057_g30459908063406_cont_9to1_2067_16_alg».proof.Proof.KI.TcBlocks

noncomputable section

namespace Cert.Proof.KI

open Cert.KernelIdeal Cert.KernelIdeal.Gen
open Idealize.ShloMosaic Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The guard of a trip's waits: off at the first trip, -/
theorem condK_zero : ∀ k : Fin k1_t1_loop.trips, k.val = 0 → ¬ condK k = 1#1 := by decide +kernel
/-- on at every later one. -/
theorem condK_pos : ∀ k : Fin k1_t1_loop.trips, 0 < k.val → condK k = 1#1 := by decide +kernel
theorem trips_eq : k1_t1_loop.trips = 24 := by decide +kernel

/-- A range of rows splits at a row between its ends. -/
theorem rowsAt_split (d : Dev nD) {a m c : ℕ} (h1 : a ≤ m) (h2 : m ≤ c) (g : FVec F S1x100000x2048 .f32) :
    (rowsAt d a c g : sProp 𝕄) ⊣⊢ iprop(rowsAt d a m g ∗ rowsAt d m c g) := by
  unfold rowsAt
  rw [rowsIn_union h1 h2]
  exact pointsTo_union (rowsIn_disjoint (le_refl m))

/-- No rows: nothing. -/
theorem rowsAt_self (d : Dev nD) (a : ℕ) (g : FVec F S1x100000x2048 .f32) : (rowsAt d a a g : sProp 𝕄) = (BI.emp : sProp 𝕄) := by
  unfold rowsAt
  rw [rowsIn_self]
  exact pointsTo_empty

/-- All rows: the array whole. -/
theorem rowsAt_univ (d : Dev nD) (g : FVec F S1x100000x2048 .f32) : (rowsAt d 0 100000 g : sProp 𝕄) = pw d main_v6 g := by
  unfold rowsAt pw
  rw [rowsIn_univ]

/-- Values off a range are irrelevant. -/
theorem rowsAt_congr (d : Dev nD) {a c : ℕ} {g g' : FVec F S1x100000x2048 .f32}
    (h : ∀ i : S1x100000x2048.Idx, a ≤ (i 1).val → (i 1).val < c → g i = g' i) : (rowsAt d a c g : sProp 𝕄) = rowsAt d a c g' :=
  pointsTo_congr fun i hi => h i (mem_rowsIn.mp hi).1 (mem_rowsIn.mp hi).2

/-- The elements of the block trip `k` writes through slot `r`: its 1024 rows. -/
theorem dstB_set (d : Dev nD) (k : Fin k1_t1_loop.trips) (r : Fin 4) :
    ((dstB k r).view.set : Finset (Idx (L6 d))) = (rowsIn (4096 * k.val + 1024 * r.val) (4096 * k.val + 1024 * r.val + 1024) : Finset (Idx (L6 d))) :=
  set_squeeze_slice_1024_rows _ _ (k1_off3_eq k r) _ _ _

/-- The block held by its own elements is its range of rows held. -/
theorem own_dstB (d : Dev nD) (k : Fin k1_t1_loop.trips) (r : Fin 4) (lo : ℕ) (hlo : lo = 4096 * k.val + 1024 * r.val)
    (g : FVec F S1x100000x2048 .f32) : (own d (dstB k r) g : sProp 𝕄) = rowsAt d lo (lo + 1024) g := by
  subst hlo
  exact congrArg (fun S : Finset (Idx (L6 d)) => (L6 d ↦[S]{fullShare} g : sProp 𝕄)) (dstB_set d k r)

end Cert.Proof.KI

end
-- ==== Proof.KI.TcPayload.lean ====
/-
  The tiles the TensorCore region stores, read at one index. Each tile is built from a row of
  weights `w : [1, n]`, the hidden row `h : [1, 2048]` and a bias vector `b : [n]` by layout
  operations and two pointwise ones: the weights and the bias are turned into columns `[n, 1]`
  (shape casts, which keep the row-major position), the columns and the hidden row are spread over
  `[n, 2048]` (broadcasts, which repeat a unit axis), and the tile is `w · h + b` pointwise. So
  its entry at row `r` and column `t` is `w[r] · h[t] + b[r]`. The hidden row itself is the
  pointwise sum of two loaded rows. All of it holds for every float instance: a pointwise
  operation on vectors is, by definition, the scalar operation at each index.
-/
import proofs.«217057_g30459908063406_cont_9to1_2067_16_alg».proof.Proof.Gen.KernelIdeal.Skeleton
import proofs.«217057_g30459908063406_cont_9to1_2067_16_alg».proof.Proof.KI.Values
import Idealize.ShloMosaic.Lib.ValueIdx
import Idealize.ShloMosaic.Lib.Pipeline.Value
import Idealize.ShloMosaic.Lib.ValueLayout

noncomputable section

namespace Cert.Proof.KI

open Cert.KernelIdeal Cert.KernelIdeal.Gen
open Idealize.ShloMosaic Idealize.ShloMosaic.ValueIdx

/-! ## Columns: a row or a vector cast to a column, a column spread over a matrix -/

section Columns
variable {α : Type}

/-- A `[1, a]` array cast to `[a, 1]` reads, at `(i, u)`, the operand at `(0, i)`: both have
    row-major position `i`. -/
theorem shapeCast_1a_a1_apply {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

variable {F : FTy → Type} [FloatOps F]

/-! ## The weight columns and the hidden row -/

/-- The 1024-row weight column at row `r` is the loaded row's entry `r`. -/
theorem pay3_apply (v84 : Vec F S1x1024 .f32) (r : Fin 1024) (u : Fin 1) :
    k1_pay3 v84 (ix2 r u) = v84 (ix2 0 r) := by
  unfold k1_pay3
  simp only [shapeCast_self]
  exact shapeCast_1a_a1_apply v84 shapeCasts_S1x1024_S1024x1 r u

/-- The 672-row weight column at row `r` is the loaded row's entry `r`. -/
theorem pay9_apply (v26 : Vec F S1x672 .f32) (r : Fin 672) (u : Fin 1) :
    k1_pay9 v26 (ix2 r u) = v26 (ix2 0 r) := by
  unfold k1_pay9
  simp only [shapeCast_self]
  exact shapeCast_1a_a1_apply v26 shapeCasts_S1x672_S672x1 r u

/-- The hidden row at column `t` is the sum of the two loaded rows' entries there. -/
theorem pay6_apply (v0 v2 : Vec F S1x2048 .f32) (u : Fin 1) (t : Fin 2048) :
    k1_pay6 v0 v2 (ix2 u t) = FloatOps.addf (v0 (ix2 u t) : F .f32) (v2 (ix2 u t)) := by
  unfold k1_pay6
  simp only [shapeCast_self]
  rfl

/-! ## The stored tiles -/

/-- A 1024-row tile from a weight column `c`, the hidden row `h` and a bias vector `b`: its entry
    at `(r, t)` is `c[r] · h[t] + b[r]`. -/
theorem tile1024_apply (c : FVec F S1024x1 .f32) (h : FVec F S1x2048 .f32) (b : Vec F S1024 .f32)
    (r : Fin 1024) (t : Fin 2048) :
    addf (mulf (broadcastTo S1024x2048 c broadcasts_S1024x1_S1024x2048) (broadcastTo S1024x2048 h broadcasts_S1x2048_S1024x2048))
        (broadcastTo S1024x2048 (shapeCast S1024x1 b shapeCasts_S1024_S1024x1 : FVec F S1024x1 .f32) broadcasts_S1024x1_S1024x2048) (ix2 r t)
      = FloatOps.addf (FloatOps.mulf (c (ix2 r 0)) (h (ix2 0 t))) (b (ix1 r) : F .f32) := by
  show FloatOps.addf (FloatOps.mulf (broadcastTo S1024x2048 c broadcasts_S1024x1_S1024x2048 (ix2 r t))
      (broadcastTo S1024x2048 h broadcasts_S1x2048_S1024x2048 (ix2 r t)))
      (broadcastTo S1024x2048 (shapeCast S1024x1 b shapeCasts_S1024_S1024x1 : FVec F S1024x1 .f32) broadcasts_S1024x1_S1024x2048 (ix2 r t)) = _
  rw [broadcastTo_a1_ab_apply c broadcasts_S1024x1_S1024x2048 r t,
    broadcastTo_1b_ab_apply h broadcasts_S1x2048_S1024x2048 r t,
    broadcastTo_a1_ab_apply _ broadcasts_S1024x1_S1024x2048 r t,
    shapeCast_a_a1_apply b shapeCasts_S1024_S1024x1 r 0]

/-- The same for the last, 672-row tile. -/
theorem tile672_apply (c : FVec F S672x1 .f32) (h : FVec F S1x2048 .f32) (b : Vec F S672 .f32)
    (r : Fin 672) (t : Fin 2048) :
    addf (mulf (broadcastTo S672x2048 c broadcasts_S672x1_S672x2048) (broadcastTo S672x2048 h broadcasts_S1x2048_S672x2048))
        (broadcastTo S672x2048 (shapeCast S672x1 b shapeCasts_S672_S672x1 : FVec F S672x1 .f32) broadcasts_S672x1_S672x2048) (ix2 r t)
      = FloatOps.addf (FloatOps.mulf (c (ix2 r 0)) (h (ix2 0 t))) (b (ix1 r) : F .f32) := by
  show FloatOps.addf (FloatOps.mulf (broadcastTo S672x2048 c broadcasts_S672x1_S672x2048 (ix2 r t))
      (broadcastTo S672x2048 h broadcasts_S1x2048_S672x2048 (ix2 r t)))
      (broadcastTo S672x2048 (shapeCast S672x1 b shapeCasts_S672_S672x1 : FVec F S672x1 .f32) broadcasts_S672x1_S672x2048 (ix2 r t)) = _
  rw [broadcastTo_a1_ab_apply c broadcasts_S672x1_S672x2048 r t,
    broadcastTo_1b_ab_apply h broadcasts_S1x2048_S672x2048 r t,
    broadcastTo_a1_ab_apply _ broadcasts_S672x1_S672x2048 r t,
    shapeCast_a_a1_apply b shapeCasts_S672_S672x1 r 0]

/-- A tile of a loaded weight row `v59`, the hidden row `v4` and a loaded bias vector `v63`. -/
theorem pay2_apply (v4 : FVec F S1x2048 .f32) (v59 : Vec F S1x1024 .f32) (v63 : Vec F S1024 .f32)
    (r : Fin 1024) (t : Fin 2048) :
    k1_pay2 v4 v59 v63 (ix2 r t)
      = FloatOps.addf (FloatOps.mulf (v59 (ix2 0 r) : F .f32) (v4 (ix2 0 t))) (v63 (ix1 r)) := by
  unfold k1_pay2
  simp only [shapeCast_self]
  rw [tile1024_apply, shapeCast_1a_a1_apply v59 shapeCasts_S1x1024_S1024x1 r 0]

/-- The tile whose weight column `v86` was made before it. -/
theorem pay4_apply (v4 : FVec F S1x2048 .f32) (v86 : FVec F S1024x1 .f32) (v88 : Vec F S1024 .f32)
    (r : Fin 1024) (t : Fin 2048) :
    k1_pay4 v4 v86 v88 (ix2 r t)
      = FloatOps.addf (FloatOps.mulf (v86 (ix2 r 0)) (v4 (ix2 0 t))) (v88 (ix1 r) : F .f32) := by
  unfold k1_pay4
  simp only [shapeCast_self]
  rw [tile1024_apply]

/-- That tile over the weight column made from the loaded row `v84`. -/
theorem pay4_pay3_apply (v4 : FVec F S1x2048 .f32) (v84 : Vec F S1x1024 .f32) (v88 : Vec F S1024 .f32)
    (r : Fin 1024) (t : Fin 2048) :
    k1_pay4 v4 (k1_pay3 v84) v88 (ix2 r t)
      = FloatOps.addf (FloatOps.mulf (v84 (ix2 0 r) : F .f32) (v4 (ix2 0 t))) (v88 (ix1 r)) := by
  rw [pay4_apply, pay3_apply]

theorem pay5_apply (v4 : FVec F S1x2048 .f32) (v109 : Vec F S1x1024 .f32) (v113 : Vec F S1024 .f32)
    (r : Fin 1024) (t : Fin 2048) :
    k1_pay5 v4 v109 v113 (ix2 r t)
      = FloatOps.addf (FloatOps.mulf (v109 (ix2 0 r) : F .f32) (v4 (ix2 0 t))) (v113 (ix1 r)) := by
  unfold k1_pay5
  simp only [shapeCast_self]
  rw [tile1024_apply, shapeCast_1a_a1_apply v109 shapeCasts_S1x1024_S1024x1 r 0]

/-- A tile whose hidden row is the sum of the two loaded rows `v0`, `v2`. -/
theorem pay7_apply (v0 v2 : Vec F S1x2048 .f32) (v134 : Vec F S1x1024 .f32) (v138 : Vec F S1024 .f32)
    (r : Fin 1024) (t : Fin 2048) :
    k1_pay7 v0 v2 v134 v138 (ix2 r t)
      = FloatOps.addf (FloatOps.mulf (v134 (ix2 0 r) : F .f32)
          (FloatOps.addf (v0 (ix2 0 t) : F .f32) (v2 (ix2 0 t)))) (v138 (ix1 r)) := by
  unfold k1_pay7
  simp only [shapeCast_self]
  rw [tile1024_apply, shapeCast_1a_a1_apply v134 shapeCasts_S1x1024_S1024x1 r 0, pay6_apply]

theorem pay8_apply (v0 v2 : Vec F S1x2048 .f32) (v8 : Vec F S1x1024 .f32) (v11 : Vec F S1024 .f32)
    (r : Fin 1024) (t : Fin 2048) :
    k1_pay8 v0 v2 v8 v11 (ix2 r t)
      = FloatOps.addf (FloatOps.mulf (v8 (ix2 0 r) : F .f32)
          (FloatOps.addf (v0 (ix2 0 t) : F .f32) (v2 (ix2 0 t)))) (v11 (ix1 r)) := by
  unfold k1_pay8
  simp only [shapeCast_self]
  rw [tile1024_apply, shapeCast_1a_a1_apply v8 shapeCasts_S1x1024_S1024x1 r 0, pay6_apply]

/-- The last tile, 672 rows, over its weight column `v28`. -/
theorem pay1_apply (v4 : FVec F S1x2048 .f32) (v28 : FVec F S672x1 .f32) (v29 : Vec F S672 .f32)
    (r : Fin 672) (t : Fin 2048) :
    k1_pay1 v4 v28 v29 (ix2 r t)
      = FloatOps.addf (FloatOps.mulf (v28 (ix2 r 0)) (v4 (ix2 0 t))) (v29 (ix1 r) : F .f32) := by
  unfold k1_pay1
  simp only [shapeCast_self]
  rw [tile672_apply]

/-- The last tile over the weight column made from the loaded row `v26`. -/
theorem pay1_pay9_apply (v4 : FVec F S1x2048 .f32) (v26 : Vec F S1x672 .f32) (v29 : Vec F S672 .f32)
    (r : Fin 672) (t : Fin 2048) :
    k1_pay1 v4 (k1_pay9 v26) v29 (ix2 r t)
      = FloatOps.addf (FloatOps.mulf (v26 (ix2 0 r) : F .f32) (v4 (ix2 0 t))) (v29 (ix1 r)) := by
  rw [pay1_apply, pay9_apply]

end Cert.Proof.KI

end
-- ==== Proof.KI.TcValue.lean ====
/-
  What the TensorCore region computes for each block, read at one index, with its operands spelt as
  the loads that produce them. A load through a whole staging buffer at a unit-stride rectangle
  reads the buffer's contents at the rectangle's offset plus the index; so the tile built from the
  1024 weights and biases loaded at row `a` has, at `(r, t)`, the entry
  `w[a + r] · (x[t] + p[t]) + b[a + r]`. In the loop, trip `k` handles four blocks, at rows
  `4096 k + 1024 s` for `s = 0, 1, 2, 3`; two more blocks, at rows 98304 and 99328 (the last one
  672 rows), follow the loop. Also: a store through a rectangle of a view, read back through the
  same rectangle, is the stored payload. Contents are plain functions here: no machine state.
-/
import proofs.«217057_g30459908063406_cont_9to1_2067_16_alg».proof.Proof.KI.TcPayload
import proofs.«217057_g30459908063406_cont_9to1_2067_16_alg».proof.Proof.KI.TcBlocks
import Idealize.ShloMosaic.Lib.Writes

noncomputable section

namespace Cert.Proof.KI

open Cert.KernelIdeal Cert.KernelIdeal.Gen
open Idealize.ShloMosaic Idealize.ShloMosaic.ValueIdx

/-! ## A store read back -/

/-- One unmasked store through a rectangle of a view, read back through that rectangle, is the payload. -/
theorem read_slice_writes_singleton {sig : RefSig} {κ : Kind} {sp : Space} {s : Shape} {e : EltTy} {Val : EltTy → Type}
    (v : View sig κ sp s e) (R : Rect s) (f : v.ty.Contents Val) (pay : R.shape.Idx → Val e) :
    (v.slice R).read Val (v.writes Val f [⟨R, pay⟩]) = pay := by
  rw [View.writes_singleton]
  exact View.read_write_univ (v := v.slice R) f pay

variable {F : FTy → Type} [FloatOps F]

/-- The same for a rectangle of a whole buffer, as a transfer out of the slice reads it. -/
theorem read_whole_slice_written (b : Ref sig .tc) (R : Rect b.ty.shape) (hr : ∀ a, R.stride a = 1)
    (X : (Memref.whole b).view.ty.Contents (Elt F)) (pay : R.shape.Idx → Elt F b.ty.elt) :
    (ReadAs.same : ReadAs (Elt F) _ _ _ _).apply
      (View.read (Elt F) ((Memref.whole b).slice R hr).view ((Memref.whole b).view.writes (Elt F) X [⟨R, pay⟩])) = pay :=
  read_slice_writes_singleton (Memref.whole b).view R X pay

/-! ## Loads through the staging buffers -/

/-- The staged hidden rows are loaded whole. -/
theorem readAt_stg0_full (inb : ∀ a, (![0, 0] : Fin 2 → ℕ) a + S1x2048.size a ≤ S1x2048.size a) (x : FVec F S1x2048 .f32) :
    View.readAt (Elt F) (Memref.whole cc1_stg0_0).view (Rect.unit (s := S1x2048) ![0, 0] S1x2048.size inb).toLoadRect x = x :=
  Memref.readAt_unit_zero (Elt F) cc1_stg0_0 off_zero2 inb x
theorem readAt_stg1_full (inb : ∀ a, (![0, 0] : Fin 2 → ℕ) a + S1x2048.size a ≤ S1x2048.size a) (x : FVec F S1x2048 .f32) :
    View.readAt (Elt F) (Memref.whole cc1_stg1_0).view (Rect.unit (s := S1x2048) ![0, 0] S1x2048.size inb).toLoadRect x = x :=
  Memref.readAt_unit_zero (Elt F) cc1_stg1_0 off_zero2 inb x

/-- The same at an index. -/
theorem readAt_stg0_apply (inb : ∀ a, (![0, 0] : Fin 2 → ℕ) a + S1x2048.size a ≤ S1x2048.size a) (x : FVec F S1x2048 .f32)
    (u : Fin 1) (t : Fin 2048) :
    View.readAt (Elt F) (Memref.whole cc1_stg0_0).view (Rect.unit (s := S1x2048) ![0, 0] S1x2048.size inb).toLoadRect x (ix2 u t) = x (ix2 u t) :=
  congrFun (readAt_stg0_full inb x) (ix2 u t)
theorem readAt_stg1_apply (inb : ∀ a, (![0, 0] : Fin 2 → ℕ) a + S1x2048.size a ≤ S1x2048.size a) (x : FVec F S1x2048 .f32)
    (u : Fin 1) (t : Fin 2048) :
    View.readAt (Elt F) (Memref.whole cc1_stg1_0).view (Rect.unit (s := S1x2048) ![0, 0] S1x2048.size inb).toLoadRect x (ix2 u t) = x (ix2 u t) :=
  congrFun (readAt_stg1_full inb x) (ix2 u t)

/-- 1024 weights loaded at column `a` of the staged weight row: entry `r` is the row's entry `a + r`. -/
theorem readAt_w1024 (off : Fin 2 → ℕ) (a : ℕ) (h : off = ![0, a]) (inb : ∀ x, off x + S1x1024.size x ≤ S1x100000.size x)
    (w : FVec F S1x100000 .f32) (u : Fin 1) (r : Fin 1024) (hlt : a + r.val < 100000) :
    View.readAt (Elt F) (Memref.whole cc1_stg2_0).view (Rect.unit (s := S1x100000) off S1x1024.size inb).toLoadRect w (ix2 u r)
      = w (ix2 0 ⟨a + r.val, hlt⟩) := by
  subst h
  show w ((Rect.unit (s := S1x100000) ![0, a] S1x1024.size inb).toLoadRect.idx (ix2 u r)) = _
  refine congrArg w (funext fun x => Fin.ext ?_)
  match x with
  | ⟨0, _⟩ => show 0 + 1 * u.val = 0; omega
  | ⟨1, _⟩ => show a + 1 * r.val = a + r.val; omega

/-- 672 weights loaded at column `a`. -/
theorem readAt_w672 (off : Fin 2 → ℕ) (a : ℕ) (h : off = ![0, a]) (inb : ∀ x, off x + S1x672.size x ≤ S1x100000.size x)
    (w : FVec F S1x100000 .f32) (u : Fin 1) (r : Fin 672) (hlt : a + r.val < 100000) :
    View.readAt (Elt F) (Memref.whole cc1_stg2_0).view (Rect.unit (s := S1x100000) off S1x672.size inb).toLoadRect w (ix2 u r)
      = w (ix2 0 ⟨a + r.val, hlt⟩) := by
  subst h
  show w ((Rect.unit (s := S1x100000) ![0, a] S1x672.size inb).toLoadRect.idx (ix2 u r)) = _
  refine congrArg w (funext fun x => Fin.ext ?_)
  match x with
  | ⟨0, _⟩ => show 0 + 1 * u.val = 0; omega
  | ⟨1, _⟩ => show a + 1 * r.val = a + r.val; omega

/-- 1024 biases loaded at position `a` of the staged bias vector. -/
theorem readAt_b1024 (off : Fin 1 → ℕ) (a : ℕ) (h : off = ![a]) (inb : ∀ x, off x + S1024.size x ≤ S100000.size x)
    (b : FVec F S100000 .f32) (r : Fin 1024) (hlt : a + r.val < 100000) :
    View.readAt (Elt F) (Memref.whole cc1_stg3_0).view (Rect.unit (s := S100000) off S1024.size inb).toLoadRect b (ix1 r)
      = b (ix1 ⟨a + r.val, hlt⟩) := by
  subst h
  show b ((Rect.unit (s := S100000) ![a] S1024.size inb).toLoadRect.idx (ix1 r)) = _
  refine congrArg b (funext fun x => Fin.ext ?_)
  match x with
  | ⟨0, _⟩ => show a + 1 * r.val = a + r.val; omega

/-- 672 biases loaded at position `a`. -/
theorem readAt_b672 (off : Fin 1 → ℕ) (a : ℕ) (h : off = ![a]) (inb : ∀ x, off x + S672.size x ≤ S100000.size x)
    (b : FVec F S100000 .f32) (r : Fin 672) (hlt : a + r.val < 100000) :
    View.readAt (Elt F) (Memref.whole cc1_stg3_0).view (Rect.unit (s := S100000) off S672.size inb).toLoadRect b (ix1 r)
      = b (ix1 ⟨a + r.val, hlt⟩) := by
  subst h
  show b ((Rect.unit (s := S100000) ![a] S672.size inb).toLoadRect.idx (ix1 r)) = _
  refine congrArg b (funext fun x => Fin.ext ?_)
  match x with
  | ⟨0, _⟩ => show a + 1 * r.val = a + r.val; omega

/-! ## The loop's four blocks -/

/-- The loop runs at most 24 trips, so every row it touches is inside the array. -/
theorem lo_lt (k : Fin k1_t1_loop.trips) (s : Fin 4) (r : Fin 1024) : 4096 * k.val + 1024 * s.val + r.val < 100000 := by
  have h1 := k.isLt
  have h2 : k1_t1_loop.trips ≤ 24 := k1_t1_abs.2.1
  have h3 := s.isLt
  have h4 := r.isLt
  omega

/-- The weight load of slot `s` of trip `k`. -/
theorem readAt_w_slot (k : Fin k1_t1_loop.trips) (s : Fin 4)
    (inb : ∀ x, (k1_off1 k (BitVec.ofNat 32 s.val)) x + S1x1024.size x ≤ S1x100000.size x)
    (w : FVec F S1x100000 .f32) (u : Fin 1) (r : Fin 1024) (hlo : 4096 * k.val + 1024 * s.val + r.val < 100000) :
    View.readAt (Elt F) (Memref.whole cc1_stg2_0).view (Rect.unit (s := S1x100000) (k1_off1 k (BitVec.ofNat 32 s.val)) S1x1024.size inb).toLoadRect w (ix2 u r)
      = w (ix2 0 ⟨4096 * k.val + 1024 * s.val + r.val, hlo⟩) :=
  readAt_w1024 _ (4096 * k.val + 1024 * s.val) (k1_off1_eq k s) inb w u r hlo

/-- The bias load of slot `s` of trip `k`. -/
theorem readAt_b_slot (k : Fin k1_t1_loop.trips) (s : Fin 4)
    (inb : ∀ x, (k1_off2 k (BitVec.ofNat 32 s.val)) x + S1024.size x ≤ S100000.size x)
    (b : FVec F S100000 .f32) (r : Fin 1024) (hlo : 4096 * k.val + 1024 * s.val + r.val < 100000) :
    View.readAt (Elt F) (Memref.whole cc1_stg3_0).view (Rect.unit (s := S100000) (k1_off2 k (BitVec.ofNat 32 s.val)) S1024.size inb).toLoadRect b (ix1 r)
      = b (ix1 ⟨4096 * k.val + 1024 * s.val + r.val, hlo⟩) :=
  readAt_b1024 _ (4096 * k.val + 1024 * s.val) (k1_off2_eq k s) inb b r hlo

/-- Slot 0 of trip `k`: the block at row `4096 k`. -/
theorem slot0_apply (k : Fin k1_t1_loop.trips) (v0 v2 : Vec F S1x2048 .f32) (w : FVec F S1x100000 .f32) (b : FVec F S100000 .f32)
    (inb1 : ∀ x, (k1_off1 k 0#32) x + S1x1024.size x ≤ S1x100000.size x)
    (inb2 : ∀ x, (k1_off2 k 0#32) x + S1024.size x ≤ S100000.size x)
    (r : Fin 1024) (t : Fin 2048) (hlo : 4096 * k.val + 1024 * 0 + r.val < 100000) :
    k1_pay2 (k1_pay6 v0 v2)
        (View.readAt (Elt F) (Memref.whole cc1_stg2_0).view (Rect.unit (s := S1x100000) (k1_off1 k 0#32) S1x1024.size inb1).toLoadRect w)
        (View.readAt (Elt F) (Memref.whole cc1_stg3_0).view (Rect.unit (s := S100000) (k1_off2 k 0#32) S1024.size inb2).toLoadRect b) (ix2 r t)
      = FloatOps.addf (FloatOps.mulf (w (ix2 0 ⟨4096 * k.val + 1024 * 0 + r.val, hlo⟩))
          (FloatOps.addf (v0 (ix2 0 t) : F .f32) (v2 (ix2 0 t)))) (b (ix1 ⟨4096 * k.val + 1024 * 0 + r.val, hlo⟩)) := by
  rw [pay2_apply, pay6_apply]
  exact congrArg₂ FloatOps.addf
    (congrArg (fun z => FloatOps.mulf z _) (readAt_w_slot k ⟨0, by decide⟩ inb1 w 0 r hlo))
    (readAt_b_slot k ⟨0, by decide⟩ inb2 b r hlo)

/-- Slot 1: the block at row `4096 k + 1024`, its weight column made before the tile. -/
theorem slot1_apply (k : Fin k1_t1_loop.trips) (v0 v2 : Vec F S1x2048 .f32) (w : FVec F S1x100000 .f32) (b : FVec F S100000 .f32)
    (inb1 : ∀ x, (k1_off1 k 1#32) x + S1x1024.size x ≤ S1x100000.size x)
    (inb2 : ∀ x, (k1_off2 k 1#32) x + S1024.size x ≤ S100000.size x)
    (r : Fin 1024) (t : Fin 2048) (hlo : 4096 * k.val + 1024 * 1 + r.val < 100000) :
    k1_pay4 (k1_pay6 v0 v2)
        (k1_pay3 (View.readAt (Elt F) (Memref.whole cc1_stg2_0).view (Rect.unit (s := S1x100000) (k1_off1 k 1#32) S1x1024.size inb1).toLoadRect w))
        (View.readAt (Elt F) (Memref.whole cc1_stg3_0).view (Rect.unit (s := S100000) (k1_off2 k 1#32) S1024.size inb2).toLoadRect b) (ix2 r t)
      = FloatOps.addf (FloatOps.mulf (w (ix2 0 ⟨4096 * k.val + 1024 * 1 + r.val, hlo⟩))
          (FloatOps.addf (v0 (ix2 0 t) : F .f32) (v2 (ix2 0 t)))) (b (ix1 ⟨4096 * k.val + 1024 * 1 + r.val, hlo⟩)) := by
  rw [pay4_pay3_apply, pay6_apply]
  exact congrArg₂ FloatOps.addf
    (congrArg (fun z => FloatOps.mulf z _) (readAt_w_slot k ⟨1, by decide⟩ inb1 w 0 r hlo))
    (readAt_b_slot k ⟨1, by decide⟩ inb2 b r hlo)

/-- Slot 2: the block at row `4096 k + 2048`. -/
theorem slot2_apply (k : Fin k1_t1_loop.trips) (v0 v2 : Vec F S1x2048 .f32) (w : FVec F S1x100000 .f32) (b : FVec F S100000 .f32)
    (inb1 : ∀ x, (k1_off1 k 2#32) x + S1x1024.size x ≤ S1x100000.size x)
    (inb2 : ∀ x, (k1_off2 k 2#32) x + S1024.size x ≤ S100000.size x)
    (r : Fin 1024) (t : Fin 2048) (hlo : 4096 * k.val + 1024 * 2 + r.val < 100000) :
    k1_pay5 (k1_pay6 v0 v2)
        (View.readAt (Elt F) (Memref.whole cc1_stg2_0).view (Rect.unit (s := S1x100000) (k1_off1 k 2#32) S1x1024.size inb1).toLoadRect w)
        (View.readAt (Elt F) (Memref.whole cc1_stg3_0).view (Rect.unit (s := S100000) (k1_off2 k 2#32) S1024.size inb2).toLoadRect b) (ix2 r t)
      = FloatOps.addf (FloatOps.mulf (w (ix2 0 ⟨4096 * k.val + 1024 * 2 + r.val, hlo⟩))
          (FloatOps.addf (v0 (ix2 0 t) : F .f32) (v2 (ix2 0 t)))) (b (ix1 ⟨4096 * k.val + 1024 * 2 + r.val, hlo⟩)) := by
  rw [pay5_apply, pay6_apply]
  exact congrArg₂ FloatOps.addf
    (congrArg (fun z => FloatOps.mulf z _) (readAt_w_slot k ⟨2, by decide⟩ inb1 w 0 r hlo))
    (readAt_b_slot k ⟨2, by decide⟩ inb2 b r hlo)

/-- Slot 3: the block at row `4096 k + 3072`. -/
theorem slot3_apply (k : Fin k1_t1_loop.trips) (v0 v2 : Vec F S1x2048 .f32) (w : FVec F S1x100000 .f32) (b : FVec F S100000 .f32)
    (inb1 : ∀ x, (k1_off1 k 3#32) x + S1x1024.size x ≤ S1x100000.size x)
    (inb2 : ∀ x, (k1_off2 k 3#32) x + S1024.size x ≤ S100000.size x)
    (r : Fin 1024) (t : Fin 2048) (hlo : 4096 * k.val + 1024 * 3 + r.val < 100000) :
    k1_pay7 v0 v2
        (View.readAt (Elt F) (Memref.whole cc1_stg2_0).view (Rect.unit (s := S1x100000) (k1_off1 k 3#32) S1x1024.size inb1).toLoadRect w)
        (View.readAt (Elt F) (Memref.whole cc1_stg3_0).view (Rect.unit (s := S100000) (k1_off2 k 3#32) S1024.size inb2).toLoadRect b) (ix2 r t)
      = FloatOps.addf (FloatOps.mulf (w (ix2 0 ⟨4096 * k.val + 1024 * 3 + r.val, hlo⟩))
          (FloatOps.addf (v0 (ix2 0 t) : F .f32) (v2 (ix2 0 t)))) (b (ix1 ⟨4096 * k.val + 1024 * 3 + r.val, hlo⟩)) := by
  rw [pay7_apply]
  exact congrArg₂ FloatOps.addf
    (congrArg (fun z => FloatOps.mulf z _) (readAt_w_slot k ⟨3, by decide⟩ inb1 w 0 r hlo))
    (readAt_b_slot k ⟨3, by decide⟩ inb2 b r hlo)

/-! ## The two blocks after the loop -/

/-- The block at row 98304. -/
theorem epi0_apply (v0 v2 : Vec F S1x2048 .f32) (w : FVec F S1x100000 .f32) (b : FVec F S100000 .f32)
    (inb1 : ∀ x, (![0, 98304] : Fin 2 → ℕ) x + S1x1024.size x ≤ S1x100000.size x)
    (inb2 : ∀ x, (![98304] : Fin 1 → ℕ) x + S1024.size x ≤ S100000.size x)
    (r : Fin 1024) (t : Fin 2048) (hlo : 98304 + r.val < 100000) :
    k1_pay8 v0 v2
        (View.readAt (Elt F) (Memref.whole cc1_stg2_0).view (Rect.unit (s := S1x100000) ![0, 98304] S1x1024.size inb1).toLoadRect w)
        (View.readAt (Elt F) (Memref.whole cc1_stg3_0).view (Rect.unit (s := S100000) ![98304] S1024.size inb2).toLoadRect b) (ix2 r t)
      = FloatOps.addf (FloatOps.mulf (w (ix2 0 ⟨98304 + r.val, hlo⟩))
          (FloatOps.addf (v0 (ix2 0 t) : F .f32) (v2 (ix2 0 t)))) (b (ix1 ⟨98304 + r.val, hlo⟩)) := by
  rw [pay8_apply]
  exact congrArg₂ FloatOps.addf
    (congrArg (fun z => FloatOps.mulf z _) (readAt_w1024 _ 98304 rfl inb1 w 0 r hlo))
    (readAt_b1024 _ 98304 rfl inb2 b r hlo)

/-- The last block, 672 rows at row 99328. -/
theorem epi1_apply (v0 v2 : Vec F S1x2048 .f32) (w : FVec F S1x100000 .f32) (b : FVec F S100000 .f32)
    (inb1 : ∀ x, (![0, 99328] : Fin 2 → ℕ) x + S1x672.size x ≤ S1x100000.size x)
    (inb2 : ∀ x, (![99328] : Fin 1 → ℕ) x + S672.size x ≤ S100000.size x)
    (r : Fin 672) (t : Fin 2048) (hlo : 99328 + r.val < 100000) :
    k1_pay1 (k1_pay6 v0 v2)
        (k1_pay9 (View.readAt (Elt F) (Memref.whole cc1_stg2_0).view (Rect.unit (s := S1x100000) ![0, 99328] S1x672.size inb1).toLoadRect w))
        (View.readAt (Elt F) (Memref.whole cc1_stg3_0).view (Rect.unit (s := S100000) ![99328] S672.size inb2).toLoadRect b) (ix2 r t)
      = FloatOps.addf (FloatOps.mulf (w (ix2 0 ⟨99328 + r.val, hlo⟩))
          (FloatOps.addf (v0 (ix2 0 t) : F .f32) (v2 (ix2 0 t)))) (b (ix1 ⟨99328 + r.val, hlo⟩)) := by
  rw [pay1_pay9_apply, pay6_apply]
  exact congrArg₂ FloatOps.addf
    (congrArg (fun z => FloatOps.mulf z _) (readAt_w672 _ 99328 rfl inb1 w 0 r hlo))
    (readAt_b672 _ 99328 rfl inb2 b r hlo)

end Cert.Proof.KI

end
-- ==== Proof.KI.TcTrip.lean ====
/-
  One trip of the loop over groups of four blocks: each slot in turn waits for its copy of the
  previous trip (none at the first trip), computes its tile into the scratch buffer and starts the
  copy out to its block's rows; the landed blocks join the rows at the result's value.
-/
import proofs.«217057_g30459908063406_cont_9to1_2067_16_alg».proof.Proof.KI.TcRows
import proofs.«217057_g30459908063406_cont_9to1_2067_16_alg».proof.Proof.KI.TcValue

noncomputable section

namespace Cert.Proof.KI

open Cert.KernelIdeal Cert.KernelIdeal.Gen
open Idealize.ShloMosaic Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A range of rows splits at a row between its ends, the row named twice. -/
theorem rowsAt_split' (d : Dev nD) {a m m' c : ℕ} (h1 : a ≤ m) (hm : m = m') (h2 : m ≤ c) (g : FVec F S1x100000x2048 .f32) :
    (rowsAt d a c g : sProp 𝕄) ⊣⊢ iprop(rowsAt d a m g ∗ rowsAt d m' c g) := by
  subst hm; exact rowsAt_split d h1 h2 g

/-- Four blocks of 1024 rows carved off the low end of a range reaching the array's end. -/
theorem rows_carve (d : Dev nD) (a : ℕ) (h : a + 4096 ≤ 100000) (g : FVec F S1x100000x2048 .f32) :
    (rowsAt d a 100000 g : sProp 𝕄) ⊢ iprop(rowsAt d a (a + 1024) g ∗ rowsAt d (a + 1024) (a + 1024 + 1024) g
      ∗ rowsAt d (a + 2048) (a + 2048 + 1024) g ∗ rowsAt d (a + 3072) (a + 3072 + 1024) g ∗ rowsAt d (a + 4096) 100000 g) := by
  iintro H
  ihave H := (rowsAt_split' d (a := a) (m := a + 1024) (m' := a + 1024) (c := 100000) (by omega) rfl (by omega) g).1 $$ H
  icases H with ⟨H0, H⟩
  ihave H := (rowsAt_split' d (a := a + 1024) (m := a + 1024 + 1024) (m' := a + 2048) (c := 100000) (by omega) (by omega) (by omega) g).1 $$ H
  icases H with ⟨H1, H⟩
  ihave H := (rowsAt_split' d (a := a + 2048) (m := a + 2048 + 1024) (m' := a + 3072) (c := 100000) (by omega) (by omega) (by omega) g).1 $$ H
  icases H with ⟨H2, H⟩
  ihave H := (rowsAt_split' d (a := a + 3072) (m := a + 3072 + 1024) (m' := a + 4096) (c := 100000) (by omega) (by omega) (by omega) g).1 $$ H
  icases H with ⟨H3, H⟩
  isplitl [H0]; · iexact H0
  isplitl [H1]; · iexact H1
  isplitl [H2]; · iexact H2
  isplitl [H3]; · iexact H3
  iexact H

/-- The same range with its ends respelt. -/
theorem rowsAt_cast (d : Dev nD) {a a' c c' : ℕ} (ha : a = a') (hc : c = c') (g : FVec F S1x100000x2048 .f32) :
    (rowsAt d a c g : sProp 𝕄) = rowsAt d a' c' g := by subst ha; subst hc; rfl

/-- Four landed blocks of 1024 rows joined to the rows below them. -/
theorem rows_land (d : Dev nD) (a : ℕ) (g : FVec F S1x100000x2048 .f32) :
    iprop(rowsAt d 0 a g ∗ rowsAt d a (a + 1024) g ∗ rowsAt d (a + 1024) (a + 1024 + 1024) g
      ∗ rowsAt d (a + 2048) (a + 2048 + 1024) g ∗ rowsAt d (a + 3072) (a + 3072 + 1024) g) ⊢ (rowsAt d 0 (a + 4096) g : sProp 𝕄) := by
  iintro ⟨H, H0, H1, H2, H3⟩
  ihave H := (rowsAt_split' d (a := 0) (m := a) (m' := a) (c := a + 1024) (by omega) rfl (by omega) g).2 $$ [H H0]
  · isplitl [H]; · iexact H
    iexact H0
  ihave H := (rowsAt_split' d (a := 0) (m := a + 1024) (m' := a + 1024) (c := a + 1024 + 1024) (by omega) rfl (by omega) g).2 $$ [H H1]
  · isplitl [H]; · iexact H
    iexact H1
  ihave H := (rowsAt_split' d (a := 0) (m := a + 1024 + 1024) (m' := a + 2048) (c := a + 2048 + 1024) (by omega) (by omega) (by omega) g).2 $$ [H H2]
  · isplitl [H]; · iexact H
    iexact H2
  ihave H := (rowsAt_split' d (a := 0) (m := a + 2048 + 1024) (m' := a + 3072) (c := a + 3072 + 1024) (by omega) (by omega) (by omega) g).2 $$ [H H3]
  · isplitl [H]; · iexact H
    iexact H3
  iapply (Entails.of_eq (rowsAt_cast d rfl (by omega) g)) $$ H
/-- A block a copy of the whole tile `pay` has landed in, over whatever it held, holds the result's value on its rows
    when the tile is the result's value there. -/
theorem land_conv (d : Dev nD) (k : Fin k1_t1_loop.trips) (r : Fin 4) (lo : ℕ) (hlo : lo = 4096 * k.val + 1024 * r.val)
    (hb : lo + 1024 ≤ 100000) (f out : FVec F S1x100000x2048 .f32) (pay : S1024x2048.Idx → Elt F .f32)
    (hpay : ∀ (r' : Fin 1024) (t : Fin 2048), pay (ix2 r' t) = out (ix3 (0 : Fin 1) (⟨lo + r'.val, by omega⟩ : Fin 100000) t)) :
    (own d (dstB k r) ((dstB k r).view.writes (Elt F) f [⟨Rect.whole S1024x2048, pay⟩]) : sProp 𝕄) ⊢ rowsAt d lo (lo + 1024) out := by
  rw [own_dstB d k r lo hlo]
  refine Entails.of_eq (rowsAt_congr d fun i h1 h2 => ?_)
  obtain ⟨a, v, t, rfl⟩ : ∃ (a : Fin 1) (v : Fin 100000) (t : Fin 2048), i = ix3 a v t := ⟨i 0, i 1, i 2, eq_ix3 i⟩
  have h1' : lo ≤ v.val := h1
  have h2' : v.val < lo + 1024 := h2
  obtain rfl : a = 0 := Subsingleton.elim _ _
  have hemb := emb_squeeze_slice_1024 (k1_off3 k (BitVec.ofNat 32 r.val)) lo (hlo ▸ k1_off3_eq k r) hb (Facts₀.k1_off3_inb k r) (fun _ => rfl)
    Facts₀.squeezes_S1x1024x2048_S1024x2048 ⟨v.val - lo, by omega⟩ t
  have hv : (⟨lo + (v.val - lo), by omega⟩ : Fin 100000) = v := Fin.ext (by show lo + (v.val - lo) = v.val; omega)
  have hi : (dstB k r).view.emb (ix2 (⟨v.val - lo, by omega⟩ : Fin 1024) t) = (ix3 (0 : Fin 1) v t : S1x100000x2048.Idx) :=
    hemb.trans (congrArg (fun x => ix3 (0 : Fin 1) x t) hv)
  have hw := View.read_writes_cons_emb (dstB k r).view f (Rect.whole S1024x2048) pay [] (ix2 (⟨v.val - lo, by omega⟩ : Fin 1024) t)
  rw [Rect.emb_whole_apply] at hw
  rw [View.read_apply] at hw
  have hw' : HEq ((dstB k r).view.writes (Elt F) f [⟨Rect.whole S1024x2048, pay⟩] ((dstB k r).view.emb (ix2 (⟨v.val - lo, by omega⟩ : Fin 1024) t))) (pay (ix2 (⟨v.val - lo, by omega⟩ : Fin 1024) t)) :=
    (cast_heq _ _).symm.trans (heq_of_eq hw)
  have e1 : (dstB k r).view.writes (Elt F) f [⟨Rect.whole S1024x2048, pay⟩] (ix3 (0 : Fin 1) v t) = pay (ix2 (⟨v.val - lo, by omega⟩ : Fin 1024) t) :=
    (congrArg ((dstB k r).view.writes (Elt F) f [⟨Rect.whole S1024x2048, pay⟩]) hi.symm).trans (eq_of_heq hw')
  exact e1.trans ((hpay _ t).trans (congrArg (fun x => out (ix3 (0 : Fin 1) x t)) hv))

/-- A slot's fresh flight, as a trip's run leaves it — the block at the tile landed over whatever it held —, is the slot
    copying out at the result's value. -/
theorem slot_fold (d : Dev nD) (k : Fin k1_t1_loop.trips) (r : Fin 4) (lo : ℕ) (hlo : lo = 4096 * k.val + 1024 * r.val)
    (hb : 4096 * k.val + 1024 * r.val + 1024 ≤ 100000) (f out : FVec F S1x100000x2048 .f32) (pay : S1024x2048.Idx → Elt F .f32)
    (hpay : ∀ (r' : Fin 1024) (t : Fin 2048), pay (ix2 r' t) = out (ix3 (0 : Fin 1) (⟨4096 * k.val + 1024 * r.val + r'.val, by omega⟩ : Fin 100000) t))
    (sem : DmaSem sig) (M : Memref sig .tc .vmem S1024x2048 .f32) (X : Buf (Elt F) (M.view.loc (cT d))) :
    iprop(Transfers.Flight countersEmb (cT d) (SemLoc.dma sem) default 262144
          iprop(own d (dstB k r) ((dstB k r).view.writes (Elt F) f [⟨Rect.whole S1024x2048, pay⟩])
            ∗ (M.view.loc (cT d) ↦[(fullS M).view.set]{fullShare} X))
        ∗ (M.view.loc (cT d) ↦[Finset.univ \ (fullS M).view.set]{fullShare} X))
      ⊢ (iprop(∃ X, slotFlying d out sem M lo X) : sProp 𝕄) := by
  subst hlo
  iintro ⟨HF, Hr⟩
  iexists X
  isplitl [HF]
  · iapply (Transfers.Flight_mono countersEmb (cT d) (sep_mono (land_conv d k r _ rfl hb f out pay hpay) .rfl)) $$ HF
  · iexact Hr

set_option maxHeartbeats 4000000 in
/-- The first trip: nothing to wait for; the four tiles are computed and their copies started. -/
theorem trip0 (d : Dev nD) (v0 v2 : Vec F S1x2048 .f32) (w : FVec F S1x100000 .f32) (b : FVec F S100000 .f32)
    (f out : FVec F S1x100000x2048 .f32) (X0 X1 X2 X3 : FVec F S1024x2048 .f32)
    (O : CellTallies nD τ sig (HIx 1)) (W : Waits sig (HIx 1)) (k : Fin k1_t1_loop.trips) (hk : k.val = 0)
    (hout : ∀ (v : Fin 100000) (t : Fin 2048), out (ix3 (0 : Fin 1) v t)
      = FloatOps.addf (FloatOps.mulf (w (ix2 0 v)) (FloatOps.addf (v0 (ix2 0 t) : F .f32) (v2 (ix2 0 t)))) (b (ix1 v))) :
    (inv0 d w b f X0 X1 X2 X3 O W : sProp 𝕄)
      ⊢ wp frame (wpE (defs₀ (F := F)) 𝒱₀ (cT d) none) Set.univ
          (k1_t1_body (F := F) (stage1_0 0) (Facts₀.hstage1_0 0) (stage1_1 0) (Facts₀.hstage1_1 0) (stage1_2 0) (Facts₀.hstage1_2 0) (stage1_3 0) (Facts₀.hstage1_3 0)
            (Memref.whole main_v6) (Memref.isWhole_whole _) (Memref.whole cc1_scratch0) (Memref.isWhole_whole _) (Memref.whole cc1_scratch1) (Memref.isWhole_whole _)
            (Memref.whole cc1_scratch2) (Memref.isWhole_whole _) (Memref.whole cc1_scratch3) (Memref.isWhole_whole _) cc1_scratch4 cc1_scratch5 cc1_scratch6 cc1_scratch7 v0 v2 k ())
          (fun _ => invS d w b f out O W 0) := by
  have hc : ¬ condK k = 1#1 := condK_zero k hk
  unfold k1_t1_body
  simp only [k1_part1_eq_skeleton, k1_part2_eq_skeleton]; unfold k1_part1_skel k1_part2_skel
  unfold inv0 invS
  iintro ⟨#Hmw, H2, H3, Hall, Hs0, Hs1, Hs2, Hs3, Hc0, Hc1, Hc2, Hc3, HO⟩
  ihave H := (rows_carve d 0 (by omega) f) $$ Hall
  icases H with ⟨Hp0, Hp1, Hp2, Hp3, Hall⟩
  ihave Hd0 := (Entails.of_eq (own_dstB d k 0 0 (by rw [hk]; rfl) f).symm) $$ Hp0
  ihave Hd1 := (Entails.of_eq (own_dstB d k 1 (0 + 1024) (by rw [hk]; rfl) f).symm) $$ Hp1
  ihave Hd2 := (Entails.of_eq (own_dstB d k 2 (0 + 2048) (by rw [hk]; rfl) f).symm) $$ Hp2
  ihave Hd3 := (Entails.of_eq (own_dstB d k 3 (0 + 3072) (by rw [hk]; rfl) f).symm) $$ Hp3
  sl_exec (disch := first | exact hc | exact View.amount_pos _ _ (by decide))
  sl_step
  isplitr; · iexact Hmw
  isplitl [H2]; · iexact H2
  isplitl [H3]; · iexact H3
  isplitr
  · rw [show 4096 * 0 = 0 from rfl, rowsAt_self]; iempintro
  isplitl [Hall]; · iexact Hall
  isplitl [Hc0 Hs0]
  · iapply (slot_fold d k 0 (4096 * 0) (by rw [hk]; rfl) (by rw [hk]; decide) f out _ ?hp0 _ (Memref.whole cc1_scratch0) _) $$ [Hc0 Hs0]
    swap
    · isplitl [Hc0]; · iexact Hc0
      iexact Hs0
    · intro r' t
      sl_unfold_run_names
      exact (congrFun (read_whole_slice_written cc1_scratch0 (Rect.unit (s := S1024x2048) ![0, 0] S1024x2048.size Facts₀.inb_S1024x2048_S1024x2048_0_0) _ _ _) (ix2 r' t)).trans
        ((slot0_apply k v0 v2 w b _ _ r' t _).trans (hout _ t).symm)
  isplitl [Hc1 Hs1]
  · iapply (slot_fold d k 1 (4096 * 0 + 1024) (by rw [hk]; rfl) (by rw [hk]; decide) f out _ ?hp1 _ (Memref.whole cc1_scratch1) _) $$ [Hc1 Hs1]
    swap
    · isplitl [Hc1]; · iexact Hc1
      iexact Hs1
    · intro r' t
      sl_unfold_run_names
      exact (congrFun (read_whole_slice_written cc1_scratch1 (Rect.unit (s := S1024x2048) ![0, 0] S1024x2048.size Facts₀.inb_S1024x2048_S1024x2048_0_0) _ _ _) (ix2 r' t)).trans
        ((slot1_apply k v0 v2 w b _ _ r' t _).trans (hout _ t).symm)
  isplitl [Hc2 Hs2]
  · iapply (slot_fold d k 2 (4096 * 0 + 2048) (by rw [hk]; rfl) (by rw [hk]; decide) f out _ ?hp2 _ (Memref.whole cc1_scratch2) _) $$ [Hc2 Hs2]
    swap
    · isplitl [Hc2]; · iexact Hc2
      iexact Hs2
    · intro r' t
      sl_unfold_run_names
      exact (congrFun (read_whole_slice_written cc1_scratch2 (Rect.unit (s := S1024x2048) ![0, 0] S1024x2048.size Facts₀.inb_S1024x2048_S1024x2048_0_0) _ _ _) (ix2 r' t)).trans
        ((slot2_apply k v0 v2 w b _ _ r' t _).trans (hout _ t).symm)
  isplitl [Hc3 Hs3]
  · iapply (slot_fold d k 3 (4096 * 0 + 3072) (by rw [hk]; rfl) (by rw [hk]; decide) f out _ ?hp3 _ (Memref.whole cc1_scratch3) _) $$ [Hc3 Hs3]
    swap
    · isplitl [Hc3]; · iexact Hc3
      iexact Hs3
    · intro r' t
      sl_unfold_run_names
      exact (congrFun (read_whole_slice_written cc1_scratch3 (Rect.unit (s := S1024x2048) ![0, 0] S1024x2048.size Facts₀.inb_S1024x2048_S1024x2048_0_0) _ _ _) (ix2 r' t)).trans
        ((slot3_apply k v0 v2 w b _ _ r' t _).trans (hout _ t).symm)
  iexact HO

set_option maxHeartbeats 4000000 in
/-- A later trip: each slot waits for its copy of the trip before, whose block lands; then as the first trip. -/
theorem tripS (d : Dev nD) (v0 v2 : Vec F S1x2048 .f32) (w : FVec F S1x100000 .f32) (b : FVec F S100000 .f32)
    (f out : FVec F S1x100000x2048 .f32)
    (O : CellTallies nD τ sig (HIx 1)) (W : Waits sig (HIx 1)) (k : Fin k1_t1_loop.trips) (n : ℕ) (hk : k.val = n + 1)
    (hout : ∀ (v : Fin 100000) (t : Fin 2048), out (ix3 (0 : Fin 1) v t)
      = FloatOps.addf (FloatOps.mulf (w (ix2 0 v)) (FloatOps.addf (v0 (ix2 0 t) : F .f32) (v2 (ix2 0 t)))) (b (ix1 v))) :
    (invS d w b f out O W n : sProp 𝕄)
      ⊢ wp frame (wpE (defs₀ (F := F)) 𝒱₀ (cT d) none) Set.univ
          (k1_t1_body (F := F) (stage1_0 0) (Facts₀.hstage1_0 0) (stage1_1 0) (Facts₀.hstage1_1 0) (stage1_2 0) (Facts₀.hstage1_2 0) (stage1_3 0) (Facts₀.hstage1_3 0)
            (Memref.whole main_v6) (Memref.isWhole_whole _) (Memref.whole cc1_scratch0) (Memref.isWhole_whole _) (Memref.whole cc1_scratch1) (Memref.isWhole_whole _)
            (Memref.whole cc1_scratch2) (Memref.isWhole_whole _) (Memref.whole cc1_scratch3) (Memref.isWhole_whole _) cc1_scratch4 cc1_scratch5 cc1_scratch6 cc1_scratch7 v0 v2 k ())
          (fun _ => invS d w b f out O W (n + 1)) := by
  have hc : condK k = 1#1 := condK_pos k (by omega)
  have hk24 : k.val < 24 := lt_of_lt_of_eq k.isLt trips_eq
  have hn : n + 2 ≤ 24 := by omega
  unfold k1_t1_body
  simp only [k1_part1_eq_skeleton, k1_part2_eq_skeleton]; unfold k1_part1_skel k1_part2_skel
  unfold invS
  iintro ⟨#Hmw, H2, H3, Hdone, Hall, ⟨%X0, Hc0, Hs0⟩, ⟨%X1, Hc1, Hs1⟩, ⟨%X2, Hc2, Hs2⟩, ⟨%X3, Hc3, Hs3⟩, ⟨%W', %hW', HO⟩⟩
  ihave H := (rows_carve d (4096 * (n + 1)) (by omega) f) $$ Hall
  icases H with ⟨Hp0, Hp1, Hp2, Hp3, Hall⟩
  ihave Hd0 := (Entails.of_eq (own_dstB d k 0 (4096 * (n + 1)) (by rw [hk]; show 4096 * (n + 1) = 4096 * (n + 1) + 1024 * 0; omega) f).symm) $$ Hp0
  ihave Hd1 := (Entails.of_eq (own_dstB d k 1 (4096 * (n + 1) + 1024) (by rw [hk]; show 4096 * (n + 1) + 1024 = 4096 * (n + 1) + 1024 * 1; omega) f).symm) $$ Hp1
  ihave Hd2 := (Entails.of_eq (own_dstB d k 2 (4096 * (n + 1) + 2048) (by rw [hk]; show 4096 * (n + 1) + 2048 = 4096 * (n + 1) + 1024 * 2; omega) f).symm) $$ Hp2
  ihave Hd3 := (Entails.of_eq (own_dstB d k 3 (4096 * (n + 1) + 3072) (by rw [hk]; show 4096 * (n + 1) + 3072 = 4096 * (n + 1) + 1024 * 3; omega) f).symm) $$ Hp3
  sl_exec (disch := first | exact hc | exact View.amount_pos _ _ (by decide))
  sl_step
  isplitr; · iexact Hmw
  isplitl [H2]; · iexact H2
  isplitl [H3]; · iexact H3
  isplitl [Hdone Hc0_dst Hc1_dst Hc2_dst Hc3_dst]
  · iapply (Entails.of_eq (rowsAt_cast d (a := 0) (a' := 0) (c := 4096 * n + 4096) (c' := 4096 * (n + 1)) rfl (by omega) out))
    iapply (rows_land d (4096 * n) out)
    isplitl [Hdone]; · iexact Hdone
    isplitl [Hc0_dst]; · iexact Hc0_dst
    isplitl [Hc1_dst]; · iexact Hc1_dst
    isplitl [Hc2_dst]; · iexact Hc2_dst
    iexact Hc3_dst
  isplitl [Hall]
  · iapply (Entails.of_eq (rowsAt_cast d (a := 4096 * (n + 1) + 4096) (a' := 4096 * (n + 1 + 1)) (c := 100000) (c' := 100000) (by omega) rfl f)) $$ Hall
  isplitl [Hc0 Hs0]
  · iapply (slot_fold d k 0 (4096 * (n + 1)) (by rw [hk]; show 4096 * (n + 1) = 4096 * (n + 1) + 1024 * 0; omega) (by rw [hk]; show 4096 * (n + 1) + 1024 * 0 + 1024 ≤ 100000; omega) f out _ ?hp0 _ (Memref.whole cc1_scratch0) _) $$ [Hc0 Hs0]
    swap
    · isplitl [Hc0]; · iexact Hc0
      iexact Hs0
    · intro r' t
      sl_unfold_run_names
      exact (congrFun (read_whole_slice_written cc1_scratch0 (Rect.unit (s := S1024x2048) ![0, 0] S1024x2048.size Facts₀.inb_S1024x2048_S1024x2048_0_0) _ _ _) (ix2 r' t)).trans
        ((slot0_apply k v0 v2 w b _ _ r' t _).trans (hout _ t).symm)
  isplitl [Hc1 Hs1]
  · iapply (slot_fold d k 1 (4096 * (n + 1) + 1024) (by rw [hk]; show 4096 * (n + 1) + 1024 = 4096 * (n + 1) + 1024 * 1; omega) (by rw [hk]; show 4096 * (n + 1) + 1024 * 1 + 1024 ≤ 100000; omega) f out _ ?hp1 _ (Memref.whole cc1_scratch1) _) $$ [Hc1 Hs1]
    swap
    · isplitl [Hc1]; · iexact Hc1
      iexact Hs1
    · intro r' t
      sl_unfold_run_names
      exact (congrFun (read_whole_slice_written cc1_scratch1 (Rect.unit (s := S1024x2048) ![0, 0] S1024x2048.size Facts₀.inb_S1024x2048_S1024x2048_0_0) _ _ _) (ix2 r' t)).trans
        ((slot1_apply k v0 v2 w b _ _ r' t _).trans (hout _ t).symm)
  isplitl [Hc2 Hs2]
  · iapply (slot_fold d k 2 (4096 * (n + 1) + 2048) (by rw [hk]; show 4096 * (n + 1) + 2048 = 4096 * (n + 1) + 1024 * 2; omega) (by rw [hk]; show 4096 * (n + 1) + 1024 * 2 + 1024 ≤ 100000; omega) f out _ ?hp2 _ (Memref.whole cc1_scratch2) _) $$ [Hc2 Hs2]
    swap
    · isplitl [Hc2]; · iexact Hc2
      iexact Hs2
    · intro r' t
      sl_unfold_run_names
      exact (congrFun (read_whole_slice_written cc1_scratch2 (Rect.unit (s := S1024x2048) ![0, 0] S1024x2048.size Facts₀.inb_S1024x2048_S1024x2048_0_0) _ _ _) (ix2 r' t)).trans
        ((slot2_apply k v0 v2 w b _ _ r' t _).trans (hout _ t).symm)
  isplitl [Hc3 Hs3]
  · iapply (slot_fold d k 3 (4096 * (n + 1) + 3072) (by rw [hk]; show 4096 * (n + 1) + 3072 = 4096 * (n + 1) + 1024 * 3; omega) (by rw [hk]; show 4096 * (n + 1) + 1024 * 3 + 1024 ≤ 100000; omega) f out _ ?hp3 _ (Memref.whole cc1_scratch3) _) $$ [Hc3 Hs3]
    swap
    · isplitl [Hc3]; · iexact Hc3
      iexact Hs3
    · intro r' t
      sl_unfold_run_names
      exact (congrFun (read_whole_slice_written cc1_scratch3 (Rect.unit (s := S1024x2048) ![0, 0] S1024x2048.size Facts₀.inb_S1024x2048_S1024x2048_0_0) _ _ _) (ix2 r' t)).trans
        ((slot3_apply k v0 v2 w b _ _ r' t _).trans (hout _ t).symm)
  iexists (insert (SemLoc.dma cc1_scratch7.sem, (default : HIx 1)) (insert (SemLoc.dma cc1_scratch6.sem, (default : HIx 1))
    (insert (SemLoc.dma cc1_scratch5.sem, (default : HIx 1)) (insert (SemLoc.dma cc1_scratch4.sem, (default : HIx 1)) W'))))
  isplitr
  · ipureintro; intro q hq
    simp only [Finset.mem_insert] at hq
    rcases hq with hq | hq | hq | hq | hq
    · exact .inr (hq ▸ rfl)
    · exact .inr (hq ▸ rfl)
    · exact .inr (hq ▸ rfl)
    · exact .inr (hq ▸ rfl)
    · exact hW' q hq
  · iexact HO

end Cert.Proof.KI

end
-- ==== Proof.KI.TcEpi.lean ====
/-
  The result's blocks at literal offsets — the two blocks written after the loop, of 1024 and of 672
  rows —: a block held by its own elements is its range of rows, and a block a copy of a whole tile
  has landed in holds the result's value on its rows when the tile is the result's value there.
-/
import proofs.«217057_g30459908063406_cont_9to1_2067_16_alg».proof.Proof.KI.TcRows

noncomputable section

namespace Cert.Proof.KI

open Cert.KernelIdeal Cert.KernelIdeal.Gen
open Idealize.ShloMosaic Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A block of 1024 rows of the result at literal offsets, as the kernel slices it. -/
abbrev blkL (off : Fin 3 → ℕ) (inb : ∀ a, off a + S1x1024x2048.size a ≤ S1x100000x2048.size a) : Memref sig .tc .hbm S1024x2048 .f32 :=
  ((Memref.whole main_v6).slice (Rect.unit (s := S1x100000x2048) off S1x1024x2048.size inb) (fun _ => rfl)).squeeze S1024x2048 Facts₀.squeezes_S1x1024x2048_S1024x2048

/-- The block held by its own elements is its range of rows held. -/
theorem own_blkL (d : Dev nD) (off : Fin 3 → ℕ) (lo : ℕ) (h : off = ![0, lo, 0]) (inb : ∀ a, off a + S1x1024x2048.size a ≤ S1x100000x2048.size a)
    (g : FVec F S1x100000x2048 .f32) : (own d (blkL off inb) g : sProp 𝕄) = rowsAt d lo (lo + 1024) g :=
  congrArg (fun S : Finset (Idx (L6 d)) => (L6 d ↦[S]{fullShare} g : sProp 𝕄))
    (show ((blkL off inb).view.set : Finset (Idx (L6 d))) = (rowsIn lo (lo + 1024) : Finset (Idx (L6 d))) from set_squeeze_slice_1024_rows off lo h inb _ _)

/-- The block after a copy of the whole tile `pay` has landed in it holds the result's value on its rows when the tile is
    the result's value there. -/
theorem land_blkL (d : Dev nD) (off : Fin 3 → ℕ) (lo : ℕ) (h : off = ![0, lo, 0]) (hb : lo + 1024 ≤ 100000)
    (inb : ∀ a, off a + S1x1024x2048.size a ≤ S1x100000x2048.size a) (f out : FVec F S1x100000x2048 .f32) (pay : S1024x2048.Idx → Elt F .f32)
    (hpay : ∀ (r' : Fin 1024) (t : Fin 2048), pay (ix2 r' t) = out (ix3 (0 : Fin 1) (⟨lo + r'.val, by omega⟩ : Fin 100000) t)) :
    (own d (blkL off inb) ((blkL off inb).view.writes (Elt F) f [⟨Rect.whole S1024x2048, pay⟩]) : sProp 𝕄) ⊢ rowsAt d lo (lo + 1024) out := by
  rw [own_blkL d off lo h inb]
  refine Entails.of_eq (rowsAt_congr d fun i h1 h2 => ?_)
  obtain ⟨a, v, t, rfl⟩ : ∃ (a : Fin 1) (v : Fin 100000) (t : Fin 2048), i = ix3 a v t := ⟨i 0, i 1, i 2, eq_ix3 i⟩
  have h1' : lo ≤ v.val := h1
  have h2' : v.val < lo + 1024 := h2
  obtain rfl : a = 0 := Subsingleton.elim _ _
  have hemb := emb_squeeze_slice_1024 off lo h hb inb (fun _ => rfl) Facts₀.squeezes_S1x1024x2048_S1024x2048 ⟨v.val - lo, by omega⟩ t
  have hv : (⟨lo + (v.val - lo), by omega⟩ : Fin 100000) = v := Fin.ext (by show lo + (v.val - lo) = v.val; omega)
  have hi : (blkL off inb).view.emb (ix2 (⟨v.val - lo, by omega⟩ : Fin 1024) t) = (ix3 (0 : Fin 1) v t : S1x100000x2048.Idx) :=
    hemb.trans (congrArg (fun x => ix3 (0 : Fin 1) x t) hv)
  have hw := View.read_writes_cons_emb (blkL off inb).view f (Rect.whole S1024x2048) pay [] (ix2 (⟨v.val - lo, by omega⟩ : Fin 1024) t)
  rw [Rect.emb_whole_apply] at hw
  rw [View.read_apply] at hw
  have hw' : HEq ((blkL off inb).view.writes (Elt F) f [⟨Rect.whole S1024x2048, pay⟩] ((blkL off inb).view.emb (ix2 (⟨v.val - lo, by omega⟩ : Fin 1024) t))) (pay (ix2 (⟨v.val - lo, by omega⟩ : Fin 1024) t)) :=
    (cast_heq _ _).symm.trans (heq_of_eq hw)
  have e1 : (blkL off inb).view.writes (Elt F) f [⟨Rect.whole S1024x2048, pay⟩] (ix3 (0 : Fin 1) v t) = pay (ix2 (⟨v.val - lo, by omega⟩ : Fin 1024) t) :=
    (congrArg ((blkL off inb).view.writes (Elt F) f [⟨Rect.whole S1024x2048, pay⟩]) hi.symm).trans (eq_of_heq hw')
  exact e1.trans ((hpay _ t).trans (congrArg (fun x => out (ix3 (0 : Fin 1) x t)) hv))

/-- A block of 672 rows of the result at literal offsets, as the kernel slices it. -/
abbrev blkL672 (off : Fin 3 → ℕ) (inb : ∀ a, off a + S1x672x2048.size a ≤ S1x100000x2048.size a) : Memref sig .tc .hbm S672x2048 .f32 :=
  ((Memref.whole main_v6).slice (Rect.unit (s := S1x100000x2048) off S1x672x2048.size inb) (fun _ => rfl)).squeeze S672x2048 Facts₀.squeezes_S1x672x2048_S672x2048

/-- The block held by its own elements is its range of rows held. -/
theorem own_blkL672 (d : Dev nD) (off : Fin 3 → ℕ) (lo : ℕ) (h : off = ![0, lo, 0]) (inb : ∀ a, off a + S1x672x2048.size a ≤ S1x100000x2048.size a)
    (g : FVec F S1x100000x2048 .f32) : (own d (blkL672 off inb) g : sProp 𝕄) = rowsAt d lo (lo + 672) g :=
  congrArg (fun S : Finset (Idx (L6 d)) => (L6 d ↦[S]{fullShare} g : sProp 𝕄))
    (show ((blkL672 off inb).view.set : Finset (Idx (L6 d))) = (rowsIn lo (lo + 672) : Finset (Idx (L6 d))) from set_squeeze_slice_672_rows off lo h inb _ _)

/-- The block after a copy of the whole tile `pay` has landed in it holds the result's value on its rows when the tile is
    the result's value there. -/
theorem land_blkL672 (d : Dev nD) (off : Fin 3 → ℕ) (lo : ℕ) (h : off = ![0, lo, 0]) (hb : lo + 672 ≤ 100000)
    (inb : ∀ a, off a + S1x672x2048.size a ≤ S1x100000x2048.size a) (f out : FVec F S1x100000x2048 .f32) (pay : S672x2048.Idx → Elt F .f32)
    (hpay : ∀ (r' : Fin 672) (t : Fin 2048), pay (ix2 r' t) = out (ix3 (0 : Fin 1) (⟨lo + r'.val, by omega⟩ : Fin 100000) t)) :
    (own d (blkL672 off inb) ((blkL672 off inb).view.writes (Elt F) f [⟨Rect.whole S672x2048, pay⟩]) : sProp 𝕄) ⊢ rowsAt d lo (lo + 672) out := by
  rw [own_blkL672 d off lo h inb]
  refine Entails.of_eq (rowsAt_congr d fun i h1 h2 => ?_)
  obtain ⟨a, v, t, rfl⟩ : ∃ (a : Fin 1) (v : Fin 100000) (t : Fin 2048), i = ix3 a v t := ⟨i 0, i 1, i 2, eq_ix3 i⟩
  have h1' : lo ≤ v.val := h1
  have h2' : v.val < lo + 672 := h2
  obtain rfl : a = 0 := Subsingleton.elim _ _
  have hemb := emb_squeeze_slice_672 off lo h hb inb (fun _ => rfl) Facts₀.squeezes_S1x672x2048_S672x2048 ⟨v.val - lo, by omega⟩ t
  have hv : (⟨lo + (v.val - lo), by omega⟩ : Fin 100000) = v := Fin.ext (by show lo + (v.val - lo) = v.val; omega)
  have hi : (blkL672 off inb).view.emb (ix2 (⟨v.val - lo, by omega⟩ : Fin 672) t) = (ix3 (0 : Fin 1) v t : S1x100000x2048.Idx) :=
    hemb.trans (congrArg (fun x => ix3 (0 : Fin 1) x t) hv)
  have hw := View.read_writes_cons_emb (blkL672 off inb).view f (Rect.whole S672x2048) pay [] (ix2 (⟨v.val - lo, by omega⟩ : Fin 672) t)
  rw [Rect.emb_whole_apply] at hw
  rw [View.read_apply] at hw
  have hw' : HEq ((blkL672 off inb).view.writes (Elt F) f [⟨Rect.whole S672x2048, pay⟩] ((blkL672 off inb).view.emb (ix2 (⟨v.val - lo, by omega⟩ : Fin 672) t))) (pay (ix2 (⟨v.val - lo, by omega⟩ : Fin 672) t)) :=
    (cast_heq _ _).symm.trans (heq_of_eq hw)
  have e1 : (blkL672 off inb).view.writes (Elt F) f [⟨Rect.whole S672x2048, pay⟩] (ix3 (0 : Fin 1) v t) = pay (ix2 (⟨v.val - lo, by omega⟩ : Fin 672) t) :=
    (congrArg ((blkL672 off inb).view.writes (Elt F) f [⟨Rect.whole S672x2048, pay⟩]) hi.symm).trans (eq_of_heq hw')
  exact e1.trans ((hpay _ t).trans (congrArg (fun x => out (ix3 (0 : Fin 1) x t)) hv))

end Cert.Proof.KI

end
-- ==== Proof.KI.TcBody.lean ====
/-
  The TensorCore kernel region's body, run from the staged operands, the result array, the four scratch
  buffers and their semaphores: it leaves the result at `w[v] · (x[t] + p[t]) + b[v]`. The loop over
  groups of four blocks goes by its invariant, one trip at a symbolic trip number; after it the last
  two blocks are written through slots 0 and 1 and every copy is awaited; the landed blocks, which
  tile the rows, join to the array whole.
-/
import proofs.«217057_g30459908063406_cont_9to1_2067_16_alg».proof.Proof.KI.TcTrip
import proofs.«217057_g30459908063406_cont_9to1_2067_16_alg».proof.Proof.KI.TcEpi

noncomputable section

namespace Cert.Proof.KI

open Cert.KernelIdeal Cert.KernelIdeal.Gen
open Idealize.ShloMosaic Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem inv_zero (d : Dev nD) (w : FVec F S1x100000 .f32) (b : FVec F S100000 .f32) (f out : FVec F S1x100000x2048 .f32)
    (X0 X1 X2 X3 : FVec F S1024x2048 .f32) (O : CellTallies nD τ sig (HIx 1)) (W : Waits sig (HIx 1)) (u : Unit) :
    (inv d w b f out X0 X1 X2 X3 O W 0 u : sProp 𝕄) = inv0 d w b f X0 X1 X2 X3 O W := rfl

theorem inv_succ (d : Dev nD) (w : FVec F S1x100000 .f32) (b : FVec F S100000 .f32) (f out : FVec F S1x100000x2048 .f32)
    (X0 X1 X2 X3 : FVec F S1024x2048 .f32) (O : CellTallies nD τ sig (HIx 1)) (W : Waits sig (HIx 1)) (n : ℕ) (u : Unit) :
    (inv d w b f out X0 X1 X2 X3 O W (n + 1) u : sProp 𝕄) = invS d w b f out O W n := rfl

/-- The result's value read off the staged rows as the kernel loads them. -/
theorem outT_staged (x p : FVec F S1x2048 .f32) (w : FVec F S1x100000 .f32) (b : FVec F S100000 .f32) (v : Fin 100000) (t : Fin 2048) :
    outT x p w b (ix3 (0 : Fin 1) v t)
      = FloatOps.addf (FloatOps.mulf (w (ix2 0 v)) (FloatOps.addf ((View.readAt (Elt F) (Memref.whole cc1_stg0_0).view (Rect.unit (s := S1x2048) ![0, 0] S1x2048.size Facts₀.inb_S1x2048_S1x2048_0_0).toLoadRect x) (ix2 0 t) : F .f32) ((View.readAt (Elt F) (Memref.whole cc1_stg1_0).view (Rect.unit (s := S1x2048) ![0, 0] S1x2048.size Facts₀.inb_S1x2048_S1x2048_0_0).toLoadRect p) (ix2 0 t)))) (b (ix1 v)) := by
  rw [readAt_stg0_apply, readAt_stg1_apply]; rfl

set_option maxHeartbeats 4000000 in
/-- The kernel's body on the TensorCore of device `d`. -/
theorem body_run (d : Dev nD) (x p : FVec F S1x2048 .f32) (w : FVec F S1x100000 .f32) (b : FVec F S100000 .f32)
    (f : FVec F S1x100000x2048 .f32) (X0 X1 X2 X3 : FVec F S1024x2048 .f32)
    (O : CellTallies nD τ sig (HIx 1)) (W : Waits sig (HIx 1)) :
    iprop(Transfers.MayWaits (cT d) (none : HIx 1) O
        ∗ pw d cc1_stg0_0 x ∗ pw d cc1_stg1_0 p ∗ pw d cc1_stg2_0 w ∗ pw d cc1_stg3_0 b ∗ pw d main_v6 f
        ∗ pw d cc1_scratch0 X0 ∗ pw d cc1_scratch1 X1 ∗ pw d cc1_scratch2 X2 ∗ pw d cc1_scratch3 X3
        ∗ sv d cc1_scratch4.sem ∗ sv d cc1_scratch5.sem ∗ sv d cc1_scratch6.sem ∗ sv d cc1_scratch7.sem
        ∗ owes (cT d) O W : sProp 𝕄)
      ⊢ wp frame (wpE (defs₀ (F := F)) 𝒱₀ (cT d) none) Set.univ (bodyAt1 (F := F) t1_0)
          (fun _ => iprop(pw d cc1_stg0_0 x ∗ pw d cc1_stg1_0 p ∗ pw d cc1_stg2_0 w ∗ pw d cc1_stg3_0 b ∗ pw d main_v6 (outT x p w b)
            ∗ (∃ X, pw d cc1_scratch0 X) ∗ (∃ X, pw d cc1_scratch1 X) ∗ (∃ X, pw d cc1_scratch2 X) ∗ (∃ X, pw d cc1_scratch3 X)
            ∗ sv d cc1_scratch4.sem ∗ sv d cc1_scratch5.sem ∗ sv d cc1_scratch6.sem ∗ sv d cc1_scratch7.sem
            ∗ owesK d O W)) := by
  unfold bodyAt1
  simp only [cc1__tc_body_eq_skeleton]; unfold cc1__tc_body_skel
  simp only [k1_part3_eq_skeleton]; unfold k1_part3_skel
  iintro ⟨Hmw, H0, H1, H2, H3, H6, Hs0, Hs1, Hs2, Hs3, Hc0, Hc1, Hc2, Hc3, HO⟩
  sl_exec
  sl_rw [Prog.bind_assoc]
  sl_for (inv d w b f (outT x p w b) X0 X1 X2 X3 O W) $$ [Hmw H2 H3 H6 Hs0 Hs1 Hs2 Hs3 Hc0 Hc1 Hc2 Hc3 HO]
  case region =>
    intro k acc
    rcases hk : k.val with _ | n
    · exact trip0 d _ _ w b f (outT x p w b) X0 X1 X2 X3 O W k hk (outT_staged x p w b)
    · exact tripS d _ _ w b f (outT x p w b) O W k n hk (outT_staged x p w b)
  · rw [inv_zero]; unfold inv0
    isplitl [Hmw]; · iexact Hmw
    isplitl [H2]; · iexact H2
    isplitl [H3]; · iexact H3
    isplitl [H6]; · rw [rowsAt_univ]; iexact H6
    isplitl [Hs0]; · iexact Hs0
    isplitl [Hs1]; · iexact Hs1
    isplitl [Hs2]; · iexact Hs2
    isplitl [Hs3]; · iexact Hs3
    isplitl [Hc0]; · iexact Hc0
    isplitl [Hc1]; · iexact Hc1
    isplitl [Hc2]; · iexact Hc2
    isplitl [Hc3]; · iexact Hc3
    iexists W; isplitr
    · ipureintro; exact fun q hq => .inl hq
    · iexact HO
  iintro %acc HI
  ihave HI := (Entails.of_eq (show inv d w b f (outT x p w b) X0 X1 X2 X3 O W _ acc = invS d w b f (outT x p w b) O W 23 from
      (congrArg (fun n => inv d w b f (outT x p w b) X0 X1 X2 X3 O W n acc) (show _ = 23 + 1 from trips_eq)).trans rfl)) $$ HI
  unfold invS
  icases HI with ⟨#Hmw, H2, H3, Hdone, Hall, ⟨%Y0, Hc0, Hs0⟩, ⟨%Y1, Hc1, Hs1⟩, ⟨%Y2, Hc2, Hs2⟩, ⟨%Y3, Hc3, Hs3⟩, ⟨%W', %hW', HO⟩⟩
  ihave H := (rowsAt_split' d (a := 4096 * (23 + 1)) (m := 98304 + 1024) (m' := 99328) (c := 100000) (by omega) rfl (by omega) f).1 $$ Hall
  icases H with ⟨Hp96, Hp97⟩
  ihave Hd96 := (Entails.of_eq (own_blkL d ![0, 98304, 0] 98304 rfl Facts₀.inb_S1x100000x2048_S1x1024x2048_0_98304_0 f).symm) $$ Hp96
  ihave Hd97 := (Entails.of_eq (own_blkL672 d ![0, 99328, 0] 99328 rfl Facts₀.inb_S1x100000x2048_S1x672x2048_0_99328_0 f).symm) $$ Hp97
  sl_exec (disch := exact View.amount_pos _ _ (by decide))
  sl_step
  isplitl [H0]; · iexact H0
  isplitl [H1]; · iexact H1
  isplitl [H2]; · iexact H2
  isplitl [H3]; · iexact H3
  isplitl [Hdone Hc0_dst Hc1_dst Hc2_dst Hc3_dst Hd96 Hd97]
  · ihave Hl := (rows_land d (4096 * 23) (outT x p w b)) $$ [Hdone Hc0_dst Hc1_dst Hc2_dst Hc3_dst]
    · isplitl [Hdone]; · iexact Hdone
      isplitl [Hc0_dst]; · iexact Hc0_dst
      isplitl [Hc1_dst]; · iexact Hc1_dst
      isplitl [Hc2_dst]; · iexact Hc2_dst
      iexact Hc3_dst
    ihave H96 := (land_blkL d ![0, 98304, 0] 98304 rfl (by omega) Facts₀.inb_S1x100000x2048_S1x1024x2048_0_98304_0 f (outT x p w b) _ ?hp96) $$ Hd96
    case hp96 =>
      intro r' t
      sl_unfold_run_names
      exact (congrFun (read_whole_slice_written cc1_scratch0 (Rect.unit (s := S1024x2048) ![0, 0] S1024x2048.size Facts₀.inb_S1024x2048_S1024x2048_0_0) _ _ _) (ix2 r' t)).trans
        ((epi0_apply _ _ w b _ _ r' t _).trans (outT_staged x p w b _ t).symm)
    ihave H97 := (land_blkL672 d ![0, 99328, 0] 99328 rfl (by omega) Facts₀.inb_S1x100000x2048_S1x672x2048_0_99328_0 f (outT x p w b) _ ?hp97) $$ Hd97
    case hp97 =>
      intro r' t
      sl_unfold_run_names
      exact (congrFun (read_whole_slice_written cc1_scratch1 (Rect.unit (s := S1024x2048) ![0, 0] S672x2048.size Facts₀.inb_S1024x2048_S672x2048_0_0) _ _ _) (ix2 r' t)).trans
        ((epi1_apply _ _ w b _ _ r' t _).trans (outT_staged x p w b _ t).symm)
    ihave Hl := (rowsAt_split' d (a := 0) (m := 4096 * 23 + 4096) (m' := 98304) (c := 98304 + 1024) (by omega) (by omega) (by omega) (outT x p w b)).2 $$ [Hl H96]
    · isplitl [Hl]; · iexact Hl
      iexact H96
    ihave Hl := (rowsAt_split' d (a := 0) (m := 98304 + 1024) (m' := 99328) (c := 99328 + 672) (by omega) (by omega) (by omega) (outT x p w b)).2 $$ [Hl H97]
    · isplitl [Hl]; · iexact Hl
      iexact H97
    rw [← rowsAt_univ]
    iapply (Entails.of_eq (rowsAt_cast d (a := 0) (a' := 0) (c := 99328 + 672) (c' := 100000) rfl (by omega) (outT x p w b))) $$ Hl
  isplitl [Hs0]; · iexists _; iexact Hs0
  isplitl [Hs1]; · iexists _; iexact Hs1
  isplitl [Hs2]; · iexists _; iexact Hs2
  isplitl [Hs3]; · iexists _; iexact Hs3
  isplitl [Hc0]; · iexact Hc0
  isplitl [Hc1]; · iexact Hc1
  isplitl [Hc2]; · iexact Hc2
  isplitl [Hc3]; · iexact Hc3
  iexists _; isplitr
  swap
  · iexact HO
  · ipureintro; intro q hq
    simp only [Finset.mem_insert] at hq
    rcases hq with hq | hq | hq | hq | hq | hq | hq
    · exact .inr (hq ▸ rfl)
    · exact .inr (hq ▸ rfl)
    · exact .inr (hq ▸ rfl)
    · exact .inr (hq ▸ rfl)
    · exact .inr (hq ▸ rfl)
    · exact .inr (hq ▸ rfl)
    · exact hW' q hq

end Cert.Proof.KI

end
-- ==== Proof.KI.Region.lean ====
/-
  The TensorCore kernel region of the kernel program, entered and left.
  The region stages its four operand arrays — the gathered row x, the position row p, the weight
  row w, the bias b — each whole, into a buffer of its own, runs the kernel's body once (the grid
  has one point), and writes nothing back: every window is an input, and the body writes the
  result array directly. Around the body the pipeline's account is: the four arrays at their entry
  contents throughout; each staging buffer, when the body runs, holding its array (a fetch of a
  whole array fills the buffer with the array); the body's invariant before the point — the result
  array as found, the four scratch buffers at some contents, the four semaphores of the kernel's
  own copies at zero — and after it — the result array at w[v] * (x[t] + p[t]) + b[v], the scratch
  and the semaphores back. The thread owes the same tallies O before and after; its recorded waits
  grow only by waits at the kernel's own index, below every index at which O may be positive, which
  is what lets the pipeline and the body wait at all.
  From the body's run this gives the region's: from the four operand arrays, the result array at
  any contents, the region's share of the staging cells' rounds and the thread's debts, the region
  runs and returns the operands unchanged and the result at its value.
-/
import proofs.«217057_g30459908063406_cont_9to1_2067_16_alg».proof.Proof.KI.TcBody
import Idealize.ShloMosaic.Lib.Pipeline.Regions

noncomputable section

namespace Cert.Proof.KI

open Cert.KernelIdeal Cert.KernelIdeal.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

/-- The region's tables: none is prefetched. -/
abbrev adm : (p : Fin 1) → (pcfgs (F := F) p).Adm := fun p => (cfgs p).toPCfg_adm

/-- The region's staging cells are pairwise distinct. -/
theorem phinj : Function.Injective (Pipeline.cellOf (nD := nD) (τ := τ) (Pipeline.pin (pcfgs (F := F)) adm)) := cellOf_inj

/-- The semaphores of the kernel's own copies: one per scratch buffer. -/
abbrev regionOsem : Fin 4 → SemLoc sig := fun
  | 0 => .dma cc1_scratch4.sem | 1 => .dma cc1_scratch5.sem | 2 => .dma cc1_scratch6.sem | 3 => .dma cc1_scratch7.sem
  | ⟨_ + 4, h⟩ => absurd h (Nat.not_lt.2 (Nat.le_add_left _ _))

/-- They are scoped, distinct, and none is a staging cell. -/
theorem regionOwnSemFacts : Pipeline.OwnSemFacts spec1 regionOsem := by decide

/-! ## The proof data -/

section Data
variable (x p : FVec F S1x2048 .f32) (w : FVec F S1x100000 .f32) (b : FVec F S100000 .f32)
  (f : FVec F S1x100000x2048 .f32) (O : CellTallies nD τ sig (HIx 1)) (W : Waits sig (HIx 1))

/-- The four operand arrays' contents at entry, by window. -/
def regionA (c : Dev nD) : (k : Fin 4) → Buf (Elt F) (((Pipeline.pin (pcfgs (F := F)) adm 0).win k).arr.view.loc ((c.tc : Thread nD τ)))
  | 0 => x | 1 => p | 2 => w | 3 => b
  | ⟨_ + 4, h⟩ => absurd h (Nat.not_lt.2 (Nat.le_add_left _ _))

/-- Before the body: the thread may wait at the kernel's own index; the result array as found; the scratch buffers at
    some contents; the kernel's own semaphores at zero. -/
def regionΦ0 (c : Dev nD) : sProp 𝕄 :=
  iprop(Transfers.MayWaits (cT c) (none : HIx 1) O ∗ pw c main_v6 f
    ∗ Pipeline.scopedRest (Ix := HIx 1) (Name := ℕ) (U := UU) (Lvl := ℕ) (Val := Elt F) spec1 c
    ∗ Pipeline.ownSems0 (Ix := HIx 1) (Name := ℕ) (U := UU) (Lvl := ℕ) (Val := Elt F) (τ := τ) regionOsem c)

/-- After the body: the result array at its value; the scratch buffers and the semaphores back. -/
def regionΦ1 (c : Dev nD) : sProp 𝕄 :=
  iprop(pw c main_v6 (outT x p w b)
    ∗ Pipeline.scopedRest (Ix := HIx 1) (Name := ℕ) (U := UU) (Lvl := ℕ) (Val := Elt F) spec1 c
    ∗ Pipeline.ownSems0 (Ix := HIx 1) (Name := ℕ) (U := UU) (Lvl := ℕ) (Val := Elt F) (τ := τ) regionOsem c)

/-- The region's proof data on core c: the arrays at entry; the body leaves every staging buffer as it found it; the
    invariant before and after the one point; each array held whole; the thread owes O throughout; its recorded waits are
    those it entered with and waits at the kernel's own index. -/
def regionData (q : Fin 1) (c : Dev nD) : Pipeline.RDat τ (Elt F) (HIx 1) ℕ UU ℕ (Pipeline.pin (pcfgs (F := F)) adm q) c where
  A := regionA x p w b c
  after _ _ Y X := X = Y
  Φ t := if t.val = 0 then regionΦ0 f O c else regionΦ1 x p w b c
  q _ := fullShare
  owed _ := O
  recorded _ := {q | q ∈ W ∨ q.2 = none}

end Data

/-! ## The body obligation, from the body's run -/

section Body
variable (x p : FVec F S1x2048 .f32) (w : FVec F S1x100000 .f32) (b : FVec F S100000 .f32)
  (f : FVec F S1x100000x2048 .f32) (O : CellTallies nD τ sig (HIx 1)) (W : Waits sig (HIx 1))

/-- A fetch of window 0 fills its staging buffer with the gathered row: the window is the whole array, so the block read is
    the array itself, index by index. -/
theorem region_fetched0 (c : Dev nD) (d) : (regionData x p w b f O W 0 c).fetched 0 t1_0 d = x := by
  funext j
  unfold Pipeline.RDat.fetched Pipeline.Window.fill
  split
  · unfold Pipeline.RDat.blockOf
    change x _ = x j
    congr 1
    funext a
    apply Fin.ext
    show 0 * _ + 1 * (j a).val = (j a).val
    omega
  · next h => exact absurd rfl h

/-- A fetch of window 1 fills its staging buffer with the position row: the window is the whole array, so the block read is
    the array itself, index by index. -/
theorem region_fetched1 (c : Dev nD) (d) : (regionData x p w b f O W 0 c).fetched 1 t1_0 d = p := by
  funext j
  unfold Pipeline.RDat.fetched Pipeline.Window.fill
  split
  · unfold Pipeline.RDat.blockOf
    change p _ = p j
    congr 1
    funext a
    apply Fin.ext
    show 0 * _ + 1 * (j a).val = (j a).val
    omega
  · next h => exact absurd rfl h

/-- A fetch of window 2 fills its staging buffer with the weight row: the window is the whole array, so the block read is
    the array itself, index by index. -/
theorem region_fetched2 (c : Dev nD) (d) : (regionData x p w b f O W 0 c).fetched 2 t1_0 d = w := by
  funext j
  unfold Pipeline.RDat.fetched Pipeline.Window.fill
  split
  · unfold Pipeline.RDat.blockOf
    change w _ = w j
    congr 1
    funext a
    apply Fin.ext
    show 0 * _ + 1 * (j a).val = (j a).val
    omega
  · next h => exact absurd rfl h

/-- A fetch of window 3 fills its staging buffer with the bias: the window is the whole array, so the block read is
    the array itself, index by index. -/
theorem region_fetched3 (c : Dev nD) (d) : (regionData x p w b f O W 0 c).fetched 3 t1_0 d = b := by
  funext j
  unfold Pipeline.RDat.fetched Pipeline.Window.fill
  split
  · unfold Pipeline.RDat.blockOf
    change b _ = b j
    congr 1
    funext a
    apply Fin.ext
    show 0 * _ + 1 * (j a).val = (j a).val
    omega
  · next h => exact absurd rfl h

/-- The kernel's own semaphores at zero, listed. -/
theorem region_ownSems0_eq (c : Dev nD) :
    (Pipeline.ownSems0 (Ix := HIx 1) (Name := ℕ) (U := UU) (Lvl := ℕ) (Val := Elt F) (τ := τ) regionOsem c : sProp 𝕄)
      = iprop(sv c cc1_scratch4.sem ∗ sv c cc1_scratch5.sem ∗ sv c cc1_scratch6.sem ∗ sv c cc1_scratch7.sem) :=
  Pipeline.ownSems0_eq_of_list c regionOsem [0, 1, 2, 3] (by decide) (by decide)

set_option backward.isDefEq.respectTransparency.types false in
/-- At the one point, whatever the staging buffers are found at is the four arrays (each window is fetched there, whole);
    from the invariant, the thread's debts and the four buffers the body runs to the invariant after the point, the debts
    with the recorded waits grown at the kernel's own index only, and the four buffers as found. -/
theorem region_body (c : Dev nD) : (regionData x p w b f O W 0 c).BodyObligation defs₀ 𝒱₀ (none : HIx 1) Set.univ := fun t Y hY => by
  obtain rfl := fin_N1 t
  obtain ⟨d0, e0⟩ := (Pipeline.RDat.finds_of_fetch (regionData x p w b f O W 0 c) (fetch1_0 t1_0) (Y 0)).1 (hY 0)
  obtain ⟨d1, e1⟩ := (Pipeline.RDat.finds_of_fetch (regionData x p w b f O W 0 c) (fetch1_1 t1_0) (Y 1)).1 (hY 1)
  obtain ⟨d2, e2⟩ := (Pipeline.RDat.finds_of_fetch (regionData x p w b f O W 0 c) (fetch1_2 t1_0) (Y 2)).1 (hY 2)
  obtain ⟨d3, e3⟩ := (Pipeline.RDat.finds_of_fetch (regionData x p w b f O W 0 c) (fetch1_3 t1_0) (Y 3)).1 (hY 3)
  rw [region_fetched0] at e0; rw [region_fetched1] at e1; rw [region_fetched2] at e2; rw [region_fetched3] at e3
  rw [bigSep_W1, bigSep_W1, e0, e1, e2, e3]
  simp only [owns_whole]
  rw [show (regionData x p w b f O W 0 c).Φ t1_0.castSucc = regionΦ0 f O c from rfl,
    show (regionData x p w b f O W 0 c).Φ t1_0.succ = regionΦ1 x p w b c from rfl]
  unfold regionΦ0 regionΦ1 Pipeline.RDat.owesAt Pipeline.owesWithin
  rw [scopedRest1_eq, region_ownSems0_eq]
  iintro ⟨⟨HMW, H6, ⟨⟨%X0, Hs0⟩, ⟨%X1, Hs1⟩, ⟨%X2, Hs2⟩, ⟨%X3, Hs3⟩⟩, Hv4, Hv5, Hv6, Hv7⟩, ⟨%W0, %hW0, HO⟩, Hx, Hp, Hw, Hb⟩
  iapply (wp_wand_r frame _ Set.univ)
  isplitl [HMW H6 Hs0 Hs1 Hs2 Hs3 Hv4 Hv5 Hv6 Hv7 HO Hx Hp Hw Hb]
  · iapply (body_run c x p w b f X0 X1 X2 X3 O W0)
    isplitl [HMW]; · iexact HMW
    isplitl [Hx]; · iexact Hx
    isplitl [Hp]; · iexact Hp
    isplitl [Hw]; · iexact Hw
    isplitl [Hb]; · iexact Hb
    isplitl [H6]; · iexact H6
    isplitl [Hs0]; · iexact Hs0
    isplitl [Hs1]; · iexact Hs1
    isplitl [Hs2]; · iexact Hs2
    isplitl [Hs3]; · iexact Hs3
    isplitl [Hv4]; · iexact Hv4
    isplitl [Hv5]; · iexact Hv5
    isplitl [Hv6]; · iexact Hv6
    isplitl [Hv7]; · iexact Hv7
    iexact HO
  · iintro %_ ⟨Hx, Hp, Hw, Hb, H6, Hs0, Hs1, Hs2, Hs3, Hv4, Hv5, Hv6, Hv7, ⟨%W', %hW', HO⟩⟩
    isplitl [H6 Hs0 Hs1 Hs2 Hs3 Hv4 Hv5 Hv6 Hv7]
    · isplitl [H6]; · iexact H6
      isplitl [Hs0 Hs1 Hs2 Hs3]
      · isplitl [Hs0]; · iexact Hs0
        isplitl [Hs1]; · iexact Hs1
        isplitl [Hs2]; · iexact Hs2
        iexact Hs3
      isplitl [Hv4]; · iexact Hv4
      isplitl [Hv5]; · iexact Hv5
      isplitl [Hv6]; · iexact Hv6
      iexact Hv7
    isplitl [HO]
    · iexists W'; isplitr
      · ipureintro
        intro q hq
        rcases hW' q hq with h | h
        · exact hW0 h
        · exact Or.inl (Or.inr h)
      iexact HO
    isplitl [Hx]
    · iexists x; isplitr; · ipureintro; rfl
      iexact Hx
    isplitl [Hp]
    · iexists p; isplitr; · ipureintro; rfl
      iexact Hp
    isplitl [Hw]
    · iexists w; isplitr; · ipureintro; rfl
      iexact Hw
    iexists b; isplitr; · ipureintro; rfl
    iexact Hb

end Body

/-! ## The region's record -/

section Reg
variable (x p : FVec F S1x2048 .f32) (w : FVec F S1x100000 .f32) (b : FVec F S100000 .f32)
  (f : FVec F S1x100000x2048 .f32) (O : CellTallies nD τ sig (HIx 1)) (W : Waits sig (HIx 1)) (hO : ∀ g, O g none = 0)

/-! An operand array as the pipeline holds it — its window's array, all of it, at the window's share — is the array
held whole. -/

theorem region_arr0 (c : Dev nD) (g : FVec F S1x2048 .f32) :
    (((Pipeline.pin (pcfgs (F := F)) adm 0).win (0 : Fin 4)).arr.view.loc (c.tc : Thread nD τ)
        ↦[((Pipeline.pin (pcfgs (F := F)) adm 0).win (0 : Fin 4)).arr.view.set]{(regionData x p w b f O W 0 c).share (0 : Fin 4)} g : sProp 𝕄)
      = ((SparseCore.T c).loc main_v3 ↦{fullShare} g) := by
  show ((View.whole main_v3).loc (c.tc : Thread nD τ) ↦[(View.whole main_v3).set]{fullShare} g : sProp 𝕄) = _
  rw [View.set_whole]

theorem region_arr1 (c : Dev nD) (g : FVec F S1x2048 .f32) :
    (((Pipeline.pin (pcfgs (F := F)) adm 0).win (1 : Fin 4)).arr.view.loc (c.tc : Thread nD τ)
        ↦[((Pipeline.pin (pcfgs (F := F)) adm 0).win (1 : Fin 4)).arr.view.set]{(regionData x p w b f O W 0 c).share (1 : Fin 4)} g : sProp 𝕄)
      = ((SparseCore.T c).loc main_v4 ↦{fullShare} g) := by
  show ((View.whole main_v4).loc (c.tc : Thread nD τ) ↦[(View.whole main_v4).set]{fullShare} g : sProp 𝕄) = _
  rw [View.set_whole]

theorem region_arr2 (c : Dev nD) (g : FVec F S1x100000 .f32) :
    (((Pipeline.pin (pcfgs (F := F)) adm 0).win (2 : Fin 4)).arr.view.loc (c.tc : Thread nD τ)
        ↦[((Pipeline.pin (pcfgs (F := F)) adm 0).win (2 : Fin 4)).arr.view.set]{(regionData x p w b f O W 0 c).share (2 : Fin 4)} g : sProp 𝕄)
      = ((SparseCore.T c).loc main_v5 ↦{fullShare} g) := by
  show ((View.whole main_v5).loc (c.tc : Thread nD τ) ↦[(View.whole main_v5).set]{fullShare} g : sProp 𝕄) = _
  rw [View.set_whole]

theorem region_arr3 (c : Dev nD) (g : FVec F S100000 .f32) :
    (((Pipeline.pin (pcfgs (F := F)) adm 0).win (3 : Fin 4)).arr.view.loc (c.tc : Thread nD τ)
        ↦[((Pipeline.pin (pcfgs (F := F)) adm 0).win (3 : Fin 4)).arr.view.set]{(regionData x p w b f O W 0 c).share (3 : Fin 4)} g : sProp 𝕄)
      = ((SparseCore.T c).loc main_arg4 ↦{fullShare} g) := by
  show ((View.whole main_arg4).loc (c.tc : Thread nD τ) ↦[(View.whole main_arg4).set]{fullShare} g : sProp 𝕄) = _
  rw [View.set_whole]

set_option backward.isDefEq.respectTransparency.types false in
/-- The region: the windows' layout, the kernel's four semaphores, the body obligation, the wait evidence (every wait of
    the pipeline is at the kernel's own index, where O is zero), and the protocol around the body — entered from the four
    operand arrays, the result array at f and the thread's debts; left with the operands unchanged, the result at its value
    and the debts with the recorded waits grown at the kernel's own index only. -/
def regionSeg : Pipeline.RDat.RegionSeg (pcfgs (F := F)) adm (regionData x p w b f O W) (none : HIx 1) defs₀ 𝒱₀ (K (F := F)).L (K (F := F)).lev 0 where
  win := launch1.win.to₀
  block_pos := launch1.block_pos
  stage_whole := launch1.stage_whole
  K := Fin 4
  osem := regionOsem
  ho := regionOwnSemFacts
  hbody c := region_body x p w b f O W c
  hwaits c := Pipeline.RDat.cellsWaits_intro (Pipeline.pin (pcfgs (F := F)) adm) (regionData x p w b f O W) (none : HIx 1) 0 c
    fun _ _ _ => (K (F := F)).mayWait_none _ hO
  pre c := iprop(((SparseCore.T c).loc main_v3 ↦{fullShare} x) ∗ ((SparseCore.T c).loc main_v4 ↦{fullShare} p) ∗ ((SparseCore.T c).loc main_v5 ↦{fullShare} w)
        ∗ ((SparseCore.T c).loc main_arg4 ↦{fullShare} b) ∗ ((SparseCore.T c).loc main_v6 ↦{fullShare} f) ∗ owes (SparseCore.T c) O W)
  post c := iprop(((SparseCore.T c).loc main_v3 ↦{fullShare} x) ∗ ((SparseCore.T c).loc main_v4 ↦{fullShare} p) ∗ ((SparseCore.T c).loc main_v5 ↦{fullShare} w)
        ∗ ((SparseCore.T c).loc main_arg4 ↦{fullShare} b) ∗ ((SparseCore.T c).loc main_v6 ↦{fullShare} outT x p w b)
        ∗ ∃ W', ⌜∀ q ∈ W', q ∈ W ∨ q.2 = none⌝ ∗ owes (SparseCore.T c) O W')
  X c := iprop(Transfers.MayWaits (cT c) (none : HIx 1) O ∗ pw c main_v6 f
        ∗ Pipeline.ownSems0 (Ix := HIx 1) (Name := ℕ) (U := UU) (Lvl := ℕ) (Val := Elt F) (τ := τ) regionOsem c)
  Y c := pw c main_v6 (outT x p w b)
  Z c := iprop(emp)
  hentry c := by
    unfold Pipeline.RDat.arrays Pipeline.RDat.owesAt Pipeline.owesWithin
    rw [bigSep_W1, region_arr0, region_arr1, region_arr2, region_arr3]
    iintro ⟨⟨H3, H4, H5, Ha4, H6, HO⟩, Hos, #Hlev⟩
    ihave HMW := ((K (F := F)).mayWaits_none (thr := cT c) hO) $$ Hlev
    imodintro
    isplitl [H3 H4 H5 Ha4]
    · isplitl [H3]; · iexact H3
      isplitl [H4]; · iexact H4
      isplitl [H5]; · iexact H5
      iexact Ha4
    isplitr
    · unfold Pipeline.prefHeld; rw [show (Finset.univ : Finset (Fin 0)) = ∅ from rfl, BI.bigSep_empty]; iempintro
    isplitl [HO]
    · iexists W; isplitr
      · ipureintro; exact fun q hq => Or.inl (Or.inl hq)
      iexact HO
    isplitl [HMW H6 Hos]
    · isplitl [HMW]; · iexact HMW
      isplitl [H6]; · iexact H6
      iexact Hos
    iempintro
  hin c := by
    rw [show (regionData x p w b f O W 0 c).Φ 0 = regionΦ0 f O c from rfl]; unfold regionΦ0
    iintro ⟨⟨HMW, H6, Hos⟩, -, Hr⟩
    isplitl [HMW]; · iexact HMW
    isplitl [H6]; · iexact H6
    isplitl [Hr]; · iexact Hr
    iexact Hos
  hout c := by
    rw [show (regionData x p w b f O W 0 c).Φ (Fin.last (Pipeline.pin (pcfgs (F := F)) adm 0).N) = regionΦ1 x p w b c from rfl]; unfold regionΦ1
    iintro ⟨H6, Hr, Hos⟩
    isplitl [H6]; · iexact H6
    isplitl [Hos]; · iexact Hos
    iexact Hr
  hexit c := by
    unfold Pipeline.RDat.arraysAt Pipeline.RDat.owesAt Pipeline.owesWithin
    rw [bigSep_W1,
      Pipeline.RDat.ArrAt_in (regionData x p w b f O W 0 c) 0 rfl, Pipeline.RDat.ArrAt_in (regionData x p w b f O W 0 c) 1 rfl,
      Pipeline.RDat.ArrAt_in (regionData x p w b f O W 0 c) 2 rfl, Pipeline.RDat.ArrAt_in (regionData x p w b f O W 0 c) 3 rfl]
    iintro ⟨⟨⟨%F0, %h0, H3⟩, ⟨%F1, %h1, H4⟩, ⟨%F2, %h2, H5⟩, ⟨%F3, %h3, Ha4⟩⟩, ⟨%W', %hW', HO⟩, H6, -⟩
    ihave H3 := (Entails.of_eq (region_arr0 x p w b f O W c F0)) $$ H3
    ihave H4 := (Entails.of_eq (region_arr1 x p w b f O W c F1)) $$ H4
    ihave H5 := (Entails.of_eq (region_arr2 x p w b f O W c F2)) $$ H5
    ihave Ha4 := (Entails.of_eq (region_arr3 x p w b f O W c F3)) $$ Ha4
    subst h0 h1 h2 h3
    imodintro
    isplitl [H3]; · iexact H3
    isplitl [H4]; · iexact H4
    isplitl [H5]; · iexact H5
    isplitl [Ha4]; · iexact Ha4
    isplitl [H6]; · iexact H6
    iexists W'; isplitr
    · ipureintro
      intro q hq
      rcases hW' hq with h | ⟨k, s, h⟩
      · exact h
      · exact Or.inr (by rw [h])
    iexact HO

end Reg

/-! ## The region's ghost state, and the region run -/

/-- What the region's entry consumes of the staging cells' rounds on core d. -/
def regionGhost (d : Dev nD) : sProp 𝕄 :=
  iprop(Pipeline.cellsGhost (Pipeline.pin (pcfgs (F := F)) adm) EP 0 d ∗ Pipeline.toksInit (Pipeline.pin (pcfgs (F := F)) adm) EP 0 d)

/-- The staging cells' launch element. -/
def uP₀ : UP := initOf (Pipeline.cells (Pipeline.pin (pcfgs (F := F)) adm) phinj) (Pipeline.launchToks (Pipeline.pin (pcfgs (F := F)) adm) phinj)

/-- The launch element deals every core its region's share: the cells' ghost state and the launch tokens, the one
    pipeline's on each core. -/
theorem fund_region : (BI.own (EP (uP₀ (F := F))) : sProp 𝕄) ⊢ iprop(|==> bigSep Finset.univ fun d : Dev nD => regionGhost (F := F) d) := by
  have h := Pipeline.fund_ghost (Pipeline.pin (pcfgs (F := F)) adm) (EP (F := F)) phinj
  have e : ∀ (Φ : Fin 1 → sProp 𝕄), bigSep Finset.univ Φ = Φ 0 := fun Φ => by
    rw [show (Finset.univ : Finset (Fin 1)) = {0} from rfl, bigSep_singleton]
  have h2 : ∀ c : Dev nD, (bigSep Finset.univ fun q : Fin 1 => (Pipeline.cellsGhost (Pipeline.pin (pcfgs (F := F)) adm) EP q c : sProp 𝕄))
      = Pipeline.cellsGhost (Pipeline.pin (pcfgs (F := F)) adm) EP 0 c := fun c => e _
  have h3 : ∀ c : Dev nD, (bigSep Finset.univ fun q : Fin 1 => (Pipeline.toksInit (Pipeline.pin (pcfgs (F := F)) adm) EP q c : sProp 𝕄))
      = Pipeline.toksInit (Pipeline.pin (pcfgs (F := F)) adm) EP 0 c := fun c => e _
  simp only [h2, h3] at h
  unfold regionGhost uP₀
  rw [bigSep_sep']
  exact h

set_option backward.isDefEq.respectTransparency.types false in
/-- THE REGION, as @main meets it: from the level facts, the region's ghost state, the boundary, the four operand arrays,
    the result array at some contents and the thread's debts O (nothing owed at the kernel's own index), the region's call
    runs and gives back the boundary, the operands unchanged, the result at w[v] * (x[t] + p[t]) + b[v], and the debts with
    the recorded waits grown at the kernel's own index only. -/
theorem wp_region (d : Dev nD) (x p : FVec F S1x2048 .f32) (w : FVec F S1x100000 .f32) (b : FVec F S100000 .f32)
    (O : CellTallies nD τ sig (HIx 1)) (W : Waits sig (HIx 1)) (hO : ∀ g, O g none = 0) :
    iprop(levAts (K (F := F)).L (K (F := F)).lev ∗ regionGhost (F := F) d ∗ boundary (SparseCore.T d)
        ∗ ((SparseCore.T d).loc main_v3 ↦{fullShare} x) ∗ ((SparseCore.T d).loc main_v4 ↦{fullShare} p) ∗ ((SparseCore.T d).loc main_v5 ↦{fullShare} w)
        ∗ ((SparseCore.T d).loc main_arg4 ↦{fullShare} b) ∗ (∃ f, (SparseCore.T d).loc main_v6 ↦{fullShare} f) ∗ owes (SparseCore.T d) O W : sProp 𝕄)
      ⊢ wp frame (wpE ((K (F := F)).defs (D (F := F))) 𝒱 (SparseCore.T d) none) Set.univ
          (Prog.lift (.customCall (SparseCore.inner (Pipeline.entry 0)) ()))
          fun _ => iprop(boundary (SparseCore.T d)
            ∗ ((SparseCore.T d).loc main_v3 ↦{fullShare} x) ∗ ((SparseCore.T d).loc main_v4 ↦{fullShare} p) ∗ ((SparseCore.T d).loc main_v5 ↦{fullShare} w)
            ∗ ((SparseCore.T d).loc main_arg4 ↦{fullShare} b) ∗ ((SparseCore.T d).loc main_v6 ↦{fullShare} outT x p w b)
            ∗ ∃ W', ⌜∀ q ∈ W', q ∈ W ∨ q.2 = none⌝ ∗ owes (SparseCore.T d) O W') := by
  unfold regionGhost
  iintro ⟨#Hlev, ⟨Hcg, Hti⟩, Hb, H3, H4, H5, Ha4, ⟨%f, H6⟩, HO⟩
  iapply ((K (F := F)).wp_liftProg (D (F := F)) 𝒱 (SparseCore.T d) Set.univ none
    (Prog.op (.customCall (Pipeline.entry 0) ()) fun _ => Prog.ret PUnit.unit) _)
  iapply (Pipeline.RDat.RegionSeg.wp (pcfgs (F := F)) adm (regionData x p w b f O W) (none : HIx 1) phinj EP defs₀ 𝒱₀
    (K (F := F)).L (K (F := F)).lev (regionSeg x p w b f O W hO) d none (fun _ h => nomatch h) (fun _ => Prog.ret PUnit.unit) _)
  dsimp only [regionSeg]
  isplitr [Hb H3 H4 H5 Ha4 H6 HO Hcg Hti]
  · iintro ⟨Hb, H3, H4, H5, Ha4, H6, HO⟩
    rw [wp_ret]; imodintro
    isplitl [Hb]; · iexact Hb
    isplitl [H3]; · iexact H3
    isplitl [H4]; · iexact H4
    isplitl [H5]; · iexact H5
    isplitl [Ha4]; · iexact Ha4
    isplitl [H6]; · iexact H6
    iexact HO
  isplitl [Hb]; · iexact Hb
  isplitl [H3 H4 H5 Ha4 H6 HO]
  · isplitl [H3]; · iexact H3
    isplitl [H4]; · iexact H4
    isplitl [H5]; · iexact H5
    isplitl [Ha4]; · iexact Ha4
    isplitl [H6]; · iexact H6
    iexact HO
  isplitr; · iexact Hlev
  isplitl [Hcg]; · iexact Hcg
  iexact Hti

end Cert.Proof.KI

end
-- ==== Proof.KI.Run.lean ====
/-
  The kernel program's run: the launch theorem's hypotheses on the TensorCore region — the ghost
  state it needs on each device, its funding from the launch element, its run — are the region's
  own theorems. With them every weakly fair execution of the program's threads, from a launch memory
  whose indices all name rows of the table, terminates without a fault in a memory where the result
  array holds the logits and the five arguments hold what they held at launch.
-/
import proofs.«217057_g30459908063406_cont_9to1_2067_16_alg».proof.Proof.KI.Main
import proofs.«217057_g30459908063406_cont_9to1_2067_16_alg».proof.Proof.KI.Region

noncomputable section

namespace Cert.Proof.KI

open Cert.KernelIdeal Cert.KernelIdeal.Gen
open Idealize.ShloMosaic Idealize.SL.Sem

variable {F : FTy → Type} [FloatOps F] [∀ e, Nonempty (Elt F e)]

theorem run_main (m : (ℓ : Loc nD τ sig) → Buf (Elt F) ℓ) (ρ : Dev nD → PrngReg) (hpre : PreOK m) :
    θ_run (Cert.KernelIdeal.defs (F := F)) (Cert.KernelIdeal.threads (F := F)) ⟨m, fun _ => 0, ρ⟩ (QC m) :=
  run_main_of m ρ (regionGhost (F := F)) (uP₀ (F := F)) hpre fund_region (by
    unfold RegionRun
    intro d x p w b O W hO
    exact wp_region d x p w b O W hO)

end Cert.Proof.KI

end
-- ==== Proof.Bridge.lean ====
/-
  The kernel program's result is the specified array.
  Its last array is the transpose of what the TensorCore region writes, whose entry at row v and
  column t is w[v] * (x[t] + p[t]) + b[v], where x, p and w are reshapes of the gathered entries,
  of the position embedding and of the projection's weights, and the gathered entry at position t
  is the flat table at the row the t-th flat index names. Reshapes keep the elements and re-index
  them in row-major order; with an axis of extent one on either side the re-indexing only moves
  that axis. Read at an entry, the result is (tok[idx[t]] + pos[t]) * W[v] + b[v] up to the order
  of one product: the two programs multiply the same two extended reals in opposite orders.
-/
import proofs.«217057_g30459908063406_cont_9to1_2067_16_alg».proof.Proof.KI.Final
import proofs.«217057_g30459908063406_cont_9to1_2067_16_alg».proof.Proof.Spec
import Idealize.ShloMosaic.Lib.ValueIdx
import Idealize.ShloMosaic.Lib.Pipeline.Value
import Idealize.ShloMosaic.Lib.ValueLayout

noncomputable section

namespace Cert.Proof.Bridge

open Cert.KernelIdeal
open Idealize.ShloMosaic Idealize.ShloMosaic.ValueIdx Idealize.ShloMosaic.TcCoe
open Cert.Proof.KI

/-! ## Reshapes that move an axis of extent one -/

/-- An [a, 1] array cast to [1, a] reads, at (u, i), the operand at (i, 0). -/
theorem shapeCast_a1_1a_apply {α : Type} {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An [a, 1] array cast to [a] reads, at i, the operand at (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-! ## The kernel program's arrays at an index -/

variable (m : (ℓ : Loc nD τ sig) → Buf (Elt Ideal) ℓ) (d : Dev nD)

/-- The flat index array at position t is the argument's entry (0, t). -/
theorem idx1_apply (t : Fin 2048) :
    (idx1 m d : IVec S2048 32) (ix1 t) = (m ((d.tc : Thread nD τ).loc main_arg0) : IVec S1x2048 32) (ix2 0 t) :=
  shapeCast_1a_a_apply _ _ t

/-- The row the flat index at position t names is the row the specification reads. -/
theorem tabRow_eq (t : Fin 2048) :
    tabRow (idx1 m d : IVec S2048 32) t = Cert.Spec.row (m ((d.tc : Thread nD τ).loc main_arg0)) t := by
  apply Fin.ext
  show ((idx1 m d : IVec S2048 32) (ix1 t)).toNat % 100000 = _
  rw [idx1_apply]
  rfl

/-- The gathered row at position t is the table's entry at that position's row. -/
theorem x3_apply (t : Fin 2048) :
    x3 m d (ix2 0 t) = (m ((d.tc : Thread nD τ).loc main_arg1) : FVec Ideal S100000x1 .f32) (ix2 (Cert.Spec.row (m ((d.tc : Thread nD τ).loc main_arg0)) t) 0) := by
  show shapeCast S1x2048 (gath m d : FVec Ideal S2048 .f32) _ (ix2 0 t) = _
  rw [shapeCast_a_1a_apply]
  show (tab1 m d : FVec Ideal S100000 .f32) (ix1 (tabRow (idx1 m d : IVec S2048 32) t)) = _
  rw [tabRow_eq]
  exact shapeCast_a1_a_apply _ _ _

/-- The position row at position t is the position embedding's entry (t, 0). -/
theorem p4_apply (t : Fin 2048) :
    p4 m d (ix2 0 t) = (m ((d.tc : Thread nD τ).loc main_arg2) : FVec Ideal S2048x1 .f32) (ix2 t 0) :=
  shapeCast_a1_1a_apply _ _ 0 t

/-- The weight row at vocabulary row v is the weights' entry (v, 0). -/
theorem w5_apply (v : Fin 100000) :
    w5 m d (ix2 0 v) = (m ((d.tc : Thread nD τ).loc main_arg3) : FVec Ideal S100000x1 .f32) (ix2 v 0) :=
  shapeCast_a1_1a_apply _ _ 0 v

/-- The program's result at an entry is the region's at the transposed entry. -/
theorem out7_apply (a : Fin 1) (t : Fin 2048) (v : Fin 100000) :
    out7 m d (ix3 a t v) = outEntry (x3 m d) (p4 m d) (w5 m d) (m ((d.tc : Thread nD τ).loc main_arg4) : FVec Ideal S100000 .f32) v t := by
  show transpose S1x2048x100000 [0, 2, 1] (out6 m d) _ (ix3 a t v) = _
  rw [transpose_ix3_021_apply]
  rfl

/-! ## The result is the specified array -/

/-- The kernel program's result, as a function of the launch memory, is the specified logits of the arguments. -/
theorem out7_eq_logits (m : (ℓ : Loc Cert.KernelIdeal.nD Cert.KernelIdeal.τ Cert.KernelIdeal.sig) → Buf (Elt Ideal) ℓ)
    (d : Dev Cert.KernelIdeal.nD) (hpre : Cert.Proof.KI.PreOK m) :
    (Cert.Proof.KI.out7 (F := Ideal) m d : FVec Ideal Cert.KernelIdeal.S1x2048x100000 .f32)
      = Cert.Spec.logits (m ((d.tc : Thread _ _).loc Cert.KernelIdeal.main_arg0)) (m ((d.tc : Thread _ _).loc Cert.KernelIdeal.main_arg1))
          (m ((d.tc : Thread _ _).loc Cert.KernelIdeal.main_arg2)) (m ((d.tc : Thread _ _).loc Cert.KernelIdeal.main_arg3))
          (m ((d.tc : Thread _ _).loc Cert.KernelIdeal.main_arg4)) := by
  funext i
  obtain ⟨a, t, v, rfl⟩ : ∃ a t v, i = ix3 a t v := ⟨_, _, _, eq_ix3 i⟩
  rw [Cert.Spec.logits_apply, out7_apply]
  unfold outEntry Cert.Spec.entry Cert.Spec.hidden
  rw [x3_apply, p4_apply, w5_apply]
  -- on the extended reals the instance's product and sum are the field's: the two sides differ by the order of one product
  show _ * (_ + _) + _ = (_ + _) * _ + _
  rw [mul_comm]

end Cert.Proof.Bridge

end
-- ==== Proof.KB.Common.lean ====
/-
  The kernel program as the launch theorem of a program with SparseCore calls sees it, and the
  ghost state its proof is carried in. The program is @main on the TensorCore — two reshapes, one
  call of a gather kernel run by the 2 × 16 vector subcores, three more reshapes, one
  TensorCore kernel region, a transpose — beside the subcores' fixed programs.
  Three protocols run side by side and each has its own factor of the ghost state: the handshakes
  between the TensorCore, the sequencers and the vector subcores (a rounds library indexed by call),
  the TensorCore region's staging cells (a rounds library of its own), and the plain counters of the
  local copies each kernel issues and waits for itself.
-/
import proofs.«217057_g30459908063406_cont_9to1_2067_16_alg».proof.Defs
import Idealize.ShloMosaic.Lib.SparseCore.Launch
import Idealize.ShloMosaic.Lib.StableHlo.Run
import Idealize.ShloMosaic.Lib.Pipeline.Kit
import Idealize.ShloMosaic.Lib.Tactic
import proofs.«217057_g30459908063406_cont_9to1_2067_16_alg».proof.Proof.Gen.Kernel
import proofs.«217057_g30459908063406_cont_9to1_2067_16_alg».proof.Proof.Gen.Kernel.Skeleton
import proofs.«217057_g30459908063406_cont_9to1_2067_16_alg».proof.Proof.Gen.Kernel.Launch
import proofs.«217057_g30459908063406_cont_9to1_2067_16_alg».proof.Proof.Gen.Kernel.Points

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The kernels' label signature, lifted through the one TensorCore region. -/
abbrev ΛP : Labels := Pipeline.Sig Λ₀ (Fin 1) fun p => (pcfgs (F := F) p).Adm
/-- The one SparseCore call. -/
abbrev K : SparseCore.Cfg τ sig (ΛP (F := F)) 1 := sc (F := F)
theorem nCore_zero : (K (F := F)).nCore 0 = 2 := rfl
theorem nSub_zero : (K (F := F)).nSub 0 = 16 := rfl
/-- The kernels' body table with the region's. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

/-- The handshakes' rounds, -/
abbrev UH : Type := URounds (GSem nD τ sig) ℕ
/-- the TensorCore region's staging cells' rounds, -/
abbrev UP : Type := UR sig nD τ
/-- and both beside the local copies' counters. -/
abbrev UU : Type := UH × (UP × Counters)

/-- The handshakes' copy inside the machine's algebra, -/
abbrev EH : Emb UH (MT nD τ sig (HIx 1) (Elt F) ℕ UU ℕ) := embL
/-- and the region's. The counters are found by instance in the last factor. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP (MT nD τ sig (HIx 1) (Elt F) ℕ UU ℕ)).LandsIn (upEmb : UEmb _ (MT nD τ sig (HIx 1) (Elt F) ℕ UU ℕ)) := by
  unfold EP; infer_instance

end Cert.Proof.KB

end
-- ==== Proof.KB.Values.lean ====
/-
  What each stage of the kernel program leaves, as plain functions of the arrays it reads, for any
  float instance. The gather leaves, at position `j`, the flat table's entry at the `j`-th index
  (the index word read as a natural number and reduced below the table's height, which changes
  nothing where the index is in range). The TensorCore region leaves, at row `v` and column `t`,
  `w[v] · (x[t] + p[t]) + b[v]`: the weight of vocabulary row `v` times the hidden value of
  position `t`, plus that row's bias — the logits transposed.
-/
import proofs.«217057_g30459908063406_cont_9to1_2067_16_alg».proof.Proof.KB.Common
import Idealize.ShloMosaic.Lib.ValueIdx

noncomputable section

namespace Cert.Proof.KB

open Cert.Kernel
open Idealize.ShloMosaic Idealize.ShloMosaic.ValueIdx

variable {F : FTy → Type} [FloatOps F]

/-- The table row the `j`-th index names. -/
def tabRow (idx : IVec S2048 32) (j : Fin 2048) : Fin 100000 :=
  ⟨(idx (ix1 j)).toNat % 100000, Nat.mod_lt _ (by norm_num)⟩

/-- What the gather kernel leaves in its result array. -/
def gathered (idx : IVec S2048 32) (tab : FVec F S100000 .f32) : FVec F S2048 .f32 :=
  fun j => tab (ix1 (tabRow idx (j 0)))

/-- One entry the TensorCore region writes: row `v`, column `t`. -/
def outEntry (x p : FVec F S1x2048 .f32) (w : FVec F S1x100000 .f32) (b : FVec F S100000 .f32)
    (v : Fin 100000) (t : Fin 2048) : F .f32 :=
  FloatOps.addf (FloatOps.mulf (w (ix2 0 v)) (FloatOps.addf (x (ix2 0 t)) (p (ix2 0 t)))) (b (ix1 v))

/-- What the TensorCore region leaves in its result array. -/
def outT (x p : FVec F S1x2048 .f32) (w : FVec F S1x100000 .f32) (b : FVec F S100000 .f32) :
    FVec F S1x100000x2048 .f32 :=
  fun i => outEntry x p w b (i 1) (i 2)

end Cert.Proof.KB

end
-- ==== Proof.KB.Pay.lean ====
/-
  What the gather call's handshakes carry. The call reads the flat index array (2048 words) and the
  flat table (100000 entries) and writes the flat result (2048 entries). The work is cut in 32 equal
  parts of 64 consecutive positions: vector subcore `i` of SparseCore `c` takes part `2 i + c`.
  A task is handed its part of the index array and of the result array (disjoint rectangles, so
  whole ownership of each) and a read share of the WHOLE table, which every task reads at arbitrary
  rows; it hands back the same, its part of the result now holding, at each position, the table's
  entry at that position's index.
-/
import proofs.«217057_g30459908063406_cont_9to1_2067_16_alg».proof.Proof.KB.Values

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-! ## The arrays -/

/-- The flat index array, the flat table, the gather's result, as locations of device `d`. -/
abbrev iLoc (d : Dev nD) : Loc nD τ sig := (SparseCore.T d).loc main_v0
abbrev tLoc (d : Dev nD) : Loc nD τ sig := (SparseCore.T d).loc main_v1
abbrev gLoc (d : Dev nD) : Loc nD τ sig := (SparseCore.T d).loc main_v2

/-- The 32 parts of 64 positions. -/
theorem hdiv : 32 ∣ S2048.size 0 := ⟨64, rfl⟩
abbrev part (j : Fin 32) : Rect S2048 := Rect.part (s := S2048) (a₀ := 0) hdiv j
abbrev partSet (j : Fin 32) : Finset S2048.Idx := (part j).set
/-- The part of vector subcore `i` of SparseCore `c`. -/
def partOf (c : Fin 2) (i : Fin 16) : Fin 32 := ⟨2 * i.val + c.val, by omega⟩
/-- A task's read share of the table: one of 32 tokens cut off the full share. -/
abbrev tq (j : Fin 32) : PosShare TreeShare := Transfers.shareTok fullShare 32 j

variable [FloatOps F]

/-- What the two reshapes before the call leave: the index array and the table, flat. -/
abbrev idx1 (d : Dev nD) : Buf (Elt F) (iLoc d) :=
  (shapeCast S2048 (m ((SparseCore.T d).loc main_arg0) : IVec S1x2048 32) Facts₀.shapeCasts_S1x2048_S2048 : IVec S2048 32)
abbrev tab1 (d : Dev nD) : Buf (Elt F) (tLoc d) :=
  (shapeCast S100000 (m ((SparseCore.T d).loc main_arg1) : FVec F S100000x1 .f32) Facts₀.shapeCasts_S100000x1_S100000 : FVec F S100000 .f32)
/-- What the call leaves in its result. -/
abbrev gath (d : Dev nD) : Buf (Elt F) (gLoc d) := (gathered (idx1 m d) (tab1 m d) : FVec F S2048 .f32)

abbrev iPartPts (d : Dev nD) (j : Fin 32) : sProp 𝕄 := iLoc d ↦[partSet j]{fullShare} idx1 m d
abbrev tShPts (d : Dev nD) (j : Fin 32) : sProp 𝕄 := tLoc d ↦{tq j} tab1 m d
abbrev gPartPts (d : Dev nD) (j : Fin 32) (f : Buf (Elt F) (gLoc d)) : sProp 𝕄 := gLoc d ↦[partSet j]{fullShare} f

/-- What a task takes and what it brings back. -/
abbrev goPay (d : Dev nD) (j : Fin 32) : sProp 𝕄 := iprop(iPartPts m d j ∗ tShPts m d j ∗ gPartPts d j (m (gLoc d)))
abbrev tdPay (d : Dev nD) (j : Fin 32) : sProp 𝕄 := iprop(iPartPts m d j ∗ tShPts m d j ∗ gPartPts d j (gath m d))

/-- The one call: a SparseCore is handed its sixteen tasks' operands and hands back their results. -/
def P : (K (F := F)).Pay (nD := nD) (Val := Elt F) (Name := ℕ) (U := UU) where
  st := fun q d c => match q with | 0 => bigSep Finset.univ fun i : Fin 16 => goPay m d (partOf (Fin.cast nCore_zero c) i)
  dn := fun q d c => match q with | 0 => bigSep Finset.univ fun i : Fin 16 => tdPay m d (partOf (Fin.cast nCore_zero c) i)
  go := fun q d c i => match q with | 0 => goPay m d (partOf (Fin.cast nCore_zero c) (Fin.cast nSub_zero i))
  td := fun q d c i => match q with | 0 => tdPay m d (partOf (Fin.cast nCore_zero c) (Fin.cast nSub_zero i))
  x := fun _ _ => iprop(emp)

instance P_storable : (P (F := F) m).IsStorable where
  st q d c := match q with | 0 => (inferInstance : BI.Storable (upEmb : UEmb _ 𝕄) (bigSep Finset.univ fun i : Fin 16 => goPay m d (partOf (Fin.cast nCore_zero c) i)))
  dn q d c := match q with | 0 => (inferInstance : BI.Storable (upEmb : UEmb _ 𝕄) (bigSep Finset.univ fun i : Fin 16 => tdPay m d (partOf (Fin.cast nCore_zero c) i)))
  go q d c i := match q with | 0 => (inferInstance : BI.Storable (upEmb : UEmb _ 𝕄) (goPay m d (partOf (Fin.cast nCore_zero c) (Fin.cast nSub_zero i))))
  td q d c i := match q with | 0 => (inferInstance : BI.Storable (upEmb : UEmb _ 𝕄) (tdPay m d (partOf (Fin.cast nCore_zero c) (Fin.cast nSub_zero i))))

/-- What the proof asks of the launch memory: every index names a row of the table. -/
def PreOK : Prop := ∀ (d : Dev nD) (j : S2048.Idx), ((idx1 m d : IVec S2048 32) j).toNat < 100000

end Cert.Proof.KB

end
-- ==== Proof.KB.PreOK.lean ====
/-
  The precondition grants what the kernel program's proof asks of the launch memory.
  The proof asks that every entry of the FLAT index array — the [1, 2048] argument reshaped to
  [2048] — read unsigned, names a row of the table. A reshape keeps the elements and re-indexes
  them: entry j of the flat array is an entry (0, t) of the argument, and the precondition says
  of each of those that it lies in [0, 99999] read signed, hence is below 100000 read unsigned.
-/
import proofs.«217057_g30459908063406_cont_9to1_2067_16_alg».proof.Proof.KB.Pay
import proofs.«217057_g30459908063406_cont_9to1_2067_16_alg».proof.Proof.PreIdx

noncomputable section

namespace Cert.Proof.KB

open Cert.Kernel Cert.Kernel.Gen
open Idealize.ShloMosaic Idealize.ShloMosaic.ValueIdx Idealize.ShloMosaic.TcCoe

variable {F : FTy → Type} [FloatOps F]

/-- Every index of a [1, 2048] array is (0, t) for a position t. -/
theorem idx_row (i : S1x2048.Idx) : i = ix2 (0 : Fin 1) (i 1) := by
  rw [eq_ix2 i]
  exact congrArg (fun a : Fin 1 => ix2 a (i 1)) (Subsingleton.elim _ _)

/-- From the precondition on every device: every entry of the flat index array is below the table's height. -/
theorem preOK_of_fn [Cert.Pre_input_domain.Facts] (m : (ℓ : Loc nD τ sig) → Buf (Elt F) ℓ)
    (h : ∀ c : Dev nD, Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = fun _ => 1#1) :
    PreOK m := by
  intro d j
  -- entry j of the flat array is the argument's entry at the index the reshape sends j to
  show ((m ((SparseCore.T d).loc main_arg0) : IVec S1x2048 32) (Shape.reshapeEquiv Facts₀.shapeCasts_S1x2048_S2048 j)).toNat < 100000
  rw [idx_row (Shape.reshapeEquiv Facts₀.shapeCasts_S1x2048_S2048 j)]
  exact Cert.PreIdx.idx_lt _ _ _ _ _ (h d) _

end Cert.Proof.KB

end
-- ==== Proof.KB.Tile.lean ====
/-
  The gather kernel's task on one vector subcore, and the obligation the launch theorem asks per
  task. A task copies its 64 indices from the index array into its index scratch and waits; issues
  the indirect gather — for each of the 64 fetched words, the table's entry at that word into the
  same place of the row scratch — and waits; copies the row scratch to its 64 positions of the
  result and waits. Each copy completes on a semaphore of its own and is waited before the next
  touches its buffers. So position `j` of the result ends holding the table's entry at the `j`-th
  index. The indices name rows of the table by the precondition; an index out of range would
  leave the gather unserved.
-/
import proofs.«217057_g30459908063406_cont_9to1_2067_16_alg».proof.Proof.KB.Pay
import Idealize.ShloMosaic.Lib.SparseCore.Ops

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

-- the kernel's memrefs, spelt as the body table passes them
local notation "iV" => (Memref.whole Cert.Kernel.main_v0_scv : Memref Cert.Kernel.sig Kind.scVector Space.hbm Cert.Kernel.S2048 EltTy.i32)
local notation "tV" => (Memref.whole Cert.Kernel.main_v1_scv : Memref Cert.Kernel.sig Kind.scVector Space.hbm Cert.Kernel.S100000 EltTy.f32)
local notation "gV" => (Memref.whole Cert.Kernel.main_v2_scv : Memref Cert.Kernel.sig Kind.scVector Space.hbm Cert.Kernel.S2048 EltTy.f32)
local notation "sI" => (Memref.whole Cert.Kernel.cc0_scratch0 : Memref Cert.Kernel.sig Kind.scVector Space.vmem Cert.Kernel.S64 EltTy.i32)
local notation "sR" => (Memref.whole Cert.Kernel.cc0_scratch1 : Memref Cert.Kernel.sig Kind.scVector Space.vmem Cert.Kernel.S64 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
/-- The part the subcore at grid coordinates `L` works on. -/
def jL (L : grid0.Coords) : Fin 32 := partOf (Fin.cast bound_zero (L 0)) (Fin.cast bound_one (L 1))

/-- The part as the kernel slices it: 64 positions from the offset it computes. -/
abbrev partK (L : grid0.Coords) : Rect S2048 := Rect.unit (s := S2048) (k0_off1 L) S64.size (k0_off1_inb L)
abbrev iPartK (L : grid0.Coords) : Memref sig .scVector .hbm S64 .i32 := (iV).slice (partK L) (fun _ => rfl)
abbrev gPartK (L : grid0.Coords) : Memref sig .scVector .hbm S64 .f32 := (gV).slice (partK L) (fun _ => rfl)
abbrev tAllK : Memref sig .scVector .hbm S100000 .f32 := (tV).slice (Rect.unit (s := S100000) ![0] S100000.size inb_S100000_S100000_0) (fun _ => rfl)

omit [FloatOps F] in
theorem jL_val : (jL L).val = 2 * (L 1).val + (L 0).val := rfl

omit [FloatOps F] in
/-- The kernel's offset `64 · (2 · subcore + core)` is the start of part `2 · subcore + core`. -/
theorem partK_eq : partK L = part (jL L) := by
  unfold partK part Rect.part Rect.block
  congr 1 <;> funext a
  · rw [k0_off1_eq]
    match a with
    | 0 => simp [Shape.partIx, Shape.partSize, jL_val]; omega
  · match a with
    | 0 => simp [Shape.partSize]

omit [FloatOps F] in
theorem set_iPartK : (iPartK L).view.set = partSet (jL L) := by
  show ((iV).view.slice (partK L)).set = (part (jL L)).set
  rw [partK_eq]
  show ((View.whole (main_v0_scv : Ref sig .scVector)).slice (part (jL L))).set = _
  rw [View.set_slice]; exact Finset.map_refl
omit [FloatOps F] in
theorem set_gPartK : (gPartK L).view.set = partSet (jL L) := by
  show ((gV).view.slice (partK L)).set = (part (jL L)).set
  rw [partK_eq]
  show ((View.whole (main_v2_scv : Ref sig .scVector)).slice (part (jL L))).set = _
  rw [View.set_slice]; exact Finset.map_refl

omit [FloatOps F] in
theorem pts_iPartK (f : Buf (Elt F) (iLoc d)) :
    ((iPartK L).view.loc (V d (cV L) (jV L)) ↦[(iPartK L).view.set]{fullShare} f : sProp 𝕄) = iLoc d ↦[partSet (jL L)]{fullShare} f := by
  rw [set_iPartK]
omit [FloatOps F] in
theorem pts_gPartK (f : Buf (Elt F) (gLoc d)) :
    ((gPartK L).view.loc (V d (cV L) (jV L)) ↦[(gPartK L).view.set]{fullShare} f : sProp 𝕄) = gLoc d ↦[partSet (jL L)]{fullShare} f := by
  rw [set_gPartK]
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_sI (f : Buf (Elt F) ((V d (cV L) (jV L)).loc cc0_scratch0)) :
    ((sI).view.loc (V d (cV L) (jV L)) ↦{fullShare} f : sProp 𝕄) = (V d (cV L) (jV L)).loc cc0_scratch0 ↦{fullShare} f := rfl
omit [FloatOps F] in
theorem pts_sR (f : Buf (Elt F) ((V d (cV L) (jV L)).loc cc0_scratch1)) :
    ((sR).view.loc (V d (cV L) (jV L)) ↦{fullShare} f : sProp 𝕄) = (V d (cV L) (jV L)).loc cc0_scratch1 ↦{fullShare} f := rfl

/-- The subcore's three DMA semaphores: the gather's, the index fetch's, the write-out's. -/
abbrev cGcell (d : Dev nD) (c : Fin τ.nSC) (i : Fin τ.nSub) : GSem nD τ sig := (V d c i, .dma cc0_scratch2.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L))) fun g => semVal g 0) := by
  unfold SparseCore.Cfg.ownSems0
  rw [SparseCore.bigSep_erase' ((mem_ownCells (g := cGcell d (cV L) (jV L))).mpr ⟨rfl, by
      show (SemLoc.dma cc0_scratch2.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- What a task leaves in its part of the result is, at every position of the part, the table's entry
    at that position's index: the fetched indices are the part's own words of the index array (the fetch
    copies the part), the gather puts at place `y` the table's row the `y`-th fetched word names, and the
    write-out copies place `y` to the part's `y`-th position — the same position of the same part the index
    came from. The index is below the table's height, so reducing it changes nothing. -/
theorem part_value (hpre : PreOK m) (fs : Buf (Elt F) ((V d (cV L) (jV L)).loc cc0_scratch0)) (fr : Buf (Elt F) ((V d (cV L) (jV L)).loc cc0_scratch1))
    (g0 : Buf (Elt F) (gLoc d)) (hn : S64.numel = S64.size gathers_S100000_S64.axis')
    (hin : ∀ x, ((sI).view.read (Elt F) (View.write (Elt F) (sI).view fs ((iPartK L).view.read (Elt F) (idx1 m d)) Finset.univ) x).toNat < S100000.size gathers_S100000_S64.axis) :
    ∀ i ∈ (gPartK L).view.set,
      ((gPartK L).view.writes (Elt F) g0 [⟨Rect.whole S64, (sR).view.read (Elt F) (View.write (Elt F) (sR).view fr
          (SparseCore.gatherPayload gathers_S100000_S64 ((tAllK).view.read (Elt F) (tab1 m d))
            (SparseCore.rows ((sI).view.read (Elt F) (View.write (Elt F) (sI).view fs ((iPartK L).view.read (Elt F) (idx1 m d)) Finset.univ)) hn hin)) Finset.univ)⟩]) i
        = gath m d i := by
  intro i hi
  obtain ⟨y, -, rfl⟩ := Finset.mem_map.mp hi
  have h1 := View.read_writes_cons_emb (gPartK L).view g0 (Rect.whole S64) ((sR).view.read (Elt F) (View.write (Elt F) (sR).view fr
          (SparseCore.gatherPayload gathers_S100000_S64 ((tAllK).view.read (Elt F) (tab1 m d))
            (SparseCore.rows ((sI).view.read (Elt F) (View.write (Elt F) (sI).view fs ((iPartK L).view.read (Elt F) (idx1 m d)) Finset.univ)) hn hin)) Finset.univ)) [] y
  rw [Rect.emb_whole_apply] at h1
  have h2 := View.read_apply (v := (gPartK L).view) (Val := Elt F) ((gPartK L).view.writes (Elt F) g0 [⟨Rect.whole S64, (sR).view.read (Elt F) (View.write (Elt F) (sR).view fr
          (SparseCore.gatherPayload gathers_S100000_S64 ((tAllK).view.read (Elt F) (tab1 m d))
            (SparseCore.rows ((sI).view.read (Elt F) (View.write (Elt F) (sI).view fs ((iPartK L).view.read (Elt F) (idx1 m d)) Finset.univ)) hn hin)) Finset.univ)⟩]) y
  rw [h1] at h2
  rw [cast_eq] at h2
  rw [← h2]
  simp only [Memref.view_whole, View.write_whole_univ, View.read_whole]
  unfold SparseCore.gatherPayload
  rw [View.read_apply, cast_eq]
  show tab1 m d _ = tab1 m d (ValueIdx.ix1 (tabRow (idx1 m d) ((gPartK L).view.emb y 0)))
  congr 1
  funext a
  match a with
  | ⟨0, _⟩ =>
    apply Fin.ext
    show 0 + 1 * ((gathers_S100000_S64.idx _ y) (gathers_S100000_S64.axis)).val = (tabRow (idx1 m d) ((gPartK L).view.emb y 0)).val
    rw [Shape.Gathers.idx_axis]
    unfold SparseCore.rows tabRow
    have hy : S64.rowMajor.symm ((y gathers_S100000_S64.axis').cast hn.symm) = y := by
      rw [Equiv.symm_apply_eq]; apply Fin.ext; rw [Shape.rowMajor_val_one]; rfl
    show 0 + 1 * (View.write (Elt F) (View.whole cc0_scratch0) fs (View.read (Elt F) ((View.whole main_v0_scv).slice (partK L)) (idx1 m d)) Finset.univ
        (S64.rowMajor.symm ((y gathers_S100000_S64.axis').cast hn.symm))).toNat = (idx1 m d (ValueIdx.ix1 ((gPartK L).view.emb y 0))).toNat % 100000
    rw [hy, View.write_whole_univ, View.read_apply, cast_eq]
    have he : (ValueIdx.ix1 ((gPartK L).view.emb y 0) : S2048.Idx) = ((View.whole main_v0_scv).slice (partK L)).emb y :=
      (ValueIdx.eq_ix1 (((View.whole main_v0_scv).slice (partK L)).emb y)).symm
    rw [he]
    show 0 + 1 * (idx1 m d (((View.whole main_v0_scv).slice (partK L)).emb y)).toNat = (idx1 m d (((View.whole main_v0_scv).slice (partK L)).emb y)).toNat % 100000
    rw [Nat.mod_eq_of_lt (hpre d _)]
    omega

/-- The fetched indices name rows of the table: the index scratch holds the part's own words of the index array. -/
theorem inb_of_pre (hpre : PreOK m) (fs : Buf (Elt F) ((V d (cV L) (jV L)).loc cc0_scratch0)) (pay : S64.Idx → Elt F .i32)
    (hpay : pay = (iPartK L).view.read (Elt F) (idx1 m d)) :
    ∀ x, ((sI).view.read (Elt F) (View.write (Elt F) (sI).view fs pay Finset.univ) x).toNat < S100000.size gathers_S100000_S64.axis := by
  subst hpay; intro x
  rw [View.write_whole_univ]
  simp only [Memref.view_whole, View.read_whole]
  rw [show ∀ j, (iPartK L).view.read (Elt F) (idx1 m d) j = idx1 m d ((iPartK L).view.emb j) from fun j => (View.read_apply _ _).trans (cast_eq _ _)]
  exact hpre d _

set_option maxHeartbeats 4000000 in
/-- The task on the vector subcore at grid coordinates `L` of device `d`: fetch the part's indices and wait, gather the
    table's rows they name and wait, write the gathered entries out to the part of the result and wait. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ goPay m d (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather L iV (Memref.isWhole_whole _) tV (Memref.isWhole_whole _) gV (Memref.isWhole_whole _)
            sI (Memref.isWhole_whole _) sR (Memref.isWhole_whole _) cc0_scratch2 cc0_scoped0 cc0_scoped1)
          fun _ => iprop(tdPay m d (jL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_eq_skeleton]; unfold cc0__sc_gather_skel
  rw [(K (F := F)).scopedBufs_V hF d (cV L) (jV L), SparseCore.Cfg.scopedSems0_V (Val := Elt F) d (cV L) (jV L), ownSems0_V, ownBufs_V]
  iintro ⟨#Hlv, -, ⟨Hi, Ht, Hg⟩, ⟨⟨%fs, Hs⟩, ⟨%fr, Hr⟩, Hbufs⟩, ⟨HsemG, HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iPartK (F := F) d L _).symm) $$ Hi
  ihave Hg' := (Entails.of_eq (pts_gPartK (F := F) d L _).symm) $$ Hg
  ihave Ht' := (Entails.of_eq (pts_tV (F := F) d L _ _).symm) $$ Ht
  ihave Hs' := (Entails.of_eq (pts_sI (F := F) d L _).symm) $$ Hs
  ihave Hr' := (Entails.of_eq (pts_sR (F := F) d L _).symm) $$ Hr
  -- the index fetch and its wait
  sl_exec
  -- the gather: the task hands in its share of the table, the row scratch, the fetched list whole and the cell at zero
  ihave Hts := (pointsTo_split_subset (q := tq (jL L)) (f := tab1 m d) (S := Finset.univ) (Finset.subset_univ (tAllK).view.set)).1 $$ Ht'
  icases Hts with ⟨Hts, Htr⟩
  have hrs : (sR).view.set = Finset.univ := View.set_whole _
  have hss : (sI).view.set = Finset.univ := View.set_whole _
  ihave Hr'' := (Entails.of_eq (show ((sR).view.loc (V d (cV L) (jV L)) ↦{fullShare} fr : sProp 𝕄)
      = (sR).view.loc (V d (cV L) (jV L)) ↦[(sR).view.set]{fullShare} fr by rw [hrs])) $$ Hr'
  ihave Hs'' := (Entails.of_eq (show ((sI).view.loc (V d (cV L) (jV L)) ↦{fullShare} View.write (Elt F) (sI).view fs (tile_body.sl.dma0 m d L) Finset.univ : sProp 𝕄)
      = (sI).view.loc (V d (cV L) (jV L)) ↦[(sI).view.set]{fullShare} View.write (Elt F) (sI).view fs (tile_body.sl.dma0 m d L) Finset.univ
      by rw [hss])) $$ Hs'
  have hN : ∀ h : S100000.Gathers 0 S64, ∑ j, ((sR).slice (S64.rowRect h.axis' j) (S64.stride_rowRect h.axis' j)).view.dmaCredit
      = (sR).view.dmaCredit := by decide
  have hin := inb_of_pre m d L hpre fs (tile_body.sl.dma0 m d L) rfl
  iapply (SparseCore.wp_indirectGatherLocal countersEmb 𝒱₀ (V d (cV L) (jV L)) none (hg := gathers_S100000_S64) (default : HIx 1)
      (sR).view.dmaCredit (hN _) (by decide) hin) $$ [Hts Hr'' Hs'' HsemG]
  · isplitl [Hts]; · iexact Hts
    isplitl [Hr'']; · iexact Hr''
    isplitl [Hs'']; · iexact Hs''
    iexact HsemG
  iintro Hfl
  sl_exec
  -- its wait: the row scratch written with the gathered entries, the share of the table and the list back
  iapply (Transfers.wp_waitLocalO countersEmb 𝒱₀ (V d (cV L) (jV L)) none (default : HIx 1) (rfl : (sR).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hts, Hs'⟩, HsemG, HO⟩
  ihave Ht' := (pointsTo_split_subset (q := tq (jL L)) (f := tab1 m d) (S := Finset.univ) (Finset.subset_univ (tAllK).view.set)).2 $$ [Hts Htr]; · isplitl [Hts] <;> iassumption
  ihave Hr3 := (Entails.of_eq (show ((sR).view.loc (V d (cV L) (jV L)) ↦[(sR).view.set]{fullShare} _ : sProp 𝕄)
      = (sR).view.loc (V d (cV L) (jV L)) ↦{fullShare} _ by rw [hrs])) $$ Hr'
  ihave Hs3 := (Entails.of_eq (show ((sI).view.loc (V d (cV L) (jV L)) ↦[(sI).view.set]{fullShare} _ : sProp 𝕄)
      = (sI).view.loc (V d (cV L) (jV L)) ↦{fullShare} _ by rw [hss])) $$ Hs'
  -- the write-out and its wait
  sl_exec
  -- the part of the result holds the table's entries at the part's indices
  have hval : ∀ i ∈ (gPartK L).view.set,
      ((gPartK L).view.writes (Elt F) (m (gLoc d)) [⟨Rect.whole S64, tile_body.sl.dma0_1 m d L fs fr hin⟩]) i = gath m d i :=
    part_value m d L hpre fs fr (m (gLoc d)) _ hin
  ihave Hg2 := (Entails.of_eq (pointsTo_congr hval)) $$ Hg'
  sl_step
  isplitl [Hi' Ht' Hg2]
  · isplitl [Hi']; · iapply (Entails.of_eq (pts_iPartK (F := F) d L _)); iexact Hi'
    isplitl [Ht']; · iexact Ht'
    iapply (Entails.of_eq (pts_gPartK (F := F) d L _)); iexact Hg2
  isplitl [Hs3 Hr3 Hbufs]
  · isplitl [Hs3]; · iexists _; iexact Hs3
    isplitl [Hr3]; · iexists _; iexact Hr3
    iexact Hbufs
  isplitl [HsemG HsemA HsemB Hsems]
  · isplitl [HsemG]; · iexact HsemG
    isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather (coordsV c s)
          iV (Memref.isWhole_whole _) tV (Memref.isWhole_whole _) gV (Memref.isWhole_whole _)
          sI (Memref.isWhole_whole _) sR (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Tile

end Cert.Proof.KB

end
-- ==== Proof.KB.Split.lean ====
/-
  The index array and the result array as their 32 parts, and the 32 parts as 2 × 16: part
  `2 i + c` is vector subcore `i` of SparseCore `c`. The parts are pairwise disjoint and cover
  the 2048 positions, so owning an array whole is owning its parts separately.
-/
import proofs.«217057_g30459908063406_cont_9to1_2067_16_alg».proof.Proof.KB.Pay

noncomputable section

namespace Cert.Proof.KB

open Cert.Kernel Cert.Kernel.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

theorem partSets_disjoint : ∀ i ∈ (Finset.univ : Finset (Fin 32)), ∀ j ∈ (Finset.univ : Finset (Fin 32)), i ≠ j → Disjoint (partSet i) (partSet j) :=
  fun _ _ _ _ h => Rect.part_disjoint hdiv h
theorem partSets_cover : (Finset.univ : Finset (Fin 32)).biUnion partSet = Finset.univ := Rect.biUnion_part hdiv

theorem iPts_parts (d : Dev nD) (f : Buf (Elt F) (iLoc d)) :
    (iLoc d ↦{fullShare} f : sProp 𝕄) = bigSep Finset.univ fun j : Fin 32 => iLoc d ↦[partSet j]{fullShare} f := by
  rw [← pointsTo_biUnion Finset.univ (ℓ := iLoc d) partSet partSets_disjoint, partSets_cover]; try rfl
theorem gPts_parts (d : Dev nD) (f : Buf (Elt F) (gLoc d)) :
    (gLoc d ↦{fullShare} f : sProp 𝕄) = bigSep Finset.univ fun j : Fin 32 => gLoc d ↦[partSet j]{fullShare} f := by
  rw [← pointsTo_biUnion Finset.univ (ℓ := gLoc d) partSet partSets_disjoint, partSets_cover]; try rfl

/-- Part `2 i + c` from the pair (SparseCore `c`, vector subcore `i`), and back. -/
def partEquiv : Fin 2 × Fin 16 ≃ Fin 32 where
  toFun p := partOf p.1 p.2
  invFun j := (⟨j.val % 2, Nat.mod_lt _ (by norm_num)⟩, ⟨j.val / 2, by have := j.isLt; omega⟩)
  left_inv := by
    rintro ⟨c, i⟩
    refine Prod.ext (Fin.ext ?_) (Fin.ext ?_)
    · show (2 * i.val + c.val) % 2 = c.val
      have := c.isLt; omega
    · show (2 * i.val + c.val) / 2 = i.val
      have := c.isLt; omega
  right_inv := by
    intro j
    apply Fin.ext
    show 2 * (j.val / 2) + j.val % 2 = j.val
    omega

theorem bigSep_parts (Φ : Fin 32 → sProp 𝕄) :
    bigSep Finset.univ Φ = bigSep Finset.univ fun c : Fin 2 => bigSep Finset.univ fun i : Fin 16 => Φ (partOf c i) := by
  rw [bigSep_univ_equiv partEquiv Φ, bigSep_univ_prod]; rfl

end Cert.Proof.KB

end
-- ==== Proof.KB.Final.lean ====
/-
  What each array of the kernel program holds when the program ends, as functions of the launch
  memory: the gathered hidden row reshaped to [1, 2048], the position embedding and the weights
  reshaped likewise, the TensorCore region's [1, 100000, 2048] result, and its transpose — the
  program's result.
-/
import proofs.«217057_g30459908063406_cont_9to1_2067_16_alg».proof.Proof.KB.Pay

noncomputable section

namespace Cert.Proof.KB

open Cert.Kernel Cert.Kernel.Gen
open Idealize.ShloMosaic

variable {F : FTy → Type} [FloatOps F]
variable (m : (ℓ : Loc nD τ sig) → Buf (Elt F) ℓ)

/-- The gathered entries, as one row. -/
abbrev x3 (d : Dev nD) : FVec F S1x2048 .f32 := shapeCast S1x2048 (gath m d : FVec F S2048 .f32) Facts₀.shapeCasts_S2048_S1x2048
/-- The position embedding, as one row. -/
abbrev p4 (d : Dev nD) : FVec F S1x2048 .f32 :=
  shapeCast S1x2048 (m ((SparseCore.T d).loc main_arg2) : FVec F S2048x1 .f32) Facts₀.shapeCasts_S2048x1_S1x2048
/-- The projection's weights, as one row. -/
abbrev w5 (d : Dev nD) : FVec F S1x100000 .f32 :=
  shapeCast S1x100000 (m ((SparseCore.T d).loc main_arg3) : FVec F S100000x1 .f32) Facts₀.shapeCasts_S100000x1_S1x100000
/-- The region's result: the logits, vocabulary-major. -/
abbrev out6 (d : Dev nD) : FVec F S1x100000x2048 .f32 :=
  outT (x3 m d) (p4 m d) (w5 m d) (m ((SparseCore.T d).loc main_arg4) : FVec F S100000 .f32)
/-- The program's result: the logits, position-major. -/
abbrev out7 (d : Dev nD) : FVec F S1x2048x100000 .f32 :=
  transpose S1x2048x100000 [0, 2, 1] (out6 m d) Facts₀.transposes_S1x100000x2048_S1x2048x100000_0_2_1

end Cert.Proof.KB

end
-- ==== Proof.KB.HostStep.lean ====
/-
  One host operation stepped while holding just its two buffers.
  An operation of @main that reads one array and writes another runs, for a thread at its region
  boundary that owns both arrays whole, and gives both back: the array it read unchanged, the
  array it wrote holding the operation's function of what was read. The library's rule is stated
  over a set of whole buffers at a valuation of all of the device's buffers; here it is restated
  over the two arrays as two separate ownerships at given contents, which is the form a proof that
  carries each array's ownership on its own steps through @main with.
-/
import Idealize.ShloMosaic.Lib.StableHlo.Run

noncomputable section

namespace Cert.Proof.KB

open Idealize.ShloMosaic Idealize.ShloMosaic.StableHlo
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}
variable {Ix : Type} [DecidableEq Ix] {Name : Type} [DecidableEq Name] {U : Type} [URA U] {Lvl : Type} [Preorder Lvl]

local notation "𝕄" => MT nD τ sig Ix Val Name U Lvl

variable {defs : Defs nD τ sig Val Λ} (𝒱 : Variants) (c : Thread nD τ) (bd : Option 𝒱.V) (E : Set Name)
variable {α : Type}

/-- An operation that touches exactly two distinct buffers, writes the second and determines what it writes:
    from the boundary and the two buffers whole at contents fx and fy, it runs, and the continuation (at
    whatever the operation answers) starts from the boundary, the first buffer as it was and the second at
    the contents new, where new is what the operation leaves there from any contents of the device that have
    fx in the first buffer. V₀ is any contents of the device's buffers: only its type is used. -/
theorem wp_hlo_two {hp : c.2.kind.runsHlo = true} (op : HloOp τ sig Val) (x' y' : DevRef τ sig) (hxy : x' ≠ y')
    (hb : op.bufs = {x', y'}) (hw : op.writes = {y'}) (hf : op.fresh = ∅) (V₀ : Valuation τ sig Val)
    (fx : x'.ty.Contents Val) (fy new : y'.ty.Contents Val)
    (hnew : ∀ V : Valuation τ sig Val, V x' = fx → op.result V y' = new)
    {k : ((b : op.writes) → b.1.ty.Contents Val) → Prog (TpuEff nD τ sig Val Λ c.2) α} {Q : α → sProp 𝕄} :
    iprop(boundary c ∗ ((c.1, x') ↦{fullShare} fx) ∗ ((c.1, y') ↦{fullShare} fy))
      ⊢ iprop((∀ r, (boundary c ∗ ((c.1, x') ↦{fullShare} fx) ∗ ((c.1, y') ↦{fullShare} new))
                -∗ wp frame (wpE defs 𝒱 c bd) E (k r) Q)
        -∗ wp frame (wpE defs 𝒱 c bd) E (hlo hp op k) Q) := by
  classical
  have hVx : Function.update (Function.update V₀ y' fy) x' fx x' = fx := Function.update_self ..
  have hVy : Function.update (Function.update V₀ y' fy) x' fx y' = fy := by
    rw [Function.update_of_ne hxy.symm, Function.update_self]
  have hnx : x' ∉ ({y'} : Finset (DevRef τ sig)) := by rw [Finset.mem_singleton]; exact hxy
  have H := wp_hlo_within (defs := defs) 𝒱 c bd E (hp := hp) (op := op) (k := k) (S := op.bufs) subset_rfl
    (V := Function.update (Function.update V₀ y' fy) x' fx) (Q := Q) (hf := hf)
  have e1 : (held c op.bufs (Function.update (Function.update V₀ y' fy) x' fx) : sProp 𝕄)
      = iprop(((c.1, x') ↦{fullShare} fx) ∗ ((c.1, y') ↦{fullShare} fy)) := by
    unfold held
    rw [hb, bigSep_insert hnx, bigSep_singleton, hVx, hVy]
    rfl
  have e2 : (held c op.bufs (op.result (Function.update (Function.update V₀ y' fy) x' fx)) : sProp 𝕄)
      = iprop(((c.1, x') ↦{fullShare} fx) ∗ ((c.1, y') ↦{fullShare} new)) := by
    unfold held
    rw [hb, bigSep_insert hnx, bigSep_singleton, op.result_of_not_mem _ (by rw [hw]; exact hnx), hVx, hnew _ hVx]
    rfl
  rw [e1, e2] at H
  iintro H0 Hk
  iapply H $$ H0
  iintro H1
  ispecialize Hk $$ %(op.fn fun b => Function.update (Function.update V₀ y' fy) x' fx b.1)
  iapply Hk
  iexact H1

/-! ## A reshape and a one-operand operation, over their two arrays -/

/-- A reshape of array x into array y, holding the two whole: y ends with x's elements in row-major order at its
    own shape, x is unchanged. The continuation is proved for whatever the operation answers. -/
theorem wp_reshape_pts {hp : c.2.kind.runsHlo = true} (x y : Ref sig .tc) (hxy : x ≠ y) (he : x.ty.elt = y.ty.elt)
    (hn : x.ty.shape.ShapeCasts y.ty.shape)
    (hx : x.space ≠ .host ∧ (Proc.devRef .tc x : DevRef τ sig).isScoped = false)
    (hy : y.space ≠ .host ∧ (Proc.devRef .tc y : DevRef τ sig).isScoped = false)
    (V₀ : Valuation τ sig Val) (fx : x.ty.Contents Val) (fy : y.ty.Contents Val)
    {k : ((b : (StableHlo.reshape (τ := τ) (Val := Val) x y he hn hx hy).writes) → b.1.ty.Contents Val) → Prog (TpuEff nD τ sig Val Λ c.2) α}
    {Q : α → sProp 𝕄} :
    iprop(boundary c ∗ ((c.1, Proc.devRef .tc x) ↦{fullShare} fx) ∗ ((c.1, Proc.devRef .tc y) ↦{fullShare} fy))
      ⊢ iprop((∀ r, (boundary c ∗ ((c.1, Proc.devRef .tc x) ↦{fullShare} fx)
                  ∗ ((c.1, Proc.devRef .tc y) ↦{fullShare} (fun i => he ▸ shapeCast y.ty.shape fx hn i : y.ty.Contents Val)))
                -∗ wp frame (wpE defs 𝒱 c bd) E (k r) Q)
        -∗ wp frame (wpE defs 𝒱 c bd) E (hlo hp (StableHlo.reshape x y he hn hx hy) k) Q) :=
  wp_hlo_two 𝒱 c bd E (StableHlo.reshape x y he hn hx hy) (Proc.devRef .tc x) (Proc.devRef .tc y) (devRef_ne_of_ne hxy)
    rfl rfl rfl V₀ fx fy _ (fun V hV => by rw [reshape_result]; exact congrArg (fun (u : x.ty.Contents Val) => (fun i => he ▸ shapeCast y.ty.shape u hn i : y.ty.Contents Val)) hV)

/-- A one-operand operation from array x into array y, holding the two whole: y ends with the operation's function
    of x's contents, x is unchanged. The continuation is proved for whatever the operation answers. -/
theorem wp_unary_pts {hp : c.2.kind.runsHlo = true} (x y : Ref sig .tc) (hxy : x ≠ y) (f : x.ty.Contents Val → y.ty.Contents Val)
    (hx : x.space ≠ .host ∧ (Proc.devRef .tc x : DevRef τ sig).isScoped = false)
    (hy : y.space ≠ .host ∧ (Proc.devRef .tc y : DevRef τ sig).isScoped = false)
    (V₀ : Valuation τ sig Val) (fx : x.ty.Contents Val) (fy : y.ty.Contents Val)
    {k : ((b : (StableHlo.unary (τ := τ) (Val := Val) x y f hx hy).writes) → b.1.ty.Contents Val) → Prog (TpuEff nD τ sig Val Λ c.2) α}
    {Q : α → sProp 𝕄} :
    iprop(boundary c ∗ ((c.1, Proc.devRef .tc x) ↦{fullShare} fx) ∗ ((c.1, Proc.devRef .tc y) ↦{fullShare} fy))
      ⊢ iprop((∀ r, (boundary c ∗ ((c.1, Proc.devRef .tc x) ↦{fullShare} fx) ∗ ((c.1, Proc.devRef .tc y) ↦{fullShare} f fx))
                -∗ wp frame (wpE defs 𝒱 c bd) E (k r) Q)
        -∗ wp frame (wpE defs 𝒱 c bd) E (hlo hp (StableHlo.unary x y f hx hy) k) Q) :=
  wp_hlo_two 𝒱 c bd E (StableHlo.unary x y f hx hy) (Proc.devRef .tc x) (Proc.devRef .tc y) (devRef_ne_of_ne hxy)
    rfl rfl rfl V₀ fx fy _ (fun V hV => by rw [unary_result]; exact congrArg f hV)

/-! ## The same for a statement of @main: the operation continued by nothing -/

/-- A reshape written as a statement, its answer not bound: it runs, and the post holds of the unit value once it
    follows from the boundary, x as it was and y reshaped. -/
theorem wp_reshape_stmt {hp : c.2.kind.runsHlo = true} (x y : Ref sig .tc) (hxy : x ≠ y) (he : x.ty.elt = y.ty.elt)
    (hn : x.ty.shape.ShapeCasts y.ty.shape)
    (hx : x.space ≠ .host ∧ (Proc.devRef .tc x : DevRef τ sig).isScoped = false)
    (hy : y.space ≠ .host ∧ (Proc.devRef .tc y : DevRef τ sig).isScoped = false)
    (V₀ : Valuation τ sig Val) (fx : x.ty.Contents Val) (fy : y.ty.Contents Val) {Φ : PUnit → sProp 𝕄} :
    iprop(boundary c ∗ ((c.1, Proc.devRef .tc x) ↦{fullShare} fx) ∗ ((c.1, Proc.devRef .tc y) ↦{fullShare} fy))
      ⊢ iprop(((boundary c ∗ ((c.1, Proc.devRef .tc x) ↦{fullShare} fx)
                  ∗ ((c.1, Proc.devRef .tc y) ↦{fullShare} (fun i => he ▸ shapeCast y.ty.shape fx hn i : y.ty.Contents Val)))
                -∗ Φ ⟨⟩)
        -∗ wp frame (wpE defs 𝒱 c bd) E (hlo hp (StableHlo.reshape (Val := Val) x y he hn hx hy) (fun _ => .ret (⟨⟩ : PUnit))) Φ) := by
  iintro H0 Hk
  iapply (wp_reshape_pts (defs := defs) 𝒱 c bd E (hp := hp) x y hxy he hn hx hy V₀ fx fy (k := fun _ => .ret (⟨⟩ : PUnit)) (Q := Φ)) $$ H0
  iintro %r H1
  rw [wp_ret]; imodintro
  iapply Hk
  iexact H1

/-- A one-operand operation written as a statement: it runs, and the post holds of the unit value once it follows
    from the boundary, x as it was and y at the operation's function of x's contents. -/
theorem wp_unary_stmt {hp : c.2.kind.runsHlo = true} (x y : Ref sig .tc) (hxy : x ≠ y) (f : x.ty.Contents Val → y.ty.Contents Val)
    (hx : x.space ≠ .host ∧ (Proc.devRef .tc x : DevRef τ sig).isScoped = false)
    (hy : y.space ≠ .host ∧ (Proc.devRef .tc y : DevRef τ sig).isScoped = false)
    (V₀ : Valuation τ sig Val) (fx : x.ty.Contents Val) (fy : y.ty.Contents Val) {Φ : PUnit → sProp 𝕄} :
    iprop(boundary c ∗ ((c.1, Proc.devRef .tc x) ↦{fullShare} fx) ∗ ((c.1, Proc.devRef .tc y) ↦{fullShare} fy))
      ⊢ iprop(((boundary c ∗ ((c.1, Proc.devRef .tc x) ↦{fullShare} fx) ∗ ((c.1, Proc.devRef .tc y) ↦{fullShare} f fx)) -∗ Φ ⟨⟩)
        -∗ wp frame (wpE defs 𝒱 c bd) E (hlo hp (StableHlo.unary (Val := Val) x y f hx hy) (fun _ => .ret (⟨⟩ : PUnit))) Φ) := by
  iintro H0 Hk
  iapply (wp_unary_pts (defs := defs) 𝒱 c bd E (hp := hp) x y hxy f hx hy V₀ fx fy (k := fun _ => .ret (⟨⟩ : PUnit)) (Q := Φ)) $$ H0
  iintro %r H1
  rw [wp_ret]; imodintro
  iapply Hk
  iexact H1

end Cert.Proof.KB

end
-- ==== Proof.KB.Main.lean ====
/-
  @main on the TensorCore, the launch element, and the run of the whole kernel program.
  @main flattens the index array and the table, hands both and the result array to the gather
  call — the index and result arrays cut into their 32 parts, the table as 32 read shares — and
  takes them back, the result now holding the table's entries at the indices; reshapes the gathered
  entries, the position embedding and the weights into rows; runs the TensorCore region, which
  leaves `w[v] · (x[t] + p[t]) + b[v]` at row `v`, column `t` of its result; and transposes that.
  No array other than the one an operation writes changes, so the five arguments end as launched.
  The TensorCore region's own proof enters here through three facts — what ghost state it needs on
  each device, that the launch element funds it, and its run — taken as hypotheses and supplied by
  the region's module.
-/
import proofs.«217057_g30459908063406_cont_9to1_2067_16_alg».proof.Proof.KB.Tile
import proofs.«217057_g30459908063406_cont_9to1_2067_16_alg».proof.Proof.KB.Split
import proofs.«217057_g30459908063406_cont_9to1_2067_16_alg».proof.Proof.KB.Final
import proofs.«217057_g30459908063406_cont_9to1_2067_16_alg».proof.Proof.KB.HostStep

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-- A location of device `d`'s HBM, as its TensorCore names it. -/
abbrev tl (d : Dev nD) (b : Ref sig .tc) : Loc nD τ sig := (SparseCore.T d).loc b

omit m ρ in
/-- The TensorCore's thirteen unscoped arrays, one by one. -/
theorem unscopedBufs_eq (d : Dev nD) (W : (b : Ref sig .tc) → Buf (Elt F) ((d.tc : Thread nD τ).loc b)) :
    (unscopedBufs d W : sProp 𝕄) = iprop((tl d main_arg0 ↦{fullShare} W main_arg0) ∗ (tl d main_arg1 ↦{fullShare} W main_arg1)
      ∗ (tl d main_arg2 ↦{fullShare} W main_arg2) ∗ (tl d main_arg3 ↦{fullShare} W main_arg3) ∗ (tl d main_arg4 ↦{fullShare} W main_arg4)
      ∗ (tl d main_v0 ↦{fullShare} W main_v0) ∗ (tl d main_v1 ↦{fullShare} W main_v1) ∗ (tl d main_v2 ↦{fullShare} W main_v2)
      ∗ (tl d main_v3 ↦{fullShare} W main_v3) ∗ (tl d main_v4 ↦{fullShare} W main_v4) ∗ (tl d main_v5 ↦{fullShare} W main_v5)
      ∗ (tl d main_v6 ↦{fullShare} W main_v6) ∗ (tl d main_v7 ↦{fullShare} W main_v7)) := by
  unfold unscopedBufs
  rw [show (Finset.univ.filter fun b : Ref sig .tc => ¬ b.isScoped)
      = {main_arg0, main_arg1, main_arg2, main_arg3, main_arg4, main_v0, main_v1, main_v2, main_v3, main_v4, main_v5, main_v6, main_v7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

variable [FloatOps F]

omit ρ in
/-- A call's tasks over the SparseCore's sixteen vector subcores, re-indexed by the literal sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit ρ in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit ρ in
/-- A SparseCore's operands are its tasks' operands, its results its tasks' results: nothing to do. -/
theorem vecSplit : (K (F := F)).VecSplit' (P m) 0 := by
  intro d c
  show (bigSep Finset.univ fun i : Fin 16 => goPay m d (partOf (Fin.cast nCore_zero c) i)) ⊢ |={Set.univ}=> iprop(
      (bigSep Finset.univ fun i : Fin ((K (F := F)).nSub 0) => goPay m d (partOf (Fin.cast nCore_zero c) (Fin.cast nSub_zero i)))
      ∗ ((bigSep Finset.univ fun i : Fin ((K (F := F)).nSub 0) => tdPay m d (partOf (Fin.cast nCore_zero c) (Fin.cast nSub_zero i)))
          -∗ bigSep Finset.univ fun i : Fin 16 => tdPay m d (partOf (Fin.cast nCore_zero c) i)))
  rw [bigSep_tasks (F := F) (fun i => goPay m d (partOf (Fin.cast nCore_zero c) i)),
    bigSep_tasks (F := F) (fun i => tdPay m d (partOf (Fin.cast nCore_zero c) i))]
  iintro H; imodintro
  isplitl [H]; · iexact H
  iintro H; iexact H

omit ρ in
/-- What the call takes for the two SparseCores: the index array and the result array by parts, the table by shares. -/
theorem st0_eq (d : Dev nD) : (bigSep Finset.univ fun c : Fin ((K (F := F)).nCore 0) => (P m).st 0 d c)
    = iprop((bigSep Finset.univ fun j : Fin 32 => iPartPts m d j) ∗ (bigSep Finset.univ fun j : Fin 32 => tShPts m d j)
        ∗ (bigSep Finset.univ fun j : Fin 32 => gPartPts d j (m (gLoc d)))) := by
  show (bigSep Finset.univ fun c : Fin ((K (F := F)).nCore 0) => (fun c' : Fin 2 => bigSep Finset.univ fun i : Fin 16 => goPay m d (partOf c' i)) (Fin.cast nCore_zero c)) = _
  rw [bigSep_cores (F := F) (fun c' : Fin 2 => bigSep Finset.univ fun i : Fin 16 => goPay m d (partOf c' i)),
    ← bigSep_parts (fun j => goPay m d j), bigSep_sep', bigSep_sep']
omit ρ in
theorem dn0_eq (d : Dev nD) : (bigSep Finset.univ fun c : Fin ((K (F := F)).nCore 0) => (P m).dn 0 d c)
    = iprop((bigSep Finset.univ fun j : Fin 32 => iPartPts m d j) ∗ (bigSep Finset.univ fun j : Fin 32 => tShPts m d j)
        ∗ (bigSep Finset.univ fun j : Fin 32 => gPartPts d j (gath m d))) := by
  show (bigSep Finset.univ fun c : Fin ((K (F := F)).nCore 0) => (fun c' : Fin 2 => bigSep Finset.univ fun i : Fin 16 => tdPay m d (partOf c' i)) (Fin.cast nCore_zero c)) = _
  rw [bigSep_cores (F := F) (fun c' : Fin 2 => bigSep Finset.univ fun i : Fin 16 => tdPay m d (partOf c' i)),
    ← bigSep_parts (fun j => tdPay m d j), bigSep_sep', bigSep_sep']

omit m ρ in
/-- The TensorCore's handshake state before call `n` opens into what it owes and the rest. -/
theorem tcSt_open (d : Dev nD) (n : ℕ) : ∃ R : sProp 𝕄, ((K (F := F)).tcSt EH d n : sProp 𝕄)
    = iprop((∃ W, ⌜(K (F := F)).WBelow (SparseCore.T d) W (8 * n)⌝ ∗ owes (SparseCore.T d) ((K (F := F)).Otc d n) W) ∗ R) := ⟨_, rfl⟩

section Main

-- what the launch hands the TensorCore for its kernel region; the region's own module supplies it and the region's run
variable (RG : Dev nD → sProp (MT nD τ sig (HIx 1) (Elt F) ℕ UU ℕ))

/-- The region's run, as the module that proves it states it. -/
def RegionRun : Prop :=
  ∀ (d : Dev nD) (x p : FVec F S1x2048 .f32) (w : FVec F S1x100000 .f32) (b : FVec F S100000 .f32)
      (O : CellTallies nD τ sig (HIx 1)) (W : Waits sig (HIx 1)), (∀ g, O g none = 0) →
    (iprop(levAts (K (F := F)).L (K (F := F)).lev ∗ RG d ∗ boundary (SparseCore.T d)
        ∗ (tl d main_v3 ↦{fullShare} x) ∗ (tl d main_v4 ↦{fullShare} p) ∗ (tl d main_v5 ↦{fullShare} w)
        ∗ (tl d main_arg4 ↦{fullShare} b) ∗ (∃ f, tl d main_v6 ↦{fullShare} f) ∗ owes (SparseCore.T d) O W : sProp 𝕄)
      ⊢ wp frame (wpE ((K (F := F)).defs (D (F := F))) 𝒱 (SparseCore.T d) none) Set.univ
          (Prog.lift (.customCall (SparseCore.inner (Pipeline.entry 0)) ()))
          fun _ => iprop(boundary (SparseCore.T d)
            ∗ (tl d main_v3 ↦{fullShare} x) ∗ (tl d main_v4 ↦{fullShare} p) ∗ (tl d main_v5 ↦{fullShare} w)
            ∗ (tl d main_arg4 ↦{fullShare} b) ∗ (tl d main_v6 ↦{fullShare} outT x p w b)
            ∗ ∃ W', ⌜∀ q ∈ W', q ∈ W ∨ q.2 = none⌝ ∗ owes (SparseCore.T d) O W'))

/-- What @main leaves the claim: the result array at the logits, the five arguments as launched. -/
abbrev FIN (d : Dev nD) : sProp 𝕄 :=
  iprop((tl d main_v7 ↦{fullShare} (out7 m d : FVec F S1x2048x100000 .f32)) ∗ (tl d main_arg0 ↦{fullShare} m (tl d main_arg0))
    ∗ (tl d main_arg1 ↦{fullShare} m (tl d main_arg1)) ∗ (tl d main_arg2 ↦{fullShare} m (tl d main_arg2))
    ∗ (tl d main_arg3 ↦{fullShare} m (tl d main_arg3)) ∗ (tl d main_arg4 ↦{fullShare} m (tl d main_arg4)))

set_option maxHeartbeats 4000000 in
theorem hmain (hreg : RegionRun (F := F) RG) (κ : GSem nD τ sig → ℕ) (d : Dev nD) :
    iprop((K (F := F)).ctx EH (P m) κ ∗ (K (F := F)).tcSt EH d 0 ∗ (K (F := F)).tcRes m ρ d ∗ RG d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Ha2, Ha3, Ha4, Hv0, Hv1, Hv2, Hv3, Hv4, Hv5, Hv6, Hv7⟩, -, -⟩, HG⟩
  -- the index array, flat
  iapply (wp_reshape_stmt (defs := (K (F := F)).defs (D (F := F))) 𝒱 (SparseCore.T d : Thread nD τ) none Set.univ main_arg0 main_v0 (by decide) rfl
      Facts₀.shapeCasts_S1x2048_S2048 ⟨by decide, rfl⟩ ⟨by decide, rfl⟩ (fun b => m (d, b)) (m (tl d main_arg0)) (m (tl d main_v0))) $$ [Hb Ha0 Hv0]
  · isplitl [Hb]; · iexact Hb
    isplitl [Ha0]; · iexact Ha0
    iexact Hv0
  iintro ⟨Hb, Ha0, Hv0⟩
  -- the table, flat
  iapply (wp_reshape_stmt (defs := (K (F := F)).defs (D (F := F))) 𝒱 (SparseCore.T d : Thread nD τ) none Set.univ main_arg1 main_v1 (by decide) rfl
      Facts₀.shapeCasts_S100000x1_S100000 ⟨by decide, rfl⟩ ⟨by decide, rfl⟩ (fun b => m (d, b)) (m (tl d main_arg1)) (m (tl d main_v1))) $$ [Hb Ha1 Hv1]
  · isplitl [Hb]; · iexact Hb
    isplitl [Ha1]; · iexact Ha1
    iexact Hv1
  iintro ⟨Hb, Ha1, Hv1⟩
  -- the gather call: the index array and the result array go out by parts, the table by shares
  ihave Hv0p := (Entails.of_eq (iPts_parts (F := F) d (idx1 m d))) $$ Hv0
  ihave Hv2p := (Entails.of_eq (gPts_parts (F := F) d (m (gLoc d)))) $$ Hv2
  ihave Hv1s := (Transfers.pointsTo_toks_split (ℓ := tLoc d) (S := Finset.univ) (f := tab1 m d) fullShare 32) $$ Hv1
  icases Hv1s with ⟨Hv1r, Hv1t⟩
  iapply ((K (F := F)).wp_run (D (F := F)) 𝒱 (EH := EH) (P := P m) κ d 0) $$ [Hst Hv0p Hv1t Hv2p Hb Ha0 Ha1 Ha2 Ha3 Ha4 Hv3 Hv4 Hv5 Hv6 Hv7 Hv1r HG]
  isplitr; · iexact Hctx
  isplitl [Hst]; · iexact Hst
  isplitl [Hv0p Hv1t Hv2p]
  · rw [st0_eq]
    isplitl [Hv0p]; · iexact Hv0p
    isplitl [Hv1t]; · iexact Hv1t
    iexact Hv2p
  iintro ⟨Hst, Hdn⟩
  ihave Hdn' := (Entails.of_eq (dn0_eq m d)) $$ Hdn
  icases Hdn' with ⟨Hv0p, Hv1t, Hv2p⟩
  ihave Hv0 := (Entails.of_eq (iPts_parts (F := F) d (idx1 m d)).symm) $$ Hv0p
  ihave Hv2 := (Entails.of_eq (gPts_parts (F := F) d (gath m d)).symm) $$ Hv2p
  ihave Hv1 := (Transfers.pointsTo_toks_join (ℓ := tLoc d) (S := Finset.univ) (f := tab1 m d) fullShare 32) $$ [Hv1r Hv1t]
  · isplitl [Hv1r]; · iexact Hv1r
    iexact Hv1t
  -- the gathered entries, the position embedding and the weights, each as one row
  iapply (wp_reshape_stmt (defs := (K (F := F)).defs (D (F := F))) 𝒱 (SparseCore.T d : Thread nD τ) none Set.univ main_v2 main_v3 (by decide) rfl
      Facts₀.shapeCasts_S2048_S1x2048 ⟨by decide, rfl⟩ ⟨by decide, rfl⟩ (fun b => m (d, b)) (gath m d) (m (tl d main_v3))) $$ [Hb Hv2 Hv3]
  · isplitl [Hb]; · iexact Hb
    isplitl [Hv2]; · iexact Hv2
    iexact Hv3
  iintro ⟨Hb, Hv2, Hv3⟩
  iapply (wp_reshape_stmt (defs := (K (F := F)).defs (D (F := F))) 𝒱 (SparseCore.T d : Thread nD τ) none Set.univ main_arg2 main_v4 (by decide) rfl
      Facts₀.shapeCasts_S2048x1_S1x2048 ⟨by decide, rfl⟩ ⟨by decide, rfl⟩ (fun b => m (d, b)) (m (tl d main_arg2)) (m (tl d main_v4))) $$ [Hb Ha2 Hv4]
  · isplitl [Hb]; · iexact Hb
    isplitl [Ha2]; · iexact Ha2
    iexact Hv4
  iintro ⟨Hb, Ha2, Hv4⟩
  iapply (wp_reshape_stmt (defs := (K (F := F)).defs (D (F := F))) 𝒱 (SparseCore.T d : Thread nD τ) none Set.univ main_arg3 main_v5 (by decide) rfl
      Facts₀.shapeCasts_S100000x1_S1x100000 ⟨by decide, rfl⟩ ⟨by decide, rfl⟩ (fun b => m (d, b)) (m (tl d main_arg3)) (m (tl d main_v5))) $$ [Hb Ha3 Hv5]
  · isplitl [Hb]; · iexact Hb
    isplitl [Ha3]; · iexact Ha3
    iexact Hv5
  iintro ⟨Hb, Ha3, Hv5⟩
  -- the TensorCore region: what the TensorCore still owes the handshakes is nothing (the one call is over)
  obtain ⟨R1, hR1⟩ := tcSt_open (F := F) d ((0 : Fin 1).val + 1)
  ihave Hst := (Entails.of_eq hR1) $$ Hst
  icases Hst with ⟨⟨%W, %hW, HO⟩, HR⟩
  have hOtc : (K (F := F)).Otc d ((0 : Fin 1).val + 1) = 0 := (K (F := F)).Otc_end d (le_refl _)
  ihave HO := (Entails.of_eq (show (owes (SparseCore.T d) ((K (F := F)).Otc d ((0 : Fin 1).val + 1)) W : sProp 𝕄) = owes (SparseCore.T d) 0 W by rw [hOtc])) $$ HO
  ihave Hlev := ((K (F := F)).ctx_levAts (EH := EH) (P := P m) κ) $$ Hctx
  iapply (wp_wand_r frame _ _) $$ [Hlev HG Hb Hv3 Hv4 Hv5 Ha4 Hv6 HO Ha0 Ha1 Ha2 Ha3 Hv0 Hv1 Hv2 Hv7 HR]
  isplitl [Hlev HG Hb Hv3 Hv4 Hv5 Ha4 Hv6 HO]
  · iapply (hreg d (x3 m d) (p4 m d) (w5 m d) (m (tl d main_arg4)) 0 W (fun _ => rfl))
    isplitl [Hlev]; · iexact Hlev
    isplitl [HG]; · iexact HG
    isplitl [Hb]; · iexact Hb
    isplitl [Hv3]; · iexact Hv3
    isplitl [Hv4]; · iexact Hv4
    isplitl [Hv5]; · iexact Hv5
    isplitl [Ha4]; · iexact Ha4
    isplitl [Hv6]; · iexists _; iexact Hv6
    iexact HO
  iintro %_ ⟨Hb, Hv3, Hv4, Hv5, Ha4, Hv6, %W', %hW', HO⟩
  -- the transpose
  iapply (wp_unary_stmt (defs := (K (F := F)).defs (D (F := F))) 𝒱 (SparseCore.T d : Thread nD τ) none Set.univ main_v6 main_v7 (by decide) _
      ⟨by decide, rfl⟩ ⟨by decide, rfl⟩ (fun b => m (d, b)) (out6 m d) (m (tl d main_v7))) $$ [Hb Hv6 Hv7]
  · isplitl [Hb]; · iexact Hb
    isplitl [Hv6]; · iexact Hv6
    iexact Hv7
  iintro ⟨Hb, Hv6, Hv7⟩
  imodintro
  iapply (show iprop((K (F := F)).tcSt EH d ((0 : Fin 1).val + 1) ∗ FIN m d) ⊢ (iprop((K (F := F)).tcSt EH d 1 ∗ FIN m d) : sProp 𝕄) from BI.Entails.refl _)
  isplitl [HO HR]
  · iapply (Entails.of_eq hR1.symm)
    isplitl [HO]
    · iexists W'; isplitr
      · ipureintro
        intro q hq
        rcases hW' q hq with h | h
        · exact hW q h
        · rw [h, (K (F := F)).lev_none]; exact Nat.zero_le _
      · iapply (Entails.of_eq (show (owes (SparseCore.T d) 0 W' : sProp 𝕄) = owes (SparseCore.T d) ((K (F := F)).Otc d ((0 : Fin 1).val + 1)) W' by rw [hOtc])); iexact HO
    · iexact HR
  isplitl [Hv7]; · iexact Hv7
  isplitl [Ha0]; · iexact Ha0
  isplitl [Ha1]; · iexact Ha1
  isplitl [Ha2]; · iexact Ha2
  isplitl [Ha3]; · iexact Ha3
  iexact Ha4

/-! ## The launch element, the final memory, the run -/

variable [∀ e, Nonempty (Elt F e)]

-- the region's launch element and its funding, from the region's own module
variable (uP : UP)

/-- The certificate's launch element: the handshakes' rounds, the region's staging cells' rounds, no counter yet. -/
def u₀ : UU := (initOf (K (F := F)).hsCells (K (F := F)).hsToks, (uP, 1))

omit [FloatOps F] [∀ e, Nonempty (Elt F e)] in
theorem bigSep_emp' {I : Type} (s : Finset I) : (bigSep s fun _ => iprop(emp)) = (iprop(emp) : sProp 𝕄) := bigSep_emp_const s

omit ρ [∀ e, Nonempty (Elt F e)] in
/-- The launch element splits into the handshakes' share and the region's, which funds the region's ghost state on every
    device; the kernels' own proofs consume nothing of it. -/
theorem hu₀ (hfund : (BI.own (EP (F := F) uP) : sProp 𝕄) ⊢ iprop(|==> bigSep Finset.univ fun d : Dev nD => RG d)) :
    (ownU (u₀ (F := F) uP) : sProp 𝕄)
    ⊢ |={Set.univ}=> iprop(BI.own (EH (initOf (K (F := F)).hsCells (K (F := F)).hsToks)) ∗ (bigSep Finset.univ fun d : Dev nD => RG d)
        ∗ bigSep Finset.univ fun thr : Thread nD τ => bigSep Finset.univ fun q : Fin 1 => (P m).x q thr) := by
  unfold u₀
  iintro Hu
  ihave H := (ownU_pair (initOf (K (F := F)).hsCells (K (F := F)).hsToks) ((uP, 1) : UP × Counters)) $$ Hu
  icases H with ⟨HH, HR⟩
  ihave H2 := (own_pair_emb (embR : Emb (UP × Counters) 𝕄) uP (1 : Counters)) $$ HR
  icases H2 with ⟨HP, -⟩
  have hfund' : (BI.own (((Emb.inl : Emb UP (UP × Counters)).trans (embR : Emb (UP × Counters) 𝕄)) uP) : sProp 𝕄)
      ⊢ iprop(|==> bigSep Finset.univ fun d : Dev nD => RG d) := hfund
  imod (hfund') $$ HP with HG
  imodintro
  isplitl [HH]; · iexact HH
  isplitl [HG]; · iexact HG
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-- What the claim reads off the final memory of device `d`. -/
def fq (d : Dev nD) (s' : Phys nD τ sig (Elt F)) : Prop :=
  s'.mem.mem (tl d main_v7) = out7 m d ∧ s'.mem.mem (tl d main_arg0) = m (tl d main_arg0) ∧ s'.mem.mem (tl d main_arg1) = m (tl d main_arg1)
    ∧ s'.mem.mem (tl d main_arg2) = m (tl d main_arg2) ∧ s'.mem.mem (tl d main_arg3) = m (tl d main_arg3) ∧ s'.mem.mem (tl d main_arg4) = m (tl d main_arg4)

omit ρ [∀ e, Nonempty (Elt F e)] in
/-- An array owned whole at given contents holds them in the final memory. -/
theorem agree_one (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H' := (persistent_entails_right (SI_pointsTo_agree (st := s') (ℓ := ℓ) (I := Finset.univ) (q := fullShare) (f := f))) $$ [HSI H]
  · isplitl [HSI] <;> iassumption
  icases H' with ⟨%h1, HSI, -⟩
  isplitr
  · ipureintro; exact funext fun i => h1 i (Finset.mem_univ i)
  · iexact HSI

omit ρ [∀ e, Nonempty (Elt F e)] in
set_option maxRecDepth 16384 in
theorem hfin (d : Dev nD) (s' : Phys nD τ sig (Elt F)) : iprop(FIN m d ∗ SI s') ⊢ (⌜fq m d s'⌝ : sProp 𝕄) := by
  iintro ⟨⟨H7, H0, H1, H2, H3, H4⟩, HSI⟩
  ihave H := (agree_one s' _ _) $$ [H7 HSI]; · isplitl [H7] <;> iassumption
  icases H with ⟨%h7, HSI⟩
  ihave H := (agree_one s' _ _) $$ [H0 HSI]; · isplitl [H0] <;> iassumption
  icases H with ⟨%h0, HSI⟩
  ihave H := (agree_one s' _ _) $$ [H1 HSI]; · isplitl [H1] <;> iassumption
  icases H with ⟨%h1, HSI⟩
  ihave H := (agree_one s' _ _) $$ [H2 HSI]; · isplitl [H2] <;> iassumption
  icases H with ⟨%h2, HSI⟩
  ihave H := (agree_one s' _ _) $$ [H3 HSI]; · isplitl [H3] <;> iassumption
  icases H with ⟨%h3, HSI⟩
  ihave H := (agree_one s' _ _) $$ [H4 HSI]; · isplitl [H4] <;> iassumption
  icases H with ⟨%h4, -⟩
  ipureintro; exact ⟨h7, h0, h1, h2, h3, h4⟩

/-- What the program's run establishes: on every device the result array holds the logits (as the kernel program
    computes them from the launch memory) and the five arguments are as launched. -/
def QC : PUnit × MemSt nD τ sig (Elt F) → Prop := fun r => ∀ c : Dev nD,
  r.2.mem ((SparseCore.T c).loc main_v7) = out7 m c ∧ r.2.mem ((SparseCore.T c).loc main_arg0) = m ((SparseCore.T c).loc main_arg0)
    ∧ r.2.mem ((SparseCore.T c).loc main_arg1) = m ((SparseCore.T c).loc main_arg1) ∧ r.2.mem ((SparseCore.T c).loc main_arg2) = m ((SparseCore.T c).loc main_arg2)
    ∧ r.2.mem ((SparseCore.T c).loc main_arg3) = m ((SparseCore.T c).loc main_arg3) ∧ r.2.mem ((SparseCore.T c).loc main_arg4) = m ((SparseCore.T c).loc main_arg4)

/-- The whole program runs: every weakly fair execution of the TensorCore's @main beside the SparseCores' threads
    terminates, nothing faulting, in a memory of which `QC` holds — given the region's run and the funding of its ghost state. -/
theorem run_main_of (hpre : PreOK m) (hfund : (BI.own (EP (F := F) uP) : sProp 𝕄) ⊢ iprop(|==> bigSep Finset.univ fun d : Dev nD => RG d))
    (hreg : RegionRun (F := F) RG) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main RG (FIN m) (u₀ (F := F) uP) (sep_elim_left.trans (hu₀ m RG uP hfund)) (hmain m ρ RG hreg) (fq m) (hfin m) (QC m) (fun _ h => h)

end Main

end Cert.Proof.KB

end
-- ==== Proof.KB.TcCover.lean ====
/-
  The destination blocks of the TensorCore region's result array `[1, 100000, 2048]`. The region
  writes the array in 98 blocks of whole rows: block `g < 97` is rows `[1024 g, 1024 g + 1024)`
  and block 97 is the remaining rows `[99328, 100000)` (97 · 1024 = 99328, and 672 rows are left).
  A row `v < 100000` lies in block `v / 1024` and in no other, so the blocks are pairwise disjoint
  and cover the array; and each block is the set of the unit-stride rectangle the program slices
  the array at. Plain arithmetic on the row coordinate: no float instance, no memory.
-/
import proofs.«217057_g30459908063406_cont_9to1_2067_16_alg».proof.Kernel

noncomputable section

namespace Cert.Proof.KB

open Cert.Kernel
open Idealize.ShloMosaic

/-- A row coordinate of the result array is below 100000. -/
theorem out_row_lt (i : S1x100000x2048.Idx) : (i 1).val < 100000 := (i 1).isLt

/-- Block `g` of the result array: the indices whose row lies in the `g`-th run of 1024 rows (the
    last run, `g = 97`, is cut short by the array's height). -/
def blockSet (g : Fin 98) : Finset S1x100000x2048.Idx :=
  Finset.univ.filter fun i => (i 1).val / 1024 = g.val

/-- Membership by the quotient of the row. -/
theorem mem_blockSet_div {g : Fin 98} {i : S1x100000x2048.Idx} :
    i ∈ blockSet g ↔ (i 1).val / 1024 = g.val := by
  unfold blockSet
  rw [Finset.mem_filter]
  exact ⟨fun h => h.2, fun h => ⟨Finset.mem_univ _, h⟩⟩

/-- Membership by the row's bounds. -/
theorem mem_blockSet {g : Fin 98} {i : S1x100000x2048.Idx} :
    i ∈ blockSet g ↔ 1024 * g.val ≤ (i 1).val ∧ (i 1).val < 1024 * g.val + 1024 := by
  rw [mem_blockSet_div]
  omega

/-- Membership in the last block: the upper bound is the array's height. -/
theorem mem_blockSet_last {i : S1x100000x2048.Idx} :
    i ∈ blockSet ⟨97, by omega⟩ ↔ 99328 ≤ (i 1).val ∧ (i 1).val < 99328 + 672 := by
  rw [mem_blockSet]
  have := out_row_lt i
  show 1024 * 97 ≤ (i 1).val ∧ (i 1).val < 1024 * 97 + 1024 ↔ _
  omega

/-- The block a given index lies in. -/
def blockOf (i : S1x100000x2048.Idx) : Fin 98 := ⟨(i 1).val / 1024, by have := out_row_lt i; omega⟩

theorem mem_blockSet_blockOf (i : S1x100000x2048.Idx) : i ∈ blockSet (blockOf i) :=
  mem_blockSet_div.mpr rfl

theorem eq_blockOf_of_mem {g : Fin 98} {i : S1x100000x2048.Idx} (h : i ∈ blockSet g) : g = blockOf i :=
  Fin.ext (mem_blockSet_div.mp h).symm

/-- Different blocks share no index. -/
theorem blockSet_disjoint {g g' : Fin 98} (h : g ≠ g') : Disjoint (blockSet g) (blockSet g') := by
  rw [Finset.disjoint_left]
  intro i hi hi'
  exact h ((eq_blockOf_of_mem hi).trans (eq_blockOf_of_mem hi').symm)

/-- The blocks are pairwise disjoint. -/
theorem blockSet_pairwiseDisjoint :
    Set.PairwiseDisjoint (↑(Finset.univ : Finset (Fin 98)) : Set (Fin 98)) blockSet :=
  fun _ _ _ _ h => blockSet_disjoint h

/-- The blocks cover the array. -/
theorem blockSet_biUnion : (Finset.univ : Finset (Fin 98)).biUnion blockSet = Finset.univ := by
  ext i
  rw [Finset.mem_biUnion]
  exact ⟨fun _ => Finset.mem_univ _, fun _ => ⟨blockOf i, Finset.mem_univ _, mem_blockSet_blockOf i⟩⟩

/-! ## The blocks as the program's rectangles -/

/-- A full block is the set of the 1024-row rectangle at row `1024 n`. -/
theorem set_unit_block (n : ℕ) (hn : n < 97) (off : Fin S1x100000x2048.rank → ℕ) (hoff : off = ![0, 1024 * n, 0])
    (inb : ∀ a, off a + S1x1024x2048.size a ≤ S1x100000x2048.size a) :
    (Rect.unit (s := S1x100000x2048) off S1x1024x2048.size inb).set = blockSet ⟨n, by omega⟩ := by
  subst hoff
  ext i
  rw [Rect.mem_set_unit, mem_blockSet]
  constructor
  · intro h
    exact h 1
  · intro h a
    match a with
    | ⟨0, _⟩ => exact ⟨Nat.zero_le _, by have h0 : (i 0).val < 1 := (i 0).isLt; show (i 0).val < 0 + 1; omega⟩
    | ⟨1, _⟩ => exact h
    | ⟨2, _⟩ => exact ⟨Nat.zero_le _, by have h2 : (i 2).val < 2048 := (i 2).isLt; show (i 2).val < 0 + 2048; omega⟩

/-- The same with the block named by its index in `Fin 98`. -/
theorem set_unit_blockSet (g : Fin 98) (hg : g.val < 97) (off : Fin S1x100000x2048.rank → ℕ)
    (hoff : off = ![0, 1024 * g.val, 0]) (inb : ∀ a, off a + S1x1024x2048.size a ≤ S1x100000x2048.size a) :
    (Rect.unit (s := S1x100000x2048) off S1x1024x2048.size inb).set = blockSet g :=
  set_unit_block g.val hg off hoff inb

/-- The last block is the set of the 672-row rectangle at row 99328. -/
theorem set_unit_block_last (off : Fin S1x100000x2048.rank → ℕ) (hoff : off = ![0, 99328, 0])
    (inb : ∀ a, off a + S1x672x2048.size a ≤ S1x100000x2048.size a) :
    (Rect.unit (s := S1x100000x2048) off S1x672x2048.size inb).set = blockSet ⟨97, by omega⟩ := by
  subst hoff
  ext i
  rw [Rect.mem_set_unit, mem_blockSet_last]
  constructor
  · intro h
    exact h 1
  · intro h a
    match a with
    | ⟨0, _⟩ => exact ⟨Nat.zero_le _, by have h0 : (i 0).val < 1 := (i 0).isLt; show (i 0).val < 0 + 1; omega⟩
    | ⟨1, _⟩ => exact h
    | ⟨2, _⟩ => exact ⟨Nat.zero_le _, by have h2 : (i 2).val < 2048 := (i 2).isLt; show (i 2).val < 0 + 2048; omega⟩

/-! ## Runs of rows

The same facts for an arbitrary run of rows `[a, b)`: runs that follow each other are disjoint, a
run splits at any row inside it, the run `[0, 100000)` is the whole array, and the unit-stride
rectangle of `n` whole rows at row `a` is the run `[a, a + n)`. -/

/-- The indices whose row lies in `[a, b)`. -/
def rowsIn (a b : ℕ) : Finset S1x100000x2048.Idx :=
  Finset.univ.filter fun i => a ≤ (i 1).val ∧ (i 1).val < b

theorem mem_rowsIn {a b : ℕ} {i : S1x100000x2048.Idx} : i ∈ rowsIn a b ↔ a ≤ (i 1).val ∧ (i 1).val < b := by
  unfold rowsIn
  rw [Finset.mem_filter]
  exact ⟨fun h => h.2, fun h => ⟨Finset.mem_univ _, h⟩⟩

/-- A run ending where another begins, or before, shares no index with it. -/
theorem rowsIn_disjoint {a b c e : ℕ} (h : b ≤ c) : Disjoint (rowsIn a b) (rowsIn c e) := by
  rw [Finset.disjoint_left]
  intro i hi hi'
  rw [mem_rowsIn] at hi hi'
  omega

/-- A run splits at a row inside it. -/
theorem rowsIn_union {a b c : ℕ} (hab : a ≤ b) (hbc : b ≤ c) : rowsIn a c = rowsIn a b ∪ rowsIn b c := by
  ext i
  rw [Finset.mem_union, mem_rowsIn, mem_rowsIn, mem_rowsIn]
  omega

/-- All rows. -/
theorem rowsIn_univ : rowsIn 0 100000 = Finset.univ := by
  ext i
  rw [mem_rowsIn]
  have := out_row_lt i
  exact ⟨fun _ => Finset.mem_univ _, fun _ => ⟨Nat.zero_le _, this⟩⟩

/-- An empty run. -/
theorem rowsIn_self (a : ℕ) : rowsIn a a = ∅ := by
  refine Finset.eq_empty_of_forall_notMem fun i hi => ?_
  rw [mem_rowsIn] at hi
  omega

/-- A block is its run of rows. -/
theorem blockSet_eq_rowsIn (g : Fin 98) : blockSet g = rowsIn (1024 * g.val) (1024 * g.val + 1024) := by
  ext i
  rw [mem_blockSet, mem_rowsIn]

/-- The rectangle of `n` whole rows at row `a`, its offsets given up to an equation. -/
theorem unit_rows_set' (off : Fin 3 → ℕ) (a n : ℕ) (h : off = ![0, a, 0])
    (inb : ∀ x, off x + (![1, n, 2048] : Fin 3 → ℕ) x ≤ S1x100000x2048.size x) :
    (Rect.unit (s := S1x100000x2048) off ![1, n, 2048] inb).set = rowsIn a (a + n) := by
  subst h
  ext i
  rw [Rect.mem_set_unit, mem_rowsIn]
  constructor
  · intro h
    exact h 1
  · intro h x
    match x with
    | ⟨0, _⟩ => exact ⟨Nat.zero_le _, by have h0 : (i 0).val < 1 := (i 0).isLt; show (i 0).val < 0 + 1; omega⟩
    | ⟨1, _⟩ => exact h
    | ⟨2, _⟩ => exact ⟨Nat.zero_le _, by have h2 : (i 2).val < 2048 := (i 2).isLt; show (i 2).val < 0 + 2048; omega⟩

/-- The same at literal offsets. -/
theorem unit_rows_set (a n : ℕ)
    (inb : ∀ x, (![0, a, 0] : Fin 3 → ℕ) x + (![1, n, 2048] : Fin 3 → ℕ) x ≤ S1x100000x2048.size x) :
    (Rect.unit (s := S1x100000x2048) ![0, a, 0] ![1, n, 2048] inb).set = rowsIn a (a + n) :=
  unit_rows_set' _ a n rfl inb

/-- The 1024-row rectangle, its sizes spelt as the block shape's. -/
theorem unit_rows_set_1024 (off : Fin 3 → ℕ) (a : ℕ) (h : off = ![0, a, 0])
    (inb : ∀ x, off x + S1x1024x2048.size x ≤ S1x100000x2048.size x) :
    (Rect.unit (s := S1x100000x2048) off S1x1024x2048.size inb).set = rowsIn a (a + 1024) :=
  unit_rows_set' off a 1024 h inb

/-- The 672-row rectangle, its sizes spelt as the last block shape's. -/
theorem unit_rows_set_672 (off : Fin 3 → ℕ) (a : ℕ) (h : off = ![0, a, 0])
    (inb : ∀ x, off x + S1x672x2048.size x ≤ S1x100000x2048.size x) :
    (Rect.unit (s := S1x100000x2048) off S1x672x2048.size inb).set = rowsIn a (a + 672) :=
  unit_rows_set' off a 672 h inb

end Cert.Proof.KB

end
-- ==== Proof.KB.TcDefs.lean ====
/-
  The TensorCore kernel region's body: the names its proof is written over. The body computes, block
  by block of 1024 rows of the result, the tile `w[v] · (x[t] + p[t]) + b[v]` into one of four scratch
  buffers and copies the scratch out to the block's rows of the result, each slot's copy completing on
  the slot's own semaphore and awaited before the slot is written again. Here: the result's rows held
  by ranges, a slot whose copy is in flight, and the state of the four slots and of the result before
  each trip of the loop over groups of four blocks.
-/
import proofs.«217057_g30459908063406_cont_9to1_2067_16_alg».proof.Proof.KB.Values
import proofs.«217057_g30459908063406_cont_9to1_2067_16_alg».proof.Proof.KB.TcCover

noncomputable section

namespace Cert.Proof.KB

open Cert.Kernel Cert.Kernel.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The TensorCore thread of device `d`. -/
abbrev cT (d : Dev nD) : Thread nD τ := SparseCore.T d

/-- A TensorCore buffer held whole, as the kernel's memrefs address it. -/
abbrev pw (d : Dev nD) (r : Ref sig .tc) (v : Buf (Elt F) ((Memref.whole r).view.loc (cT d))) : sProp 𝕄 :=
  (Memref.whole r).view.loc (cT d) ↦{fullShare} v

/-- A DMA semaphore of the TensorCore at zero. -/
abbrev sv (d : Dev nD) (s : DmaSem sig) : sProp 𝕄 := semVal (cT d, SemLoc.dma s) 0

/-- The block of the result that trip `k` writes through slot `r`, as the kernel slices it. -/
abbrev dstB (k : Fin k1_t1_loop.trips) (r : Fin 4) : Memref sig .tc .hbm S1024x2048 .f32 :=
  ((Memref.whole main_v6).slice (Rect.unit (s := S1x100000x2048) (k1_off3 k (BitVec.ofNat 32 r.val)) S1x1024x2048.size (Facts₀.k1_off3_inb k r)) (fun _ => rfl)).squeeze
    S1024x2048 Facts₀.squeezes_S1x1024x2048_S1024x2048

/-- A memref's own elements held at a function of the whole buffer. -/
abbrev own (d : Dev nD) {sp : Space} {S : Shape} (M : Memref sig .tc sp S .f32) (g : Buf (Elt F) (M.view.loc (cT d))) : sProp 𝕄 :=
  M.view.loc (cT d) ↦[M.view.set]{fullShare} g

/-- The loop's guard on the waits: the trip is not the first. -/
abbrev condK (k : Fin k1_t1_loop.trips) : BitVec 1 :=
  Scalar.cmpi .ne (Scalar.extui (Scalar.cmpi .sgt (Scf.iv 0#32 1#32 k) 0#32) : BitVec 32) 0#32

/-- The result array's place in memory. -/
abbrev L6 (d : Dev nD) : Loc nD τ sig := (Memref.whole main_v6).view.loc (cT d)

/-- Rows `[a, b)` of the result held at `g`. -/
abbrev rowsAt (d : Dev nD) (a b : ℕ) (g : FVec F S1x100000x2048 .f32) : sProp 𝕄 :=
  L6 d ↦[(rowsIn a b : Finset (Idx (L6 d)))]{fullShare} g

/-- A scratch buffer's copy window: all of it, as the kernel slices it. -/
abbrev fullS (M : Memref sig .tc .vmem S1024x2048 .f32) : Memref sig .tc .vmem S1024x2048 .f32 :=
  M.slice (Rect.unit (s := S1024x2048) ![0, 0] S1024x2048.size Facts₀.inb_S1024x2048_S1024x2048_0_0) (fun _ => rfl)

/-- A slot whose copy out is in flight: the flight delivers the block's rows `[lo, lo + n)` at the result's value and
    the scratch's window `Wn`; the scratch's other elements stay in hand. -/
abbrev slotFly (d : Dev nD) (out : FVec F S1x100000x2048 .f32) (sem : DmaSem sig) (M : Memref sig .tc .vmem S1024x2048 .f32)
    (Sx : Finset (Idx (M.view.loc (cT d)))) (N lo n : ℕ) (X : Buf (Elt F) (M.view.loc (cT d))) : sProp 𝕄 :=
  iprop(Transfers.Flight countersEmb (cT d) (SemLoc.dma sem) default N
        iprop(rowsAt d lo (lo + n) out ∗ (M.view.loc (cT d) ↦[Sx]{fullShare} X))
      ∗ (M.view.loc (cT d) ↦[Finset.univ \ Sx]{fullShare} X))

/-- A slot copying out a whole block of 1024 rows. -/
abbrev slotFlying (d : Dev nD) (out : FVec F S1x100000x2048 .f32) (sem : DmaSem sig) (M : Memref sig .tc .vmem S1024x2048 .f32) (lo : ℕ)
    (X : Buf (Elt F) (M.view.loc (cT d))) : sProp 𝕄 :=
  slotFly d out sem M (fullS M).view.set 262144 lo 1024 X

/-- What the thread owes, its recorded waits grown by waits at the kernel's own index only. -/
abbrev owesK (d : Dev nD) (O : CellTallies nD τ sig (HIx 1)) (W : Waits sig (HIx 1)) : sProp 𝕄 :=
  iprop(∃ W', ⌜∀ q ∈ W', q ∈ W ∨ q.2 = none⌝ ∗ owes (cT d) O W')

/-- Before the first trip of the loop over groups of four blocks nothing is in flight: the scratch buffers are in hand,
    the semaphores at zero, the result as the region found it. -/
def inv0 (d : Dev nD) (w : FVec F S1x100000 .f32) (b : FVec F S100000 .f32) (f : FVec F S1x100000x2048 .f32)
    (X0 X1 X2 X3 : FVec F S1024x2048 .f32) (O : CellTallies nD τ sig (HIx 1)) (W : Waits sig (HIx 1)) : sProp 𝕄 :=
  iprop(Transfers.MayWaits (cT d) (none : HIx 1) O ∗ pw d cc1_stg2_0 w ∗ pw d cc1_stg3_0 b
      ∗ rowsAt d 0 100000 f
      ∗ pw d cc1_scratch0 X0 ∗ pw d cc1_scratch1 X1 ∗ pw d cc1_scratch2 X2 ∗ pw d cc1_scratch3 X3
      ∗ sv d cc1_scratch4.sem ∗ sv d cc1_scratch5.sem ∗ sv d cc1_scratch6.sem ∗ sv d cc1_scratch7.sem
      ∗ owesK d O W)

/-- Before trip `n + 1`: each slot's copy of trip `n` is in flight; the rows below trip `n`'s are at the result's
    value, the rows from trip `n + 1`'s on as found. -/
def invS (d : Dev nD) (w : FVec F S1x100000 .f32) (b : FVec F S100000 .f32) (f out : FVec F S1x100000x2048 .f32)
    (O : CellTallies nD τ sig (HIx 1)) (W : Waits sig (HIx 1)) (n : ℕ) : sProp 𝕄 :=
  iprop(Transfers.MayWaits (cT d) (none : HIx 1) O ∗ pw d cc1_stg2_0 w ∗ pw d cc1_stg3_0 b
      ∗ rowsAt d 0 (4096 * n) out ∗ rowsAt d (4096 * (n + 1)) 100000 f
      ∗ (∃ X, slotFlying d out cc1_scratch4.sem (Memref.whole cc1_scratch0) (4096 * n) X)
      ∗ (∃ X, slotFlying d out cc1_scratch5.sem (Memref.whole cc1_scratch1) (4096 * n + 1024) X)
      ∗ (∃ X, slotFlying d out cc1_scratch6.sem (Memref.whole cc1_scratch2) (4096 * n + 2048) X)
      ∗ (∃ X, slotFlying d out cc1_scratch7.sem (Memref.whole cc1_scratch3) (4096 * n + 3072) X)
      ∗ owesK d O W)

/-- The loop's invariant, by the trip. -/
def inv (d : Dev nD) (w : FVec F S1x100000 .f32) (b : FVec F S100000 .f32) (f out : FVec F S1x100000x2048 .f32)
    (X0 X1 X2 X3 : FVec F S1024x2048 .f32) (O : CellTallies nD τ sig (HIx 1)) (W : Waits sig (HIx 1)) : ℕ → Unit → sProp 𝕄
  | 0, _ => inv0 d w b f X0 X1 X2 X3 O W
  | n + 1, _ => invS d w b f out O W n

end Cert.Proof.KB

end
-- ==== Proof.KB.TcBlocks.lean ====
/-
  The TensorCore region's memory operands as sets of array elements and as index maps. The region
  writes its result array `[1, 100000, 2048]` through slices of whole rows with the leading unit
  axis dropped: such a memref covers exactly the slice's rectangle (dropping a unit axis keeps the
  elements), and its index `(r, t)` is the array's element `(0, a + r, t)`, `a` the slice's first
  row. A scratch tile sliced at offset zero over its whole shape is the whole tile, every index
  at itself. Geometry of views only: no contents, no machine state.
-/
import proofs.«217057_g30459908063406_cont_9to1_2067_16_alg».proof.Proof.KB.TcCover
import Idealize.ShloMosaic.Lib.Exec.Geometry
import Idealize.ShloMosaic.Lib.ValueLayout

noncomputable section

namespace Cert.Proof.KB

open Cert.Kernel
open Idealize.ShloMosaic Idealize.ShloMosaic.ValueIdx

/-! ## Slices of the result array, the unit axis dropped: their elements -/

/-- The 1024-row slice with its unit axis dropped covers the slice's rectangle. -/
theorem set_squeeze_slice_1024 (off : Fin 3 → ℕ) (inb : ∀ a, off a + S1x1024x2048.size a ≤ S1x100000x2048.size a)
    (hr : ∀ a, (Rect.unit (s := S1x100000x2048) off S1x1024x2048.size inb).stride a = 1)
    (hq : S1x1024x2048.Squeezes S1024x2048) :
    (((Memref.whole main_v6).slice (Rect.unit (s := S1x100000x2048) off S1x1024x2048.size inb) hr).squeeze S1024x2048 hq).view.set
      = (Rect.unit (s := S1x100000x2048) off S1x1024x2048.size inb).set := by
  rw [Memref.set_view_squeeze]
  exact View.set_slice_whole main_v6 _

/-- The 672-row slice likewise. -/
theorem set_squeeze_slice_672 (off : Fin 3 → ℕ) (inb : ∀ a, off a + S1x672x2048.size a ≤ S1x100000x2048.size a)
    (hr : ∀ a, (Rect.unit (s := S1x100000x2048) off S1x672x2048.size inb).stride a = 1)
    (hq : S1x672x2048.Squeezes S672x2048) :
    (((Memref.whole main_v6).slice (Rect.unit (s := S1x100000x2048) off S1x672x2048.size inb) hr).squeeze S672x2048 hq).view.set
      = (Rect.unit (s := S1x100000x2048) off S1x672x2048.size inb).set := by
  rw [Memref.set_view_squeeze]
  exact View.set_slice_whole main_v6 _

/-- At first row `a` the 1024-row slice covers the rows `[a, a + 1024)`. -/
theorem set_squeeze_slice_1024_rows (off : Fin 3 → ℕ) (a : ℕ) (h : off = ![0, a, 0])
    (inb : ∀ x, off x + S1x1024x2048.size x ≤ S1x100000x2048.size x)
    (hr : ∀ x, (Rect.unit (s := S1x100000x2048) off S1x1024x2048.size inb).stride x = 1)
    (hq : S1x1024x2048.Squeezes S1024x2048) :
    (((Memref.whole main_v6).slice (Rect.unit (s := S1x100000x2048) off S1x1024x2048.size inb) hr).squeeze S1024x2048 hq).view.set
      = rowsIn a (a + 1024) :=
  (set_squeeze_slice_1024 off inb hr hq).trans (unit_rows_set_1024 off a h inb)

/-- At first row `a` the 672-row slice covers the rows `[a, a + 672)`. -/
theorem set_squeeze_slice_672_rows (off : Fin 3 → ℕ) (a : ℕ) (h : off = ![0, a, 0])
    (inb : ∀ x, off x + S1x672x2048.size x ≤ S1x100000x2048.size x)
    (hr : ∀ x, (Rect.unit (s := S1x100000x2048) off S1x672x2048.size inb).stride x = 1)
    (hq : S1x672x2048.Squeezes S672x2048) :
    (((Memref.whole main_v6).slice (Rect.unit (s := S1x100000x2048) off S1x672x2048.size inb) hr).squeeze S672x2048 hq).view.set
      = rowsIn a (a + 672) :=
  (set_squeeze_slice_672 off inb hr hq).trans (unit_rows_set_672 off a h inb)

/-! ## A buffer sliced over its whole shape at offset zero -/

/-- The offsets `(0, 0)` are zero on every axis. -/
theorem off_zero2 : (![0, 0] : Fin 2 → ℕ) = fun _ => 0 := by
  funext a
  match a with
  | ⟨0, _⟩ => rfl
  | ⟨1, _⟩ => rfl

/-- A whole buffer sliced at zero offsets over its own sizes covers the buffer, -/
theorem set_slice_whole_unit_zero {sig : RefSig} {κ : Kind} (b : Ref sig κ) {off : Fin b.ty.shape.rank → ℕ}
    (h : off = fun _ => 0) (inb : ∀ a, off a + b.ty.shape.size a ≤ b.ty.shape.size a)
    (hr : ∀ a, (Rect.unit off b.ty.shape.size inb).stride a = 1) :
    ((Memref.whole b).slice (Rect.unit off b.ty.shape.size inb) hr).view.set = Finset.univ := by
  subst h
  show ((View.whole b).slice (Rect.whole b.ty.shape)).set = Finset.univ
  rw [View.set_slice_whole, Rect.set_whole]

/-- and places every index at itself. -/
theorem emb_slice_whole_unit_zero {sig : RefSig} {κ : Kind} (b : Ref sig κ) {off : Fin b.ty.shape.rank → ℕ}
    (h : off = fun _ => 0) (inb : ∀ a, off a + b.ty.shape.size a ≤ b.ty.shape.size a)
    (hr : ∀ a, (Rect.unit off b.ty.shape.size inb).stride a = 1) (y : b.ty.shape.Idx) :
    ((Memref.whole b).slice (Rect.unit off b.ty.shape.size inb) hr).view.emb y = y := by
  subst h
  exact Rect.emb_whole_apply _ y

/-- The four scratch tiles sliced in full. -/
theorem set_scratch0_full (inb : ∀ a, (![0, 0] : Fin 2 → ℕ) a + S1024x2048.size a ≤ S1024x2048.size a)
    (hr : ∀ a, (Rect.unit (s := S1024x2048) ![0, 0] S1024x2048.size inb).stride a = 1) :
    ((Memref.whole cc1_scratch0).slice (Rect.unit (s := S1024x2048) ![0, 0] S1024x2048.size inb) hr).view.set = Finset.univ :=
  set_slice_whole_unit_zero cc1_scratch0 off_zero2 inb hr
theorem set_scratch1_full (inb : ∀ a, (![0, 0] : Fin 2 → ℕ) a + S1024x2048.size a ≤ S1024x2048.size a)
    (hr : ∀ a, (Rect.unit (s := S1024x2048) ![0, 0] S1024x2048.size inb).stride a = 1) :
    ((Memref.whole cc1_scratch1).slice (Rect.unit (s := S1024x2048) ![0, 0] S1024x2048.size inb) hr).view.set = Finset.univ :=
  set_slice_whole_unit_zero cc1_scratch1 off_zero2 inb hr
theorem set_scratch2_full (inb : ∀ a, (![0, 0] : Fin 2 → ℕ) a + S1024x2048.size a ≤ S1024x2048.size a)
    (hr : ∀ a, (Rect.unit (s := S1024x2048) ![0, 0] S1024x2048.size inb).stride a = 1) :
    ((Memref.whole cc1_scratch2).slice (Rect.unit (s := S1024x2048) ![0, 0] S1024x2048.size inb) hr).view.set = Finset.univ :=
  set_slice_whole_unit_zero cc1_scratch2 off_zero2 inb hr
theorem set_scratch3_full (inb : ∀ a, (![0, 0] : Fin 2 → ℕ) a + S1024x2048.size a ≤ S1024x2048.size a)
    (hr : ∀ a, (Rect.unit (s := S1024x2048) ![0, 0] S1024x2048.size inb).stride a = 1) :
    ((Memref.whole cc1_scratch3).slice (Rect.unit (s := S1024x2048) ![0, 0] S1024x2048.size inb) hr).view.set = Finset.univ :=
  set_slice_whole_unit_zero cc1_scratch3 off_zero2 inb hr

theorem emb_scratch0_full (inb : ∀ a, (![0, 0] : Fin 2 → ℕ) a + S1024x2048.size a ≤ S1024x2048.size a)
    (hr : ∀ a, (Rect.unit (s := S1024x2048) ![0, 0] S1024x2048.size inb).stride a = 1) (y : S1024x2048.Idx) :
    ((Memref.whole cc1_scratch0).slice (Rect.unit (s := S1024x2048) ![0, 0] S1024x2048.size inb) hr).view.emb y = y :=
  emb_slice_whole_unit_zero cc1_scratch0 off_zero2 inb hr y
theorem emb_scratch1_full (inb : ∀ a, (![0, 0] : Fin 2 → ℕ) a + S1024x2048.size a ≤ S1024x2048.size a)
    (hr : ∀ a, (Rect.unit (s := S1024x2048) ![0, 0] S1024x2048.size inb).stride a = 1) (y : S1024x2048.Idx) :
    ((Memref.whole cc1_scratch1).slice (Rect.unit (s := S1024x2048) ![0, 0] S1024x2048.size inb) hr).view.emb y = y :=
  emb_slice_whole_unit_zero cc1_scratch1 off_zero2 inb hr y
theorem emb_scratch2_full (inb : ∀ a, (![0, 0] : Fin 2 → ℕ) a + S1024x2048.size a ≤ S1024x2048.size a)
    (hr : ∀ a, (Rect.unit (s := S1024x2048) ![0, 0] S1024x2048.size inb).stride a = 1) (y : S1024x2048.Idx) :
    ((Memref.whole cc1_scratch2).slice (Rect.unit (s := S1024x2048) ![0, 0] S1024x2048.size inb) hr).view.emb y = y :=
  emb_slice_whole_unit_zero cc1_scratch2 off_zero2 inb hr y
theorem emb_scratch3_full (inb : ∀ a, (![0, 0] : Fin 2 → ℕ) a + S1024x2048.size a ≤ S1024x2048.size a)
    (hr : ∀ a, (Rect.unit (s := S1024x2048) ![0, 0] S1024x2048.size inb).stride a = 1) (y : S1024x2048.Idx) :
    ((Memref.whole cc1_scratch3).slice (Rect.unit (s := S1024x2048) ![0, 0] S1024x2048.size inb) hr).view.emb y = y :=
  emb_slice_whole_unit_zero cc1_scratch3 off_zero2 inb hr y

/-! ## Slices of the result array, the unit axis dropped: their index map -/

/-- Index `(r, t)` of the 1024-row slice at first row `a` is the array's element `(0, a + r, t)`. -/
theorem emb_squeeze_slice_1024 (off : Fin 3 → ℕ) (a : ℕ) (h : off = ![0, a, 0]) (ha : a + 1024 ≤ 100000)
    (inb : ∀ x, off x + S1x1024x2048.size x ≤ S1x100000x2048.size x)
    (hr : ∀ x, (Rect.unit (s := S1x100000x2048) off S1x1024x2048.size inb).stride x = 1)
    (hq : S1x1024x2048.Squeezes S1024x2048) (r : Fin 1024) (t : Fin 2048) :
    (((Memref.whole main_v6).slice (Rect.unit (s := S1x100000x2048) off S1x1024x2048.size inb) hr).squeeze S1024x2048 hq).view.emb (ix2 r t)
      = ix3 (0 : Fin 1) (⟨a + r.val, by omega⟩ : Fin 100000) t := by
  subst h
  have hre : Shape.reshapeEquiv hq.numel_eq (ix2 r t) = ix3 (⟨0, Nat.one_pos⟩ : Fin 1) r t :=
    reshapeEquiv_ix2_1ab hq.numel_eq r t
  show (Rect.unit (s := S1x100000x2048) ![0, a, 0] S1x1024x2048.size inb).emb (Shape.reshapeEquiv hq.numel_eq (ix2 r t)) = _
  rw [hre]
  funext x
  refine Fin.ext ?_
  match x with
  | ⟨0, _⟩ => show 0 + 1 * 0 = 0; rfl
  | ⟨1, _⟩ => show a + 1 * r.val = a + r.val; omega
  | ⟨2, _⟩ => show 0 + 1 * t.val = t.val; omega

/-- Index `(r, t)` of the 672-row slice at first row `a` is the array's element `(0, a + r, t)`. -/
theorem emb_squeeze_slice_672 (off : Fin 3 → ℕ) (a : ℕ) (h : off = ![0, a, 0]) (ha : a + 672 ≤ 100000)
    (inb : ∀ x, off x + S1x672x2048.size x ≤ S1x100000x2048.size x)
    (hr : ∀ x, (Rect.unit (s := S1x100000x2048) off S1x672x2048.size inb).stride x = 1)
    (hq : S1x672x2048.Squeezes S672x2048) (r : Fin 672) (t : Fin 2048) :
    (((Memref.whole main_v6).slice (Rect.unit (s := S1x100000x2048) off S1x672x2048.size inb) hr).squeeze S672x2048 hq).view.emb (ix2 r t)
      = ix3 (0 : Fin 1) (⟨a + r.val, by omega⟩ : Fin 100000) t := by
  subst h
  have hre : Shape.reshapeEquiv hq.numel_eq (ix2 r t) = ix3 (⟨0, Nat.one_pos⟩ : Fin 1) r t :=
    reshapeEquiv_ix2_1ab hq.numel_eq r t
  show (Rect.unit (s := S1x100000x2048) ![0, a, 0] S1x672x2048.size inb).emb (Shape.reshapeEquiv hq.numel_eq (ix2 r t)) = _
  rw [hre]
  funext x
  refine Fin.ext ?_
  match x with
  | ⟨0, _⟩ => show 0 + 1 * 0 = 0; rfl
  | ⟨1, _⟩ => show a + 1 * r.val = a + r.val; omega
  | ⟨2, _⟩ => show 0 + 1 * t.val = t.val; omega

end Cert.Proof.KB

end
-- ==== Proof.KB.TcRows.lean ====
/-
  The result's rows by ranges: a range splits at any row between its ends; the block a trip writes
  through a slot is the range of its 1024 rows; a block a copy has landed in, holding the copied tile
  over whatever it held, is that range at any function of the whole array that the tile agrees with.
-/
import proofs.«217057_g30459908063406_cont_9to1_2067_16_alg».proof.Proof.KB.TcDefs
import proofs.«217057_g30459908063406_cont_9to1_2067_16_alg».proof.Proof.KB.TcBlocks

noncomputable section

namespace Cert.Proof.KB

open Cert.Kernel Cert.Kernel.Gen
open Idealize.ShloMosaic Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The guard of a trip's waits: off at the first trip, -/
theorem condK_zero : ∀ k : Fin k1_t1_loop.trips, k.val = 0 → ¬ condK k = 1#1 := by decide +kernel
/-- on at every later one. -/
theorem condK_pos : ∀ k : Fin k1_t1_loop.trips, 0 < k.val → condK k = 1#1 := by decide +kernel
theorem trips_eq : k1_t1_loop.trips = 24 := by decide +kernel

/-- A range of rows splits at a row between its ends. -/
theorem rowsAt_split (d : Dev nD) {a m c : ℕ} (h1 : a ≤ m) (h2 : m ≤ c) (g : FVec F S1x100000x2048 .f32) :
    (rowsAt d a c g : sProp 𝕄) ⊣⊢ iprop(rowsAt d a m g ∗ rowsAt d m c g) := by
  unfold rowsAt
  rw [rowsIn_union h1 h2]
  exact pointsTo_union (rowsIn_disjoint (le_refl m))

/-- No rows: nothing. -/
theorem rowsAt_self (d : Dev nD) (a : ℕ) (g : FVec F S1x100000x2048 .f32) : (rowsAt d a a g : sProp 𝕄) = (BI.emp : sProp 𝕄) := by
  unfold rowsAt
  rw [rowsIn_self]
  exact pointsTo_empty

/-- All rows: the array whole. -/
theorem rowsAt_univ (d : Dev nD) (g : FVec F S1x100000x2048 .f32) : (rowsAt d 0 100000 g : sProp 𝕄) = pw d main_v6 g := by
  unfold rowsAt pw
  rw [rowsIn_univ]

/-- Values off a range are irrelevant. -/
theorem rowsAt_congr (d : Dev nD) {a c : ℕ} {g g' : FVec F S1x100000x2048 .f32}
    (h : ∀ i : S1x100000x2048.Idx, a ≤ (i 1).val → (i 1).val < c → g i = g' i) : (rowsAt d a c g : sProp 𝕄) = rowsAt d a c g' :=
  pointsTo_congr fun i hi => h i (mem_rowsIn.mp hi).1 (mem_rowsIn.mp hi).2

/-- The elements of the block trip `k` writes through slot `r`: its 1024 rows. -/
theorem dstB_set (d : Dev nD) (k : Fin k1_t1_loop.trips) (r : Fin 4) :
    ((dstB k r).view.set : Finset (Idx (L6 d))) = (rowsIn (4096 * k.val + 1024 * r.val) (4096 * k.val + 1024 * r.val + 1024) : Finset (Idx (L6 d))) :=
  set_squeeze_slice_1024_rows _ _ (k1_off3_eq k r) _ _ _

/-- The block held by its own elements is its range of rows held. -/
theorem own_dstB (d : Dev nD) (k : Fin k1_t1_loop.trips) (r : Fin 4) (lo : ℕ) (hlo : lo = 4096 * k.val + 1024 * r.val)
    (g : FVec F S1x100000x2048 .f32) : (own d (dstB k r) g : sProp 𝕄) = rowsAt d lo (lo + 1024) g := by
  subst hlo
  exact congrArg (fun S : Finset (Idx (L6 d)) => (L6 d ↦[S]{fullShare} g : sProp 𝕄)) (dstB_set d k r)

end Cert.Proof.KB

end
-- ==== Proof.KB.TcPayload.lean ====
/-
  The tiles the TensorCore region stores, read at one index. Each tile is built from a row of
  weights `w : [1, n]`, the hidden row `h : [1, 2048]` and a bias vector `b : [n]` by layout
  operations and two pointwise ones: the weights and the bias are turned into columns `[n, 1]`
  (shape casts, which keep the row-major position), the columns and the hidden row are spread over
  `[n, 2048]` (broadcasts, which repeat a unit axis), and the tile is `w · h + b` pointwise. So
  its entry at row `r` and column `t` is `w[r] · h[t] + b[r]`. The hidden row itself is the
  pointwise sum of two loaded rows. All of it holds for every float instance: a pointwise
  operation on vectors is, by definition, the scalar operation at each index.
-/
import proofs.«217057_g30459908063406_cont_9to1_2067_16_alg».proof.Proof.Gen.Kernel.Skeleton
import proofs.«217057_g30459908063406_cont_9to1_2067_16_alg».proof.Proof.KB.Values
import Idealize.ShloMosaic.Lib.ValueIdx
import Idealize.ShloMosaic.Lib.Pipeline.Value
import Idealize.ShloMosaic.Lib.ValueLayout

noncomputable section

namespace Cert.Proof.KB

open Cert.Kernel Cert.Kernel.Gen
open Idealize.ShloMosaic Idealize.ShloMosaic.ValueIdx

/-! ## Columns: a row or a vector cast to a column, a column spread over a matrix -/

section Columns
variable {α : Type}

/-- A `[1, a]` array cast to `[a, 1]` reads, at `(i, u)`, the operand at `(0, i)`: both have
    row-major position `i`. -/
theorem shapeCast_1a_a1_apply {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

variable {F : FTy → Type} [FloatOps F]

/-! ## The weight columns and the hidden row -/

/-- The 1024-row weight column at row `r` is the loaded row's entry `r`. -/
theorem pay3_apply (v84 : Vec F S1x1024 .f32) (r : Fin 1024) (u : Fin 1) :
    k1_pay3 v84 (ix2 r u) = v84 (ix2 0 r) := by
  unfold k1_pay3
  simp only [shapeCast_self]
  exact shapeCast_1a_a1_apply v84 shapeCasts_S1x1024_S1024x1 r u

/-- The 672-row weight column at row `r` is the loaded row's entry `r`. -/
theorem pay9_apply (v26 : Vec F S1x672 .f32) (r : Fin 672) (u : Fin 1) :
    k1_pay9 v26 (ix2 r u) = v26 (ix2 0 r) := by
  unfold k1_pay9
  simp only [shapeCast_self]
  exact shapeCast_1a_a1_apply v26 shapeCasts_S1x672_S672x1 r u

/-- The hidden row at column `t` is the sum of the two loaded rows' entries there. -/
theorem pay6_apply (v0 v2 : Vec F S1x2048 .f32) (u : Fin 1) (t : Fin 2048) :
    k1_pay6 v0 v2 (ix2 u t) = FloatOps.addf (v0 (ix2 u t) : F .f32) (v2 (ix2 u t)) := by
  unfold k1_pay6
  simp only [shapeCast_self]
  rfl

/-! ## The stored tiles -/

/-- A 1024-row tile from a weight column `c`, the hidden row `h` and a bias vector `b`: its entry
    at `(r, t)` is `c[r] · h[t] + b[r]`. -/
theorem tile1024_apply (c : FVec F S1024x1 .f32) (h : FVec F S1x2048 .f32) (b : Vec F S1024 .f32)
    (r : Fin 1024) (t : Fin 2048) :
    addf (mulf (broadcastTo S1024x2048 c broadcasts_S1024x1_S1024x2048) (broadcastTo S1024x2048 h broadcasts_S1x2048_S1024x2048))
        (broadcastTo S1024x2048 (shapeCast S1024x1 b shapeCasts_S1024_S1024x1 : FVec F S1024x1 .f32) broadcasts_S1024x1_S1024x2048) (ix2 r t)
      = FloatOps.addf (FloatOps.mulf (c (ix2 r 0)) (h (ix2 0 t))) (b (ix1 r) : F .f32) := by
  show FloatOps.addf (FloatOps.mulf (broadcastTo S1024x2048 c broadcasts_S1024x1_S1024x2048 (ix2 r t))
      (broadcastTo S1024x2048 h broadcasts_S1x2048_S1024x2048 (ix2 r t)))
      (broadcastTo S1024x2048 (shapeCast S1024x1 b shapeCasts_S1024_S1024x1 : FVec F S1024x1 .f32) broadcasts_S1024x1_S1024x2048 (ix2 r t)) = _
  rw [broadcastTo_a1_ab_apply c broadcasts_S1024x1_S1024x2048 r t,
    broadcastTo_1b_ab_apply h broadcasts_S1x2048_S1024x2048 r t,
    broadcastTo_a1_ab_apply _ broadcasts_S1024x1_S1024x2048 r t,
    shapeCast_a_a1_apply b shapeCasts_S1024_S1024x1 r 0]

/-- The same for the last, 672-row tile. -/
theorem tile672_apply (c : FVec F S672x1 .f32) (h : FVec F S1x2048 .f32) (b : Vec F S672 .f32)
    (r : Fin 672) (t : Fin 2048) :
    addf (mulf (broadcastTo S672x2048 c broadcasts_S672x1_S672x2048) (broadcastTo S672x2048 h broadcasts_S1x2048_S672x2048))
        (broadcastTo S672x2048 (shapeCast S672x1 b shapeCasts_S672_S672x1 : FVec F S672x1 .f32) broadcasts_S672x1_S672x2048) (ix2 r t)
      = FloatOps.addf (FloatOps.mulf (c (ix2 r 0)) (h (ix2 0 t))) (b (ix1 r) : F .f32) := by
  show FloatOps.addf (FloatOps.mulf (broadcastTo S672x2048 c broadcasts_S672x1_S672x2048 (ix2 r t))
      (broadcastTo S672x2048 h broadcasts_S1x2048_S672x2048 (ix2 r t)))
      (broadcastTo S672x2048 (shapeCast S672x1 b shapeCasts_S672_S672x1 : FVec F S672x1 .f32) broadcasts_S672x1_S672x2048 (ix2 r t)) = _
  rw [broadcastTo_a1_ab_apply c broadcasts_S672x1_S672x2048 r t,
    broadcastTo_1b_ab_apply h broadcasts_S1x2048_S672x2048 r t,
    broadcastTo_a1_ab_apply _ broadcasts_S672x1_S672x2048 r t,
    shapeCast_a_a1_apply b shapeCasts_S672_S672x1 r 0]

/-- A tile of a loaded weight row `v59`, the hidden row `v4` and a loaded bias vector `v63`. -/
theorem pay2_apply (v4 : FVec F S1x2048 .f32) (v59 : Vec F S1x1024 .f32) (v63 : Vec F S1024 .f32)
    (r : Fin 1024) (t : Fin 2048) :
    k1_pay2 v4 v59 v63 (ix2 r t)
      = FloatOps.addf (FloatOps.mulf (v59 (ix2 0 r) : F .f32) (v4 (ix2 0 t))) (v63 (ix1 r)) := by
  unfold k1_pay2
  simp only [shapeCast_self]
  rw [tile1024_apply, shapeCast_1a_a1_apply v59 shapeCasts_S1x1024_S1024x1 r 0]

/-- The tile whose weight column `v86` was made before it. -/
theorem pay4_apply (v4 : FVec F S1x2048 .f32) (v86 : FVec F S1024x1 .f32) (v88 : Vec F S1024 .f32)
    (r : Fin 1024) (t : Fin 2048) :
    k1_pay4 v4 v86 v88 (ix2 r t)
      = FloatOps.addf (FloatOps.mulf (v86 (ix2 r 0)) (v4 (ix2 0 t))) (v88 (ix1 r) : F .f32) := by
  unfold k1_pay4
  simp only [shapeCast_self]
  rw [tile1024_apply]

/-- That tile over the weight column made from the loaded row `v84`. -/
theorem pay4_pay3_apply (v4 : FVec F S1x2048 .f32) (v84 : Vec F S1x1024 .f32) (v88 : Vec F S1024 .f32)
    (r : Fin 1024) (t : Fin 2048) :
    k1_pay4 v4 (k1_pay3 v84) v88 (ix2 r t)
      = FloatOps.addf (FloatOps.mulf (v84 (ix2 0 r) : F .f32) (v4 (ix2 0 t))) (v88 (ix1 r)) := by
  rw [pay4_apply, pay3_apply]

theorem pay5_apply (v4 : FVec F S1x2048 .f32) (v109 : Vec F S1x1024 .f32) (v113 : Vec F S1024 .f32)
    (r : Fin 1024) (t : Fin 2048) :
    k1_pay5 v4 v109 v113 (ix2 r t)
      = FloatOps.addf (FloatOps.mulf (v109 (ix2 0 r) : F .f32) (v4 (ix2 0 t))) (v113 (ix1 r)) := by
  unfold k1_pay5
  simp only [shapeCast_self]
  rw [tile1024_apply, shapeCast_1a_a1_apply v109 shapeCasts_S1x1024_S1024x1 r 0]

/-- A tile whose hidden row is the sum of the two loaded rows `v0`, `v2`. -/
theorem pay7_apply (v0 v2 : Vec F S1x2048 .f32) (v134 : Vec F S1x1024 .f32) (v138 : Vec F S1024 .f32)
    (r : Fin 1024) (t : Fin 2048) :
    k1_pay7 v0 v2 v134 v138 (ix2 r t)
      = FloatOps.addf (FloatOps.mulf (v134 (ix2 0 r) : F .f32)
          (FloatOps.addf (v0 (ix2 0 t) : F .f32) (v2 (ix2 0 t)))) (v138 (ix1 r)) := by
  unfold k1_pay7
  simp only [shapeCast_self]
  rw [tile1024_apply, shapeCast_1a_a1_apply v134 shapeCasts_S1x1024_S1024x1 r 0, pay6_apply]

theorem pay8_apply (v0 v2 : Vec F S1x2048 .f32) (v8 : Vec F S1x1024 .f32) (v11 : Vec F S1024 .f32)
    (r : Fin 1024) (t : Fin 2048) :
    k1_pay8 v0 v2 v8 v11 (ix2 r t)
      = FloatOps.addf (FloatOps.mulf (v8 (ix2 0 r) : F .f32)
          (FloatOps.addf (v0 (ix2 0 t) : F .f32) (v2 (ix2 0 t)))) (v11 (ix1 r)) := by
  unfold k1_pay8
  simp only [shapeCast_self]
  rw [tile1024_apply, shapeCast_1a_a1_apply v8 shapeCasts_S1x1024_S1024x1 r 0, pay6_apply]

/-- The last tile, 672 rows, over its weight column `v28`. -/
theorem pay1_apply (v4 : FVec F S1x2048 .f32) (v28 : FVec F S672x1 .f32) (v29 : Vec F S672 .f32)
    (r : Fin 672) (t : Fin 2048) :
    k1_pay1 v4 v28 v29 (ix2 r t)
      = FloatOps.addf (FloatOps.mulf (v28 (ix2 r 0)) (v4 (ix2 0 t))) (v29 (ix1 r) : F .f32) := by
  unfold k1_pay1
  simp only [shapeCast_self]
  rw [tile672_apply]

/-- The last tile over the weight column made from the loaded row `v26`. -/
theorem pay1_pay9_apply (v4 : FVec F S1x2048 .f32) (v26 : Vec F S1x672 .f32) (v29 : Vec F S672 .f32)
    (r : Fin 672) (t : Fin 2048) :
    k1_pay1 v4 (k1_pay9 v26) v29 (ix2 r t)
      = FloatOps.addf (FloatOps.mulf (v26 (ix2 0 r) : F .f32) (v4 (ix2 0 t))) (v29 (ix1 r)) := by
  rw [pay1_apply, pay9_apply]

end Cert.Proof.KB

end
-- ==== Proof.KB.TcValue.lean ====
/-
  What the TensorCore region computes for each block, read at one index, with its operands spelt as
  the loads that produce them. A load through a whole staging buffer at a unit-stride rectangle
  reads the buffer's contents at the rectangle's offset plus the index; so the tile built from the
  1024 weights and biases loaded at row `a` has, at `(r, t)`, the entry
  `w[a + r] · (x[t] + p[t]) + b[a + r]`. In the loop, trip `k` handles four blocks, at rows
  `4096 k + 1024 s` for `s = 0, 1, 2, 3`; two more blocks, at rows 98304 and 99328 (the last one
  672 rows), follow the loop. Also: a store through a rectangle of a view, read back through the
  same rectangle, is the stored payload. Contents are plain functions here: no machine state.
-/
import proofs.«217057_g30459908063406_cont_9to1_2067_16_alg».proof.Proof.KB.TcPayload
import proofs.«217057_g30459908063406_cont_9to1_2067_16_alg».proof.Proof.KB.TcBlocks
import Idealize.ShloMosaic.Lib.Writes

noncomputable section

namespace Cert.Proof.KB

open Cert.Kernel Cert.Kernel.Gen
open Idealize.ShloMosaic Idealize.ShloMosaic.ValueIdx

/-! ## A store read back -/

/-- One unmasked store through a rectangle of a view, read back through that rectangle, is the payload. -/
theorem read_slice_writes_singleton {sig : RefSig} {κ : Kind} {sp : Space} {s : Shape} {e : EltTy} {Val : EltTy → Type}
    (v : View sig κ sp s e) (R : Rect s) (f : v.ty.Contents Val) (pay : R.shape.Idx → Val e) :
    (v.slice R).read Val (v.writes Val f [⟨R, pay⟩]) = pay := by
  rw [View.writes_singleton]
  exact View.read_write_univ (v := v.slice R) f pay

variable {F : FTy → Type} [FloatOps F]

/-- The same for a rectangle of a whole buffer, as a transfer out of the slice reads it. -/
theorem read_whole_slice_written (b : Ref sig .tc) (R : Rect b.ty.shape) (hr : ∀ a, R.stride a = 1)
    (X : (Memref.whole b).view.ty.Contents (Elt F)) (pay : R.shape.Idx → Elt F b.ty.elt) :
    (ReadAs.same : ReadAs (Elt F) _ _ _ _).apply
      (View.read (Elt F) ((Memref.whole b).slice R hr).view ((Memref.whole b).view.writes (Elt F) X [⟨R, pay⟩])) = pay :=
  read_slice_writes_singleton (Memref.whole b).view R X pay

/-! ## Loads through the staging buffers -/

/-- The staged hidden rows are loaded whole. -/
theorem readAt_stg0_full (inb : ∀ a, (![0, 0] : Fin 2 → ℕ) a + S1x2048.size a ≤ S1x2048.size a) (x : FVec F S1x2048 .f32) :
    View.readAt (Elt F) (Memref.whole cc1_stg0_0).view (Rect.unit (s := S1x2048) ![0, 0] S1x2048.size inb).toLoadRect x = x :=
  Memref.readAt_unit_zero (Elt F) cc1_stg0_0 off_zero2 inb x
theorem readAt_stg1_full (inb : ∀ a, (![0, 0] : Fin 2 → ℕ) a + S1x2048.size a ≤ S1x2048.size a) (x : FVec F S1x2048 .f32) :
    View.readAt (Elt F) (Memref.whole cc1_stg1_0).view (Rect.unit (s := S1x2048) ![0, 0] S1x2048.size inb).toLoadRect x = x :=
  Memref.readAt_unit_zero (Elt F) cc1_stg1_0 off_zero2 inb x

/-- The same at an index. -/
theorem readAt_stg0_apply (inb : ∀ a, (![0, 0] : Fin 2 → ℕ) a + S1x2048.size a ≤ S1x2048.size a) (x : FVec F S1x2048 .f32)
    (u : Fin 1) (t : Fin 2048) :
    View.readAt (Elt F) (Memref.whole cc1_stg0_0).view (Rect.unit (s := S1x2048) ![0, 0] S1x2048.size inb).toLoadRect x (ix2 u t) = x (ix2 u t) :=
  congrFun (readAt_stg0_full inb x) (ix2 u t)
theorem readAt_stg1_apply (inb : ∀ a, (![0, 0] : Fin 2 → ℕ) a + S1x2048.size a ≤ S1x2048.size a) (x : FVec F S1x2048 .f32)
    (u : Fin 1) (t : Fin 2048) :
    View.readAt (Elt F) (Memref.whole cc1_stg1_0).view (Rect.unit (s := S1x2048) ![0, 0] S1x2048.size inb).toLoadRect x (ix2 u t) = x (ix2 u t) :=
  congrFun (readAt_stg1_full inb x) (ix2 u t)

/-- 1024 weights loaded at column `a` of the staged weight row: entry `r` is the row's entry `a + r`. -/
theorem readAt_w1024 (off : Fin 2 → ℕ) (a : ℕ) (h : off = ![0, a]) (inb : ∀ x, off x + S1x1024.size x ≤ S1x100000.size x)
    (w : FVec F S1x100000 .f32) (u : Fin 1) (r : Fin 1024) (hlt : a + r.val < 100000) :
    View.readAt (Elt F) (Memref.whole cc1_stg2_0).view (Rect.unit (s := S1x100000) off S1x1024.size inb).toLoadRect w (ix2 u r)
      = w (ix2 0 ⟨a + r.val, hlt⟩) := by
  subst h
  show w ((Rect.unit (s := S1x100000) ![0, a] S1x1024.size inb).toLoadRect.idx (ix2 u r)) = _
  refine congrArg w (funext fun x => Fin.ext ?_)
  match x with
  | ⟨0, _⟩ => show 0 + 1 * u.val = 0; omega
  | ⟨1, _⟩ => show a + 1 * r.val = a + r.val; omega

/-- 672 weights loaded at column `a`. -/
theorem readAt_w672 (off : Fin 2 → ℕ) (a : ℕ) (h : off = ![0, a]) (inb : ∀ x, off x + S1x672.size x ≤ S1x100000.size x)
    (w : FVec F S1x100000 .f32) (u : Fin 1) (r : Fin 672) (hlt : a + r.val < 100000) :
    View.readAt (Elt F) (Memref.whole cc1_stg2_0).view (Rect.unit (s := S1x100000) off S1x672.size inb).toLoadRect w (ix2 u r)
      = w (ix2 0 ⟨a + r.val, hlt⟩) := by
  subst h
  show w ((Rect.unit (s := S1x100000) ![0, a] S1x672.size inb).toLoadRect.idx (ix2 u r)) = _
  refine congrArg w (funext fun x => Fin.ext ?_)
  match x with
  | ⟨0, _⟩ => show 0 + 1 * u.val = 0; omega
  | ⟨1, _⟩ => show a + 1 * r.val = a + r.val; omega

/-- 1024 biases loaded at position `a` of the staged bias vector. -/
theorem readAt_b1024 (off : Fin 1 → ℕ) (a : ℕ) (h : off = ![a]) (inb : ∀ x, off x + S1024.size x ≤ S100000.size x)
    (b : FVec F S100000 .f32) (r : Fin 1024) (hlt : a + r.val < 100000) :
    View.readAt (Elt F) (Memref.whole cc1_stg3_0).view (Rect.unit (s := S100000) off S1024.size inb).toLoadRect b (ix1 r)
      = b (ix1 ⟨a + r.val, hlt⟩) := by
  subst h
  show b ((Rect.unit (s := S100000) ![a] S1024.size inb).toLoadRect.idx (ix1 r)) = _
  refine congrArg b (funext fun x => Fin.ext ?_)
  match x with
  | ⟨0, _⟩ => show a + 1 * r.val = a + r.val; omega

/-- 672 biases loaded at position `a`. -/
theorem readAt_b672 (off : Fin 1 → ℕ) (a : ℕ) (h : off = ![a]) (inb : ∀ x, off x + S672.size x ≤ S100000.size x)
    (b : FVec F S100000 .f32) (r : Fin 672) (hlt : a + r.val < 100000) :
    View.readAt (Elt F) (Memref.whole cc1_stg3_0).view (Rect.unit (s := S100000) off S672.size inb).toLoadRect b (ix1 r)
      = b (ix1 ⟨a + r.val, hlt⟩) := by
  subst h
  show b ((Rect.unit (s := S100000) ![a] S672.size inb).toLoadRect.idx (ix1 r)) = _
  refine congrArg b (funext fun x => Fin.ext ?_)
  match x with
  | ⟨0, _⟩ => show a + 1 * r.val = a + r.val; omega

/-! ## The loop's four blocks -/

/-- The loop runs at most 24 trips, so every row it touches is inside the array. -/
theorem lo_lt (k : Fin k1_t1_loop.trips) (s : Fin 4) (r : Fin 1024) : 4096 * k.val + 1024 * s.val + r.val < 100000 := by
  have h1 := k.isLt
  have h2 : k1_t1_loop.trips ≤ 24 := k1_t1_abs.2.1
  have h3 := s.isLt
  have h4 := r.isLt
  omega

/-- The weight load of slot `s` of trip `k`. -/
theorem readAt_w_slot (k : Fin k1_t1_loop.trips) (s : Fin 4)
    (inb : ∀ x, (k1_off1 k (BitVec.ofNat 32 s.val)) x + S1x1024.size x ≤ S1x100000.size x)
    (w : FVec F S1x100000 .f32) (u : Fin 1) (r : Fin 1024) (hlo : 4096 * k.val + 1024 * s.val + r.val < 100000) :
    View.readAt (Elt F) (Memref.whole cc1_stg2_0).view (Rect.unit (s := S1x100000) (k1_off1 k (BitVec.ofNat 32 s.val)) S1x1024.size inb).toLoadRect w (ix2 u r)
      = w (ix2 0 ⟨4096 * k.val + 1024 * s.val + r.val, hlo⟩) :=
  readAt_w1024 _ (4096 * k.val + 1024 * s.val) (k1_off1_eq k s) inb w u r hlo

/-- The bias load of slot `s` of trip `k`. -/
theorem readAt_b_slot (k : Fin k1_t1_loop.trips) (s : Fin 4)
    (inb : ∀ x, (k1_off2 k (BitVec.ofNat 32 s.val)) x + S1024.size x ≤ S100000.size x)
    (b : FVec F S100000 .f32) (r : Fin 1024) (hlo : 4096 * k.val + 1024 * s.val + r.val < 100000) :
    View.readAt (Elt F) (Memref.whole cc1_stg3_0).view (Rect.unit (s := S100000) (k1_off2 k (BitVec.ofNat 32 s.val)) S1024.size inb).toLoadRect b (ix1 r)
      = b (ix1 ⟨4096 * k.val + 1024 * s.val + r.val, hlo⟩) :=
  readAt_b1024 _ (4096 * k.val + 1024 * s.val) (k1_off2_eq k s) inb b r hlo

/-- Slot 0 of trip `k`: the block at row `4096 k`. -/
theorem slot0_apply (k : Fin k1_t1_loop.trips) (v0 v2 : Vec F S1x2048 .f32) (w : FVec F S1x100000 .f32) (b : FVec F S100000 .f32)
    (inb1 : ∀ x, (k1_off1 k 0#32) x + S1x1024.size x ≤ S1x100000.size x)
    (inb2 : ∀ x, (k1_off2 k 0#32) x + S1024.size x ≤ S100000.size x)
    (r : Fin 1024) (t : Fin 2048) (hlo : 4096 * k.val + 1024 * 0 + r.val < 100000) :
    k1_pay2 (k1_pay6 v0 v2)
        (View.readAt (Elt F) (Memref.whole cc1_stg2_0).view (Rect.unit (s := S1x100000) (k1_off1 k 0#32) S1x1024.size inb1).toLoadRect w)
        (View.readAt (Elt F) (Memref.whole cc1_stg3_0).view (Rect.unit (s := S100000) (k1_off2 k 0#32) S1024.size inb2).toLoadRect b) (ix2 r t)
      = FloatOps.addf (FloatOps.mulf (w (ix2 0 ⟨4096 * k.val + 1024 * 0 + r.val, hlo⟩))
          (FloatOps.addf (v0 (ix2 0 t) : F .f32) (v2 (ix2 0 t)))) (b (ix1 ⟨4096 * k.val + 1024 * 0 + r.val, hlo⟩)) := by
  rw [pay2_apply, pay6_apply]
  exact congrArg₂ FloatOps.addf
    (congrArg (fun z => FloatOps.mulf z _) (readAt_w_slot k ⟨0, by decide⟩ inb1 w 0 r hlo))
    (readAt_b_slot k ⟨0, by decide⟩ inb2 b r hlo)

/-- Slot 1: the block at row `4096 k + 1024`, its weight column made before the tile. -/
theorem slot1_apply (k : Fin k1_t1_loop.trips) (v0 v2 : Vec F S1x2048 .f32) (w : FVec F S1x100000 .f32) (b : FVec F S100000 .f32)
    (inb1 : ∀ x, (k1_off1 k 1#32) x + S1x1024.size x ≤ S1x100000.size x)
    (inb2 : ∀ x, (k1_off2 k 1#32) x + S1024.size x ≤ S100000.size x)
    (r : Fin 1024) (t : Fin 2048) (hlo : 4096 * k.val + 1024 * 1 + r.val < 100000) :
    k1_pay4 (k1_pay6 v0 v2)
        (k1_pay3 (View.readAt (Elt F) (Memref.whole cc1_stg2_0).view (Rect.unit (s := S1x100000) (k1_off1 k 1#32) S1x1024.size inb1).toLoadRect w))
        (View.readAt (Elt F) (Memref.whole cc1_stg3_0).view (Rect.unit (s := S100000) (k1_off2 k 1#32) S1024.size inb2).toLoadRect b) (ix2 r t)
      = FloatOps.addf (FloatOps.mulf (w (ix2 0 ⟨4096 * k.val + 1024 * 1 + r.val, hlo⟩))
          (FloatOps.addf (v0 (ix2 0 t) : F .f32) (v2 (ix2 0 t)))) (b (ix1 ⟨4096 * k.val + 1024 * 1 + r.val, hlo⟩)) := by
  rw [pay4_pay3_apply, pay6_apply]
  exact congrArg₂ FloatOps.addf
    (congrArg (fun z => FloatOps.mulf z _) (readAt_w_slot k ⟨1, by decide⟩ inb1 w 0 r hlo))
    (readAt_b_slot k ⟨1, by decide⟩ inb2 b r hlo)

/-- Slot 2: the block at row `4096 k + 2048`. -/
theorem slot2_apply (k : Fin k1_t1_loop.trips) (v0 v2 : Vec F S1x2048 .f32) (w : FVec F S1x100000 .f32) (b : FVec F S100000 .f32)
    (inb1 : ∀ x, (k1_off1 k 2#32) x + S1x1024.size x ≤ S1x100000.size x)
    (inb2 : ∀ x, (k1_off2 k 2#32) x + S1024.size x ≤ S100000.size x)
    (r : Fin 1024) (t : Fin 2048) (hlo : 4096 * k.val + 1024 * 2 + r.val < 100000) :
    k1_pay5 (k1_pay6 v0 v2)
        (View.readAt (Elt F) (Memref.whole cc1_stg2_0).view (Rect.unit (s := S1x100000) (k1_off1 k 2#32) S1x1024.size inb1).toLoadRect w)
        (View.readAt (Elt F) (Memref.whole cc1_stg3_0).view (Rect.unit (s := S100000) (k1_off2 k 2#32) S1024.size inb2).toLoadRect b) (ix2 r t)
      = FloatOps.addf (FloatOps.mulf (w (ix2 0 ⟨4096 * k.val + 1024 * 2 + r.val, hlo⟩))
          (FloatOps.addf (v0 (ix2 0 t) : F .f32) (v2 (ix2 0 t)))) (b (ix1 ⟨4096 * k.val + 1024 * 2 + r.val, hlo⟩)) := by
  rw [pay5_apply, pay6_apply]
  exact congrArg₂ FloatOps.addf
    (congrArg (fun z => FloatOps.mulf z _) (readAt_w_slot k ⟨2, by decide⟩ inb1 w 0 r hlo))
    (readAt_b_slot k ⟨2, by decide⟩ inb2 b r hlo)

/-- Slot 3: the block at row `4096 k + 3072`. -/
theorem slot3_apply (k : Fin k1_t1_loop.trips) (v0 v2 : Vec F S1x2048 .f32) (w : FVec F S1x100000 .f32) (b : FVec F S100000 .f32)
    (inb1 : ∀ x, (k1_off1 k 3#32) x + S1x1024.size x ≤ S1x100000.size x)
    (inb2 : ∀ x, (k1_off2 k 3#32) x + S1024.size x ≤ S100000.size x)
    (r : Fin 1024) (t : Fin 2048) (hlo : 4096 * k.val + 1024 * 3 + r.val < 100000) :
    k1_pay7 v0 v2
        (View.readAt (Elt F) (Memref.whole cc1_stg2_0).view (Rect.unit (s := S1x100000) (k1_off1 k 3#32) S1x1024.size inb1).toLoadRect w)
        (View.readAt (Elt F) (Memref.whole cc1_stg3_0).view (Rect.unit (s := S100000) (k1_off2 k 3#32) S1024.size inb2).toLoadRect b) (ix2 r t)
      = FloatOps.addf (FloatOps.mulf (w (ix2 0 ⟨4096 * k.val + 1024 * 3 + r.val, hlo⟩))
          (FloatOps.addf (v0 (ix2 0 t) : F .f32) (v2 (ix2 0 t)))) (b (ix1 ⟨4096 * k.val + 1024 * 3 + r.val, hlo⟩)) := by
  rw [pay7_apply]
  exact congrArg₂ FloatOps.addf
    (congrArg (fun z => FloatOps.mulf z _) (readAt_w_slot k ⟨3, by decide⟩ inb1 w 0 r hlo))
    (readAt_b_slot k ⟨3, by decide⟩ inb2 b r hlo)

/-! ## The two blocks after the loop -/

/-- The block at row 98304. -/
theorem epi0_apply (v0 v2 : Vec F S1x2048 .f32) (w : FVec F S1x100000 .f32) (b : FVec F S100000 .f32)
    (inb1 : ∀ x, (![0, 98304] : Fin 2 → ℕ) x + S1x1024.size x ≤ S1x100000.size x)
    (inb2 : ∀ x, (![98304] : Fin 1 → ℕ) x + S1024.size x ≤ S100000.size x)
    (r : Fin 1024) (t : Fin 2048) (hlo : 98304 + r.val < 100000) :
    k1_pay8 v0 v2
        (View.readAt (Elt F) (Memref.whole cc1_stg2_0).view (Rect.unit (s := S1x100000) ![0, 98304] S1x1024.size inb1).toLoadRect w)
        (View.readAt (Elt F) (Memref.whole cc1_stg3_0).view (Rect.unit (s := S100000) ![98304] S1024.size inb2).toLoadRect b) (ix2 r t)
      = FloatOps.addf (FloatOps.mulf (w (ix2 0 ⟨98304 + r.val, hlo⟩))
          (FloatOps.addf (v0 (ix2 0 t) : F .f32) (v2 (ix2 0 t)))) (b (ix1 ⟨98304 + r.val, hlo⟩)) := by
  rw [pay8_apply]
  exact congrArg₂ FloatOps.addf
    (congrArg (fun z => FloatOps.mulf z _) (readAt_w1024 _ 98304 rfl inb1 w 0 r hlo))
    (readAt_b1024 _ 98304 rfl inb2 b r hlo)

/-- The last block, 672 rows at row 99328. -/
theorem epi1_apply (v0 v2 : Vec F S1x2048 .f32) (w : FVec F S1x100000 .f32) (b : FVec F S100000 .f32)
    (inb1 : ∀ x, (![0, 99328] : Fin 2 → ℕ) x + S1x672.size x ≤ S1x100000.size x)
    (inb2 : ∀ x, (![99328] : Fin 1 → ℕ) x + S672.size x ≤ S100000.size x)
    (r : Fin 672) (t : Fin 2048) (hlo : 99328 + r.val < 100000) :
    k1_pay1 (k1_pay6 v0 v2)
        (k1_pay9 (View.readAt (Elt F) (Memref.whole cc1_stg2_0).view (Rect.unit (s := S1x100000) ![0, 99328] S1x672.size inb1).toLoadRect w))
        (View.readAt (Elt F) (Memref.whole cc1_stg3_0).view (Rect.unit (s := S100000) ![99328] S672.size inb2).toLoadRect b) (ix2 r t)
      = FloatOps.addf (FloatOps.mulf (w (ix2 0 ⟨99328 + r.val, hlo⟩))
          (FloatOps.addf (v0 (ix2 0 t) : F .f32) (v2 (ix2 0 t)))) (b (ix1 ⟨99328 + r.val, hlo⟩)) := by
  rw [pay1_pay9_apply, pay6_apply]
  exact congrArg₂ FloatOps.addf
    (congrArg (fun z => FloatOps.mulf z _) (readAt_w672 _ 99328 rfl inb1 w 0 r hlo))
    (readAt_b672 _ 99328 rfl inb2 b r hlo)

end Cert.Proof.KB

end
-- ==== Proof.KB.TcTrip.lean ====
/-
  One trip of the loop over groups of four blocks: each slot in turn waits for its copy of the
  previous trip (none at the first trip), computes its tile into the scratch buffer and starts the
  copy out to its block's rows; the landed blocks join the rows at the result's value.
-/
import proofs.«217057_g30459908063406_cont_9to1_2067_16_alg».proof.Proof.KB.TcRows
import proofs.«217057_g30459908063406_cont_9to1_2067_16_alg».proof.Proof.KB.TcValue

noncomputable section

namespace Cert.Proof.KB

open Cert.Kernel Cert.Kernel.Gen
open Idealize.ShloMosaic Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A range of rows splits at a row between its ends, the row named twice. -/
theorem rowsAt_split' (d : Dev nD) {a m m' c : ℕ} (h1 : a ≤ m) (hm : m = m') (h2 : m ≤ c) (g : FVec F S1x100000x2048 .f32) :
    (rowsAt d a c g : sProp 𝕄) ⊣⊢ iprop(rowsAt d a m g ∗ rowsAt d m' c g) := by
  subst hm; exact rowsAt_split d h1 h2 g

/-- Four blocks of 1024 rows carved off the low end of a range reaching the array's end. -/
theorem rows_carve (d : Dev nD) (a : ℕ) (h : a + 4096 ≤ 100000) (g : FVec F S1x100000x2048 .f32) :
    (rowsAt d a 100000 g : sProp 𝕄) ⊢ iprop(rowsAt d a (a + 1024) g ∗ rowsAt d (a + 1024) (a + 1024 + 1024) g
      ∗ rowsAt d (a + 2048) (a + 2048 + 1024) g ∗ rowsAt d (a + 3072) (a + 3072 + 1024) g ∗ rowsAt d (a + 4096) 100000 g) := by
  iintro H
  ihave H := (rowsAt_split' d (a := a) (m := a + 1024) (m' := a + 1024) (c := 100000) (by omega) rfl (by omega) g).1 $$ H
  icases H with ⟨H0, H⟩
  ihave H := (rowsAt_split' d (a := a + 1024) (m := a + 1024 + 1024) (m' := a + 2048) (c := 100000) (by omega) (by omega) (by omega) g).1 $$ H
  icases H with ⟨H1, H⟩
  ihave H := (rowsAt_split' d (a := a + 2048) (m := a + 2048 + 1024) (m' := a + 3072) (c := 100000) (by omega) (by omega) (by omega) g).1 $$ H
  icases H with ⟨H2, H⟩
  ihave H := (rowsAt_split' d (a := a + 3072) (m := a + 3072 + 1024) (m' := a + 4096) (c := 100000) (by omega) (by omega) (by omega) g).1 $$ H
  icases H with ⟨H3, H⟩
  isplitl [H0]; · iexact H0
  isplitl [H1]; · iexact H1
  isplitl [H2]; · iexact H2
  isplitl [H3]; · iexact H3
  iexact H

/-- The same range with its ends respelt. -/
theorem rowsAt_cast (d : Dev nD) {a a' c c' : ℕ} (ha : a = a') (hc : c = c') (g : FVec F S1x100000x2048 .f32) :
    (rowsAt d a c g : sProp 𝕄) = rowsAt d a' c' g := by subst ha; subst hc; rfl

/-- Four landed blocks of 1024 rows joined to the rows below them. -/
theorem rows_land (d : Dev nD) (a : ℕ) (g : FVec F S1x100000x2048 .f32) :
    iprop(rowsAt d 0 a g ∗ rowsAt d a (a + 1024) g ∗ rowsAt d (a + 1024) (a + 1024 + 1024) g
      ∗ rowsAt d (a + 2048) (a + 2048 + 1024) g ∗ rowsAt d (a + 3072) (a + 3072 + 1024) g) ⊢ (rowsAt d 0 (a + 4096) g : sProp 𝕄) := by
  iintro ⟨H, H0, H1, H2, H3⟩
  ihave H := (rowsAt_split' d (a := 0) (m := a) (m' := a) (c := a + 1024) (by omega) rfl (by omega) g).2 $$ [H H0]
  · isplitl [H]; · iexact H
    iexact H0
  ihave H := (rowsAt_split' d (a := 0) (m := a + 1024) (m' := a + 1024) (c := a + 1024 + 1024) (by omega) rfl (by omega) g).2 $$ [H H1]
  · isplitl [H]; · iexact H
    iexact H1
  ihave H := (rowsAt_split' d (a := 0) (m := a + 1024 + 1024) (m' := a + 2048) (c := a + 2048 + 1024) (by omega) (by omega) (by omega) g).2 $$ [H H2]
  · isplitl [H]; · iexact H
    iexact H2
  ihave H := (rowsAt_split' d (a := 0) (m := a + 2048 + 1024) (m' := a + 3072) (c := a + 3072 + 1024) (by omega) (by omega) (by omega) g).2 $$ [H H3]
  · isplitl [H]; · iexact H
    iexact H3
  iapply (Entails.of_eq (rowsAt_cast d rfl (by omega) g)) $$ H
/-- A block a copy of the whole tile `pay` has landed in, over whatever it held, holds the result's value on its rows
    when the tile is the result's value there. -/
theorem land_conv (d : Dev nD) (k : Fin k1_t1_loop.trips) (r : Fin 4) (lo : ℕ) (hlo : lo = 4096 * k.val + 1024 * r.val)
    (hb : lo + 1024 ≤ 100000) (f out : FVec F S1x100000x2048 .f32) (pay : S1024x2048.Idx → Elt F .f32)
    (hpay : ∀ (r' : Fin 1024) (t : Fin 2048), pay (ix2 r' t) = out (ix3 (0 : Fin 1) (⟨lo + r'.val, by omega⟩ : Fin 100000) t)) :
    (own d (dstB k r) ((dstB k r).view.writes (Elt F) f [⟨Rect.whole S1024x2048, pay⟩]) : sProp 𝕄) ⊢ rowsAt d lo (lo + 1024) out := by
  rw [own_dstB d k r lo hlo]
  refine Entails.of_eq (rowsAt_congr d fun i h1 h2 => ?_)
  obtain ⟨a, v, t, rfl⟩ : ∃ (a : Fin 1) (v : Fin 100000) (t : Fin 2048), i = ix3 a v t := ⟨i 0, i 1, i 2, eq_ix3 i⟩
  have h1' : lo ≤ v.val := h1
  have h2' : v.val < lo + 1024 := h2
  obtain rfl : a = 0 := Subsingleton.elim _ _
  have hemb := emb_squeeze_slice_1024 (k1_off3 k (BitVec.ofNat 32 r.val)) lo (hlo ▸ k1_off3_eq k r) hb (Facts₀.k1_off3_inb k r) (fun _ => rfl)
    Facts₀.squeezes_S1x1024x2048_S1024x2048 ⟨v.val - lo, by omega⟩ t
  have hv : (⟨lo + (v.val - lo), by omega⟩ : Fin 100000) = v := Fin.ext (by show lo + (v.val - lo) = v.val; omega)
  have hi : (dstB k r).view.emb (ix2 (⟨v.val - lo, by omega⟩ : Fin 1024) t) = (ix3 (0 : Fin 1) v t : S1x100000x2048.Idx) :=
    hemb.trans (congrArg (fun x => ix3 (0 : Fin 1) x t) hv)
  have hw := View.read_writes_cons_emb (dstB k r).view f (Rect.whole S1024x2048) pay [] (ix2 (⟨v.val - lo, by omega⟩ : Fin 1024) t)
  rw [Rect.emb_whole_apply] at hw
  rw [View.read_apply] at hw
  have hw' : HEq ((dstB k r).view.writes (Elt F) f [⟨Rect.whole S1024x2048, pay⟩] ((dstB k r).view.emb (ix2 (⟨v.val - lo, by omega⟩ : Fin 1024) t))) (pay (ix2 (⟨v.val - lo, by omega⟩ : Fin 1024) t)) :=
    (cast_heq _ _).symm.trans (heq_of_eq hw)
  have e1 : (dstB k r).view.writes (Elt F) f [⟨Rect.whole S1024x2048, pay⟩] (ix3 (0 : Fin 1) v t) = pay (ix2 (⟨v.val - lo, by omega⟩ : Fin 1024) t) :=
    (congrArg ((dstB k r).view.writes (Elt F) f [⟨Rect.whole S1024x2048, pay⟩]) hi.symm).trans (eq_of_heq hw')
  exact e1.trans ((hpay _ t).trans (congrArg (fun x => out (ix3 (0 : Fin 1) x t)) hv))

/-- A slot's fresh flight, as a trip's run leaves it — the block at the tile landed over whatever it held —, is the slot
    copying out at the result's value. -/
theorem slot_fold (d : Dev nD) (k : Fin k1_t1_loop.trips) (r : Fin 4) (lo : ℕ) (hlo : lo = 4096 * k.val + 1024 * r.val)
    (hb : 4096 * k.val + 1024 * r.val + 1024 ≤ 100000) (f out : FVec F S1x100000x2048 .f32) (pay : S1024x2048.Idx → Elt F .f32)
    (hpay : ∀ (r' : Fin 1024) (t : Fin 2048), pay (ix2 r' t) = out (ix3 (0 : Fin 1) (⟨4096 * k.val + 1024 * r.val + r'.val, by omega⟩ : Fin 100000) t))
    (sem : DmaSem sig) (M : Memref sig .tc .vmem S1024x2048 .f32) (X : Buf (Elt F) (M.view.loc (cT d))) :
    iprop(Transfers.Flight countersEmb (cT d) (SemLoc.dma sem) default 262144
          iprop(own d (dstB k r) ((dstB k r).view.writes (Elt F) f [⟨Rect.whole S1024x2048, pay⟩])
            ∗ (M.view.loc (cT d) ↦[(fullS M).view.set]{fullShare} X))
        ∗ (M.view.loc (cT d) ↦[Finset.univ \ (fullS M).view.set]{fullShare} X))
      ⊢ (iprop(∃ X, slotFlying d out sem M lo X) : sProp 𝕄) := by
  subst hlo
  iintro ⟨HF, Hr⟩
  iexists X
  isplitl [HF]
  · iapply (Transfers.Flight_mono countersEmb (cT d) (sep_mono (land_conv d k r _ rfl hb f out pay hpay) .rfl)) $$ HF
  · iexact Hr

set_option maxHeartbeats 4000000 in
/-- The first trip: nothing to wait for; the four tiles are computed and their copies started. -/
theorem trip0 (d : Dev nD) (v0 v2 : Vec F S1x2048 .f32) (w : FVec F S1x100000 .f32) (b : FVec F S100000 .f32)
    (f out : FVec F S1x100000x2048 .f32) (X0 X1 X2 X3 : FVec F S1024x2048 .f32)
    (O : CellTallies nD τ sig (HIx 1)) (W : Waits sig (HIx 1)) (k : Fin k1_t1_loop.trips) (hk : k.val = 0)
    (hout : ∀ (v : Fin 100000) (t : Fin 2048), out (ix3 (0 : Fin 1) v t)
      = FloatOps.addf (FloatOps.mulf (w (ix2 0 v)) (FloatOps.addf (v0 (ix2 0 t) : F .f32) (v2 (ix2 0 t)))) (b (ix1 v))) :
    (inv0 d w b f X0 X1 X2 X3 O W : sProp 𝕄)
      ⊢ wp frame (wpE (defs₀ (F := F)) 𝒱₀ (cT d) none) Set.univ
          (k1_t1_body (F := F) (stage1_0 0) (Facts₀.hstage1_0 0) (stage1_1 0) (Facts₀.hstage1_1 0) (stage1_2 0) (Facts₀.hstage1_2 0) (stage1_3 0) (Facts₀.hstage1_3 0)
            (Memref.whole main_v6) (Memref.isWhole_whole _) (Memref.whole cc1_scratch0) (Memref.isWhole_whole _) (Memref.whole cc1_scratch1) (Memref.isWhole_whole _)
            (Memref.whole cc1_scratch2) (Memref.isWhole_whole _) (Memref.whole cc1_scratch3) (Memref.isWhole_whole _) cc1_scratch4 cc1_scratch5 cc1_scratch6 cc1_scratch7 v0 v2 k ())
          (fun _ => invS d w b f out O W 0) := by
  have hc : ¬ condK k = 1#1 := condK_zero k hk
  unfold k1_t1_body
  simp only [k1_part1_eq_skeleton, k1_part2_eq_skeleton]; unfold k1_part1_skel k1_part2_skel
  unfold inv0 invS
  iintro ⟨#Hmw, H2, H3, Hall, Hs0, Hs1, Hs2, Hs3, Hc0, Hc1, Hc2, Hc3, HO⟩
  ihave H := (rows_carve d 0 (by omega) f) $$ Hall
  icases H with ⟨Hp0, Hp1, Hp2, Hp3, Hall⟩
  ihave Hd0 := (Entails.of_eq (own_dstB d k 0 0 (by rw [hk]; rfl) f).symm) $$ Hp0
  ihave Hd1 := (Entails.of_eq (own_dstB d k 1 (0 + 1024) (by rw [hk]; rfl) f).symm) $$ Hp1
  ihave Hd2 := (Entails.of_eq (own_dstB d k 2 (0 + 2048) (by rw [hk]; rfl) f).symm) $$ Hp2
  ihave Hd3 := (Entails.of_eq (own_dstB d k 3 (0 + 3072) (by rw [hk]; rfl) f).symm) $$ Hp3
  sl_exec (disch := first | exact hc | exact View.amount_pos _ _ (by decide))
  sl_step
  isplitr; · iexact Hmw
  isplitl [H2]; · iexact H2
  isplitl [H3]; · iexact H3
  isplitr
  · rw [show 4096 * 0 = 0 from rfl, rowsAt_self]; iempintro
  isplitl [Hall]; · iexact Hall
  isplitl [Hc0 Hs0]
  · iapply (slot_fold d k 0 (4096 * 0) (by rw [hk]; rfl) (by rw [hk]; decide) f out _ ?hp0 _ (Memref.whole cc1_scratch0) _) $$ [Hc0 Hs0]
    swap
    · isplitl [Hc0]; · iexact Hc0
      iexact Hs0
    · intro r' t
      sl_unfold_run_names
      exact (congrFun (read_whole_slice_written cc1_scratch0 (Rect.unit (s := S1024x2048) ![0, 0] S1024x2048.size Facts₀.inb_S1024x2048_S1024x2048_0_0) _ _ _) (ix2 r' t)).trans
        ((slot0_apply k v0 v2 w b _ _ r' t _).trans (hout _ t).symm)
  isplitl [Hc1 Hs1]
  · iapply (slot_fold d k 1 (4096 * 0 + 1024) (by rw [hk]; rfl) (by rw [hk]; decide) f out _ ?hp1 _ (Memref.whole cc1_scratch1) _) $$ [Hc1 Hs1]
    swap
    · isplitl [Hc1]; · iexact Hc1
      iexact Hs1
    · intro r' t
      sl_unfold_run_names
      exact (congrFun (read_whole_slice_written cc1_scratch1 (Rect.unit (s := S1024x2048) ![0, 0] S1024x2048.size Facts₀.inb_S1024x2048_S1024x2048_0_0) _ _ _) (ix2 r' t)).trans
        ((slot1_apply k v0 v2 w b _ _ r' t _).trans (hout _ t).symm)
  isplitl [Hc2 Hs2]
  · iapply (slot_fold d k 2 (4096 * 0 + 2048) (by rw [hk]; rfl) (by rw [hk]; decide) f out _ ?hp2 _ (Memref.whole cc1_scratch2) _) $$ [Hc2 Hs2]
    swap
    · isplitl [Hc2]; · iexact Hc2
      iexact Hs2
    · intro r' t
      sl_unfold_run_names
      exact (congrFun (read_whole_slice_written cc1_scratch2 (Rect.unit (s := S1024x2048) ![0, 0] S1024x2048.size Facts₀.inb_S1024x2048_S1024x2048_0_0) _ _ _) (ix2 r' t)).trans
        ((slot2_apply k v0 v2 w b _ _ r' t _).trans (hout _ t).symm)
  isplitl [Hc3 Hs3]
  · iapply (slot_fold d k 3 (4096 * 0 + 3072) (by rw [hk]; rfl) (by rw [hk]; decide) f out _ ?hp3 _ (Memref.whole cc1_scratch3) _) $$ [Hc3 Hs3]
    swap
    · isplitl [Hc3]; · iexact Hc3
      iexact Hs3
    · intro r' t
      sl_unfold_run_names
      exact (congrFun (read_whole_slice_written cc1_scratch3 (Rect.unit (s := S1024x2048) ![0, 0] S1024x2048.size Facts₀.inb_S1024x2048_S1024x2048_0_0) _ _ _) (ix2 r' t)).trans
        ((slot3_apply k v0 v2 w b _ _ r' t _).trans (hout _ t).symm)
  iexact HO

set_option maxHeartbeats 4000000 in
/-- A later trip: each slot waits for its copy of the trip before, whose block lands; then as the first trip. -/
theorem tripS (d : Dev nD) (v0 v2 : Vec F S1x2048 .f32) (w : FVec F S1x100000 .f32) (b : FVec F S100000 .f32)
    (f out : FVec F S1x100000x2048 .f32)
    (O : CellTallies nD τ sig (HIx 1)) (W : Waits sig (HIx 1)) (k : Fin k1_t1_loop.trips) (n : ℕ) (hk : k.val = n + 1)
    (hout : ∀ (v : Fin 100000) (t : Fin 2048), out (ix3 (0 : Fin 1) v t)
      = FloatOps.addf (FloatOps.mulf (w (ix2 0 v)) (FloatOps.addf (v0 (ix2 0 t) : F .f32) (v2 (ix2 0 t)))) (b (ix1 v))) :
    (invS d w b f out O W n : sProp 𝕄)
      ⊢ wp frame (wpE (defs₀ (F := F)) 𝒱₀ (cT d) none) Set.univ
          (k1_t1_body (F := F) (stage1_0 0) (Facts₀.hstage1_0 0) (stage1_1 0) (Facts₀.hstage1_1 0) (stage1_2 0) (Facts₀.hstage1_2 0) (stage1_3 0) (Facts₀.hstage1_3 0)
            (Memref.whole main_v6) (Memref.isWhole_whole _) (Memref.whole cc1_scratch0) (Memref.isWhole_whole _) (Memref.whole cc1_scratch1) (Memref.isWhole_whole _)
            (Memref.whole cc1_scratch2) (Memref.isWhole_whole _) (Memref.whole cc1_scratch3) (Memref.isWhole_whole _) cc1_scratch4 cc1_scratch5 cc1_scratch6 cc1_scratch7 v0 v2 k ())
          (fun _ => invS d w b f out O W (n + 1)) := by
  have hc : condK k = 1#1 := condK_pos k (by omega)
  have hk24 : k.val < 24 := lt_of_lt_of_eq k.isLt trips_eq
  have hn : n + 2 ≤ 24 := by omega
  unfold k1_t1_body
  simp only [k1_part1_eq_skeleton, k1_part2_eq_skeleton]; unfold k1_part1_skel k1_part2_skel
  unfold invS
  iintro ⟨#Hmw, H2, H3, Hdone, Hall, ⟨%X0, Hc0, Hs0⟩, ⟨%X1, Hc1, Hs1⟩, ⟨%X2, Hc2, Hs2⟩, ⟨%X3, Hc3, Hs3⟩, ⟨%W', %hW', HO⟩⟩
  ihave H := (rows_carve d (4096 * (n + 1)) (by omega) f) $$ Hall
  icases H with ⟨Hp0, Hp1, Hp2, Hp3, Hall⟩
  ihave Hd0 := (Entails.of_eq (own_dstB d k 0 (4096 * (n + 1)) (by rw [hk]; show 4096 * (n + 1) = 4096 * (n + 1) + 1024 * 0; omega) f).symm) $$ Hp0
  ihave Hd1 := (Entails.of_eq (own_dstB d k 1 (4096 * (n + 1) + 1024) (by rw [hk]; show 4096 * (n + 1) + 1024 = 4096 * (n + 1) + 1024 * 1; omega) f).symm) $$ Hp1
  ihave Hd2 := (Entails.of_eq (own_dstB d k 2 (4096 * (n + 1) + 2048) (by rw [hk]; show 4096 * (n + 1) + 2048 = 4096 * (n + 1) + 1024 * 2; omega) f).symm) $$ Hp2
  ihave Hd3 := (Entails.of_eq (own_dstB d k 3 (4096 * (n + 1) + 3072) (by rw [hk]; show 4096 * (n + 1) + 3072 = 4096 * (n + 1) + 1024 * 3; omega) f).symm) $$ Hp3
  sl_exec (disch := first | exact hc | exact View.amount_pos _ _ (by decide))
  sl_step
  isplitr; · iexact Hmw
  isplitl [H2]; · iexact H2
  isplitl [H3]; · iexact H3
  isplitl [Hdone Hc0_dst Hc1_dst Hc2_dst Hc3_dst]
  · iapply (Entails.of_eq (rowsAt_cast d (a := 0) (a' := 0) (c := 4096 * n + 4096) (c' := 4096 * (n + 1)) rfl (by omega) out))
    iapply (rows_land d (4096 * n) out)
    isplitl [Hdone]; · iexact Hdone
    isplitl [Hc0_dst]; · iexact Hc0_dst
    isplitl [Hc1_dst]; · iexact Hc1_dst
    isplitl [Hc2_dst]; · iexact Hc2_dst
    iexact Hc3_dst
  isplitl [Hall]
  · iapply (Entails.of_eq (rowsAt_cast d (a := 4096 * (n + 1) + 4096) (a' := 4096 * (n + 1 + 1)) (c := 100000) (c' := 100000) (by omega) rfl f)) $$ Hall
  isplitl [Hc0 Hs0]
  · iapply (slot_fold d k 0 (4096 * (n + 1)) (by rw [hk]; show 4096 * (n + 1) = 4096 * (n + 1) + 1024 * 0; omega) (by rw [hk]; show 4096 * (n + 1) + 1024 * 0 + 1024 ≤ 100000; omega) f out _ ?hp0 _ (Memref.whole cc1_scratch0) _) $$ [Hc0 Hs0]
    swap
    · isplitl [Hc0]; · iexact Hc0
      iexact Hs0
    · intro r' t
      sl_unfold_run_names
      exact (congrFun (read_whole_slice_written cc1_scratch0 (Rect.unit (s := S1024x2048) ![0, 0] S1024x2048.size Facts₀.inb_S1024x2048_S1024x2048_0_0) _ _ _) (ix2 r' t)).trans
        ((slot0_apply k v0 v2 w b _ _ r' t _).trans (hout _ t).symm)
  isplitl [Hc1 Hs1]
  · iapply (slot_fold d k 1 (4096 * (n + 1) + 1024) (by rw [hk]; show 4096 * (n + 1) + 1024 = 4096 * (n + 1) + 1024 * 1; omega) (by rw [hk]; show 4096 * (n + 1) + 1024 * 1 + 1024 ≤ 100000; omega) f out _ ?hp1 _ (Memref.whole cc1_scratch1) _) $$ [Hc1 Hs1]
    swap
    · isplitl [Hc1]; · iexact Hc1
      iexact Hs1
    · intro r' t
      sl_unfold_run_names
      exact (congrFun (read_whole_slice_written cc1_scratch1 (Rect.unit (s := S1024x2048) ![0, 0] S1024x2048.size Facts₀.inb_S1024x2048_S1024x2048_0_0) _ _ _) (ix2 r' t)).trans
        ((slot1_apply k v0 v2 w b _ _ r' t _).trans (hout _ t).symm)
  isplitl [Hc2 Hs2]
  · iapply (slot_fold d k 2 (4096 * (n + 1) + 2048) (by rw [hk]; show 4096 * (n + 1) + 2048 = 4096 * (n + 1) + 1024 * 2; omega) (by rw [hk]; show 4096 * (n + 1) + 1024 * 2 + 1024 ≤ 100000; omega) f out _ ?hp2 _ (Memref.whole cc1_scratch2) _) $$ [Hc2 Hs2]
    swap
    · isplitl [Hc2]; · iexact Hc2
      iexact Hs2
    · intro r' t
      sl_unfold_run_names
      exact (congrFun (read_whole_slice_written cc1_scratch2 (Rect.unit (s := S1024x2048) ![0, 0] S1024x2048.size Facts₀.inb_S1024x2048_S1024x2048_0_0) _ _ _) (ix2 r' t)).trans
        ((slot2_apply k v0 v2 w b _ _ r' t _).trans (hout _ t).symm)
  isplitl [Hc3 Hs3]
  · iapply (slot_fold d k 3 (4096 * (n + 1) + 3072) (by rw [hk]; show 4096 * (n + 1) + 3072 = 4096 * (n + 1) + 1024 * 3; omega) (by rw [hk]; show 4096 * (n + 1) + 1024 * 3 + 1024 ≤ 100000; omega) f out _ ?hp3 _ (Memref.whole cc1_scratch3) _) $$ [Hc3 Hs3]
    swap
    · isplitl [Hc3]; · iexact Hc3
      iexact Hs3
    · intro r' t
      sl_unfold_run_names
      exact (congrFun (read_whole_slice_written cc1_scratch3 (Rect.unit (s := S1024x2048) ![0, 0] S1024x2048.size Facts₀.inb_S1024x2048_S1024x2048_0_0) _ _ _) (ix2 r' t)).trans
        ((slot3_apply k v0 v2 w b _ _ r' t _).trans (hout _ t).symm)
  iexists (insert (SemLoc.dma cc1_scratch7.sem, (default : HIx 1)) (insert (SemLoc.dma cc1_scratch6.sem, (default : HIx 1))
    (insert (SemLoc.dma cc1_scratch5.sem, (default : HIx 1)) (insert (SemLoc.dma cc1_scratch4.sem, (default : HIx 1)) W'))))
  isplitr
  · ipureintro; intro q hq
    simp only [Finset.mem_insert] at hq
    rcases hq with hq | hq | hq | hq | hq
    · exact .inr (hq ▸ rfl)
    · exact .inr (hq ▸ rfl)
    · exact .inr (hq ▸ rfl)
    · exact .inr (hq ▸ rfl)
    · exact hW' q hq
  · iexact HO

end Cert.Proof.KB

end
-- ==== Proof.KB.TcEpi.lean ====
/-
  The result's blocks at literal offsets — the two blocks written after the loop, of 1024 and of 672
  rows —: a block held by its own elements is its range of rows, and a block a copy of a whole tile
  has landed in holds the result's value on its rows when the tile is the result's value there.
-/
import proofs.«217057_g30459908063406_cont_9to1_2067_16_alg».proof.Proof.KB.TcRows

noncomputable section

namespace Cert.Proof.KB

open Cert.Kernel Cert.Kernel.Gen
open Idealize.ShloMosaic Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A block of 1024 rows of the result at literal offsets, as the kernel slices it. -/
abbrev blkL (off : Fin 3 → ℕ) (inb : ∀ a, off a + S1x1024x2048.size a ≤ S1x100000x2048.size a) : Memref sig .tc .hbm S1024x2048 .f32 :=
  ((Memref.whole main_v6).slice (Rect.unit (s := S1x100000x2048) off S1x1024x2048.size inb) (fun _ => rfl)).squeeze S1024x2048 Facts₀.squeezes_S1x1024x2048_S1024x2048

/-- The block held by its own elements is its range of rows held. -/
theorem own_blkL (d : Dev nD) (off : Fin 3 → ℕ) (lo : ℕ) (h : off = ![0, lo, 0]) (inb : ∀ a, off a + S1x1024x2048.size a ≤ S1x100000x2048.size a)
    (g : FVec F S1x100000x2048 .f32) : (own d (blkL off inb) g : sProp 𝕄) = rowsAt d lo (lo + 1024) g :=
  congrArg (fun S : Finset (Idx (L6 d)) => (L6 d ↦[S]{fullShare} g : sProp 𝕄))
    (show ((blkL off inb).view.set : Finset (Idx (L6 d))) = (rowsIn lo (lo + 1024) : Finset (Idx (L6 d))) from set_squeeze_slice_1024_rows off lo h inb _ _)

/-- The block after a copy of the whole tile `pay` has landed in it holds the result's value on its rows when the tile is
    the result's value there. -/
theorem land_blkL (d : Dev nD) (off : Fin 3 → ℕ) (lo : ℕ) (h : off = ![0, lo, 0]) (hb : lo + 1024 ≤ 100000)
    (inb : ∀ a, off a + S1x1024x2048.size a ≤ S1x100000x2048.size a) (f out : FVec F S1x100000x2048 .f32) (pay : S1024x2048.Idx → Elt F .f32)
    (hpay : ∀ (r' : Fin 1024) (t : Fin 2048), pay (ix2 r' t) = out (ix3 (0 : Fin 1) (⟨lo + r'.val, by omega⟩ : Fin 100000) t)) :
    (own d (blkL off inb) ((blkL off inb).view.writes (Elt F) f [⟨Rect.whole S1024x2048, pay⟩]) : sProp 𝕄) ⊢ rowsAt d lo (lo + 1024) out := by
  rw [own_blkL d off lo h inb]
  refine Entails.of_eq (rowsAt_congr d fun i h1 h2 => ?_)
  obtain ⟨a, v, t, rfl⟩ : ∃ (a : Fin 1) (v : Fin 100000) (t : Fin 2048), i = ix3 a v t := ⟨i 0, i 1, i 2, eq_ix3 i⟩
  have h1' : lo ≤ v.val := h1
  have h2' : v.val < lo + 1024 := h2
  obtain rfl : a = 0 := Subsingleton.elim _ _
  have hemb := emb_squeeze_slice_1024 off lo h hb inb (fun _ => rfl) Facts₀.squeezes_S1x1024x2048_S1024x2048 ⟨v.val - lo, by omega⟩ t
  have hv : (⟨lo + (v.val - lo), by omega⟩ : Fin 100000) = v := Fin.ext (by show lo + (v.val - lo) = v.val; omega)
  have hi : (blkL off inb).view.emb (ix2 (⟨v.val - lo, by omega⟩ : Fin 1024) t) = (ix3 (0 : Fin 1) v t : S1x100000x2048.Idx) :=
    hemb.trans (congrArg (fun x => ix3 (0 : Fin 1) x t) hv)
  have hw := View.read_writes_cons_emb (blkL off inb).view f (Rect.whole S1024x2048) pay [] (ix2 (⟨v.val - lo, by omega⟩ : Fin 1024) t)
  rw [Rect.emb_whole_apply] at hw
  rw [View.read_apply] at hw
  have hw' : HEq ((blkL off inb).view.writes (Elt F) f [⟨Rect.whole S1024x2048, pay⟩] ((blkL off inb).view.emb (ix2 (⟨v.val - lo, by omega⟩ : Fin 1024) t))) (pay (ix2 (⟨v.val - lo, by omega⟩ : Fin 1024) t)) :=
    (cast_heq _ _).symm.trans (heq_of_eq hw)
  have e1 : (blkL off inb).view.writes (Elt F) f [⟨Rect.whole S1024x2048, pay⟩] (ix3 (0 : Fin 1) v t) = pay (ix2 (⟨v.val - lo, by omega⟩ : Fin 1024) t) :=
    (congrArg ((blkL off inb).view.writes (Elt F) f [⟨Rect.whole S1024x2048, pay⟩]) hi.symm).trans (eq_of_heq hw')
  exact e1.trans ((hpay _ t).trans (congrArg (fun x => out (ix3 (0 : Fin 1) x t)) hv))

/-- A block of 672 rows of the result at literal offsets, as the kernel slices it. -/
abbrev blkL672 (off : Fin 3 → ℕ) (inb : ∀ a, off a + S1x672x2048.size a ≤ S1x100000x2048.size a) : Memref sig .tc .hbm S672x2048 .f32 :=
  ((Memref.whole main_v6).slice (Rect.unit (s := S1x100000x2048) off S1x672x2048.size inb) (fun _ => rfl)).squeeze S672x2048 Facts₀.squeezes_S1x672x2048_S672x2048

/-- The block held by its own elements is its range of rows held. -/
theorem own_blkL672 (d : Dev nD) (off : Fin 3 → ℕ) (lo : ℕ) (h : off = ![0, lo, 0]) (inb : ∀ a, off a + S1x672x2048.size a ≤ S1x100000x2048.size a)
    (g : FVec F S1x100000x2048 .f32) : (own d (blkL672 off inb) g : sProp 𝕄) = rowsAt d lo (lo + 672) g :=
  congrArg (fun S : Finset (Idx (L6 d)) => (L6 d ↦[S]{fullShare} g : sProp 𝕄))
    (show ((blkL672 off inb).view.set : Finset (Idx (L6 d))) = (rowsIn lo (lo + 672) : Finset (Idx (L6 d))) from set_squeeze_slice_672_rows off lo h inb _ _)

/-- The block after a copy of the whole tile `pay` has landed in it holds the result's value on its rows when the tile is
    the result's value there. -/
theorem land_blkL672 (d : Dev nD) (off : Fin 3 → ℕ) (lo : ℕ) (h : off = ![0, lo, 0]) (hb : lo + 672 ≤ 100000)
    (inb : ∀ a, off a + S1x672x2048.size a ≤ S1x100000x2048.size a) (f out : FVec F S1x100000x2048 .f32) (pay : S672x2048.Idx → Elt F .f32)
    (hpay : ∀ (r' : Fin 672) (t : Fin 2048), pay (ix2 r' t) = out (ix3 (0 : Fin 1) (⟨lo + r'.val, by omega⟩ : Fin 100000) t)) :
    (own d (blkL672 off inb) ((blkL672 off inb).view.writes (Elt F) f [⟨Rect.whole S672x2048, pay⟩]) : sProp 𝕄) ⊢ rowsAt d lo (lo + 672) out := by
  rw [own_blkL672 d off lo h inb]
  refine Entails.of_eq (rowsAt_congr d fun i h1 h2 => ?_)
  obtain ⟨a, v, t, rfl⟩ : ∃ (a : Fin 1) (v : Fin 100000) (t : Fin 2048), i = ix3 a v t := ⟨i 0, i 1, i 2, eq_ix3 i⟩
  have h1' : lo ≤ v.val := h1
  have h2' : v.val < lo + 672 := h2
  obtain rfl : a = 0 := Subsingleton.elim _ _
  have hemb := emb_squeeze_slice_672 off lo h hb inb (fun _ => rfl) Facts₀.squeezes_S1x672x2048_S672x2048 ⟨v.val - lo, by omega⟩ t
  have hv : (⟨lo + (v.val - lo), by omega⟩ : Fin 100000) = v := Fin.ext (by show lo + (v.val - lo) = v.val; omega)
  have hi : (blkL672 off inb).view.emb (ix2 (⟨v.val - lo, by omega⟩ : Fin 672) t) = (ix3 (0 : Fin 1) v t : S1x100000x2048.Idx) :=
    hemb.trans (congrArg (fun x => ix3 (0 : Fin 1) x t) hv)
  have hw := View.read_writes_cons_emb (blkL672 off inb).view f (Rect.whole S672x2048) pay [] (ix2 (⟨v.val - lo, by omega⟩ : Fin 672) t)
  rw [Rect.emb_whole_apply] at hw
  rw [View.read_apply] at hw
  have hw' : HEq ((blkL672 off inb).view.writes (Elt F) f [⟨Rect.whole S672x2048, pay⟩] ((blkL672 off inb).view.emb (ix2 (⟨v.val - lo, by omega⟩ : Fin 672) t))) (pay (ix2 (⟨v.val - lo, by omega⟩ : Fin 672) t)) :=
    (cast_heq _ _).symm.trans (heq_of_eq hw)
  have e1 : (blkL672 off inb).view.writes (Elt F) f [⟨Rect.whole S672x2048, pay⟩] (ix3 (0 : Fin 1) v t) = pay (ix2 (⟨v.val - lo, by omega⟩ : Fin 672) t) :=
    (congrArg ((blkL672 off inb).view.writes (Elt F) f [⟨Rect.whole S672x2048, pay⟩]) hi.symm).trans (eq_of_heq hw')
  exact e1.trans ((hpay _ t).trans (congrArg (fun x => out (ix3 (0 : Fin 1) x t)) hv))

end Cert.Proof.KB

end
-- ==== Proof.KB.TcBody.lean ====
/-
  The TensorCore kernel region's body, run from the staged operands, the result array, the four scratch
  buffers and their semaphores: it leaves the result at `w[v] · (x[t] + p[t]) + b[v]`. The loop over
  groups of four blocks goes by its invariant, one trip at a symbolic trip number; after it the last
  two blocks are written through slots 0 and 1 and every copy is awaited; the landed blocks, which
  tile the rows, join to the array whole.
-/
import proofs.«217057_g30459908063406_cont_9to1_2067_16_alg».proof.Proof.KB.TcTrip
import proofs.«217057_g30459908063406_cont_9to1_2067_16_alg».proof.Proof.KB.TcEpi

noncomputable section

namespace Cert.Proof.KB

open Cert.Kernel Cert.Kernel.Gen
open Idealize.ShloMosaic Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem inv_zero (d : Dev nD) (w : FVec F S1x100000 .f32) (b : FVec F S100000 .f32) (f out : FVec F S1x100000x2048 .f32)
    (X0 X1 X2 X3 : FVec F S1024x2048 .f32) (O : CellTallies nD τ sig (HIx 1)) (W : Waits sig (HIx 1)) (u : Unit) :
    (inv d w b f out X0 X1 X2 X3 O W 0 u : sProp 𝕄) = inv0 d w b f X0 X1 X2 X3 O W := rfl

theorem inv_succ (d : Dev nD) (w : FVec F S1x100000 .f32) (b : FVec F S100000 .f32) (f out : FVec F S1x100000x2048 .f32)
    (X0 X1 X2 X3 : FVec F S1024x2048 .f32) (O : CellTallies nD τ sig (HIx 1)) (W : Waits sig (HIx 1)) (n : ℕ) (u : Unit) :
    (inv d w b f out X0 X1 X2 X3 O W (n + 1) u : sProp 𝕄) = invS d w b f out O W n := rfl

/-- The result's value read off the staged rows as the kernel loads them. -/
theorem outT_staged (x p : FVec F S1x2048 .f32) (w : FVec F S1x100000 .f32) (b : FVec F S100000 .f32) (v : Fin 100000) (t : Fin 2048) :
    outT x p w b (ix3 (0 : Fin 1) v t)
      = FloatOps.addf (FloatOps.mulf (w (ix2 0 v)) (FloatOps.addf ((View.readAt (Elt F) (Memref.whole cc1_stg0_0).view (Rect.unit (s := S1x2048) ![0, 0] S1x2048.size Facts₀.inb_S1x2048_S1x2048_0_0).toLoadRect x) (ix2 0 t) : F .f32) ((View.readAt (Elt F) (Memref.whole cc1_stg1_0).view (Rect.unit (s := S1x2048) ![0, 0] S1x2048.size Facts₀.inb_S1x2048_S1x2048_0_0).toLoadRect p) (ix2 0 t)))) (b (ix1 v)) := by
  rw [readAt_stg0_apply, readAt_stg1_apply]; rfl

set_option maxHeartbeats 4000000 in
/-- The kernel's body on the TensorCore of device `d`. -/
theorem body_run (d : Dev nD) (x p : FVec F S1x2048 .f32) (w : FVec F S1x100000 .f32) (b : FVec F S100000 .f32)
    (f : FVec F S1x100000x2048 .f32) (X0 X1 X2 X3 : FVec F S1024x2048 .f32)
    (O : CellTallies nD τ sig (HIx 1)) (W : Waits sig (HIx 1)) :
    iprop(Transfers.MayWaits (cT d) (none : HIx 1) O
        ∗ pw d cc1_stg0_0 x ∗ pw d cc1_stg1_0 p ∗ pw d cc1_stg2_0 w ∗ pw d cc1_stg3_0 b ∗ pw d main_v6 f
        ∗ pw d cc1_scratch0 X0 ∗ pw d cc1_scratch1 X1 ∗ pw d cc1_scratch2 X2 ∗ pw d cc1_scratch3 X3
        ∗ sv d cc1_scratch4.sem ∗ sv d cc1_scratch5.sem ∗ sv d cc1_scratch6.sem ∗ sv d cc1_scratch7.sem
        ∗ owes (cT d) O W : sProp 𝕄)
      ⊢ wp frame (wpE (defs₀ (F := F)) 𝒱₀ (cT d) none) Set.univ (bodyAt1 (F := F) t1_0)
          (fun _ => iprop(pw d cc1_stg0_0 x ∗ pw d cc1_stg1_0 p ∗ pw d cc1_stg2_0 w ∗ pw d cc1_stg3_0 b ∗ pw d main_v6 (outT x p w b)
            ∗ (∃ X, pw d cc1_scratch0 X) ∗ (∃ X, pw d cc1_scratch1 X) ∗ (∃ X, pw d cc1_scratch2 X) ∗ (∃ X, pw d cc1_scratch3 X)
            ∗ sv d cc1_scratch4.sem ∗ sv d cc1_scratch5.sem ∗ sv d cc1_scratch6.sem ∗ sv d cc1_scratch7.sem
            ∗ owesK d O W)) := by
  unfold bodyAt1
  simp only [cc1__tc_body_eq_skeleton]; unfold cc1__tc_body_skel
  simp only [k1_part3_eq_skeleton]; unfold k1_part3_skel
  iintro ⟨Hmw, H0, H1, H2, H3, H6, Hs0, Hs1, Hs2, Hs3, Hc0, Hc1, Hc2, Hc3, HO⟩
  sl_exec
  sl_rw [Prog.bind_assoc]
  sl_for (inv d w b f (outT x p w b) X0 X1 X2 X3 O W) $$ [Hmw H2 H3 H6 Hs0 Hs1 Hs2 Hs3 Hc0 Hc1 Hc2 Hc3 HO]
  case region =>
    intro k acc
    rcases hk : k.val with _ | n
    · exact trip0 d _ _ w b f (outT x p w b) X0 X1 X2 X3 O W k hk (outT_staged x p w b)
    · exact tripS d _ _ w b f (outT x p w b) O W k n hk (outT_staged x p w b)
  · rw [inv_zero]; unfold inv0
    isplitl [Hmw]; · iexact Hmw
    isplitl [H2]; · iexact H2
    isplitl [H3]; · iexact H3
    isplitl [H6]; · rw [rowsAt_univ]; iexact H6
    isplitl [Hs0]; · iexact Hs0
    isplitl [Hs1]; · iexact Hs1
    isplitl [Hs2]; · iexact Hs2
    isplitl [Hs3]; · iexact Hs3
    isplitl [Hc0]; · iexact Hc0
    isplitl [Hc1]; · iexact Hc1
    isplitl [Hc2]; · iexact Hc2
    isplitl [Hc3]; · iexact Hc3
    iexists W; isplitr
    · ipureintro; exact fun q hq => .inl hq
    · iexact HO
  iintro %acc HI
  ihave HI := (Entails.of_eq (show inv d w b f (outT x p w b) X0 X1 X2 X3 O W _ acc = invS d w b f (outT x p w b) O W 23 from
      (congrArg (fun n => inv d w b f (outT x p w b) X0 X1 X2 X3 O W n acc) (show _ = 23 + 1 from trips_eq)).trans rfl)) $$ HI
  unfold invS
  icases HI with ⟨#Hmw, H2, H3, Hdone, Hall, ⟨%Y0, Hc0, Hs0⟩, ⟨%Y1, Hc1, Hs1⟩, ⟨%Y2, Hc2, Hs2⟩, ⟨%Y3, Hc3, Hs3⟩, ⟨%W', %hW', HO⟩⟩
  ihave H := (rowsAt_split' d (a := 4096 * (23 + 1)) (m := 98304 + 1024) (m' := 99328) (c := 100000) (by omega) rfl (by omega) f).1 $$ Hall
  icases H with ⟨Hp96, Hp97⟩
  ihave Hd96 := (Entails.of_eq (own_blkL d ![0, 98304, 0] 98304 rfl Facts₀.inb_S1x100000x2048_S1x1024x2048_0_98304_0 f).symm) $$ Hp96
  ihave Hd97 := (Entails.of_eq (own_blkL672 d ![0, 99328, 0] 99328 rfl Facts₀.inb_S1x100000x2048_S1x672x2048_0_99328_0 f).symm) $$ Hp97
  sl_exec (disch := exact View.amount_pos _ _ (by decide))
  sl_step
  isplitl [H0]; · iexact H0
  isplitl [H1]; · iexact H1
  isplitl [H2]; · iexact H2
  isplitl [H3]; · iexact H3
  isplitl [Hdone Hc0_dst Hc1_dst Hc2_dst Hc3_dst Hd96 Hd97]
  · ihave Hl := (rows_land d (4096 * 23) (outT x p w b)) $$ [Hdone Hc0_dst Hc1_dst Hc2_dst Hc3_dst]
    · isplitl [Hdone]; · iexact Hdone
      isplitl [Hc0_dst]; · iexact Hc0_dst
      isplitl [Hc1_dst]; · iexact Hc1_dst
      isplitl [Hc2_dst]; · iexact Hc2_dst
      iexact Hc3_dst
    ihave H96 := (land_blkL d ![0, 98304, 0] 98304 rfl (by omega) Facts₀.inb_S1x100000x2048_S1x1024x2048_0_98304_0 f (outT x p w b) _ ?hp96) $$ Hd96
    case hp96 =>
      intro r' t
      sl_unfold_run_names
      exact (congrFun (read_whole_slice_written cc1_scratch0 (Rect.unit (s := S1024x2048) ![0, 0] S1024x2048.size Facts₀.inb_S1024x2048_S1024x2048_0_0) _ _ _) (ix2 r' t)).trans
        ((epi0_apply _ _ w b _ _ r' t _).trans (outT_staged x p w b _ t).symm)
    ihave H97 := (land_blkL672 d ![0, 99328, 0] 99328 rfl (by omega) Facts₀.inb_S1x100000x2048_S1x672x2048_0_99328_0 f (outT x p w b) _ ?hp97) $$ Hd97
    case hp97 =>
      intro r' t
      sl_unfold_run_names
      exact (congrFun (read_whole_slice_written cc1_scratch1 (Rect.unit (s := S1024x2048) ![0, 0] S672x2048.size Facts₀.inb_S1024x2048_S672x2048_0_0) _ _ _) (ix2 r' t)).trans
        ((epi1_apply _ _ w b _ _ r' t _).trans (outT_staged x p w b _ t).symm)
    ihave Hl := (rowsAt_split' d (a := 0) (m := 4096 * 23 + 4096) (m' := 98304) (c := 98304 + 1024) (by omega) (by omega) (by omega) (outT x p w b)).2 $$ [Hl H96]
    · isplitl [Hl]; · iexact Hl
      iexact H96
    ihave Hl := (rowsAt_split' d (a := 0) (m := 98304 + 1024) (m' := 99328) (c := 99328 + 672) (by omega) (by omega) (by omega) (outT x p w b)).2 $$ [Hl H97]
    · isplitl [Hl]; · iexact Hl
      iexact H97
    rw [← rowsAt_univ]
    iapply (Entails.of_eq (rowsAt_cast d (a := 0) (a' := 0) (c := 99328 + 672) (c' := 100000) rfl (by omega) (outT x p w b))) $$ Hl
  isplitl [Hs0]; · iexists _; iexact Hs0
  isplitl [Hs1]; · iexists _; iexact Hs1
  isplitl [Hs2]; · iexists _; iexact Hs2
  isplitl [Hs3]; · iexists _; iexact Hs3
  isplitl [Hc0]; · iexact Hc0
  isplitl [Hc1]; · iexact Hc1
  isplitl [Hc2]; · iexact Hc2
  isplitl [Hc3]; · iexact Hc3
  iexists _; isplitr
  swap
  · iexact HO
  · ipureintro; intro q hq
    simp only [Finset.mem_insert] at hq
    rcases hq with hq | hq | hq | hq | hq | hq | hq
    · exact .inr (hq ▸ rfl)
    · exact .inr (hq ▸ rfl)
    · exact .inr (hq ▸ rfl)
    · exact .inr (hq ▸ rfl)
    · exact .inr (hq ▸ rfl)
    · exact .inr (hq ▸ rfl)
    · exact hW' q hq

end Cert.Proof.KB

end
-- ==== Proof.KB.Region.lean ====
/-
  The TensorCore kernel region of the kernel program, entered and left.
  The region stages its four operand arrays — the gathered row x, the position row p, the weight
  row w, the bias b — each whole, into a buffer of its own, runs the kernel's body once (the grid
  has one point), and writes nothing back: every window is an input, and the body writes the
  result array directly. Around the body the pipeline's account is: the four arrays at their entry
  contents throughout; each staging buffer, when the body runs, holding its array (a fetch of a
  whole array fills the buffer with the array); the body's invariant before the point — the result
  array as found, the four scratch buffers at some contents, the four semaphores of the kernel's
  own copies at zero — and after it — the result array at w[v] * (x[t] + p[t]) + b[v], the scratch
  and the semaphores back. The thread owes the same tallies O before and after; its recorded waits
  grow only by waits at the kernel's own index, below every index at which O may be positive, which
  is what lets the pipeline and the body wait at all.
  From the body's run this gives the region's: from the four operand arrays, the result array at
  any contents, the region's share of the staging cells' rounds and the thread's debts, the region
  runs and returns the operands unchanged and the result at its value.
-/
import proofs.«217057_g30459908063406_cont_9to1_2067_16_alg».proof.Proof.KB.TcBody
import Idealize.ShloMosaic.Lib.Pipeline.Regions

noncomputable section

namespace Cert.Proof.KB

open Cert.Kernel Cert.Kernel.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

/-- The region's tables: none is prefetched. -/
abbrev adm : (p : Fin 1) → (pcfgs (F := F) p).Adm := fun p => (cfgs p).toPCfg_adm

/-- The region's staging cells are pairwise distinct. -/
theorem phinj : Function.Injective (Pipeline.cellOf (nD := nD) (τ := τ) (Pipeline.pin (pcfgs (F := F)) adm)) := cellOf_inj

/-- The semaphores of the kernel's own copies: one per scratch buffer. -/
abbrev regionOsem : Fin 4 → SemLoc sig := fun
  | 0 => .dma cc1_scratch4.sem | 1 => .dma cc1_scratch5.sem | 2 => .dma cc1_scratch6.sem | 3 => .dma cc1_scratch7.sem
  | ⟨_ + 4, h⟩ => absurd h (Nat.not_lt.2 (Nat.le_add_left _ _))

/-- They are scoped, distinct, and none is a staging cell. -/
theorem regionOwnSemFacts : Pipeline.OwnSemFacts spec1 regionOsem := by decide

/-! ## The proof data -/

section Data
variable (x p : FVec F S1x2048 .f32) (w : FVec F S1x100000 .f32) (b : FVec F S100000 .f32)
  (f : FVec F S1x100000x2048 .f32) (O : CellTallies nD τ sig (HIx 1)) (W : Waits sig (HIx 1))

/-- The four operand arrays' contents at entry, by window. -/
def regionA (c : Dev nD) : (k : Fin 4) → Buf (Elt F) (((Pipeline.pin (pcfgs (F := F)) adm 0).win k).arr.view.loc ((c.tc : Thread nD τ)))
  | 0 => x | 1 => p | 2 => w | 3 => b
  | ⟨_ + 4, h⟩ => absurd h (Nat.not_lt.2 (Nat.le_add_left _ _))

/-- Before the body: the thread may wait at the kernel's own index; the result array as found; the scratch buffers at
    some contents; the kernel's own semaphores at zero. -/
def regionΦ0 (c : Dev nD) : sProp 𝕄 :=
  iprop(Transfers.MayWaits (cT c) (none : HIx 1) O ∗ pw c main_v6 f
    ∗ Pipeline.scopedRest (Ix := HIx 1) (Name := ℕ) (U := UU) (Lvl := ℕ) (Val := Elt F) spec1 c
    ∗ Pipeline.ownSems0 (Ix := HIx 1) (Name := ℕ) (U := UU) (Lvl := ℕ) (Val := Elt F) (τ := τ) regionOsem c)

/-- After the body: the result array at its value; the scratch buffers and the semaphores back. -/
def regionΦ1 (c : Dev nD) : sProp 𝕄 :=
  iprop(pw c main_v6 (outT x p w b)
    ∗ Pipeline.scopedRest (Ix := HIx 1) (Name := ℕ) (U := UU) (Lvl := ℕ) (Val := Elt F) spec1 c
    ∗ Pipeline.ownSems0 (Ix := HIx 1) (Name := ℕ) (U := UU) (Lvl := ℕ) (Val := Elt F) (τ := τ) regionOsem c)

/-- The region's proof data on core c: the arrays at entry; the body leaves every staging buffer as it found it; the
    invariant before and after the one point; each array held whole; the thread owes O throughout; its recorded waits are
    those it entered with and waits at the kernel's own index. -/
def regionData (q : Fin 1) (c : Dev nD) : Pipeline.RDat τ (Elt F) (HIx 1) ℕ UU ℕ (Pipeline.pin (pcfgs (F := F)) adm q) c where
  A := regionA x p w b c
  after _ _ Y X := X = Y
  Φ t := if t.val = 0 then regionΦ0 f O c else regionΦ1 x p w b c
  q _ := fullShare
  owed _ := O
  recorded _ := {q | q ∈ W ∨ q.2 = none}

end Data

/-! ## The body obligation, from the body's run -/

section Body
variable (x p : FVec F S1x2048 .f32) (w : FVec F S1x100000 .f32) (b : FVec F S100000 .f32)
  (f : FVec F S1x100000x2048 .f32) (O : CellTallies nD τ sig (HIx 1)) (W : Waits sig (HIx 1))

/-- A fetch of window 0 fills its staging buffer with the gathered row: the window is the whole array, so the block read is
    the array itself, index by index. -/
theorem region_fetched0 (c : Dev nD) (d) : (regionData x p w b f O W 0 c).fetched 0 t1_0 d = x := by
  funext j
  unfold Pipeline.RDat.fetched Pipeline.Window.fill
  split
  · unfold Pipeline.RDat.blockOf
    change x _ = x j
    congr 1
    funext a
    apply Fin.ext
    show 0 * _ + 1 * (j a).val = (j a).val
    omega
  · next h => exact absurd rfl h

/-- A fetch of window 1 fills its staging buffer with the position row: the window is the whole array, so the block read is
    the array itself, index by index. -/
theorem region_fetched1 (c : Dev nD) (d) : (regionData x p w b f O W 0 c).fetched 1 t1_0 d = p := by
  funext j
  unfold Pipeline.RDat.fetched Pipeline.Window.fill
  split
  · unfold Pipeline.RDat.blockOf
    change p _ = p j
    congr 1
    funext a
    apply Fin.ext
    show 0 * _ + 1 * (j a).val = (j a).val
    omega
  · next h => exact absurd rfl h

/-- A fetch of window 2 fills its staging buffer with the weight row: the window is the whole array, so the block read is
    the array itself, index by index. -/
theorem region_fetched2 (c : Dev nD) (d) : (regionData x p w b f O W 0 c).fetched 2 t1_0 d = w := by
  funext j
  unfold Pipeline.RDat.fetched Pipeline.Window.fill
  split
  · unfold Pipeline.RDat.blockOf
    change w _ = w j
    congr 1
    funext a
    apply Fin.ext
    show 0 * _ + 1 * (j a).val = (j a).val
    omega
  · next h => exact absurd rfl h

/-- A fetch of window 3 fills its staging buffer with the bias: the window is the whole array, so the block read is
    the array itself, index by index. -/
theorem region_fetched3 (c : Dev nD) (d) : (regionData x p w b f O W 0 c).fetched 3 t1_0 d = b := by
  funext j
  unfold Pipeline.RDat.fetched Pipeline.Window.fill
  split
  · unfold Pipeline.RDat.blockOf
    change b _ = b j
    congr 1
    funext a
    apply Fin.ext
    show 0 * _ + 1 * (j a).val = (j a).val
    omega
  · next h => exact absurd rfl h

/-- The kernel's own semaphores at zero, listed. -/
theorem region_ownSems0_eq (c : Dev nD) :
    (Pipeline.ownSems0 (Ix := HIx 1) (Name := ℕ) (U := UU) (Lvl := ℕ) (Val := Elt F) (τ := τ) regionOsem c : sProp 𝕄)
      = iprop(sv c cc1_scratch4.sem ∗ sv c cc1_scratch5.sem ∗ sv c cc1_scratch6.sem ∗ sv c cc1_scratch7.sem) :=
  Pipeline.ownSems0_eq_of_list c regionOsem [0, 1, 2, 3] (by decide) (by decide)

set_option backward.isDefEq.respectTransparency.types false in
/-- At the one point, whatever the staging buffers are found at is the four arrays (each window is fetched there, whole);
    from the invariant, the thread's debts and the four buffers the body runs to the invariant after the point, the debts
    with the recorded waits grown at the kernel's own index only, and the four buffers as found. -/
theorem region_body (c : Dev nD) : (regionData x p w b f O W 0 c).BodyObligation defs₀ 𝒱₀ (none : HIx 1) Set.univ := fun t Y hY => by
  obtain rfl := fin_N1 t
  obtain ⟨d0, e0⟩ := (Pipeline.RDat.finds_of_fetch (regionData x p w b f O W 0 c) (fetch1_0 t1_0) (Y 0)).1 (hY 0)
  obtain ⟨d1, e1⟩ := (Pipeline.RDat.finds_of_fetch (regionData x p w b f O W 0 c) (fetch1_1 t1_0) (Y 1)).1 (hY 1)
  obtain ⟨d2, e2⟩ := (Pipeline.RDat.finds_of_fetch (regionData x p w b f O W 0 c) (fetch1_2 t1_0) (Y 2)).1 (hY 2)
  obtain ⟨d3, e3⟩ := (Pipeline.RDat.finds_of_fetch (regionData x p w b f O W 0 c) (fetch1_3 t1_0) (Y 3)).1 (hY 3)
  rw [region_fetched0] at e0; rw [region_fetched1] at e1; rw [region_fetched2] at e2; rw [region_fetched3] at e3
  rw [bigSep_W1, bigSep_W1, e0, e1, e2, e3]
  simp only [owns_whole]
  rw [show (regionData x p w b f O W 0 c).Φ t1_0.castSucc = regionΦ0 f O c from rfl,
    show (regionData x p w b f O W 0 c).Φ t1_0.succ = regionΦ1 x p w b c from rfl]
  unfold regionΦ0 regionΦ1 Pipeline.RDat.owesAt Pipeline.owesWithin
  rw [scopedRest1_eq, region_ownSems0_eq]
  iintro ⟨⟨HMW, H6, ⟨⟨%X0, Hs0⟩, ⟨%X1, Hs1⟩, ⟨%X2, Hs2⟩, ⟨%X3, Hs3⟩⟩, Hv4, Hv5, Hv6, Hv7⟩, ⟨%W0, %hW0, HO⟩, Hx, Hp, Hw, Hb⟩
  iapply (wp_wand_r frame _ Set.univ)
  isplitl [HMW H6 Hs0 Hs1 Hs2 Hs3 Hv4 Hv5 Hv6 Hv7 HO Hx Hp Hw Hb]
  · iapply (body_run c x p w b f X0 X1 X2 X3 O W0)
    isplitl [HMW]; · iexact HMW
    isplitl [Hx]; · iexact Hx
    isplitl [Hp]; · iexact Hp
    isplitl [Hw]; · iexact Hw
    isplitl [Hb]; · iexact Hb
    isplitl [H6]; · iexact H6
    isplitl [Hs0]; · iexact Hs0
    isplitl [Hs1]; · iexact Hs1
    isplitl [Hs2]; · iexact Hs2
    isplitl [Hs3]; · iexact Hs3
    isplitl [Hv4]; · iexact Hv4
    isplitl [Hv5]; · iexact Hv5
    isplitl [Hv6]; · iexact Hv6
    isplitl [Hv7]; · iexact Hv7
    iexact HO
  · iintro %_ ⟨Hx, Hp, Hw, Hb, H6, Hs0, Hs1, Hs2, Hs3, Hv4, Hv5, Hv6, Hv7, ⟨%W', %hW', HO⟩⟩
    isplitl [H6 Hs0 Hs1 Hs2 Hs3 Hv4 Hv5 Hv6 Hv7]
    · isplitl [H6]; · iexact H6
      isplitl [Hs0 Hs1 Hs2 Hs3]
      · isplitl [Hs0]; · iexact Hs0
        isplitl [Hs1]; · iexact Hs1
        isplitl [Hs2]; · iexact Hs2
        iexact Hs3
      isplitl [Hv4]; · iexact Hv4
      isplitl [Hv5]; · iexact Hv5
      isplitl [Hv6]; · iexact Hv6
      iexact Hv7
    isplitl [HO]
    · iexists W'; isplitr
      · ipureintro
        intro q hq
        rcases hW' q hq with h | h
        · exact hW0 h
        · exact Or.inl (Or.inr h)
      iexact HO
    isplitl [Hx]
    · iexists x; isplitr; · ipureintro; rfl
      iexact Hx
    isplitl [Hp]
    · iexists p; isplitr; · ipureintro; rfl
      iexact Hp
    isplitl [Hw]
    · iexists w; isplitr; · ipureintro; rfl
      iexact Hw
    iexists b; isplitr; · ipureintro; rfl
    iexact Hb

end Body

/-! ## The region's record -/

section Reg
variable (x p : FVec F S1x2048 .f32) (w : FVec F S1x100000 .f32) (b : FVec F S100000 .f32)
  (f : FVec F S1x100000x2048 .f32) (O : CellTallies nD τ sig (HIx 1)) (W : Waits sig (HIx 1)) (hO : ∀ g, O g none = 0)

/-! An operand array as the pipeline holds it — its window's array, all of it, at the window's share — is the array
held whole. -/

theorem region_arr0 (c : Dev nD) (g : FVec F S1x2048 .f32) :
    (((Pipeline.pin (pcfgs (F := F)) adm 0).win (0 : Fin 4)).arr.view.loc (c.tc : Thread nD τ)
        ↦[((Pipeline.pin (pcfgs (F := F)) adm 0).win (0 : Fin 4)).arr.view.set]{(regionData x p w b f O W 0 c).share (0 : Fin 4)} g : sProp 𝕄)
      = ((SparseCore.T c).loc main_v3 ↦{fullShare} g) := by
  show ((View.whole main_v3).loc (c.tc : Thread nD τ) ↦[(View.whole main_v3).set]{fullShare} g : sProp 𝕄) = _
  rw [View.set_whole]

theorem region_arr1 (c : Dev nD) (g : FVec F S1x2048 .f32) :
    (((Pipeline.pin (pcfgs (F := F)) adm 0).win (1 : Fin 4)).arr.view.loc (c.tc : Thread nD τ)
        ↦[((Pipeline.pin (pcfgs (F := F)) adm 0).win (1 : Fin 4)).arr.view.set]{(regionData x p w b f O W 0 c).share (1 : Fin 4)} g : sProp 𝕄)
      = ((SparseCore.T c).loc main_v4 ↦{fullShare} g) := by
  show ((View.whole main_v4).loc (c.tc : Thread nD τ) ↦[(View.whole main_v4).set]{fullShare} g : sProp 𝕄) = _
  rw [View.set_whole]

theorem region_arr2 (c : Dev nD) (g : FVec F S1x100000 .f32) :
    (((Pipeline.pin (pcfgs (F := F)) adm 0).win (2 : Fin 4)).arr.view.loc (c.tc : Thread nD τ)
        ↦[((Pipeline.pin (pcfgs (F := F)) adm 0).win (2 : Fin 4)).arr.view.set]{(regionData x p w b f O W 0 c).share (2 : Fin 4)} g : sProp 𝕄)
      = ((SparseCore.T c).loc main_v5 ↦{fullShare} g) := by
  show ((View.whole main_v5).loc (c.tc : Thread nD τ) ↦[(View.whole main_v5).set]{fullShare} g : sProp 𝕄) = _
  rw [View.set_whole]

theorem region_arr3 (c : Dev nD) (g : FVec F S100000 .f32) :
    (((Pipeline.pin (pcfgs (F := F)) adm 0).win (3 : Fin 4)).arr.view.loc (c.tc : Thread nD τ)
        ↦[((Pipeline.pin (pcfgs (F := F)) adm 0).win (3 : Fin 4)).arr.view.set]{(regionData x p w b f O W 0 c).share (3 : Fin 4)} g : sProp 𝕄)
      = ((SparseCore.T c).loc main_arg4 ↦{fullShare} g) := by
  show ((View.whole main_arg4).loc (c.tc : Thread nD τ) ↦[(View.whole main_arg4).set]{fullShare} g : sProp 𝕄) = _
  rw [View.set_whole]

set_option backward.isDefEq.respectTransparency.types false in
/-- The region: the windows' layout, the kernel's four semaphores, the body obligation, the wait evidence (every wait of
    the pipeline is at the kernel's own index, where O is zero), and the protocol around the body — entered from the four
    operand arrays, the result array at f and the thread's debts; left with the operands unchanged, the result at its value
    and the debts with the recorded waits grown at the kernel's own index only. -/
def regionSeg : Pipeline.RDat.RegionSeg (pcfgs (F := F)) adm (regionData x p w b f O W) (none : HIx 1) defs₀ 𝒱₀ (K (F := F)).L (K (F := F)).lev 0 where
  win := launch1.win.to₀
  block_pos := launch1.block_pos
  stage_whole := launch1.stage_whole
  K := Fin 4
  osem := regionOsem
  ho := regionOwnSemFacts
  hbody c := region_body x p w b f O W c
  hwaits c := Pipeline.RDat.cellsWaits_intro (Pipeline.pin (pcfgs (F := F)) adm) (regionData x p w b f O W) (none : HIx 1) 0 c
    fun _ _ _ => (K (F := F)).mayWait_none _ hO
  pre c := iprop(((SparseCore.T c).loc main_v3 ↦{fullShare} x) ∗ ((SparseCore.T c).loc main_v4 ↦{fullShare} p) ∗ ((SparseCore.T c).loc main_v5 ↦{fullShare} w)
        ∗ ((SparseCore.T c).loc main_arg4 ↦{fullShare} b) ∗ ((SparseCore.T c).loc main_v6 ↦{fullShare} f) ∗ owes (SparseCore.T c) O W)
  post c := iprop(((SparseCore.T c).loc main_v3 ↦{fullShare} x) ∗ ((SparseCore.T c).loc main_v4 ↦{fullShare} p) ∗ ((SparseCore.T c).loc main_v5 ↦{fullShare} w)
        ∗ ((SparseCore.T c).loc main_arg4 ↦{fullShare} b) ∗ ((SparseCore.T c).loc main_v6 ↦{fullShare} outT x p w b)
        ∗ ∃ W', ⌜∀ q ∈ W', q ∈ W ∨ q.2 = none⌝ ∗ owes (SparseCore.T c) O W')
  X c := iprop(Transfers.MayWaits (cT c) (none : HIx 1) O ∗ pw c main_v6 f
        ∗ Pipeline.ownSems0 (Ix := HIx 1) (Name := ℕ) (U := UU) (Lvl := ℕ) (Val := Elt F) (τ := τ) regionOsem c)
  Y c := pw c main_v6 (outT x p w b)
  Z c := iprop(emp)
  hentry c := by
    unfold Pipeline.RDat.arrays Pipeline.RDat.owesAt Pipeline.owesWithin
    rw [bigSep_W1, region_arr0, region_arr1, region_arr2, region_arr3]
    iintro ⟨⟨H3, H4, H5, Ha4, H6, HO⟩, Hos, #Hlev⟩
    ihave HMW := ((K (F := F)).mayWaits_none (thr := cT c) hO) $$ Hlev
    imodintro
    isplitl [H3 H4 H5 Ha4]
    · isplitl [H3]; · iexact H3
      isplitl [H4]; · iexact H4
      isplitl [H5]; · iexact H5
      iexact Ha4
    isplitr
    · unfold Pipeline.prefHeld; rw [show (Finset.univ : Finset (Fin 0)) = ∅ from rfl, BI.bigSep_empty]; iempintro
    isplitl [HO]
    · iexists W; isplitr
      · ipureintro; exact fun q hq => Or.inl (Or.inl hq)
      iexact HO
    isplitl [HMW H6 Hos]
    · isplitl [HMW]; · iexact HMW
      isplitl [H6]; · iexact H6
      iexact Hos
    iempintro
  hin c := by
    rw [show (regionData x p w b f O W 0 c).Φ 0 = regionΦ0 f O c from rfl]; unfold regionΦ0
    iintro ⟨⟨HMW, H6, Hos⟩, -, Hr⟩
    isplitl [HMW]; · iexact HMW
    isplitl [H6]; · iexact H6
    isplitl [Hr]; · iexact Hr
    iexact Hos
  hout c := by
    rw [show (regionData x p w b f O W 0 c).Φ (Fin.last (Pipeline.pin (pcfgs (F := F)) adm 0).N) = regionΦ1 x p w b c from rfl]; unfold regionΦ1
    iintro ⟨H6, Hr, Hos⟩
    isplitl [H6]; · iexact H6
    isplitl [Hos]; · iexact Hos
    iexact Hr
  hexit c := by
    unfold Pipeline.RDat.arraysAt Pipeline.RDat.owesAt Pipeline.owesWithin
    rw [bigSep_W1,
      Pipeline.RDat.ArrAt_in (regionData x p w b f O W 0 c) 0 rfl, Pipeline.RDat.ArrAt_in (regionData x p w b f O W 0 c) 1 rfl,
      Pipeline.RDat.ArrAt_in (regionData x p w b f O W 0 c) 2 rfl, Pipeline.RDat.ArrAt_in (regionData x p w b f O W 0 c) 3 rfl]
    iintro ⟨⟨⟨%F0, %h0, H3⟩, ⟨%F1, %h1, H4⟩, ⟨%F2, %h2, H5⟩, ⟨%F3, %h3, Ha4⟩⟩, ⟨%W', %hW', HO⟩, H6, -⟩
    ihave H3 := (Entails.of_eq (region_arr0 x p w b f O W c F0)) $$ H3
    ihave H4 := (Entails.of_eq (region_arr1 x p w b f O W c F1)) $$ H4
    ihave H5 := (Entails.of_eq (region_arr2 x p w b f O W c F2)) $$ H5
    ihave Ha4 := (Entails.of_eq (region_arr3 x p w b f O W c F3)) $$ Ha4
    subst h0 h1 h2 h3
    imodintro
    isplitl [H3]; · iexact H3
    isplitl [H4]; · iexact H4
    isplitl [H5]; · iexact H5
    isplitl [Ha4]; · iexact Ha4
    isplitl [H6]; · iexact H6
    iexists W'; isplitr
    · ipureintro
      intro q hq
      rcases hW' hq with h | ⟨k, s, h⟩
      · exact h
      · exact Or.inr (by rw [h])
    iexact HO

end Reg

/-! ## The region's ghost state, and the region run -/

/-- What the region's entry consumes of the staging cells' rounds on core d. -/
def regionGhost (d : Dev nD) : sProp 𝕄 :=
  iprop(Pipeline.cellsGhost (Pipeline.pin (pcfgs (F := F)) adm) EP 0 d ∗ Pipeline.toksInit (Pipeline.pin (pcfgs (F := F)) adm) EP 0 d)

/-- The staging cells' launch element. -/
def uP₀ : UP := initOf (Pipeline.cells (Pipeline.pin (pcfgs (F := F)) adm) phinj) (Pipeline.launchToks (Pipeline.pin (pcfgs (F := F)) adm) phinj)

/-- The launch element deals every core its region's share: the cells' ghost state and the launch tokens, the one
    pipeline's on each core. -/
theorem fund_region : (BI.own (EP (uP₀ (F := F))) : sProp 𝕄) ⊢ iprop(|==> bigSep Finset.univ fun d : Dev nD => regionGhost (F := F) d) := by
  have h := Pipeline.fund_ghost (Pipeline.pin (pcfgs (F := F)) adm) (EP (F := F)) phinj
  have e : ∀ (Φ : Fin 1 → sProp 𝕄), bigSep Finset.univ Φ = Φ 0 := fun Φ => by
    rw [show (Finset.univ : Finset (Fin 1)) = {0} from rfl, bigSep_singleton]
  have h2 : ∀ c : Dev nD, (bigSep Finset.univ fun q : Fin 1 => (Pipeline.cellsGhost (Pipeline.pin (pcfgs (F := F)) adm) EP q c : sProp 𝕄))
      = Pipeline.cellsGhost (Pipeline.pin (pcfgs (F := F)) adm) EP 0 c := fun c => e _
  have h3 : ∀ c : Dev nD, (bigSep Finset.univ fun q : Fin 1 => (Pipeline.toksInit (Pipeline.pin (pcfgs (F := F)) adm) EP q c : sProp 𝕄))
      = Pipeline.toksInit (Pipeline.pin (pcfgs (F := F)) adm) EP 0 c := fun c => e _
  simp only [h2, h3] at h
  unfold regionGhost uP₀
  rw [bigSep_sep']
  exact h

set_option backward.isDefEq.respectTransparency.types false in
/-- THE REGION, as @main meets it: from the level facts, the region's ghost state, the boundary, the four operand arrays,
    the result array at some contents and the thread's debts O (nothing owed at the kernel's own index), the region's call
    runs and gives back the boundary, the operands unchanged, the result at w[v] * (x[t] + p[t]) + b[v], and the debts with
    the recorded waits grown at the kernel's own index only. -/
theorem wp_region (d : Dev nD) (x p : FVec F S1x2048 .f32) (w : FVec F S1x100000 .f32) (b : FVec F S100000 .f32)
    (O : CellTallies nD τ sig (HIx 1)) (W : Waits sig (HIx 1)) (hO : ∀ g, O g none = 0) :
    iprop(levAts (K (F := F)).L (K (F := F)).lev ∗ regionGhost (F := F) d ∗ boundary (SparseCore.T d)
        ∗ ((SparseCore.T d).loc main_v3 ↦{fullShare} x) ∗ ((SparseCore.T d).loc main_v4 ↦{fullShare} p) ∗ ((SparseCore.T d).loc main_v5 ↦{fullShare} w)
        ∗ ((SparseCore.T d).loc main_arg4 ↦{fullShare} b) ∗ (∃ f, (SparseCore.T d).loc main_v6 ↦{fullShare} f) ∗ owes (SparseCore.T d) O W : sProp 𝕄)
      ⊢ wp frame (wpE ((K (F := F)).defs (D (F := F))) 𝒱 (SparseCore.T d) none) Set.univ
          (Prog.lift (.customCall (SparseCore.inner (Pipeline.entry 0)) ()))
          fun _ => iprop(boundary (SparseCore.T d)
            ∗ ((SparseCore.T d).loc main_v3 ↦{fullShare} x) ∗ ((SparseCore.T d).loc main_v4 ↦{fullShare} p) ∗ ((SparseCore.T d).loc main_v5 ↦{fullShare} w)
            ∗ ((SparseCore.T d).loc main_arg4 ↦{fullShare} b) ∗ ((SparseCore.T d).loc main_v6 ↦{fullShare} outT x p w b)
            ∗ ∃ W', ⌜∀ q ∈ W', q ∈ W ∨ q.2 = none⌝ ∗ owes (SparseCore.T d) O W') := by
  unfold regionGhost
  iintro ⟨#Hlev, ⟨Hcg, Hti⟩, Hb, H3, H4, H5, Ha4, ⟨%f, H6⟩, HO⟩
  iapply ((K (F := F)).wp_liftProg (D (F := F)) 𝒱 (SparseCore.T d) Set.univ none
    (Prog.op (.customCall (Pipeline.entry 0) ()) fun _ => Prog.ret PUnit.unit) _)
  iapply (Pipeline.RDat.RegionSeg.wp (pcfgs (F := F)) adm (regionData x p w b f O W) (none : HIx 1) phinj EP defs₀ 𝒱₀
    (K (F := F)).L (K (F := F)).lev (regionSeg x p w b f O W hO) d none (fun _ h => nomatch h) (fun _ => Prog.ret PUnit.unit) _)
  dsimp only [regionSeg]
  isplitr [Hb H3 H4 H5 Ha4 H6 HO Hcg Hti]
  · iintro ⟨Hb, H3, H4, H5, Ha4, H6, HO⟩
    rw [wp_ret]; imodintro
    isplitl [Hb]; · iexact Hb
    isplitl [H3]; · iexact H3
    isplitl [H4]; · iexact H4
    isplitl [H5]; · iexact H5
    isplitl [Ha4]; · iexact Ha4
    isplitl [H6]; · iexact H6
    iexact HO
  isplitl [Hb]; · iexact Hb
  isplitl [H3 H4 H5 Ha4 H6 HO]
  · isplitl [H3]; · iexact H3
    isplitl [H4]; · iexact H4
    isplitl [H5]; · iexact H5
    isplitl [Ha4]; · iexact Ha4
    isplitl [H6]; · iexact H6
    iexact HO
  isplitr; · iexact Hlev
  isplitl [Hcg]; · iexact Hcg
  iexact Hti

end Cert.Proof.KB

end
-- ==== Proof.KB.Run.lean ====
/-
  The kernel program's run: the launch theorem's hypotheses on the TensorCore region — the ghost
  state it needs on each device, its funding from the launch element, its run — are the region's
  own theorems. With them every weakly fair execution of the program's threads, from a launch memory
  whose indices all name rows of the table, terminates without a fault in a memory where the result
  array holds the logits and the five arguments hold what they held at launch.
-/
import proofs.«217057_g30459908063406_cont_9to1_2067_16_alg».proof.Proof.KB.Main
import proofs.«217057_g30459908063406_cont_9to1_2067_16_alg».proof.Proof.KB.Region

noncomputable section

namespace Cert.Proof.KB

open Cert.Kernel Cert.Kernel.Gen
open Idealize.ShloMosaic Idealize.SL.Sem

variable {F : FTy → Type} [FloatOps F] [∀ e, Nonempty (Elt F e)]

theorem run_main (m : (ℓ : Loc nD τ sig) → Buf (Elt F) ℓ) (ρ : Dev nD → PrngReg) (hpre : PreOK m) :
    θ_run (Cert.Kernel.defs (F := F)) (Cert.Kernel.threads (F := F)) ⟨m, fun _ => 0, ρ⟩ (QC m) :=
  run_main_of m ρ (regionGhost (F := F)) (uP₀ (F := F)) hpre fund_region (by
    unfold RegionRun
    intro d x p w b O W hO
    exact wp_region d x p w b O W hO)

end Cert.Proof.KB

end
-- ==== Proof.lean ====
/-
  The certificate's claim assembled from its pieces.
  Five conjuncts, under the four programs' stated facts:
    * the word-level kernel program runs and leaves its five argument arrays unchanged;
    * so does its idealization on the extended reals;
    * so does the reference on the extended reals;
    * the idealization rewrote nothing, so there is nothing to preserve;
    * on the extended reals, from memories that agree on the five arguments, the idealized kernel
      program and the reference both run, end with EQUAL result arrays, and leave their arguments
      unchanged.
  The common value of the two results is the specified array: logits[0, t, v] =
  (tok[idx[t]] + pos[t]) * W[v] + b[v]. The kernel program's run ends with its result at a term of
  the launch memory that equals the specified array entry by entry (the order of one product apart);
  the reference's run ends with its result at the operations' composed term, which equals the
  specified array wherever every token index is below the table's height. Both facts ask that the
  indices be in range, which is what the precondition says.
  The two kernel runs enter the assembly as its two arguments (the idealized program's at the extended
  reals, the word-level program's at words: the same statement over the other program's names).
-/
import proofs.«217057_g30459908063406_cont_9to1_2067_16_alg».proof.Defs
import proofs.«217057_g30459908063406_cont_9to1_2067_16_alg».proof.Proof.Gen.Kernel
import proofs.«217057_g30459908063406_cont_9to1_2067_16_alg».proof.Proof.Gen.KernelIdeal
import proofs.«217057_g30459908063406_cont_9to1_2067_16_alg».proof.Proof.Gen.ReferenceIdeal
import proofs.«217057_g30459908063406_cont_9to1_2067_16_alg».proof.Proof.Gen.Pre_input_domain
import proofs.«217057_g30459908063406_cont_9to1_2067_16_alg».proof.Proof.Spec
import proofs.«217057_g30459908063406_cont_9to1_2067_16_alg».proof.Proof.PreIdx
import proofs.«217057_g30459908063406_cont_9to1_2067_16_alg».proof.Proof.RefValue
import proofs.«217057_g30459908063406_cont_9to1_2067_16_alg».proof.Proof.KI.PreOK
import proofs.«217057_g30459908063406_cont_9to1_2067_16_alg».proof.Proof.KI.Run
import proofs.«217057_g30459908063406_cont_9to1_2067_16_alg».proof.Proof.Bridge
import proofs.«217057_g30459908063406_cont_9to1_2067_16_alg».proof.Proof.KB.PreOK
import proofs.«217057_g30459908063406_cont_9to1_2067_16_alg».proof.Proof.KB.Run

noncomputable section

/-! ## The claims -/

namespace Cert.Proof.Claims

open Idealize.ShloMosaic Idealize.ShloMosaic.ValueIdx Idealize.ShloMosaic.TcCoe Idealize.SL.Sem

/-- The idealized kernel program's run, as its module states it: from any launch memory whose flat index array
    names only rows of the table, every weakly fair execution terminates in a state of QC. -/
abbrev RunKI : Prop :=
  ∀ (m : (ℓ : Loc Cert.KernelIdeal.nD Cert.KernelIdeal.τ Cert.KernelIdeal.sig) → Buf (Elt Ideal) ℓ)
    (ρ : Dev Cert.KernelIdeal.nD → PrngReg) (hpre : Cert.Proof.KI.PreOK m),
    θ_run (Cert.KernelIdeal.defs (F := Ideal)) (Cert.KernelIdeal.threads (F := Ideal)) ⟨m, fun _ => 0, ρ⟩ (Cert.Proof.KI.QC m)

/-- The word-level kernel program's run, as its module states it: the same statement over that program's names, at
    the word-level float values. -/
abbrev RunKB : Prop :=
  ∀ (m : (ℓ : Loc Cert.Kernel.nD Cert.Kernel.τ Cert.Kernel.sig) → Buf (Elt Bits) ℓ)
    (ρ : Dev Cert.Kernel.nD → PrngReg) (hpre : Cert.Proof.KB.PreOK m),
    θ_run (Cert.Kernel.defs (F := Bits)) (Cert.Kernel.threads (F := Bits)) ⟨m, fun _ => 0, ρ⟩ (Cert.Proof.KB.QC m)

/-- The word-level kernel program runs and leaves its arguments unchanged: its run's final states, the result's
    conjunct dropped. The run's hypothesis on the flat index array is what the precondition grants — the index
    argument is an integer array, the same at every float instance. -/
theorem frame_p (hKB : RunKB) : Cert.frame_Kernel := fun m ρ hpre =>
  (θ_run Cert.Kernel.defs _ _).mono (fun _ h c => (h c).2) (hKB m ρ (Cert.Proof.KB.preOK_of_fn m hpre))

/-- Under the reference's precondition every token index of its index argument is below the table's height: the
    precondition decoded at each device and position. -/
theorem ref_idx_lt (m : (ℓ : Loc Cert.ReferenceIdeal.nD Cert.ReferenceIdeal.τ Cert.ReferenceIdeal.sig) → Buf (Elt Ideal) ℓ)
    (hpre : Cert.Pre_ReferenceIdeal m) (c : Dev Cert.ReferenceIdeal.nD) (t : Fin 2048) :
    ((m ((c.tc : Thread Cert.ReferenceIdeal.nD Cert.ReferenceIdeal.τ).loc Cert.ReferenceIdeal.main_arg0)) (ix2 0 t)).toNat < 100000 :=
  Cert.PreIdx.idx_lt _ _ _ _ _ (hpre c) t

/-- The idealized kernel program runs and leaves its arguments unchanged: its run's final states, the result's
    conjunct dropped. The run's hypothesis on the flat index array is what the precondition grants. -/
theorem frame_pi (hKI : RunKI) : Cert.frame_KernelIdeal := fun m ρ hpre =>
  (θ_run Cert.KernelIdeal.defs _ _).mono (fun _ h c => (h c).2) (hKI m ρ (Cert.Proof.KI.preOK_of_fn m hpre))

/-- The reference runs and leaves its arguments unchanged: its run with the specified result, the result's conjunct
    dropped. The run's hypothesis on the index argument is the precondition decoded. -/
theorem frame_ri : Cert.frame_ReferenceIdeal := fun m g hpre =>
  (θ_run Cert.ReferenceIdeal.defs _ _).mono (fun _ h c => (h c).2)
    (Cert.ReferenceIdeal.RefValue.run_logits m g (ref_idx_lt m hpre))

/-- The idealization rewrote no operation: nothing to preserve. -/
theorem preserves : Cert.preserves_Kernel_KernelIdeal := trivial

/-- On the extended reals the two programs end with equal results. The common value on device c is the specified
    array of the kernel program's arguments. The kernel program's run ends with its result at its composed term of
    the launch memory, which is that array entry by entry. The reference's run ends with its result at the specified
    array of ITS arguments, which are the kernel program's by the agreement; its indices are in range because the
    kernel program's are, the index arguments being equal. -/
theorem algebraic (hKI : RunKI) : Cert.algebraic_KernelIdeal_ReferenceIdeal := by
  intro m g m' g' hpre hagree
  have hok : Cert.Proof.KI.PreOK m := Cert.Proof.KI.preOK_of_fn m hpre
  -- the reference's index argument is the kernel program's, whose entries the precondition bounds
  have hidx' : ∀ (c : Dev Cert.ReferenceIdeal.nD) (t : Fin 2048),
      ((m' ((c.tc : Thread Cert.ReferenceIdeal.nD Cert.ReferenceIdeal.τ).loc Cert.ReferenceIdeal.main_arg0)) (ix2 0 t)).toNat < 100000 := by
    intro c t
    rw [(hagree c).1]
    exact Cert.PreIdx.idx_lt _ _ _ _ _ (hpre c) t
  refine ⟨fun c => Cert.Spec.logits
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · -- the kernel program: its result term is the specified array; its arguments are unchanged
    exact (θ_run Cert.KernelIdeal.defs _ _).mono
      (fun _ h c => ⟨(h c).1.trans (Cert.Proof.Bridge.out7_eq_logits m c hok), (h c).2⟩) (hKI m g hok)
  · -- the reference: the specified array of its own arguments, which are the kernel program's
    refine (θ_run Cert.ReferenceIdeal.defs _ _).mono (fun _ h c => ⟨(h c).1.trans ?_, (h c).2⟩)
      (Cert.ReferenceIdeal.RefValue.run_logits m' g' hidx')
    rw [(hagree c).1, (hagree c).2.1, (hagree c).2.2.1, (hagree c).2.2.2.1, (hagree c).2.2.2.2]

/-- The claim, from the two kernel runs: the word-level program's (hKB) and the idealized program's (hKI). -/
theorem claim_of_runs (hKB : RunKB) (hKI : RunKI) : Cert.Claim :=
  ⟨Cert.Kernel.Gen.facts, Cert.KernelIdeal.Gen.facts, Cert.ReferenceIdeal.Gen.facts, Cert.Pre_input_domain.Gen.facts,
    frame_p hKB, frame_pi hKI, frame_ri, preserves, algebraic hKI⟩

end Cert.Proof.Claims

namespace Cert.Proof

open Idealize.ShloMosaic

/-- The certificate's claim: the assembly applied to the two kernel programs' runs. -/
theorem claim : Cert.Claim :=
  Cert.Proof.Claims.claim_of_runs (fun m ρ h => Cert.Proof.KB.run_main (F := Bits) m ρ h) (fun m ρ h => Cert.Proof.KI.run_main (F := Ideal) m ρ h)

end Cert.Proof

end
